-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v340) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x96x256 : Shape := ⟨3, ![64, 96, 256]⟩
abbrev S64x96x96x32 : Shape := ⟨4, ![64, 96, 96, 32]⟩
abbrev S64x96x96 : Shape := ⟨3, ![64, 96, 96]⟩
abbrev S4x256x256 : Shape := ⟨3, ![4, 256, 256]⟩
abbrev S4x256 : Shape := ⟨2, ![4, 256]⟩
abbrev S4x256x544 : Shape := ⟨3, ![4, 256, 544]⟩
abbrev S4x768x256 : Shape := ⟨3, ![4, 768, 256]⟩
abbrev S4x768 : Shape := ⟨2, ![4, 768]⟩
abbrev S256x1024 : Shape := ⟨2, ![256, 1024]⟩
abbrev S256 : Shape := ⟨1, ![256]⟩
abbrev S_ : Shape := ⟨0, ![]⟩

class Facts : Prop where
  bcast_S_S64x96x256 : S_.BroadcastsInDim S64x96x256 (![] : Fin 0 → Fin S64x96x256.rank)
  reducesTo_S64x96x256_S_d0_1_2 : S64x96x256.ReducesTo [0, 1, 2] S_
  h_S_ : 0 < S_.numel
  bcast_S_S64x96x96x32 : S_.BroadcastsInDim S64x96x96x32 (![] : Fin 0 → Fin S64x96x96x32.rank)
  reducesTo_S64x96x96x32_S_d0_1_2_3 : S64x96x96x32.ReducesTo [0, 1, 2, 3] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S4x256x544 : S_.BroadcastsInDim S4x256x544 (![] : Fin 0 → Fin S4x256x544.rank)
  reducesTo_S4x256x544_S_d0_1_2 : S4x256x544.ReducesTo [0, 1, 2] S_
  bcast_S_S4x768x256 : S_.BroadcastsInDim S4x768x256 (![] : Fin 0 → Fin S4x768x256.rank)
  reducesTo_S4x768x256_S_d0_1_2 : S4x768x256.ReducesTo [0, 1, 2] S_
  bcast_S_S4x768 : S_.BroadcastsInDim S4x768 (![] : Fin 0 → Fin S4x768.rank)
  reducesTo_S4x768_S_d0_1 : S4x768.ReducesTo [0, 1] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg12 : FVec F S256 .f32) (main_v48 : IVec S_ 1) (main_v49 : FVec F S256x1024 .f32) (main_v50 : FVec F S256x1024 .f32) : IVec S_ 1 :=
  let main_v51 : IVec S256x1024 1 := cmpf .olt main_v49 main_v50
  let main_c_19 : IVec S_ 1 := constantI S_ 1 1#1
  let main_v52 : IVec S_ 1 := (fun x v => Host.reduce IntOp.andi x v reducesTo_S256x1024_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg8 : FVec F S4x768x256 .f32) (main_arg9 : FVec F S4x768 .f32) (main_arg10 : FVec F S4x768 .f32) (main_arg11 : FVec F S256x1024 .f32) (main_arg12 : FVec F S256 .f32) (main_v33 : IVec S_ 1) : IVec S_ 1 :=
  let main_v34 : FVec F S4x768x256 .f32 := Host.absf main_arg8
  let main_cst_12 : FVec F S_ .f32 := constant S_ .f32 0x7F800000#32
  let main_v35 : FVec F S4x768x256 .f32 := broadcastInDim S4x768x256 ![] bcast_S_S4x768x256 main_cst_12
  let main_v36 : IVec S4x768x256 1 := cmpf .olt main_v34 main_v35
  let main_c_13 : IVec S_ 1 := constantI S_ 1 1#1
  let main_v37 : IVec S_ 1 := (fun x v => Host.reduce IntOp.andi x v reducesTo_S4x768x256_S_d0_1_2 h_S_) main_v36 main_c_13
  let main_v38 : IVec S_ 1 := andi main_v33 main_v37
  let main_v39 : FVec F S4x768 .f32 := Host.absf main_arg9
  let main_cst_14 : FVec F S_ .f32 := constant S_ .f32 0x7F800000#32
  let main_v40 : FVec F S4x768 .f32 := broadcastInDim S4x768 ![] bcast_S_S4x768 main_cst_14
  let main_v41 : IVec S4x768 1 := cmpf .olt main_v39 main_v40
  let main_c_15 : IVec S_ 1 := constantI S_ 1 1#1
  let main_v42 : IVec S_ 1 := (fun x v => Host.reduce IntOp.andi x v reducesTo_S4x768_S_d0_1 h_S_) main_v41 main_c_15
  let main_v43 : IVec S_ 1 := andi main_v38 main_v42
  let main_v44 : FVec F S4x768 .f32 := Host.absf main_arg10
  let main_cst_16 : FVec F S_ .f32 := constant S_ .f32 0x7F800000#32
  let main_v45 : FVec F S4x768 .f32 := broadcastInDim S4x768 ![] bcast_S_S4x768 main_cst_16
  let main_v46 : IVec S4x768 1 := cmpf .olt main_v44 main_v45
  let main_c_17 : IVec S_ 1 := constantI S_ 1 1#1
  let main_v47 : IVec S_ 1 := (fun x v => Host.reduce IntOp.andi x v reducesTo_S4x768_S_d0_1 h_S_) main_v46 main_c_17
  let main_v48 : IVec S_ 1 := andi main_v43 main_v47
  let main_v49 : FVec F S256x1024 .f32 := Host.absf main_arg11
  let main_cst_18 : FVec F S_ .f32 := constant S_ .f32 0x7F800000#32
  let main_v50 : FVec F S256x1024 .f32 := broadcastInDim S256x1024 ![] bcast_S_S256x1024 main_cst_18
  fn_part3 (F := F) main_arg12 main_v48 main_v49 main_v50

def fn_part1 {F : FTy → Type} [FloatOps F] (main_arg5 : FVec F S4x256x544 .f32) (main_arg6 : FVec F S4x256 .f32) (main_arg7 : FVec F S4x768x256 .f32) (main_arg8 : FVec F S4x768x256 .f32) (main_arg9 : FVec F S4x768 .f32) (main_arg10 : FVec F S4x768 .f32) (main_arg11 : FVec F S256x1024 .f32) (main_arg12 : FVec F S256 .f32) (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : IVec S_ 1 := andi main_v13 main_v17
  let main_v19 : FVec F S4x256x544 .f32 := Host.absf main_arg5
  let main_cst_6 : FVec F S_ .f32 := constant S_ .f32 0x7F800000#32
  let main_v20 : FVec F S4x256x544 .f32 := broadcastInDim S4x256x544 ![] bcast_S_S4x256x544 main_cst_6
  let main_v21 : IVec S4x256x544 1 := cmpf .olt main_v19 main_v20
  let main_c_7 : IVec S_ 1 := constantI S_ 1 1#1
  let main_v22 : IVec S_ 1 := (fun x v => Host.reduce IntOp.andi x v reducesTo_S4x256x544_S_d0_1_2 h_S_) main_v21 main_c_7
  let main_v23 : IVec S_ 1 := andi main_v18 main_v22
  let main_v24 : FVec F S4x256 .f32 := Host.absf main_arg6
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x768x256 .f32 := Host.absf main_arg7
  let main_cst_10 : FVec F S_ .f32 := constant S_ .f32 0x7F800000#32
  let main_v30 : FVec F S4x768x256 .f32 := broadcastInDim S4x768x256 ![] bcast_S_S4x768x256 main_cst_10
  let main_v31 : IVec S4x768x256 1 := cmpf .olt main_v29 main_v30
  let main_c_11 : IVec S_ 1 := constantI S_ 1 1#1
  let main_v32 : IVec S_ 1 := (fun x v => Host.reduce IntOp.andi x v reducesTo_S4x768x256_S_d0_1_2 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S64x96x256 .f32) (main_arg1 : FVec F S64x96x96x32 .f32) (main_arg2 : IVec S64x96x96 32) (main_arg3 : FVec F S4x256x256 .f32) (main_arg4 : FVec F S4x256 .f32) (main_arg5 : FVec F S4x256x544 .f32) (main_arg6 : FVec F S4x256 .f32) (main_arg7 : FVec F S4x768x256 .f32) (main_arg8 : FVec F S4x768x256 .f32) (main_arg9 : FVec F S4x768 .f32) (main_arg10 : FVec F S4x768 .f32) (main_arg11 : FVec F S256x1024 .f32) (main_arg12 : FVec F S256 .f32) : IVec S_ 1 :=
  let main_v0 : FVec F S64x96x256 .f32 := Host.absf main_arg0
  let main_cst : FVec F S_ .f32 := constant S_ .f32 0x7F800000#32
  let main_v1 : FVec F S64x96x256 .f32 := broadcastInDim S64x96x256 ![] bcast_S_S64x96x256 main_cst
  let main_v2 : IVec S64x96x256 1 := cmpf .olt main_v0 main_v1
  let main_c : IVec S_ 1 := constantI S_ 1 1#1
  let main_v3 : IVec S_ 1 := (fun x v => Host.reduce IntOp.andi x v reducesTo_S64x96x256_S_d0_1_2 h_S_) main_v2 main_c
  let main_v4 : FVec F S64x96x96x32 .f32 := Host.absf main_arg1
  let main_cst_0 : FVec F S_ .f32 := constant S_ .f32 0x7F800000#32
  let main_v5 : FVec F S64x96x96x32 .f32 := broadcastInDim S64x96x96x32 ![] bcast_S_S64x96x96x32 main_cst_0
  let main_v6 : IVec S64x96x96x32 1 := cmpf .olt main_v4 main_v5
  let main_c_1 : IVec S_ 1 := constantI S_ 1 1#1
  let main_v7 : IVec S_ 1 := (fun x v => Host.reduce IntOp.andi x v reducesTo_S64x96x96x32_S_d0_1_2_3 h_S_) main_v6 main_c_1
  let main_v8 : IVec S_ 1 := andi main_v3 main_v7
  let main_v9 : FVec F S4x256x256 .f32 := Host.absf main_arg3
  let main_cst_2 : FVec F S_ .f32 := constant S_ .f32 0x7F800000#32
  let main_v10 : FVec F S4x256x256 .f32 := broadcastInDim S4x256x256 ![] bcast_S_S4x256x256 main_cst_2
  let main_v11 : IVec S4x256x256 1 := cmpf .olt main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  let main_v14 : FVec F S4x256 .f32 := Host.absf main_arg4
  let main_cst_4 : FVec F S_ .f32 := constant S_ .f32 0x7F800000#32
  let main_v15 : FVec F S4x256 .f32 := broadcastInDim S4x256 ![] bcast_S_S4x256 main_cst_4
  let main_v16 : IVec S4x256 1 := cmpf .olt main_v14 main_v15
  fn_part1 (F := F) main_arg5 main_arg6 main_arg7 main_arg8 main_arg9 main_arg10 main_arg11 main_arg12 main_v13 main_v16
-- ==== Kernel.lean ====
abbrev S64x96x256 : Shape := ⟨3, ![64, 96, 256]⟩
abbrev S64x96x96x32 : Shape := ⟨4, ![64, 96, 96, 32]⟩
abbrev S64x96x96 : Shape := ⟨3, ![64, 96, 96]⟩
abbrev S4x256x256 : Shape := ⟨3, ![4, 256, 256]⟩
abbrev S4x256 : Shape := ⟨2, ![4, 256]⟩
abbrev S4x256x544 : Shape := ⟨3, ![4, 256, 544]⟩
abbrev S4x768x256 : Shape := ⟨3, ![4, 768, 256]⟩
abbrev S4x768 : Shape := ⟨2, ![4, 768]⟩
abbrev S256x1024 : Shape := ⟨2, ![256, 1024]⟩
abbrev S256 : Shape := ⟨1, ![256]⟩
abbrev S64x96x32 : Shape := ⟨3, ![64, 96, 32]⟩
abbrev S2x96x96x32 : Shape := ⟨4, ![2, 96, 96, 32]⟩
abbrev S2x96x96 : Shape := ⟨3, ![2, 96, 96]⟩
abbrev S2x96x32 : Shape := ⟨3, ![2, 96, 32]⟩
abbrev S2x96x96x1 : Shape := ⟨4, ![2, 96, 96, 1]⟩
abbrev S4x256x32 : Shape := ⟨3, ![4, 256, 32]⟩
abbrev S4x32x256 : Shape := ⟨3, ![4, 32, 256]⟩
abbrev S4x256x768 : Shape := ⟨3, ![4, 256, 768]⟩
abbrev S1024x256 : Shape := ⟨2, ![1024, 256]⟩
abbrev S6144x256 : Shape := ⟨2, ![6144, 256]⟩
abbrev S6144x32 : Shape := ⟨2, ![6144, 32]⟩
abbrev S768x256 : Shape := ⟨2, ![768, 256]⟩
abbrev S768x32 : Shape := ⟨2, ![768, 32]⟩
abbrev S8x96x96 : Shape := ⟨3, ![8, 96, 96]⟩
abbrev S8x96 : Shape := ⟨2, ![8, 96]⟩
abbrev S8x96x1 : Shape := ⟨3, ![8, 96, 1]⟩
abbrev S768x1 : Shape := ⟨2, ![768, 1]⟩
abbrev S1x256x256 : Shape := ⟨3, ![1, 256, 256]⟩
abbrev S256x256 : Shape := ⟨2, ![256, 256]⟩
abbrev S1x256 : Shape := ⟨2, ![1, 256]⟩
abbrev S1x32x256 : Shape := ⟨3, ![1, 32, 256]⟩
abbrev S32x256 : Shape := ⟨2, ![32, 256]⟩
abbrev S8x96x256 : Shape := ⟨3, ![8, 96, 256]⟩
abbrev S1x256x768 : Shape := ⟨3, ![1, 256, 768]⟩
abbrev S256x768 : Shape := ⟨2, ![256, 768]⟩
abbrev S768x768 : Shape := ⟨2, ![768, 768]⟩
abbrev S1x768 : Shape := ⟨2, ![1, 768]⟩
abbrev S768 : Shape := ⟨1, ![768]⟩
abbrev S768x1024 : Shape := ⟨2, ![768, 1024]⟩

abbrev nBuf : Space → Nat
  | .hbm => 35
  | .vmem => 26
  | .smem => 0
  | _ => 0

abbrev bufTy : (tb : Table) → Fin (tcTables nBuf tb) → BufTy
  | .hbm, ⟨0, _⟩ => ⟨S64x96x256, .f32⟩
  | .hbm, ⟨1, _⟩ => ⟨S64x96x96x32, .f32⟩
  | .hbm, ⟨2, _⟩ => ⟨S64x96x96, .i32⟩
  | .hbm, ⟨3, _⟩ => ⟨S4x256x256, .f32⟩
  | .hbm, ⟨4, _⟩ => ⟨S4x256, .f32⟩
  | .hbm, ⟨5, _⟩ => ⟨S4x256x544, .f32⟩
  | .hbm, ⟨6, _⟩ => ⟨S4x256, .f32⟩
  | .hbm, ⟨7, _⟩ => ⟨S4x768x256, .f32⟩
  | .hbm, ⟨8, _⟩ => ⟨S4x768x256, .f32⟩
  | .hbm, ⟨9, _⟩ => ⟨S4x768, .f32⟩
  | .hbm, ⟨10, _⟩ => ⟨S4x768, .f32⟩
  | .hbm, ⟨11, _⟩ => ⟨S256x1024, .f32⟩
  | .hbm, ⟨12, _⟩ => ⟨S256, .f32⟩
  | .hbm, ⟨13, _⟩ => ⟨S64x96x32, .f32⟩
  | .hbm, ⟨14, _⟩ => ⟨S4x256x256, .f32⟩
  | .hbm, ⟨15, _⟩ => ⟨S4x256x256, .bf16⟩
  | .hbm, ⟨16, _⟩ => ⟨S4x256x256, .f32⟩
  | .hbm, ⟨17, _⟩ => ⟨S4x256x256, .f32⟩
  | .hbm, ⟨18, _⟩ => ⟨S4x256x256, .bf16⟩
  | .hbm, ⟨19, _⟩ => ⟨S4x256x256, .f32⟩
  | .hbm, ⟨20, _⟩ => ⟨S4x256x256, .f32⟩
  | .hbm, ⟨21, _⟩ => ⟨S4x256x256, .bf16⟩
  | .hbm, ⟨22, _⟩ => ⟨S4x256x32, .f32⟩
  | .hbm, ⟨23, _⟩ => ⟨S4x32x256, .f32⟩
  | .hbm, ⟨24, _⟩ => ⟨S4x32x256, .bf16⟩
  | .hbm, ⟨25, _⟩ => ⟨S4x256x768, .f32⟩
  | .hbm, ⟨26, _⟩ => ⟨S4x256x768, .bf16⟩
  | .hbm, ⟨27, _⟩ => ⟨S4x256x768, .f32⟩
  | .hbm, ⟨28, _⟩ => ⟨S4x256x768, .bf16⟩
  | .hbm, ⟨29, _⟩ => ⟨S1024x256, .f32⟩
  | .hbm, ⟨30, _⟩ => ⟨S1024x256, .bf16⟩
  | .hbm, ⟨31, _⟩ => ⟨S6144x256, .f32⟩
  | .hbm, ⟨32, _⟩ => ⟨S6144x32, .f32⟩
  | .hbm, ⟨33, _⟩ => ⟨S6144x256, .f32⟩
  | .hbm, ⟨34, _⟩ => ⟨S64x96x256, .f32⟩
  | .local _ .vmem, ⟨0, _⟩ => ⟨S2x96x96x32, .f32⟩
  | .local _ .vmem, ⟨1, _⟩ => ⟨S2x96x96x32, .f32⟩
  | .local _ .vmem, ⟨2, _⟩ => ⟨S2x96x96, .i32⟩
  | .local _ .vmem, ⟨3, _⟩ => ⟨S2x96x96, .i32⟩
  | .local _ .vmem, ⟨4, _⟩ => ⟨S2x96x32, .f32⟩
  | .local _ .vmem, ⟨5, _⟩ => ⟨S2x96x32, .f32⟩
  | .local _ .vmem, ⟨6, _⟩ => ⟨S768x256, .f32⟩
  | .local _ .vmem, ⟨7, _⟩ => ⟨S768x256, .f32⟩
  | .local _ .vmem, ⟨8, _⟩ => ⟨S768x32, .f32⟩
  | .local _ .vmem, ⟨9, _⟩ => ⟨S768x32, .f32⟩
  | .local _ .vmem, ⟨10, _⟩ => ⟨S8x96x96, .i32⟩
  | .local _ .vmem, ⟨11, _⟩ => ⟨S8x96x96, .i32⟩
  | .local _ .vmem, ⟨12, _⟩ => ⟨S4x256x256, .bf16⟩
  | .local _ .vmem, ⟨13, _⟩ => ⟨S4x256, .f32⟩
  | .local _ .vmem, ⟨14, _⟩ => ⟨S4x256x256, .bf16⟩
  | .local _ .vmem, ⟨15, _⟩ => ⟨S4x256x256, .bf16⟩
  | .local _ .vmem, ⟨16, _⟩ => ⟨S4x32x256, .bf16⟩
  | .local _ .vmem, ⟨17, _⟩ => ⟨S4x256, .f32⟩
  | .local _ .vmem, ⟨18, _⟩ => ⟨S4x256x768, .bf16⟩
  | .local _ .vmem, ⟨19, _⟩ => ⟨S4x256x768, .bf16⟩
  | .local _ .vmem, ⟨20, _⟩ => ⟨S4x768, .f32⟩
  | .local _ .vmem, ⟨21, _⟩ => ⟨S4x768, .f32⟩
  | .local _ .vmem, ⟨22, _⟩ => ⟨S1024x256, .bf16⟩
  | .local _ .vmem, ⟨23, _⟩ => ⟨S256, .f32⟩
  | .local _ .vmem, ⟨24, _⟩ => ⟨S768x256, .f32⟩
  | .local _ .vmem, ⟨25, _⟩ => ⟨S768x256, .f32⟩
  | _, _ => ⟨S64x96x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg15_0 : Ref sig .tc := ⟨.vmem, 24, rfl⟩
abbrev cc1_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem15_0 : DmaSem sig := 24
abbrev cc1_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x96x96x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x96x96 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x96x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S768x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S768x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x96x96 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x32x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x256x768 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S4x256x768 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4x768 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S4x768 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1024x256 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S768x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  inb_S2x96x96_S2x96x96_0_0_0 : ∀ a, (![0, 0, 0] : Fin 3 → Nat) a + S2x96x96.size a ≤ S2x96x96.size a
  h_S2x96x96 : 0 < S2x96x96.numel
  inb_S2x96x96x32_S2x96x96x32_0_0_0_0 : ∀ a, (![0, 0, 0, 0] : Fin 4 → Nat) a + S2x96x96x32.size a ≤ S2x96x96x32.size a
  h_S2x96x96x32 : 0 < S2x96x96x32.numel
  shapeCasts_S2x96x96_S2x96x96x1 : S2x96x96.ShapeCasts S2x96x96x1
  broadcasts_S2x96x96x1_S2x96x96x32 : S2x96x96x1.Broadcasts S2x96x96x32
  reduces_S2x96x96x32_S2x96x32 : S2x96x96x32.Reduces [2] S2x96x32
  inb_S2x96x32_S2x96x32_0_0_0 : ∀ a, (![0, 0, 0] : Fin 3 → Nat) a + S2x96x32.size a ≤ S2x96x32.size a
  h_S2x96x32 : 0 < S2x96x32.numel
  transposes_S4x256x256_S4x256x256_0_2_1 : S4x256x256.Transposes [0, 2, 1] S4x256x256
  bitsLt_bf16_f32 : FTy.bits .bf16 < FTy.bits .f32
  slices_S4x256x544_S4x256x256_0_0_0 : S4x256x544.Slices ![0, 0, 0] S4x256x256
  slices_S4x256x544_S4x256x256_0_0_256 : S4x256x544.Slices ![0, 0, 256] S4x256x256
  slices_S4x256x544_S4x256x32_0_0_512 : S4x256x544.Slices ![0, 0, 512] S4x256x32
  transposes_S4x256x32_S4x32x256_0_2_1 : S4x256x32.Transposes [0, 2, 1] S4x32x256
  transposes_S4x768x256_S4x256x768_0_2_1 : S4x768x256.Transposes [0, 2, 1] S4x256x768
  transposes_S256x1024_S1024x256_1_0 : S256x1024.Transposes [1, 0] S1024x256
  shapeCasts_S64x96x256_S6144x256 : S64x96x256.ShapeCasts S6144x256
  shapeCasts_S64x96x32_S6144x32 : S64x96x32.ShapeCasts S6144x32
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S768x32_S768x32_0_0 : ∀ a, (![0, 0] : Fin 2 → Nat) a + S768x32.size a ≤ S768x32.size a
  h_S768x32 : 0 < S768x32.numel
  shapeCasts_S768x32_S768x32 : S768x32.ShapeCasts S768x32
  inb_S8x96x96_S8x96x96_0_0_0 : ∀ a, (![0, 0, 0] : Fin 3 → Nat) a + S8x96x96.size a ≤ S8x96x96.size a
  h_S8x96x96 : 0 < S8x96x96.numel
  reduces_S8x96x96_S8x96 : S8x96x96.Reduces [2] S8x96
  shapeCasts_S8x96_S8x96x1 : S8x96.ShapeCasts S8x96x1
  shapeCasts_S8x96x1_S768x1 : S8x96x1.ShapeCasts S768x1
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S768x256 : S1x256.Broadcasts S768x256
  inb_S4x32x256_S1x32x256_0_0_0 : ∀ a, (![0, 0, 0] : Fin 3 → Nat) a + S1x32x256.size a ≤ S4x32x256.size a
  h_S1x32x256 : 0 < S1x32x256.numel
  shapeCasts_S1x32x256_S32x256 : S1x32x256.ShapeCasts S32x256
  shapeCasts_S768x256_S8x96x256 : S768x256.ShapeCasts S8x96x256
  shapeCasts_S8x96x256_S768x256 : S8x96x256.ShapeCasts S768x256
  broadcasts_S768x1_S768x256 : S768x1.Broadcasts S768x256
  inb_S4x256x768_S1x256x768_0_0_0 : ∀ a, (![0, 0, 0] : Fin 3 → Nat) a + S1x256x768.size a ≤ S4x256x768.size a
  h_S1x256x768 : 0 < S1x256x768.numel
  shapeCasts_S1x256x768_S256x768 : S1x256x768.ShapeCasts S256x768
  inb_S4x768_S1x768_0_0 : ∀ a, (![0, 0] : Fin 2 → Nat) a + S1x768.size a ≤ S4x768.size a
  h_S1x768 : 0 < S1x768.numel
  shapeCasts_S1x768_S768 : S1x768.ShapeCasts S768
  shapeCasts_S768_S1x768 : S768.ShapeCasts S1x768
  broadcasts_S1x768_S768x768 : S1x768.Broadcasts S768x768
  slices_S768x768_o0_0_S768x256 : S768x768.Slices ![0, 0] S768x256
  slices_S768x768_o0_256_S768x256 : S768x768.Slices ![0, 256] S768x256
  slices_S768x768_o0_512_S768x256 : S768x768.Slices ![0, 512] S768x256
  inb_S4x256x256_S1x256x256_1_0_0 : ∀ a, (![1, 0, 0] : Fin 3 → Nat) a + S1x256x256.size a ≤ S4x256x256.size a
  inb_S4x256_S1x256_1_0 : ∀ a, (![1, 0] : Fin 2 → Nat) a + S1x256.size a ≤ S4x256.size a
  inb_S4x32x256_S1x32x256_1_0_0 : ∀ a, (![1, 0, 0] : Fin 3 → Nat) a + S1x32x256.size a ≤ S4x32x256.size a
  inb_S4x256x768_S1x256x768_1_0_0 : ∀ a, (![1, 0, 0] : Fin 3 → Nat) a + S1x256x768.size a ≤ S4x256x768.size a
  inb_S4x768_S1x768_1_0 : ∀ a, (![1, 0] : Fin 2 → Nat) a + S1x768.size a ≤ S4x768.size a
  inb_S4x256x256_S1x256x256_2_0_0 : ∀ a, (![2, 0, 0] : Fin 3 → Nat) a + S1x256x256.size a ≤ S4x256x256.size a
  inb_S4x256_S1x256_2_0 : ∀ a, (![2, 0] : Fin 2 → Nat) a + S1x256.size a ≤ S4x256.size a
  inb_S4x32x256_S1x32x256_2_0_0 : ∀ a, (![2, 0, 0] : Fin 3 → Nat) a + S1x32x256.size a ≤ S4x32x256.size a
  inb_S4x256x768_S1x256x768_2_0_0 : ∀ a, (![2, 0, 0] : Fin 3 → Nat) a + S1x256x768.size a ≤ S4x256x768.size a
  inb_S4x768_S1x768_2_0 : ∀ a, (![2, 0] : Fin 2 → Nat) a + S1x768.size a ≤ S4x768.size a
  inb_S4x256x256_S1x256x256_3_0_0 : ∀ a, (![3, 0, 0] : Fin 3 → Nat) a + S1x256x256.size a ≤ S4x256x256.size a
  inb_S4x256_S1x256_3_0 : ∀ a, (![3, 0] : Fin 2 → Nat) a + S1x256.size a ≤ S4x256.size a
  inb_S4x32x256_S1x32x256_3_0_0 : ∀ a, (![3, 0, 0] : Fin 3 → Nat) a + S1x32x256.size a ≤ S4x32x256.size a
  inb_S4x256x768_S1x256x768_3_0_0 : ∀ a, (![3, 0, 0] : Fin 3 → Nat) a + S1x256x768.size a ≤ S4x256x768.size a
  inb_S4x768_S1x768_3_0 : ∀ a, (![3, 0] : Fin 2 → Nat) a + S1x768.size a ≤ S4x768.size a
  concatenates_S768x256_S768x256_S768x256_S768x256_S768x1024_d1 : Shape.Concatenates [S768x256, S768x256, S768x256, S768x256] S768x1024 1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256_S256_0 : ∀ a, (![0] : Fin 1 → Nat) a + S256.size a ≤ S256.size a
  h_S256 : 0 < S256.numel
  shapeCasts_S6144x256_S64x96x256 : S6144x256.ShapeCasts S64x96x256
  dot_S768x256_S256x256_S768x256_1_0_0_1_n_n_wf : DotDims.WF S768x256 S256x256 S768x256 [1] [0] [0] [1] [] []
  dot_S8x96x96_S8x96x256_S8x96x256_2_1_1_2_0_0_wf : DotDims.WF S8x96x96 S8x96x256 S8x96x256 [2] [1] [1] [2] [0] [0]
  dot_S768x32_S32x256_S768x256_1_0_0_1_n_n_wf : DotDims.WF S768x32 S32x256 S768x256 [1] [0] [0] [1] [] []
  dot_S768x256_S256x768_S768x768_1_0_0_1_n_n_wf : DotDims.WF S768x256 S256x768 S768x768 [1] [0] [0] [1] [] []
  dot_S768x1024_S1024x256_S768x256_1_0_0_1_n_n_wf : DotDims.WF S768x1024 S1024x256 S768x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x96x96x32.size a ≤ S64x96x96x32.size a
  hwx0_0 : ∀ i : grid0.Coords, EltTy.bits .f32 = 32 ∨ (Rect.block (s := S64x96x96x32) S2x96x96x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x96x96.size a ≤ S64x96x96.size a
  hwx0_1 : ∀ i : grid0.Coords, EltTy.bits .i32 = 32 ∨ (Rect.block (s := S64x96x96) S2x96x96.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x96x32.size a ≤ S64x96x32.size a
  hwx0_2 : ∀ i : grid0.Coords, EltTy.bits .f32 = 32 ∨ (Rect.block (s := S64x96x32) S2x96x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S768x256.size a ≤ S6144x256.size a
  hwx1_0 : ∀ i : grid1.Coords, EltTy.bits .f32 = 32 ∨ (Rect.block (s := S6144x256) S768x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S768x32.size a ≤ S6144x32.size a
  hwx1_1 : ∀ i : grid1.Coords, EltTy.bits .f32 = 32 ∨ (Rect.block (s := S6144x32) S768x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x96x96.size a ≤ S64x96x96.size a
  hwx1_2 : ∀ i : grid1.Coords, EltTy.bits .i32 = 32 ∨ (Rect.block (s := S64x96x96) S8x96x96.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x256x256.size a ≤ S4x256x256.size a
  hwx1_3 : ∀ i : grid1.Coords, EltTy.bits .bf16 = 32 ∨ (Rect.block (s := S4x256x256) S4x256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x256.size a ≤ S4x256.size a
  hwx1_4 : ∀ i : grid1.Coords, EltTy.bits .f32 = 32 ∨ (Rect.block (s := S4x256) S4x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4x256x256.size a ≤ S4x256x256.size a
  hwx1_5 : ∀ i : grid1.Coords, EltTy.bits .bf16 = 32 ∨ (Rect.block (s := S4x256x256) S4x256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4x256x256.size a ≤ S4x256x256.size a
  hwx1_6 : ∀ i : grid1.Coords, EltTy.bits .bf16 = 32 ∨ (Rect.block (s := S4x256x256) S4x256x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4x32x256.size a ≤ S4x32x256.size a
  hwx1_7 : ∀ i : grid1.Coords, EltTy.bits .bf16 = 32 ∨ (Rect.block (s := S4x32x256) S4x32x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4x256.size a ≤ S4x256.size a
  hwx1_8 : ∀ i : grid1.Coords, EltTy.bits .f32 = 32 ∨ (Rect.block (s := S4x256) S4x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4x256x768.size a ≤ S4x256x768.size a
  hwx1_9 : ∀ i : grid1.Coords, EltTy.bits .bf16 = 32 ∨ (Rect.block (s := S4x256x768) S4x256x768.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S4x256x768.size a ≤ S4x256x768.size a
  hwx1_10 : ∀ i : grid1.Coords, EltTy.bits .bf16 = 32 ∨ (Rect.block (s := S4x256x768) S4x256x768.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S4x768.size a ≤ S4x768.size a
  hwx1_11 : ∀ i : grid1.Coords, EltTy.bits .f32 = 32 ∨ (Rect.block (s := S4x768) S4x768.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S4x768.size a ≤ S4x768.size a
  hwx1_12 : ∀ i : grid1.Coords, EltTy.bits .f32 = 32 ∨ (Rect.block (s := S4x768) S4x768.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1024x256.size a ≤ S1024x256.size a
  hwx1_13 : ∀ i : grid1.Coords, EltTy.bits .bf16 = 32 ∨ (Rect.block (s := S1024x256) S1024x256.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S256.size a ≤ S256.size a
  hwx1_14 : ∀ i : grid1.Coords, EltTy.bits .f32 = 32 ∨ (Rect.block (s := S256) S256.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S768x256.size a ≤ S6144x256.size a
  hwx1_15 : ∀ i : grid1.Coords, EltTy.bits .f32 = 32 ∨ (Rect.block (s := S6144x256) S768x256.size (cc1_transform_15 i) (hinb1_15 i)).WholeWords (EltTy.packing .f32)

variable [Facts₀]

def dot_S768x256_S256x256_S768x256_1_0_0_1_n_n : DotDims S768x256 S256x256 S768x256 where
  lhsContracting := [1]
  rhsContracting := [0]
  lhsNonContracting := [0]
  rhsNonContracting := [1]
  lhsBatch := []
  rhsBatch := []
  wf := dot_S768x256_S256x256_S768x256_1_0_0_1_n_n_wf
def dot_S8x96x96_S8x96x256_S8x96x256_2_1_1_2_0_0 : DotDims S8x96x96 S8x96x256 S8x96x256 where
  lhsContracting := [2]
  rhsContracting := [1]
  lhsNonContracting := [1]
  rhsNonContracting := [2]
  lhsBatch := [0]
  rhsBatch := [0]
  wf := dot_S8x96x96_S8x96x256_S8x96x256_2_1_1_2_0_0_wf
def dot_S768x32_S32x256_S768x256_1_0_0_1_n_n : DotDims S768x32 S32x256 S768x256 where
  lhsContracting := [1]
  rhsContracting := [0]
  lhsNonContracting := [0]
  rhsNonContracting := [1]
  lhsBatch := []
  rhsBatch := []
  wf := dot_S768x32_S32x256_S768x256_1_0_0_1_n_n_wf
def dot_S768x256_S256x768_S768x768_1_0_0_1_n_n : DotDims S768x256 S256x768 S768x768 where
  lhsContracting := [1]
  rhsContracting := [0]
  lhsNonContracting := [0]
  rhsNonContracting := [1]
  lhsBatch := []
  rhsBatch := []
  wf := dot_S768x256_S256x768_S768x768_1_0_0_1_n_n_wf
def dot_S768x1024_S1024x256_S768x256_1_0_0_1_n_n : DotDims S768x1024 S1024x256 S768x256 where
  lhsContracting := [1]
  rhsContracting := [0]
  lhsNonContracting := [0]
  rhsNonContracting := [1]
  lhsBatch := []
  rhsBatch := []
  wf := dot_S768x1024_S1024x256_S768x256_1_0_0_1_n_n_wf

abbrev win0_0 : Pipeline.Window sig grid0 :=
  Pipeline.Window.ofSpec (Memref.whole main_arg1) S2x96x96x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x96x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x96x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S768x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S768x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8x96x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S4x256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S4x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S4x256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S4x256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S4x32x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg6) S4x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v13) S4x256x768.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v15) S4x256x768.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg9) S4x768.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg10) S4x768.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v17) S1024x256.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg12) S256.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v20) S768x256.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S64x96x256 : Shape := ⟨3, ![64, 96, 256]⟩
abbrev S64x96x96x32 : Shape := ⟨4, ![64, 96, 96, 32]⟩
abbrev S64x96x96 : Shape := ⟨3, ![64, 96, 96]⟩
abbrev S4x256x256 : Shape := ⟨3, ![4, 256, 256]⟩
abbrev S4x256 : Shape := ⟨2, ![4, 256]⟩
abbrev S4x256x544 : Shape := ⟨3, ![4, 256, 544]⟩
abbrev S4x768x256 : Shape := ⟨3, ![4, 768, 256]⟩
abbrev S4x768 : Shape := ⟨2, ![4, 768]⟩
abbrev S256x1024 : Shape := ⟨2, ![256, 1024]⟩
abbrev S256 : Shape := ⟨1, ![256]⟩
abbrev S_ : Shape := ⟨0, ![]⟩
abbrev S64x96 : Shape := ⟨2, ![64, 96]⟩
abbrev S1x256x256 : Shape := ⟨3, ![1, 256, 256]⟩
abbrev S256x256 : Shape := ⟨2, ![256, 256]⟩
abbrev S1x256 : Shape := ⟨2, ![1, 256]⟩
abbrev S1x1x256 : Shape := ⟨3, ![1, 1, 256]⟩
abbrev S1x256x544 : Shape := ⟨3, ![1, 256, 544]⟩
abbrev S256x544 : Shape := ⟨2, ![256, 544]⟩
abbrev S256x32 : Shape := ⟨2, ![256, 32]⟩
abbrev S64x96x1 : Shape := ⟨3, ![64, 96, 1]⟩
abbrev S64x96x96x1 : Shape := ⟨4, ![64, 96, 96, 1]⟩
abbrev S64x96x32 : Shape := ⟨3, ![64, 96, 32]⟩
abbrev S1x768x256 : Shape := ⟨3, ![1, 768, 256]⟩
abbrev S768x256 : Shape := ⟨2, ![768, 256]⟩
abbrev S64x96x768 : Shape := ⟨3, ![64, 96, 768]⟩
abbrev S1x768 : Shape := ⟨2, ![1, 768]⟩
abbrev S768 : Shape := ⟨1, ![768]⟩
abbrev S1x1x768 : Shape := ⟨3, ![1, 1, 768]⟩
abbrev S64x96x1024 : Shape := ⟨3, ![64, 96, 1024]⟩

abbrev nBuf : Space → Nat
  | .hbm => 389
  | .vmem => 0
  | .smem => 0
  | _ => 0

abbrev hbmTy0_0 (i : Nat) : BufTy := match i % 128 with
  | 0 => ⟨S64x96x256, .f32⟩
  | 1 => ⟨S64x96x96x32, .f32⟩
  | 2 => ⟨S64x96x96, .i32⟩
  | 3 => ⟨S4x256x256, .f32⟩
  | 4 => ⟨S4x256, .f32⟩
  | 5 => ⟨S4x256x544, .f32⟩
  | 6 => ⟨S4x256, .f32⟩
  | 7 => ⟨S4x768x256, .f32⟩
  | 8 => ⟨S4x768x256, .f32⟩
  | 9 => ⟨S4x768, .f32⟩
  | 10 => ⟨S4x768, .f32⟩
  | 11 => ⟨S256x1024, .f32⟩
  | 12 => ⟨S256, .f32⟩
  | 13 => ⟨S64x96x96, .f32⟩
  | 14 => ⟨S_, .f32⟩
  | 15 => ⟨S64x96, .f32⟩
  | 16 => ⟨S1x256x256, .f32⟩
  | 17 => ⟨S256x256, .f32⟩
  | 18 => ⟨S64x96x256, .f32⟩
  | 19 => ⟨S1x256, .f32⟩
  | 20 => ⟨S256, .f32⟩
  | 21 => ⟨S1x1x256, .f32⟩
  | 22 => ⟨S64x96x256, .f32⟩
  | 23 => ⟨S64x96x256, .f32⟩
  | 24 => ⟨S1x256x544, .f32⟩
  | 25 => ⟨S256x544, .f32⟩
  | 26 => ⟨S256x256, .f32⟩
  | 27 => ⟨S1x256x544, .f32⟩
  | 28 => ⟨S256x544, .f32⟩
  | 29 => ⟨S256x256, .f32⟩
  | 30 => ⟨S1x256x544, .f32⟩
  | 31 => ⟨S256x544, .f32⟩
  | 32 => ⟨S256x32, .f32⟩
  | 33 => ⟨S64x96x256, .f32⟩
  | 34 => ⟨S64x96x256, .f32⟩
  | 35 => ⟨S64x96x1, .f32⟩
  | 36 => ⟨S64x96x256, .f32⟩
  | 37 => ⟨S64x96x256, .f32⟩
  | 38 => ⟨S64x96x256, .f32⟩
  | 39 => ⟨S64x96x256, .f32⟩
  | 40 => ⟨S64x96x96x1, .f32⟩
  | 41 => ⟨S64x96x96x32, .f32⟩
  | 42 => ⟨S64x96x96x32, .f32⟩
  | 43 => ⟨S_, .f32⟩
  | 44 => ⟨S64x96x32, .f32⟩
  | 45 => ⟨S64x96x256, .f32⟩
  | 46 => ⟨S64x96x256, .f32⟩
  | 47 => ⟨S1x256, .f32⟩
  | 48 => ⟨S256, .f32⟩
  | 49 => ⟨S64x96x1, .f32⟩
  | 50 => ⟨S1x1x256, .f32⟩
  | 51 => ⟨S64x96x256, .f32⟩
  | 52 => ⟨S64x96x256, .f32⟩
  | 53 => ⟨S64x96x256, .f32⟩
  | 54 => ⟨S64x96x256, .f32⟩
  | 55 => ⟨S_, .f32⟩
  | 56 => ⟨S64x96x256, .f32⟩
  | 57 => ⟨S64x96x256, .f32⟩
  | 58 => ⟨S1x768x256, .f32⟩
  | 59 => ⟨S768x256, .f32⟩
  | 60 => ⟨S64x96x768, .f32⟩
  | 61 => ⟨S1x768, .f32⟩
  | 62 => ⟨S768, .f32⟩
  | 63 => ⟨S1x1x768, .f32⟩
  | 64 => ⟨S64x96x768, .f32⟩
  | 65 => ⟨S64x96x768, .f32⟩
  | 66 => ⟨S1x768x256, .f32⟩
  | 67 => ⟨S768x256, .f32⟩
  | 68 => ⟨S64x96x768, .f32⟩
  | 69 => ⟨S1x768, .f32⟩
  | 70 => ⟨S768, .f32⟩
  | 71 => ⟨S1x1x768, .f32⟩
  | 72 => ⟨S64x96x768, .f32⟩
  | 73 => ⟨S64x96x768, .f32⟩
  | 74 => ⟨S64x96x256, .f32⟩
  | 75 => ⟨S64x96x256, .f32⟩
  | 76 => ⟨S64x96x256, .f32⟩
  | 77 => ⟨S64x96x256, .f32⟩
  | 78 => ⟨S64x96x256, .f32⟩
  | 79 => ⟨S64x96x256, .f32⟩
  | 80 => ⟨S64x96x256, .f32⟩
  | 81 => ⟨S64x96x256, .f32⟩
  | 82 => ⟨S64x96x256, .f32⟩
  | 83 => ⟨S_, .f32⟩
  | 84 => ⟨S64x96x256, .f32⟩
  | 85 => ⟨S64x96x256, .f32⟩
  | 86 => ⟨S_, .f32⟩
  | 87 => ⟨S64x96x256, .f32⟩
  | 88 => ⟨S64x96x256, .f32⟩
  | 89 => ⟨S64x96x256, .f32⟩
  | 90 => ⟨S64x96x256, .f32⟩
  | 91 => ⟨S64x96x256, .f32⟩
  | 92 => ⟨S_, .f32⟩
  | 93 => ⟨S64x96x256, .f32⟩
  | 94 => ⟨S64x96x256, .f32⟩
  | 95 => ⟨S_, .f32⟩
  | 96 => ⟨S64x96x256, .f32⟩
  | 97 => ⟨S64x96x256, .f32⟩
  | 98 => ⟨S64x96x256, .f32⟩
  | 99 => ⟨S64x96x256, .f32⟩
  | 100 => ⟨S64x96x256, .f32⟩
  | 101 => ⟨S_, .f32⟩
  | 102 => ⟨S64x96x256, .f32⟩
  | 103 => ⟨S64x96x256, .f32⟩
  | 104 => ⟨S64x96x256, .f32⟩
  | 105 => ⟨S64x96x256, .f32⟩
  | 106 => ⟨S64x96x256, .f32⟩
  | 107 => ⟨S1x256x256, .f32⟩
  | 108 => ⟨S256x256, .f32⟩
  | 109 => ⟨S64x96x256, .f32⟩
  | 110 => ⟨S1x256, .f32⟩
  | 111 => ⟨S256, .f32⟩
  | 112 => ⟨S1x1x256, .f32⟩
  | 113 => ⟨S64x96x256, .f32⟩
  | 114 => ⟨S64x96x256, .f32⟩
  | 115 => ⟨S1x256x544, .f32⟩
  | 116 => ⟨S256x544, .f32⟩
  | 117 => ⟨S256x256, .f32⟩
  | 118 => ⟨S1x256x544, .f32⟩
  | 119 => ⟨S256x544, .f32⟩
  | 120 => ⟨S256x256, .f32⟩
  | 121 => ⟨S1x256x544, .f32⟩
  | 122 => ⟨S256x544, .f32⟩
  | 123 => ⟨S256x32, .f32⟩
  | 124 => ⟨S64x96x256, .f32⟩
  | 125 => ⟨S64x96x256, .f32⟩
  | 126 => ⟨S64x96x1, .f32⟩
  | 127 => ⟨S64x96x256, .f32⟩
  | _ => ⟨S64x96x256, .f32⟩

abbrev hbmTy0_1 (i : Nat) : BufTy := match i % 128 with
  | 0 => ⟨S64x96x256, .f32⟩
  | 1 => ⟨S64x96x256, .f32⟩
  | 2 => ⟨S64x96x256, .f32⟩
  | 3 => ⟨S64x96x96x1, .f32⟩
  | 4 => ⟨S64x96x96x32, .f32⟩
  | 5 => ⟨S64x96x96x32, .f32⟩
  | 6 => ⟨S_, .f32⟩
  | 7 => ⟨S64x96x32, .f32⟩
  | 8 => ⟨S64x96x256, .f32⟩
  | 9 => ⟨S64x96x256, .f32⟩
  | 10 => ⟨S1x256, .f32⟩
  | 11 => ⟨S256, .f32⟩
  | 12 => ⟨S64x96x1, .f32⟩
  | 13 => ⟨S1x1x256, .f32⟩
  | 14 => ⟨S64x96x256, .f32⟩
  | 15 => ⟨S64x96x256, .f32⟩
  | 16 => ⟨S64x96x256, .f32⟩
  | 17 => ⟨S64x96x256, .f32⟩
  | 18 => ⟨S_, .f32⟩
  | 19 => ⟨S64x96x256, .f32⟩
  | 20 => ⟨S64x96x256, .f32⟩
  | 21 => ⟨S1x768x256, .f32⟩
  | 22 => ⟨S768x256, .f32⟩
  | 23 => ⟨S64x96x768, .f32⟩
  | 24 => ⟨S1x768, .f32⟩
  | 25 => ⟨S768, .f32⟩
  | 26 => ⟨S1x1x768, .f32⟩
  | 27 => ⟨S64x96x768, .f32⟩
  | 28 => ⟨S64x96x768, .f32⟩
  | 29 => ⟨S1x768x256, .f32⟩
  | 30 => ⟨S768x256, .f32⟩
  | 31 => ⟨S64x96x768, .f32⟩
  | 32 => ⟨S1x768, .f32⟩
  | 33 => ⟨S768, .f32⟩
  | 34 => ⟨S1x1x768, .f32⟩
  | 35 => ⟨S64x96x768, .f32⟩
  | 36 => ⟨S64x96x768, .f32⟩
  | 37 => ⟨S64x96x256, .f32⟩
  | 38 => ⟨S64x96x256, .f32⟩
  | 39 => ⟨S64x96x256, .f32⟩
  | 40 => ⟨S64x96x256, .f32⟩
  | 41 => ⟨S64x96x256, .f32⟩
  | 42 => ⟨S64x96x256, .f32⟩
  | 43 => ⟨S64x96x256, .f32⟩
  | 44 => ⟨S64x96x256, .f32⟩
  | 45 => ⟨S64x96x256, .f32⟩
  | 46 => ⟨S_, .f32⟩
  | 47 => ⟨S64x96x256, .f32⟩
  | 48 => ⟨S64x96x256, .f32⟩
  | 49 => ⟨S_, .f32⟩
  | 50 => ⟨S64x96x256, .f32⟩
  | 51 => ⟨S64x96x256, .f32⟩
  | 52 => ⟨S64x96x256, .f32⟩
  | 53 => ⟨S64x96x256, .f32⟩
  | 54 => ⟨S64x96x256, .f32⟩
  | 55 => ⟨S_, .f32⟩
  | 56 => ⟨S64x96x256, .f32⟩
  | 57 => ⟨S64x96x256, .f32⟩
  | 58 => ⟨S_, .f32⟩
  | 59 => ⟨S64x96x256, .f32⟩
  | 60 => ⟨S64x96x256, .f32⟩
  | 61 => ⟨S64x96x256, .f32⟩
  | 62 => ⟨S64x96x256, .f32⟩
  | 63 => ⟨S64x96x256, .f32⟩
  | 64 => ⟨S_, .f32⟩
  | 65 => ⟨S64x96x256, .f32⟩
  | 66 => ⟨S64x96x256, .f32⟩
  | 67 => ⟨S64x96x256, .f32⟩
  | 68 => ⟨S64x96x256, .f32⟩
  | 69 => ⟨S64x96x256, .f32⟩
  | 70 => ⟨S1x256x256, .f32⟩
  | 71 => ⟨S256x256, .f32⟩
  | 72 => ⟨S64x96x256, .f32⟩
  | 73 => ⟨S1x256, .f32⟩
  | 74 => ⟨S256, .f32⟩
  | 75 => ⟨S1x1x256, .f32⟩
  | 76 => ⟨S64x96x256, .f32⟩
  | 77 => ⟨S64x96x256, .f32⟩
  | 78 => ⟨S1x256x544, .f32⟩
  | 79 => ⟨S256x544, .f32⟩
  | 80 => ⟨S256x256, .f32⟩
  | 81 => ⟨S1x256x544, .f32⟩
  | 82 => ⟨S256x544, .f32⟩
  | 83 => ⟨S256x256, .f32⟩
  | 84 => ⟨S1x256x544, .f32⟩
  | 85 => ⟨S256x544, .f32⟩
  | 86 => ⟨S256x32, .f32⟩
  | 87 => ⟨S64x96x256, .f32⟩
  | 88 => ⟨S64x96x256, .f32⟩
  | 89 => ⟨S64x96x1, .f32⟩
  | 90 => ⟨S64x96x256, .f32⟩
  | 91 => ⟨S64x96x256, .f32⟩
  | 92 => ⟨S64x96x256, .f32⟩
  | 93 => ⟨S64x96x256, .f32⟩
  | 94 => ⟨S64x96x96x1, .f32⟩
  | 95 => ⟨S64x96x96x32, .f32⟩
  | 96 => ⟨S64x96x96x32, .f32⟩
  | 97 => ⟨S_, .f32⟩
  | 98 => ⟨S64x96x32, .f32⟩
  | 99 => ⟨S64x96x256, .f32⟩
  | 100 => ⟨S64x96x256, .f32⟩
  | 101 => ⟨S1x256, .f32⟩
  | 102 => ⟨S256, .f32⟩
  | 103 => ⟨S64x96x1, .f32⟩
  | 104 => ⟨S1x1x256, .f32⟩
  | 105 => ⟨S64x96x256, .f32⟩
  | 106 => ⟨S64x96x256, .f32⟩
  | 107 => ⟨S64x96x256, .f32⟩
  | 108 => ⟨S64x96x256, .f32⟩
  | 109 => ⟨S_, .f32⟩
  | 110 => ⟨S64x96x256, .f32⟩
  | 111 => ⟨S64x96x256, .f32⟩
  | 112 => ⟨S1x768x256, .f32⟩
  | 113 => ⟨S768x256, .f32⟩
  | 114 => ⟨S64x96x768, .f32⟩
  | 115 => ⟨S1x768, .f32⟩
  | 116 => ⟨S768, .f32⟩
  | 117 => ⟨S1x1x768, .f32⟩
  | 118 => ⟨S64x96x768, .f32⟩
  | 119 => ⟨S64x96x768, .f32⟩
  | 120 => ⟨S1x768x256, .f32⟩
  | 121 => ⟨S768x256, .f32⟩
  | 122 => ⟨S64x96x768, .f32⟩
  | 123 => ⟨S1x768, .f32⟩
  | 124 => ⟨S768, .f32⟩
  | 125 => ⟨S1x1x768, .f32⟩
  | 126 => ⟨S64x96x768, .f32⟩
  | 127 => ⟨S64x96x768, .f32⟩
  | _ => ⟨S64x96x256, .f32⟩

abbrev hbmTy0_2 (i : Nat) : BufTy := match i % 128 with
  | 0 => ⟨S64x96x256, .f32⟩
  | 1 => ⟨S64x96x256, .f32⟩
  | 2 => ⟨S64x96x256, .f32⟩
  | 3 => ⟨S64x96x256, .f32⟩
  | 4 => ⟨S64x96x256, .f32⟩
  | 5 => ⟨S64x96x256, .f32⟩
  | 6 => ⟨S64x96x256, .f32⟩
  | 7 => ⟨S64x96x256, .f32⟩
  | 8 => ⟨S64x96x256, .f32⟩
  | 9 => ⟨S_, .f32⟩
  | 10 => ⟨S64x96x256, .f32⟩
  | 11 => ⟨S64x96x256, .f32⟩
  | 12 => ⟨S_, .f32⟩
  | 13 => ⟨S64x96x256, .f32⟩
  | 14 => ⟨S64x96x256, .f32⟩
  | 15 => ⟨S64x96x256, .f32⟩
  | 16 => ⟨S64x96x256, .f32⟩
  | 17 => ⟨S64x96x256, .f32⟩
  | 18 => ⟨S_, .f32⟩
  | 19 => ⟨S64x96x256, .f32⟩
  | 20 => ⟨S64x96x256, .f32⟩
  | 21 => ⟨S_, .f32⟩
  | 22 => ⟨S64x96x256, .f32⟩
  | 23 => ⟨S64x96x256, .f32⟩
  | 24 => ⟨S64x96x256, .f32⟩
  | 25 => ⟨S64x96x256, .f32⟩
  | 26 => ⟨S64x96x256, .f32⟩
  | 27 => ⟨S_, .f32⟩
  | 28 => ⟨S64x96x256, .f32⟩
  | 29 => ⟨S64x96x256, .f32⟩
  | 30 => ⟨S64x96x256, .f32⟩
  | 31 => ⟨S64x96x256, .f32⟩
  | 32 => ⟨S64x96x256, .f32⟩
  | 33 => ⟨S1x256x256, .f32⟩
  | 34 => ⟨S256x256, .f32⟩
  | 35 => ⟨S64x96x256, .f32⟩
  | 36 => ⟨S1x256, .f32⟩
  | 37 => ⟨S256, .f32⟩
  | 38 => ⟨S1x1x256, .f32⟩
  | 39 => ⟨S64x96x256, .f32⟩
  | 40 => ⟨S64x96x256, .f32⟩
  | 41 => ⟨S1x256x544, .f32⟩
  | 42 => ⟨S256x544, .f32⟩
  | 43 => ⟨S256x256, .f32⟩
  | 44 => ⟨S1x256x544, .f32⟩
  | 45 => ⟨S256x544, .f32⟩
  | 46 => ⟨S256x256, .f32⟩
  | 47 => ⟨S1x256x544, .f32⟩
  | 48 => ⟨S256x544, .f32⟩
  | 49 => ⟨S256x32, .f32⟩
  | 50 => ⟨S64x96x256, .f32⟩
  | 51 => ⟨S64x96x256, .f32⟩
  | 52 => ⟨S64x96x1, .f32⟩
  | 53 => ⟨S64x96x256, .f32⟩
  | 54 => ⟨S64x96x256, .f32⟩
  | 55 => ⟨S64x96x256, .f32⟩
  | 56 => ⟨S64x96x256, .f32⟩
  | 57 => ⟨S64x96x96x1, .f32⟩
  | 58 => ⟨S64x96x96x32, .f32⟩
  | 59 => ⟨S64x96x96x32, .f32⟩
  | 60 => ⟨S_, .f32⟩
  | 61 => ⟨S64x96x32, .f32⟩
  | 62 => ⟨S64x96x256, .f32⟩
  | 63 => ⟨S64x96x256, .f32⟩
  | 64 => ⟨S1x256, .f32⟩
  | 65 => ⟨S256, .f32⟩
  | 66 => ⟨S64x96x1, .f32⟩
  | 67 => ⟨S1x1x256, .f32⟩
  | 68 => ⟨S64x96x256, .f32⟩
  | 69 => ⟨S64x96x256, .f32⟩
  | 70 => ⟨S64x96x256, .f32⟩
  | 71 => ⟨S64x96x256, .f32⟩
  | 72 => ⟨S_, .f32⟩
  | 73 => ⟨S64x96x256, .f32⟩
  | 74 => ⟨S64x96x256, .f32⟩
  | 75 => ⟨S1x768x256, .f32⟩
  | 76 => ⟨S768x256, .f32⟩
  | 77 => ⟨S64x96x768, .f32⟩
  | 78 => ⟨S1x768, .f32⟩
  | 79 => ⟨S768, .f32⟩
  | 80 => ⟨S1x1x768, .f32⟩
  | 81 => ⟨S64x96x768, .f32⟩
  | 82 => ⟨S64x96x768, .f32⟩
  | 83 => ⟨S1x768x256, .f32⟩
  | 84 => ⟨S768x256, .f32⟩
  | 85 => ⟨S64x96x768, .f32⟩
  | 86 => ⟨S1x768, .f32⟩
  | 87 => ⟨S768, .f32⟩
  | 88 => ⟨S1x1x768, .f32⟩
  | 89 => ⟨S64x96x768, .f32⟩
  | 90 => ⟨S64x96x768, .f32⟩
  | 91 => ⟨S64x96x256, .f32⟩
  | 92 => ⟨S64x96x256, .f32⟩
  | 93 => ⟨S64x96x256, .f32⟩
  | 94 => ⟨S64x96x256, .f32⟩
  | 95 => ⟨S64x96x256, .f32⟩
  | 96 => ⟨S64x96x256, .f32⟩
  | 97 => ⟨S64x96x256, .f32⟩
  | 98 => ⟨S64x96x256, .f32⟩
  | 99 => ⟨S64x96x256, .f32⟩
  | 100 => ⟨S_, .f32⟩
  | 101 => ⟨S64x96x256, .f32⟩
  | 102 => ⟨S64x96x256, .f32⟩
  | 103 => ⟨S_, .f32⟩
  | 104 => ⟨S64x96x256, .f32⟩
  | 105 => ⟨S64x96x256, .f32⟩
  | 106 => ⟨S64x96x256, .f32⟩
  | 107 => ⟨S64x96x256, .f32⟩
  | 108 => ⟨S64x96x256, .f32⟩
  | 109 => ⟨S_, .f32⟩
  | 110 => ⟨S64x96x256, .f32⟩
  | 111 => ⟨S64x96x256, .f32⟩
  | 112 => ⟨S_, .f32⟩
  | 113 => ⟨S64x96x256, .f32⟩
  | 114 => ⟨S64x96x256, .f32⟩
  | 115 => ⟨S64x96x256, .f32⟩
  | 116 => ⟨S64x96x256, .f32⟩
  | 117 => ⟨S64x96x256, .f32⟩
  | 118 => ⟨S_, .f32⟩
  | 119 => ⟨S64x96x256, .f32⟩
  | 120 => ⟨S64x96x256, .f32⟩
  | 121 => ⟨S64x96x256, .f32⟩
  | 122 => ⟨S64x96x256, .f32⟩
  | 123 => ⟨S64x96x256, .f32⟩
  | 124 => ⟨S64x96x1024, .f32⟩
  | 125 => ⟨S_, .f32⟩
  | 126 => ⟨S64x96x1024, .f32⟩
  | 127 => ⟨S64x96x1024, .f32⟩
  | _ => ⟨S64x96x256, .f32⟩

abbrev hbmTy0_3 (i : Nat) : BufTy := match i % 128 with
  | 0 => ⟨S64x96x256, .f32⟩
  | 1 => ⟨S1x1x256, .f32⟩
  | 2 => ⟨S64x96x256, .f32⟩
  | 3 => ⟨S64x96x256, .f32⟩
  | 4 => ⟨S64x96x256, .f32⟩
  | _ => ⟨S64x96x256, .f32⟩

abbrev hbmTy (i : Nat) : BufTy := match i / 128 with
  | 0 => hbmTy0_0 i
  | 1 => hbmTy0_1 i
  | 2 => hbmTy0_2 i
  | 3 => hbmTy0_3 i
  | _ => ⟨S64x96x256, .f32⟩

abbrev bufTy : (tb : Table) → Fin (tcTables nBuf tb) → BufTy
  | .hbm, ⟨i, _⟩ => hbmTy i
  | _, _ => ⟨S64x96x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_cst : Ref sig .tc := ⟨.hbm, 55, rfl⟩
abbrev main_call0_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_1 : Ref sig .tc := ⟨.hbm, 83, rfl⟩
abbrev main_v66 : Ref sig .tc := ⟨.hbm, 84, rfl⟩
abbrev main_v67 : Ref sig .tc := ⟨.hbm, 85, rfl⟩
abbrev main_cst_2 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_3 : Ref sig .tc := ⟨.hbm, 92, rfl⟩
abbrev main_v73 : Ref sig .tc := ⟨.hbm, 93, rfl⟩
abbrev main_v74 : Ref sig .tc := ⟨.hbm, 94, rfl⟩
abbrev main_cst_4 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_5 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_cst_6 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_call1_cst : Ref sig .tc := ⟨.hbm, 146, rfl⟩
abbrev main_call1_v0 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_cst_7 : Ref sig .tc := ⟨.hbm, 174, rfl⟩
abbrev main_v149 : Ref sig .tc := ⟨.hbm, 175, rfl⟩
abbrev main_v150 : Ref sig .tc := ⟨.hbm, 176, rfl⟩
abbrev main_cst_8 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_cst_9 : Ref sig .tc := ⟨.hbm, 183, rfl⟩
abbrev main_v156 : Ref sig .tc := ⟨.hbm, 184, rfl⟩
abbrev main_v157 : Ref sig .tc := ⟨.hbm, 185, rfl⟩
abbrev main_cst_10 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_cst_11 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_cst_12 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_call2_cst : Ref sig .tc := ⟨.hbm, 237, rfl⟩
abbrev main_call2_v0 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_cst_13 : Ref sig .tc := ⟨.hbm, 265, rfl⟩
abbrev main_v232 : Ref sig .tc := ⟨.hbm, 266, rfl⟩
abbrev main_v233 : Ref sig .tc := ⟨.hbm, 267, rfl⟩
abbrev main_cst_14 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_cst_15 : Ref sig .tc := ⟨.hbm, 274, rfl⟩
abbrev main_v239 : Ref sig .tc := ⟨.hbm, 275, rfl⟩
abbrev main_v240 : Ref sig .tc := ⟨.hbm, 276, rfl⟩
abbrev main_cst_16 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_cst_17 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_cst_18 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_v281 : Ref sig .tc := ⟨.hbm, 320, rfl⟩
abbrev main_v282 : Ref sig .tc := ⟨.hbm, 321, rfl⟩
abbrev main_v283 : Ref sig .tc := ⟨.hbm, 322, rfl⟩
abbrev main_v284 : Ref sig .tc := ⟨.hbm, 323, rfl⟩
abbrev main_v285 : Ref sig .tc := ⟨.hbm, 324, rfl⟩
abbrev main_v286 : Ref sig .tc := ⟨.hbm, 325, rfl⟩
abbrev main_v287 : Ref sig .tc := ⟨.hbm, 326, rfl⟩
abbrev main_v288 : Ref sig .tc := ⟨.hbm, 327, rfl⟩
abbrev main_call3_cst : Ref sig .tc := ⟨.hbm, 328, rfl⟩
abbrev main_call3_v0 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_v307 : Ref sig .tc := ⟨.hbm, 348, rfl⟩
abbrev main_v308 : Ref sig .tc := ⟨.hbm, 349, rfl⟩
abbrev main_v309 : Ref sig .tc := ⟨.hbm, 350, rfl⟩
abbrev main_v310 : Ref sig .tc := ⟨.hbm, 351, rfl⟩
abbrev main_v311 : Ref sig .tc := ⟨.hbm, 352, rfl⟩
abbrev main_v312 : Ref sig .tc := ⟨.hbm, 353, rfl⟩
abbrev main_v313 : Ref sig .tc := ⟨.hbm, 354, rfl⟩
abbrev main_v314 : Ref sig .tc := ⟨.hbm, 355, rfl⟩
abbrev main_cst_19 : Ref sig .tc := ⟨.hbm, 356, rfl⟩
abbrev main_v315 : Ref sig .tc := ⟨.hbm, 357, rfl⟩
abbrev main_v316 : Ref sig .tc := ⟨.hbm, 358, rfl⟩
abbrev main_cst_20 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_v321 : Ref sig .tc := ⟨.hbm, 364, rfl⟩
abbrev main_cst_21 : Ref sig .tc := ⟨.hbm, 365, rfl⟩
abbrev main_v322 : Ref sig .tc := ⟨.hbm, 366, rfl⟩
abbrev main_v323 : Ref sig .tc := ⟨.hbm, 367, rfl⟩
abbrev main_cst_22 : Ref sig .tc := ⟨.hbm, 368, rfl⟩
abbrev main_v324 : Ref sig .tc := ⟨.hbm, 369, rfl⟩
abbrev main_v325 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_cst_23 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_call4_cst : Ref sig .tc := ⟨.hbm, 381, rfl⟩
abbrev main_call4_v0 : Ref sig .tc := ⟨.hbm, 382, rfl⟩
abbrev main_v335 : Ref sig .tc := ⟨.hbm, 383, rfl⟩
abbrev main_v336 : Ref sig .tc := ⟨.hbm, 384, rfl⟩
abbrev main_v337 : Ref sig .tc := ⟨.hbm, 385, rfl⟩
abbrev main_v338 : Ref sig .tc := ⟨.hbm, 386, rfl⟩
abbrev main_v339 : Ref sig .tc := ⟨.hbm, 387, rfl⟩
abbrev main_v340 : Ref sig .tc := ⟨.hbm, 388, rfl⟩

abbrev nD : Nat := 1
abbrev τ : Topo := Topo.v7x

variable {F : FTy → Type} [FloatOps F]

class Facts₀ : Prop where
  reducesTo_S64x96x96_S64x96_d2 : S64x96x96.ReducesTo [2] S64x96
  h_S_ : 0 < S_.numel
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S64x96x256_0_1_2 : S1x1x256.BroadcastsInDim S64x96x256 (![0, 1, 2] : Fin 3 → Fin S64x96x256.rank)
  slices_S4x256x544_S1x256x544_0_0_0 : S4x256x544.Slices ![0, 0, 0] S1x256x544
  shapeCasts_S1x256x544_S256x544 : S1x256x544.ShapeCasts S256x544
  slices_S256x544_S256x256_0_0 : S256x544.Slices ![0, 0] S256x256
  slices_S256x544_S256x256_0_256 : S256x544.Slices ![0, 256] S256x256
  slices_S256x544_S256x32_0_512 : S256x544.Slices ![0, 512] S256x32
  bcast_S64x96_S64x96x1_0_1 : S64x96.BroadcastsInDim S64x96x1 (![0, 1] : Fin 2 → Fin S64x96x1.rank)
  bcast_S64x96x1_S64x96x256_0_1_2 : S64x96x1.BroadcastsInDim S64x96x256 (![0, 1, 2] : Fin 3 → Fin S64x96x256.rank)
  bcast_S64x96x96_S64x96x96x1_0_1_2 : S64x96x96.BroadcastsInDim S64x96x96x1 (![0, 1, 2] : Fin 3 → Fin S64x96x96x1.rank)
  bcast_S64x96x96x1_S64x96x96x32_0_1_2_3 : S64x96x96x1.BroadcastsInDim S64x96x96x32 (![0, 1, 2, 3] : Fin 4 → Fin S64x96x96x32.rank)
  reducesTo_S64x96x96x32_S64x96x32_d2 : S64x96x96x32.ReducesTo [2] S64x96x32
  bcast_S_S64x96x256 : S_.BroadcastsInDim S64x96x256 (![] : Fin 0 → Fin S64x96x256.rank)
  slices_S4x768x256_S1x768x256_0_0_0 : S4x768x256.Slices ![0, 0, 0] S1x768x256
  shapeCasts_S1x768x256_S768x256 : S1x768x256.ShapeCasts S768x256
  slices_S4x768_S1x768_0_0 : S4x768.Slices ![0, 0] S1x768
  shapeCasts_S1x768_S768 : S1x768.ShapeCasts S768
  bcast_S768_S1x1x768_2 : S768.BroadcastsInDim S1x1x768 (![2] : Fin 1 → Fin S1x1x768.rank)
  bcast_S1x1x768_S64x96x768_0_1_2 : S1x1x768.BroadcastsInDim S64x96x768 (![0, 1, 2] : Fin 3 → Fin S64x96x768.rank)
  slices_S64x96x768_S64x96x256_0_0_0 : S64x96x768.Slices ![0, 0, 0] S64x96x256
  slices_S64x96x768_S64x96x256_0_0_256 : S64x96x768.Slices ![0, 0, 256] S64x96x256
  slices_S64x96x768_S64x96x256_0_0_512 : S64x96x768.Slices ![0, 0, 512] S64x96x256
  slices_S4x256x256_S1x256x256_1_0_0 : S4x256x256.Slices ![1, 0, 0] S1x256x256
  slices_S4x256_S1x256_1_0 : S4x256.Slices ![1, 0] S1x256
  slices_S4x256x544_S1x256x544_1_0_0 : S4x256x544.Slices ![1, 0, 0] S1x256x544
  slices_S4x768x256_S1x768x256_1_0_0 : S4x768x256.Slices ![1, 0, 0] S1x768x256
  slices_S4x768_S1x768_1_0 : S4x768.Slices ![1, 0] S1x768
  slices_S4x256x256_S1x256x256_2_0_0 : S4x256x256.Slices ![2, 0, 0] S1x256x256
  slices_S4x256_S1x256_2_0 : S4x256.Slices ![2, 0] S1x256
  slices_S4x256x544_S1x256x544_2_0_0 : S4x256x544.Slices ![2, 0, 0] S1x256x544
  slices_S4x768x256_S1x768x256_2_0_0 : S4x768x256.Slices ![2, 0, 0] S1x768x256
  slices_S4x768_S1x768_2_0 : S4x768.Slices ![2, 0] S1x768
  slices_S4x256x256_S1x256x256_3_0_0 : S4x256x256.Slices ![3, 0, 0] S1x256x256
  slices_S4x256_S1x256_3_0 : S4x256.Slices ![3, 0] S1x256
  slices_S4x256x544_S1x256x544_3_0_0 : S4x256x544.Slices ![3, 0, 0] S1x256x544
  slices_S4x768x256_S1x768x256_3_0_0 : S4x768x256.Slices ![3, 0, 0] S1x768x256
  slices_S4x768_S1x768_3_0 : S4x768.Slices ![3, 0] S1x768
  concatenates_S64x96x256_S64x96x256_S64x96x256_S64x96x256_S64x96x1024_d2 : Shape.Concatenates [S64x96x256, S64x96x256, S64x96x256, S64x96x256] S64x96x1024 2
  bcast_S_S64x96x1024 : S_.BroadcastsInDim S64x96x1024 (![] : Fin 0 → Fin S64x96x1024.rank)
  dot_S64x96x256_S256x256_S64x96x256_2_1_01_0_n_n_wf : DotDims.WF S64x96x256 S256x256 S64x96x256 [2] [1] [0, 1] [0] [] []
  dot_S64x96x96_S64x96x256_S64x96x256_2_1_1_2_0_0_wf : DotDims.WF S64x96x96 S64x96x256 S64x96x256 [2] [1] [1] [2] [0] [0]
  dot_S64x96x32_S256x32_S64x96x256_2_1_01_0_n_n_wf : DotDims.WF S64x96x32 S256x32 S64x96x256 [2] [1] [0, 1] [0] [] []
  dot_S64x96x256_S768x256_S64x96x768_2_1_01_0_n_n_wf : DotDims.WF S64x96x256 S768x256 S64x96x768 [2] [1] [0, 1] [0] [] []
  dot_S64x96x1024_S256x1024_S64x96x256_2_1_01_0_n_n_wf : DotDims.WF S64x96x1024 S256x1024 S64x96x256 [2] [1] [0, 1] [0] [] []

variable [Facts₀]

def dot_S64x96x256_S256x256_S64x96x256_2_1_01_0_n_n : DotDims S64x96x256 S256x256 S64x96x256 where
  lhsContracting := [2]
  rhsContracting := [1]
  lhsNonContracting := [0, 1]
  rhsNonContracting := [0]
  lhsBatch := []
  rhsBatch := []
  wf := dot_S64x96x256_S256x256_S64x96x256_2_1_01_0_n_n_wf
def dot_S64x96x96_S64x96x256_S64x96x256_2_1_1_2_0_0 : DotDims S64x96x96 S64x96x256 S64x96x256 where
  lhsContracting := [2]
  rhsContracting := [1]
  lhsNonContracting := [1]
  rhsNonContracting := [2]
  lhsBatch := [0]
  rhsBatch := [0]
  wf := dot_S64x96x96_S64x96x256_S64x96x256_2_1_1_2_0_0_wf
def dot_S64x96x32_S256x32_S64x96x256_2_1_01_0_n_n : DotDims S64x96x32 S256x32 S64x96x256 where
  lhsContracting := [2]
  rhsContracting := [1]
  lhsNonContracting := [0, 1]
  rhsNonContracting := [0]
  lhsBatch := []
  rhsBatch := []
  wf := dot_S64x96x32_S256x32_S64x96x256_2_1_01_0_n_n_wf
def dot_S64x96x256_S768x256_S64x96x768_2_1_01_0_n_n : DotDims S64x96x256 S768x256 S64x96x768 where
  lhsContracting := [2]
  rhsContracting := [1]
  lhsNonContracting := [0, 1]
  rhsNonContracting := [0]
  lhsBatch := []
  rhsBatch := []
  wf := dot_S64x96x256_S768x256_S64x96x768_2_1_01_0_n_n_wf
def dot_S64x96x1024_S256x1024_S64x96x256_2_1_01_0_n_n : DotDims S64x96x1024 S256x1024 S64x96x256 where
  lhsContracting := [2]
  rhsContracting := [1]
  lhsNonContracting := [0, 1]
  rhsNonContracting := [0]
  lhsBatch := []
  rhsBatch := []
  wf := dot_S64x96x1024_S256x1024_S64x96x256_2_1_01_0_n_n_wf

class Facts : Prop extends Facts₀ where

variable [Facts]
-- ==== Proof.KernelRun.lean ====
import proofs.«156658_j36309653520739_2_alg».proof.Proof.Gen.KernelIdeal.Frame

/-!
# The idealized kernel's run, with its result named

The program is two kernel regions among three stretches of host operations. Its run is the composition of the
segments; the buffer contents after the last segment are the fold `W4` of the segments from the launch memory.
The frame claim reads the argument arrays out of that fold; here the result array is read out of it as well:
every weakly fair execution terminates with the result buffer at `W4 … main_v21` and the arguments unchanged.
-/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer holding what the
    last host stretch leaves (`W4`) and the argument arrays as launched. -/
theorem run_result : θ_run defs (onTc (τ := τ) (main (F := F))) ⟨m, fun _ => 0, ρ⟩ (fun r => ∀ c : Dev nD,
      r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.KRun

end
-- ==== Proof.KernelGlue.lean ====
import proofs.«156658_j36309653520739_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Glue

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat)

variable (m : (ℓ : Loc nD τ sig) → Buf (Elt Ideal) ℓ) (ρ : Dev nD → PrngReg)

/-! # What the second region finds in its input arrays, and the result read off its output array

The host operations between the two regions are transposes of the weight matrices' last two axes, slices of the
second linear map's 544 input columns into its three blocks, changes of format (the identity on extended reals) and
two reshapes that merge the graph and node axes into one row axis: row `r` is node `r % 96` of graph `r / 96`.
Each lemma reads one of the arrays at an index as one argument array at an index. The operation after the second
region is the reshape that splits the row axis again. -/

/-! ## Arrays no host operation writes -/

/-- The host operations between the regions write no argument array: such an array is as the first region left it. -/
theorem W2_of_not_written (c : Dev nD) (b : Ref sig .tc)
    (h1 : ∀ op ∈ (hostOps1 : List (HloOp τ sig (Elt Ideal))), (Proc.devRef .tc b : DevRef τ sig) ∉ op.writes) :
    W2 m ρ c (Proc.devRef .tc b) = W1 m ρ c (Proc.devRef .tc b) :=
  StableHlo.after_of_forall_not_mem (b := Proc.devRef .tc b) _ _ h1

/-- The adjacency array, an input of both regions, is as launched. -/
theorem V2_arg2 (c : Dev nD) : V2 m ρ c main_arg2 = m ((c : Thread nD τ).loc main_arg2) :=
  (W2_of_not_written m ρ c main_arg2 (List.forall_iff_forall_mem.mp (by
      simp only [hostOps1, List.Forall, StableHlo.unary_writes, StableHlo.reshape_writes, Finset.mem_singleton]
      repeat' apply And.intro
      all_goals exact StableHlo.devRef_ne_of_ne (by decide)))).trans
    ((W1_arr m ρ c 1).trans (((dat0 (V0 m ρ) c).arrAt_in 1 rfl _).trans (A_eq0 (V0 m ρ) c 1)))
theorem V2_arg4 (c : Dev nD) : V2 m ρ c main_arg4 = m ((c : Thread nD τ).loc main_arg4) :=
  (W2_of_not_written m ρ c main_arg4 (List.forall_iff_forall_mem.mp (by
      simp only [hostOps1, List.Forall, StableHlo.unary_writes, StableHlo.reshape_writes, Finset.mem_singleton]
      repeat' apply And.intro
      all_goals exact StableHlo.devRef_ne_of_ne (by decide)))).trans (W1_of_ne m ρ c main_arg4 (by decide))
theorem V2_arg6 (c : Dev nD) : V2 m ρ c main_arg6 = m ((c : Thread nD τ).loc main_arg6) :=
  (W2_of_not_written m ρ c main_arg6 (List.forall_iff_forall_mem.mp (by
      simp only [hostOps1, List.Forall, StableHlo.unary_writes, StableHlo.reshape_writes, Finset.mem_singleton]
      repeat' apply And.intro
      all_goals exact StableHlo.devRef_ne_of_ne (by decide)))).trans (W1_of_ne m ρ c main_arg6 (by decide))
theorem V2_arg9 (c : Dev nD) : V2 m ρ c main_arg9 = m ((c : Thread nD τ).loc main_arg9) :=
  (W2_of_not_written m ρ c main_arg9 (List.forall_iff_forall_mem.mp (by
      simp only [hostOps1, List.Forall, StableHlo.unary_writes, StableHlo.reshape_writes, Finset.mem_singleton]
      repeat' apply And.intro
      all_goals exact StableHlo.devRef_ne_of_ne (by decide)))).trans (W1_of_ne m ρ c main_arg9 (by decide))
theorem V2_arg10 (c : Dev nD) : V2 m ρ c main_arg10 = m ((c : Thread nD τ).loc main_arg10) :=
  (W2_of_not_written m ρ c main_arg10 (List.forall_iff_forall_mem.mp (by
      simp only [hostOps1, List.Forall, StableHlo.unary_writes, StableHlo.reshape_writes, Finset.mem_singleton]
      repeat' apply And.intro
      all_goals exact StableHlo.devRef_ne_of_ne (by decide)))).trans (W1_of_ne m ρ c main_arg10 (by decide))
theorem V2_arg12 (c : Dev nD) : V2 m ρ c main_arg12 = m ((c : Thread nD τ).loc main_arg12) :=
  (W2_of_not_written m ρ c main_arg12 (List.forall_iff_forall_mem.mp (by
      simp only [hostOps1, List.Forall, StableHlo.unary_writes, StableHlo.reshape_writes, Finset.mem_singleton]
      repeat' apply And.intro
      all_goals exact StableHlo.devRef_ne_of_ne (by decide)))).trans (W1_of_ne m ρ c main_arg12 (by decide))

/-! ## The arrays the host operations write, as terms of the argument arrays -/

theorem V2_v18_eq (c : Dev nD) : (V2 m ρ c main_v18 : S6144x256.Idx → EReal)
    = shapeCast S6144x256 (m ((c : Thread nD τ).loc main_arg0) : S64x96x256.Idx → EReal) shapeCasts_S64x96x256_S6144x256 := by
  show StableHlo.after hostOps1 (W1 m ρ c) (Proc.devRef .tc main_v18) = _
  after_results
  rw [W1_of_ne m ρ c main_arg0 (by decide)]
  rfl

/-- Row `r` of the merged node array is node `r % 96` of graph `r / 96`. -/
theorem V2_v18_apply (c : Dev nD) (r : Fin 6144) (i : Fin 256) :
    (V2 m ρ c main_v18 : S6144x256.Idx → EReal) (ix2 r i)
      = (m ((c : Thread nD τ).loc main_arg0) : S64x96x256.Idx → EReal) (ix3 ⟨r.val / 96, by have := r.isLt; omega⟩ ⟨r.val % 96, Nat.mod_lt _ (by decide)⟩ i) := by
  rw [V2_v18_eq]
  refine shapeCast_apply _ _ (ix2 r i) (ix3 ⟨r.val / 96, by have := r.isLt; omega⟩ ⟨r.val % 96, Nat.mod_lt _ (by decide)⟩ i) ?_
  rw [Shape.rowMajor_val_two, Shape.rowMajor_val_three]
  show (r.val / 96 * 96 + r.val % 96) * 256 + i.val = r.val * 256 + i.val
  omega

theorem V2_v2_eq (c : Dev nD) : (V2 m ρ c main_v2 : S4x256x256.Idx → EReal)
    = transpose S4x256x256 [0, 2, 1] (m ((c : Thread nD τ).loc main_arg3) : S4x256x256.Idx → EReal) transposes_S4x256x256_S4x256x256_0_2_1 := by
  show StableHlo.after hostOps1 (W1 m ρ c) (Proc.devRef .tc main_v2) = _
  after_results
  rw [W1_of_ne m ρ c main_arg3 (by decide)]
  rfl

/-- The first linear map's matrix arrives with its last two axes exchanged. -/
theorem V2_v2_apply (c : Dev nD) (h : Fin 4) (i : Fin 256) (o : Fin 256) :
    (V2 m ρ c main_v2 : S4x256x256.Idx → EReal) (ix3 h i o) = (m ((c : Thread nD τ).loc main_arg3) : S4x256x256.Idx → EReal) (ix3 h o i) := by
  rw [V2_v2_eq]
  exact transpose_apply _ _ _ (ix3 h i o) (ix3 h o i) fun b => by
    match b with | ⟨0, _⟩ => rfl | ⟨1, _⟩ => rfl | ⟨2, _⟩ => rfl

theorem V2_v5_eq (c : Dev nD) : (V2 m ρ c main_v5 : S4x256x256.Idx → EReal)
    = transpose S4x256x256 [0, 2, 1] (extractStridedSlice S4x256x256 ![0, 0, 0] (m ((c : Thread nD τ).loc main_arg5) : S4x256x544.Idx → EReal) slices_S4x256x544_S4x256x256_0_0_0) transposes_S4x256x256_S4x256x256_0_2_1 := by
  show StableHlo.after hostOps1 (W1 m ρ c) (Proc.devRef .tc main_v5) = _
  after_results
  rw [W1_of_ne m ρ c main_arg5 (by decide)]
  rfl

/-- The target block of the second linear map: input columns 0 … 255, the last two axes exchanged. -/
theorem V2_v5_apply (c : Dev nD) (h : Fin 4) (i : Fin 256) (k : Fin 256) :
    (V2 m ρ c main_v5 : S4x256x256.Idx → EReal) (ix3 h i k)
      = (m ((c : Thread nD τ).loc main_arg5) : S4x256x544.Idx → EReal) (ix3 h k ⟨0 + i.val, by have := i.isLt; omega⟩) := by
  rw [V2_v5_eq]
  refine (transpose_apply _ _ _ (ix3 h i k) (ix3 h k i) fun b => by
    match b with | ⟨0, _⟩ => rfl | ⟨1, _⟩ => rfl | ⟨2, _⟩ => rfl).trans ?_
  exact extractStridedSlice_apply _ _ _ (ix3 h k i) (ix3 h k ⟨0 + i.val, by have := i.isLt; omega⟩) fun a => by
    match a with
    | ⟨0, _⟩ => exact (Nat.zero_add _).symm
    | ⟨1, _⟩ => exact (Nat.zero_add _).symm
    | ⟨2, _⟩ => rfl

theorem V2_v8_eq (c : Dev nD) : (V2 m ρ c main_v8 : S4x256x256.Idx → EReal)
    = transpose S4x256x256 [0, 2, 1] (extractStridedSlice S4x256x256 ![0, 0, 256] (m ((c : Thread nD τ).loc main_arg5) : S4x256x544.Idx → EReal) slices_S4x256x544_S4x256x256_0_0_256) transposes_S4x256x256_S4x256x256_0_2_1 := by
  show StableHlo.after hostOps1 (W1 m ρ c) (Proc.devRef .tc main_v8) = _
  after_results
  rw [W1_of_ne m ρ c main_arg5 (by decide)]
  rfl

/-- The neighbour block: input columns 256 … 511. -/
theorem V2_v8_apply (c : Dev nD) (h : Fin 4) (i : Fin 256) (k : Fin 256) :
    (V2 m ρ c main_v8 : S4x256x256.Idx → EReal) (ix3 h i k)
      = (m ((c : Thread nD τ).loc main_arg5) : S4x256x544.Idx → EReal) (ix3 h k ⟨256 + i.val, by have := i.isLt; omega⟩) := by
  rw [V2_v8_eq]
  refine (transpose_apply _ _ _ (ix3 h i k) (ix3 h k i) fun b => by
    match b with | ⟨0, _⟩ => rfl | ⟨1, _⟩ => rfl | ⟨2, _⟩ => rfl).trans ?_
  exact extractStridedSlice_apply _ _ _ (ix3 h k i) (ix3 h k ⟨256 + i.val, by have := i.isLt; omega⟩) fun a => by
    match a with
    | ⟨0, _⟩ => exact (Nat.zero_add _).symm
    | ⟨1, _⟩ => exact (Nat.zero_add _).symm
    | ⟨2, _⟩ => rfl

theorem V2_v11_eq (c : Dev nD) : (V2 m ρ c main_v11 : S4x32x256.Idx → EReal)
    = transpose S4x32x256 [0, 2, 1] (extractStridedSlice S4x256x32 ![0, 0, 512] (m ((c : Thread nD τ).loc main_arg5) : S4x256x544.Idx → EReal) slices_S4x256x544_S4x256x32_0_0_512) transposes_S4x256x32_S4x32x256_0_2_1 := by
  show StableHlo.after hostOps1 (W1 m ρ c) (Proc.devRef .tc main_v11) = _
  after_results
  rw [W1_of_ne m ρ c main_arg5 (by decide)]
  rfl

/-- The edge block: input columns 512 … 543. -/
theorem V2_v11_apply (c : Dev nD) (h : Fin 4) (i : Fin 32) (k : Fin 256) :
    (V2 m ρ c main_v11 : S4x32x256.Idx → EReal) (ix3 h i k)
      = (m ((c : Thread nD τ).loc main_arg5) : S4x256x544.Idx → EReal) (ix3 h k ⟨512 + i.val, by have := i.isLt; omega⟩) := by
  rw [V2_v11_eq]
  refine (transpose_apply _ _ _ (ix3 h i k) (ix3 h k i) fun b => by
    match b with | ⟨0, _⟩ => rfl | ⟨1, _⟩ => rfl | ⟨2, _⟩ => rfl).trans ?_
  exact extractStridedSlice_apply _ _ _ (ix3 h k i) (ix3 h k ⟨512 + i.val, by have := i.isLt; omega⟩) fun a => by
    match a with
    | ⟨0, _⟩ => exact (Nat.zero_add _).symm
    | ⟨1, _⟩ => exact (Nat.zero_add _).symm
    | ⟨2, _⟩ => rfl

theorem V2_v13_eq (c : Dev nD) : (V2 m ρ c main_v13 : S4x256x768.Idx → EReal)
    = transpose S4x256x768 [0, 2, 1] (m ((c : Thread nD τ).loc main_arg7) : S4x768x256.Idx → EReal) transposes_S4x768x256_S4x256x768_0_2_1 := by
  show StableHlo.after hostOps1 (W1 m ρ c) (Proc.devRef .tc main_v13) = _
  after_results
  rw [W1_of_ne m ρ c main_arg7 (by decide)]
  rfl

/-- The recurrent cell's input matrix, the last two axes exchanged. -/
theorem V2_v13_apply (c : Dev nD) (h : Fin 4) (i : Fin 256) (o : Fin 768) :
    (V2 m ρ c main_v13 : S4x256x768.Idx → EReal) (ix3 h i o) = (m ((c : Thread nD τ).loc main_arg7) : S4x768x256.Idx → EReal) (ix3 h o i) := by
  rw [V2_v13_eq]
  exact transpose_apply _ _ _ (ix3 h i o) (ix3 h o i) fun b => by
    match b with | ⟨0, _⟩ => rfl | ⟨1, _⟩ => rfl | ⟨2, _⟩ => rfl

theorem V2_v15_eq (c : Dev nD) : (V2 m ρ c main_v15 : S4x256x768.Idx → EReal)
    = transpose S4x256x768 [0, 2, 1] (m ((c : Thread nD τ).loc main_arg8) : S4x768x256.Idx → EReal) transposes_S4x768x256_S4x256x768_0_2_1 := by
  show StableHlo.after hostOps1 (W1 m ρ c) (Proc.devRef .tc main_v15) = _
  after_results
  rw [W1_of_ne m ρ c main_arg8 (by decide)]
  rfl

/-- The recurrent cell's state matrix, the last two axes exchanged. -/
theorem V2_v15_apply (c : Dev nD) (h : Fin 4) (i : Fin 256) (o : Fin 768) :
    (V2 m ρ c main_v15 : S4x256x768.Idx → EReal) (ix3 h i o) = (m ((c : Thread nD τ).loc main_arg8) : S4x768x256.Idx → EReal) (ix3 h o i) := by
  rw [V2_v15_eq]
  exact transpose_apply _ _ _ (ix3 h i o) (ix3 h o i) fun b => by
    match b with | ⟨0, _⟩ => rfl | ⟨1, _⟩ => rfl | ⟨2, _⟩ => rfl

theorem V2_v17_eq (c : Dev nD) : (V2 m ρ c main_v17 : S1024x256.Idx → EReal)
    = transpose S1024x256 [1, 0] (m ((c : Thread nD τ).loc main_arg11) : S256x1024.Idx → EReal) transposes_S256x1024_S1024x256_1_0 := by
  show StableHlo.after hostOps1 (W1 m ρ c) (Proc.devRef .tc main_v17) = _
  after_results
  rw [W1_of_ne m ρ c main_arg11 (by decide)]
  rfl

/-- The output projection's matrix, transposed. -/
theorem V2_v17_apply (c : Dev nD) (k : Fin 1024) (o : Fin 256) :
    (V2 m ρ c main_v17 : S1024x256.Idx → EReal) (ix2 k o) = (m ((c : Thread nD τ).loc main_arg11) : S256x1024.Idx → EReal) (ix2 o k) := by
  rw [V2_v17_eq]
  exact transpose_apply _ _ _ (ix2 k o) (ix2 o k) fun b => by
    match b with | ⟨0, _⟩ => rfl | ⟨1, _⟩ => rfl

theorem V2_v19_eq (c : Dev nD) : (V2 m ρ c main_v19 : S6144x32.Idx → EReal)
    = shapeCast S6144x32 ((dat0 (V0 m ρ) c).arrAt 2 cfg0.N : S64x96x32.Idx → EReal) shapeCasts_S64x96x32_S6144x32 := by
  show StableHlo.after hostOps1 (W1 m ρ c) (Proc.devRef .tc main_v19) = _
  after_results
  rw [← W1_arr m ρ c 2]
  rfl

/-- Row `r` of the merged array of masked edge sums is node `r % 96` of graph `r / 96` of the first region's array. -/
theorem V2_v19_apply (c : Dev nD) (r : Fin 6144) (e : Fin 32) :
    (V2 m ρ c main_v19 : S6144x32.Idx → EReal) (ix2 r e)
      = ((dat0 (V0 m ρ) c).arrAt 2 cfg0.N : S64x96x32.Idx → EReal) (ix3 ⟨r.val / 96, by have := r.isLt; omega⟩ ⟨r.val % 96, Nat.mod_lt _ (by decide)⟩ e) := by
  rw [V2_v19_eq]
  refine shapeCast_apply _ _ (ix2 r e) (ix3 ⟨r.val / 96, by have := r.isLt; omega⟩ ⟨r.val % 96, Nat.mod_lt _ (by decide)⟩ e) ?_
  rw [Shape.rowMajor_val_two, Shape.rowMajor_val_three]
  show (r.val / 96 * 96 + r.val % 96) * 32 + e.val = r.val * 32 + e.val
  omega

/-! ## The result -/

theorem W4_v21_eq (c : Dev nD) : (W4 m ρ c (Proc.devRef .tc main_v21) : S64x96x256.Idx → EReal)
    = shapeCast S64x96x256 ((dat1 (V2 m ρ) c).arrAt 15 cfg1.N : S6144x256.Idx → EReal) shapeCasts_S6144x256_S64x96x256 := by
  show StableHlo.after hostOps2 (W3 m ρ c) (Proc.devRef .tc main_v21) = _
  after_results
  rw [← W3_arr m ρ c 15]
  rfl

/-- The result at graph `b`, node `v` is row `96 b + v` of the second region's output array. -/
theorem result_apply (c : Dev nD) (b : Fin 64) (v : Fin 96) (o : Fin 256) :
    (W4 m ρ c (Proc.devRef .tc main_v21) : S64x96x256.Idx → EReal) (ix3 b v o)
      = ((dat1 (V2 m ρ) c).arrAt 15 cfg1.N : S6144x256.Idx → EReal) (ix2 ⟨96 * b.val + v.val, by have := b.isLt; have := v.isLt; omega⟩ o) := by
  rw [W4_v21_eq]
  refine shapeCast_apply _ _ (ix3 b v o) (ix2 ⟨96 * b.val + v.val, by have := b.isLt; have := v.isLt; omega⟩ o) ?_
  rw [Shape.rowMajor_val_two, Shape.rowMajor_val_three]
  show (96 * b.val + v.val) * 256 + o.val = (b.val * 96 + v.val) * 256 + o.val
  omega

end Cert.KernelIdeal.Glue
end
-- ==== Proof.Spec.lean ====
import Idealize.ShloMosaic.PureOps.Ideal
import Idealize.ShloMosaic.Lib.ValueIdx
import Idealize.ShloMosaic.Lib.IdealHost

/-!
# One message-passing layer with a gated recurrent update, for one graph of the batch

All of the layer's arithmetic is local to one graph: a graph has 96 nodes with 256 features each, a 0/1
adjacency matrix `A v w`, and 32 edge features `E v w e` per ordered pair. This module states, on the extended
reals, what one attention head computes for one graph, and how the four heads are joined:

* `deg v = 0 + Σ_w A v w` — the number of neighbours of `v`;
* `hv v o = Σ_i X v i · W1 o i + b1 o` — the first linear map;
* `tv v m = Σ_i hv v i · Wa m i`, `tw v m = Σ_i hv v i · Wb m i` — the target and the neighbour terms;
* `nb v m = Σ_w A v w · tw w m` — the neighbour sum;
* `ew v e = 0 + Σ_w E v w e · A v w` — the masked sum of edge features, and `em v m = Σ_e ew v e · Wc m e`;
* `msg v m = max (((tv v m · deg v + nb v m) + em v m) + b2 m · deg v) 0`;
* the gated recurrent cell with input `msg` and state `X`, gates in the order reset, update, candidate;
* the output `X v o + (Σ_k max (cat v k) 0 · Wout o k + bout o)`, `cat` the four heads side by side.

The additions and products are written in exactly the grouping both programs use, so no law of the extended
reals beyond reading a sum at an index is needed to meet either program.
-/

noncomputable section

namespace Cert.Spec

open Idealize.ShloMosaic

/-- The float word of zero and of one, as extended reals. -/
abbrev w0 : EReal := Ideal.ofBits .f32 0x00000000#32
abbrev w1 : EReal := Ideal.ofBits .f32 0x3F800000#32

/-- One head's parameters, every matrix in the orientation "output index first". -/
structure Head where
  W1 : Fin 256 → Fin 256 → EReal
  b1 : Fin 256 → EReal
  Wa : Fin 256 → Fin 256 → EReal
  Wb : Fin 256 → Fin 256 → EReal
  Wc : Fin 256 → Fin 32 → EReal
  b2 : Fin 256 → EReal
  Wih : Fin 768 → Fin 256 → EReal
  Whh : Fin 768 → Fin 256 → EReal
  bih : Fin 768 → EReal
  bhh : Fin 768 → EReal

/-- The three gate blocks of a 768-wide row: columns `o`, `256 + o`, `512 + o`. -/
abbrev g0 (o : Fin 256) : Fin 768 := ⟨o.val, by have := o.isLt; omega⟩
abbrev g1 (o : Fin 256) : Fin 768 := ⟨256 + o.val, by have := o.isLt; omega⟩
abbrev g2 (o : Fin 256) : Fin 768 := ⟨512 + o.val, by have := o.isLt; omega⟩

section OneGraph

variable (X : Fin 96 → Fin 256 → EReal) (A : Fin 96 → Fin 96 → EReal)

/-- The number of neighbours, summed from the zero word. -/
def deg (v : Fin 96) : EReal := w0 + ∑ w : Fin 96, A v w

/-- The masked sum of the edge features over the neighbours. -/
def ew (E : Fin 96 → Fin 96 → Fin 32 → EReal) (v : Fin 96) (e : Fin 32) : EReal := w0 + ∑ w : Fin 96, E v w e * A v w

-- From here on the masked edge sum is a parameter `EW v e`: one program computes it in a stage of its own.
variable (EW : Fin 96 → Fin 32 → EReal) (H : Head)

def hv (v : Fin 96) (o : Fin 256) : EReal := (∑ i : Fin 256, X v i * H.W1 o i) + H.b1 o

def tv (v : Fin 96) (m : Fin 256) : EReal := ∑ i : Fin 256, hv X H v i * H.Wa m i

def tw (v : Fin 96) (m : Fin 256) : EReal := ∑ i : Fin 256, hv X H v i * H.Wb m i

def nb (v : Fin 96) (m : Fin 256) : EReal := ∑ w : Fin 96, A v w * tw X H w m

def em (v : Fin 96) (m : Fin 256) : EReal := ∑ e : Fin 32, EW v e * H.Wc m e

def msg (v : Fin 96) (m : Fin 256) : EReal :=
  max (((tv X H v m * deg A v + nb X A H v m) + em EW H v m) + H.b2 m * deg A v) w0

def gi (v : Fin 96) (o : Fin 768) : EReal := (∑ m : Fin 256, msg X A EW H v m * H.Wih o m) + H.bih o

def gh (v : Fin 96) (o : Fin 768) : EReal := (∑ n : Fin 256, X v n * H.Whh o n) + H.bhh o

/-- The logistic function spelt with the float word of one: `1 / (1 + e^(-x))`. -/
def sig (x : EReal) : EReal := Ideal.div w1 (w1 + Ideal.exp (-x))

def rgate (v : Fin 96) (o : Fin 256) : EReal := sig (gi X A EW H v (g0 o) + gh X H v (g0 o))

def zgate (v : Fin 96) (o : Fin 256) : EReal := sig (gi X A EW H v (g1 o) + gh X H v (g1 o))

def cand (v : Fin 96) (o : Fin 256) : EReal :=
  Ideal.tanh (gi X A EW H v (g2 o) + rgate X A EW H v o * gh X H v (g2 o))

/-- One head's new node state. -/
def head (v : Fin 96) (o : Fin 256) : EReal :=
  (w1 - zgate X A EW H v o) * cand X A EW H v o + zgate X A EW H v o * X v o

/-- The four heads side by side: column `k` of the 1024-wide row is column `k % 256` of head `k / 256`. -/
def cat (Hs : Fin 4 → Head) (v : Fin 96) (k : Fin 1024) : EReal :=
  head X A EW (Hs ⟨k.val / 256, by have := k.isLt; omega⟩) v ⟨k.val % 256, Nat.mod_lt _ (by decide)⟩

/-- The layer's output for one graph: the node state plus the projection of the rectified heads. -/
def out (Hs : Fin 4 → Head) (Wout : Fin 256 → Fin 1024 → EReal) (bout : Fin 256 → EReal) (v : Fin 96) (o : Fin 256) : EReal :=
  X v o + ((∑ k : Fin 1024, max (cat X A EW Hs v k) w0 * Wout o k) + bout o)

end OneGraph

/-! ## The layer over the argument arrays -/

section Arrays

open Idealize.ShloMosaic.ValueIdx

variable (nodes : (⟨3, ![64, 96, 256]⟩ : Shape).Idx → EReal) (edges : (⟨4, ![64, 96, 96, 32]⟩ : Shape).Idx → EReal)
  (adj : (⟨3, ![64, 96, 96]⟩ : Shape).Idx → BitVec 32)
  (W1 : (⟨3, ![4, 256, 256]⟩ : Shape).Idx → EReal) (b1 : (⟨2, ![4, 256]⟩ : Shape).Idx → EReal)
  (W2 : (⟨3, ![4, 256, 544]⟩ : Shape).Idx → EReal) (b2 : (⟨2, ![4, 256]⟩ : Shape).Idx → EReal)
  (Wih Whh : (⟨3, ![4, 768, 256]⟩ : Shape).Idx → EReal) (bih bhh : (⟨2, ![4, 768]⟩ : Shape).Idx → EReal)
  (Wout : (⟨2, ![256, 1024]⟩ : Shape).Idx → EReal) (bout : (⟨1, ![256]⟩ : Shape).Idx → EReal)

/-- Graph `b`'s node states, its adjacency matrix as floats, and its edge features. -/
def nodesOf (b : Fin 64) : Fin 96 → Fin 256 → EReal := fun v i => nodes (ix3 b v i)
def adjOf (b : Fin 64) : Fin 96 → Fin 96 → EReal := fun v w => FloatOps.sitofp (F := Ideal) .f32 (adj (ix3 b v w))
def edgesOf (b : Fin 64) : Fin 96 → Fin 96 → Fin 32 → EReal := fun v w e => edges (ix4 b v w e)

/-- Head `h`'s parameters read off the stacked arrays; the second linear map's 544 input columns are the
    target block (0 … 255), the neighbour block (256 … 511) and the edge block (512 … 543). -/
def headOf (h : Fin 4) : Head where
  W1 := fun o i => W1 (ix3 h o i)
  b1 := fun o => b1 (ix2 h o)
  Wa := fun m i => W2 (ix3 h m ⟨i.val, by have := i.isLt; omega⟩)
  Wb := fun m i => W2 (ix3 h m ⟨256 + i.val, by have := i.isLt; omega⟩)
  Wc := fun m e => W2 (ix3 h m ⟨512 + e.val, by have := e.isLt; omega⟩)
  b2 := fun m => b2 (ix2 h m)
  Wih := fun o m => Wih (ix3 h o m)
  Whh := fun o n => Whh (ix3 h o n)
  bih := fun o => bih (ix2 h o)
  bhh := fun o => bhh (ix2 h o)

/-- The masked edge sum of graph `b`. -/
def ewOf (b : Fin 64) : Fin 96 → Fin 32 → EReal := ew (adjOf adj b) (edgesOf edges b)

/-- The layer's result at graph `b`, node `v`, feature `o`. -/
def result (b : Fin 64) (v : Fin 96) (o : Fin 256) : EReal :=
  out (nodesOf nodes b) (adjOf adj b) (ewOf edges adj b) (headOf W1 b1 W2 b2 Wih Whh bih bhh)
    (fun o k => Wout (ix2 o k)) (fun o => bout (ix1 o)) v o

end Arrays

/-- The word of one is the extended real one, so `sig` is the logistic function. -/
theorem sig_eq_logistic (x : EReal) : sig x = Ideal.logistic x := by
  unfold sig Ideal.logistic
  rw [show w1 = (1 : EReal) from Ideal.ofBits_one_f32]

end Cert.Spec

end
-- ==== Proof.Region0.lean ====
import proofs.«156658_j36309653520739_2_alg».proof.Proof.Gen.KernelIdeal.Frame
import proofs.«156658_j36309653520739_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat)
open scoped BigOperators

variable (m : (ℓ : Loc nD τ sig) → Buf (Elt Ideal) ℓ) (ρ : Dev nD → PrngReg)

/-! # The first region: the masked sum of the edge features

Each grid point takes two graphs: it multiplies every edge feature by the adjacency entry read as a float and sums
over the neighbour axis. What a point writes back is therefore its block of ONE function of the two argument arrays,
and the 32 blocks tile the result array: the array ends holding that function, which is the specification's masked
edge sum (the zero word it starts from is the extended real zero). -/

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The body's payload at an index of its block: the sum over the neighbour axis of edge feature times adjacency entry. -/
theorem pay_apply (x1 : Vec Ideal S2x96x96 .i32) (x0 : Vec Ideal S2x96x96x32 .f32) (g : Fin 2) (v : Fin 96) (e : Fin 32) :
    k0_pay1 (F := Ideal) x1 x0 (ix3 g v e)
      = ∑ w : Fin 96, x0 (ix4 g v w e) * FloatOps.sitofp (F := Ideal) .f32 (x1 (ix3 g v w)) := by
  unfold k0_pay1
  refine (Ideal.multiReduction_add_single _ _ _ _ _ (ix3 g v e)).trans ?_
  refine Finset.sum_congr rfl fun (w : Fin 96) _ => ?_
  rw [mulf_apply]
  have hl : reduces_S2x96x96x32_S2x96x32.lift (ix3 g v e) w = ix4 g v w e := by
    funext a; apply Fin.ext
    match a with | ⟨0, _⟩ => rfl | ⟨1, _⟩ => rfl | ⟨2, _⟩ => rfl | ⟨3, _⟩ => rfl
  rw [hl]
  refine congrArg (x0 (ix4 g v w e) * ·) ?_
  refine (broadcastTo_apply _ _ (ix4 g v w e) (ix4 g v w (0 : Fin 1)) fun a => by
    match a with | ⟨0, _⟩ => rfl | ⟨1, _⟩ => rfl | ⟨2, _⟩ => rfl | ⟨3, _⟩ => rfl).trans ?_
  refine (shapeCast_apply _ _ (ix4 g v w (0 : Fin 1)) (ix3 g v w) ?_).trans rfl
  rw [Shape.rowMajor_val_three, Shape.rowMajor_val_four]
  show (g.val * 96 + v.val) * 96 + w.val = ((g.val * 96 + v.val) * 96 + w.val) * 1 + 0
  omega

/-- The grid has 32 points. -/
theorem point_lt (t : Fin cfg0.N) : t.val < 32 := by
  have h : t.val < grid0.N := t.isLt
  rw [N_0] at h
  exact h

/-- The index maps, decided over the grid: at point `t` every window is at block `t` of its leading axis and block 0 of
    the others. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The edge-feature block at point `t` is graphs `2 t` and `2 t + 1` of the argument. -/
theorem edges_blk (c : Dev nD) (t : Fin cfg0.N) (g : Fin 2) (v w : Fin 96) (e : Fin 32) :
    (iblk0 (V0 m ρ) c 0 t : S2x96x96x32.Idx → EReal) (ix4 g v w e)
      = (m ((c : Thread nD τ).loc main_arg1) : S64x96x96x32.Idx → EReal) (ix4 ⟨t.val * 2 + g.val, by have := point_lt t; have := g.isLt; omega⟩ v w e) := by
  obtain ⟨e0, e1, e2, e3, -⟩ := idx_facts t
  unfold iblk0
  rw [View.read_apply]
  show m ((c : Thread nD τ).loc main_arg1) _ = m ((c : Thread nD τ).loc main_arg1) _
  congr 1
  funext a; apply Fin.ext
  match a with
  | ⟨0, _⟩ => show win0_0.index t (0 : Fin 4) * 2 + 1 * g.val = t.val * 2 + g.val; rw [e0]; omega
  | ⟨1, _⟩ => show win0_0.index t (1 : Fin 4) * 96 + 1 * v.val = v.val; rw [e1]; omega
  | ⟨2, _⟩ => show win0_0.index t (2 : Fin 4) * 96 + 1 * w.val = w.val; rw [e2]; omega
  | ⟨3, _⟩ => show win0_0.index t (3 : Fin 4) * 32 + 1 * e.val = e.val; rw [e3]; omega

/-- The adjacency block at point `t` likewise. -/
theorem adj_blk (c : Dev nD) (t : Fin cfg0.N) (g : Fin 2) (v w : Fin 96) :
    (iblk0 (V0 m ρ) c 1 t : S2x96x96.Idx → BitVec 32) (ix3 g v w)
      = (m ((c : Thread nD τ).loc main_arg2) : S64x96x96.Idx → BitVec 32) (ix3 ⟨t.val * 2 + g.val, by have := point_lt t; have := g.isLt; omega⟩ v w) := by
  obtain ⟨-, -, -, -, e0, e1, e2, -⟩ := idx_facts t
  unfold iblk0
  rw [View.read_apply]
  show m ((c : Thread nD τ).loc main_arg2) _ = m ((c : Thread nD τ).loc main_arg2) _
  congr 1
  funext a; apply Fin.ext
  match a with
  | ⟨0, _⟩ => show win0_1.index t (0 : Fin 3) * 2 + 1 * g.val = t.val * 2 + g.val; rw [e0]; omega
  | ⟨1, _⟩ => show win0_1.index t (1 : Fin 3) * 96 + 1 * v.val = v.val; rw [e1]; omega
  | ⟨2, _⟩ => show win0_1.index t (2 : Fin 3) * 96 + 1 * w.val = w.val; rw [e2]; omega

/-- The masked edge sum as one function of the two argument arrays. -/
abbrev G (c : Dev nD) : S64x96x32.Idx → EReal := fun i =>
  Cert.Spec.ewOf (m ((c : Thread nD τ).loc main_arg1) : S64x96x96x32.Idx → EReal) (m ((c : Thread nD τ).loc main_arg2) : S64x96x96.Idx → BitVec 32) (i 0) (i 1) (i 2)

/-- At graph `b`, node `v`, feature `e`: the zero word plus the sum over the neighbours of edge feature times adjacency entry. -/
theorem G_apply (c : Dev nD) (b : Fin 64) (v : Fin 96) (e : Fin 32) :
    G m c (ix3 b v e) = Cert.Spec.w0 + ∑ w : Fin 96,
      Cert.Spec.edgesOf (m ((c : Thread nD τ).loc main_arg1) : S64x96x96x32.Idx → EReal) b v w e
        * Cert.Spec.adjOf (m ((c : Thread nD τ).loc main_arg2) : S64x96x96.Idx → BitVec 32) b v w := rfl

/-- What point `t` writes back is block `t` of the masked edge sum. -/
theorem flushed_eq (c : Dev nD) (t : Fin cfg0.N) :
    (dat0 (V0 m ρ) c).flushed 2 t = ((cfg0.win 2).blk t).view.read (Elt Ideal) (G m c) := by
  show (cfg0.win 2).cut (grid0.coords t) ((dat0 (V0 m ρ) c).after 2 t) = _
  rw [after0_2]
  unfold out0_2
  rw [View.canon_unit_zero zero3]
  simp only [View.ld_unit_zero (S := S2x96x96) zero3, View.ld_unit_zero (S := S2x96x96x32) zero4]
  obtain ⟨-, -, -, -, -, -, -, e0, e1, e2⟩ := idx_facts t
  show (k0_pay1 (F := Ideal) (iblk0 (V0 m ρ) c 1 t) (iblk0 (V0 m ρ) c 0 t) : S2x96x32.Idx → EReal)
    = fun j => G m c (((cfg0.win 2).blk t).view.emb j)
  funext j
  obtain ⟨g, v, e, rfl⟩ : ∃ (g : Fin 2) (v : Fin 96) (e : Fin 32), j = ix3 g v e := ⟨j 0, j 1, j 2, eq_ix3 j⟩
  rw [pay_apply]
  have hi : ((cfg0.win 2).blk t).view.emb (ix3 g v e)
      = (ix3 ⟨t.val * 2 + g.val, by have := point_lt t; have := g.isLt; omega⟩ v e : S64x96x32.Idx) := by
    funext a; apply Fin.ext
    match a with
    | ⟨0, _⟩ => show win0_2.index t (0 : Fin 3) * 2 + 1 * g.val = t.val * 2 + g.val; rw [e0]; omega
    | ⟨1, _⟩ => show win0_2.index t (1 : Fin 3) * 96 + 1 * v.val = v.val; rw [e1]; omega
    | ⟨2, _⟩ => show win0_2.index t (2 : Fin 3) * 32 + 1 * e.val = e.val; rw [e2]; omega
  rw [hi, G_apply, show Cert.Spec.w0 = (0 : EReal) from Ideal.ofBits_zero_f32, zero_add]
  refine Finset.sum_congr rfl fun w _ => ?_
  rw [edges_blk, adj_blk]
  rfl

/-- An index of the array is in point `t`'s block iff each coordinate is in the block's range on its axis. -/
theorem mem_blk (t : Fin cfg0.N) (i : S64x96x32.Idx) :
    i ∈ ((cfg0.win 2).blk t).view.set ↔ ∀ a : Fin 3, win0_2.index t a * S2x96x32.size a ≤ (i a).val ∧ (i a).val < win0_2.index t a * S2x96x32.size a + S2x96x32.size a := by
  show i ∈ ((View.whole main_v0).slice (win0_2.rect t)).set ↔ _
  rw [View.set_slice_whole, Rect.mem_set_unit]
  exact Iff.rfl

/-- THE ARRAY after the region: the masked edge sum of the specification, index by index. -/
theorem final (c : Dev nD) : ((dat0 (V0 m ρ) c).arrAt 2 cfg0.N : S64x96x32.Idx → EReal)
    = fun i => Cert.Spec.ewOf (m ((c : Thread nD τ).loc main_arg1) : S64x96x96x32.Idx → EReal) (m ((c : Thread nD τ).loc main_arg2) : S64x96x96.Idx → BitVec 32) (i 0) (i 1) (i 2) :=
  (dat0 (V0 m ρ) c).arrAt_eq_of_cover 2 (G m c) (fun t _ => flushed_eq m ρ c t) fun i => by
    have h0 : (i 0).val < 64 := (i 0).isLt
    have h1 : (i 1).val < 96 := (i 1).isLt
    have h2 : (i 2).val < 32 := (i 2).isLt
    have hN : grid0.N = 32 := N_0
    obtain ⟨t, ht⟩ : ∃ t : Fin cfg0.N, t.val = (i 0).val / 2 := ⟨⟨(i 0).val / 2, by show _ < grid0.N; omega⟩, rfl⟩
    obtain ⟨-, -, -, -, -, -, -, e0, e1, e2⟩ := idx_facts t
    refine ⟨t, flush0_2 t, ?_⟩
    rw [mem_blk]
    intro a
    match a with
    | ⟨0, _⟩ => show win0_2.index t (0 : Fin 3) * 2 ≤ (i 0).val ∧ (i 0).val < win0_2.index t (0 : Fin 3) * 2 + 2; rw [e0, ht]; omega
    | ⟨1, _⟩ => show win0_2.index t (1 : Fin 3) * 96 ≤ (i 1).val ∧ (i 1).val < win0_2.index t (1 : Fin 3) * 96 + 96; rw [e1]; omega
    | ⟨2, _⟩ => show win0_2.index t (2 : Fin 3) * 32 ≤ (i 2).val ∧ (i 2).val < win0_2.index t (2 : Fin 3) * 32 + 32; rw [e2]; omega

end Cert.KernelIdeal.R0
end
-- ==== Proof.KernelValue.lean ====
import proofs.«156658_j36309653520739_2_alg».proof.Proof.KernelGlue
import proofs.«156658_j36309653520739_2_alg».proof.Proof.Region0

noncomputable section

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! # The kernel's result array

The second region writes the layer's result with the graph and node axes merged into one row axis: row `r` is node
`r % 96` of graph `r / 96`. The operation after it splits the row axis again, so the result at graph `b`, node `v` is
row `96 b + v`, whose quotient and remainder by 96 are `b` and `v`. -/

/-- The layer of the specification over the launch contents of device `c`. -/
abbrev layer (c : Dev nD) : (⟨3, ![64, 96, 256]⟩ : Shape).Idx → EReal := fun i =>
  Cert.Spec.result
        (m ((c.tc : Thread nD τ).loc main_arg0) : (⟨3, ![64, 96, 256]⟩ : Shape).Idx → EReal)
        (m ((c.tc : Thread nD τ).loc main_arg1) : (⟨4, ![64, 96, 96, 32]⟩ : Shape).Idx → EReal)
        (m ((c.tc : Thread nD τ).loc main_arg2) : (⟨3, ![64, 96, 96]⟩ : Shape).Idx → BitVec 32)
        (m ((c.tc : Thread nD τ).loc main_arg3) : (⟨3, ![4, 256, 256]⟩ : Shape).Idx → EReal)
        (m ((c.tc : Thread nD τ).loc main_arg4) : (⟨2, ![4, 256]⟩ : Shape).Idx → EReal)
        (m ((c.tc : Thread nD τ).loc main_arg5) : (⟨3, ![4, 256, 544]⟩ : Shape).Idx → EReal)
        (m ((c.tc : Thread nD τ).loc main_arg6) : (⟨2, ![4, 256]⟩ : Shape).Idx → EReal)
        (m ((c.tc : Thread nD τ).loc main_arg7) : (⟨3, ![4, 768, 256]⟩ : Shape).Idx → EReal)
        (m ((c.tc : Thread nD τ).loc main_arg8) : (⟨3, ![4, 768, 256]⟩ : Shape).Idx → EReal)
        (m ((c.tc : Thread nD τ).loc main_arg9) : (⟨2, ![4, 768]⟩ : Shape).Idx → EReal)
        (m ((c.tc : Thread nD τ).loc main_arg10) : (⟨2, ![4, 768]⟩ : Shape).Idx → EReal)
        (m ((c.tc : Thread nD τ).loc main_arg11) : (⟨2, ![256, 1024]⟩ : Shape).Idx → EReal)
        (m ((c.tc : Thread nD τ).loc main_arg12) : (⟨1, ![256]⟩ : Shape).Idx → EReal)
        (i 0) (i 1) (i 2)

/-- The second region's output array holds the layer row by row: row `r` is node `r % 96` of graph `r / 96`. -/
def ArrHolds : Prop :=
  ∀ c : Dev nD, ((dat1 (V2 m ρ) c).arrAt 15 cfg1.N : S6144x256.Idx → EReal) = fun i =>
      Cert.Spec.result
        (m ((c.tc : Thread nD τ).loc main_arg0) : (⟨3, ![64, 96, 256]⟩ : Shape).Idx → EReal)
        (m ((c.tc : Thread nD τ).loc main_arg1) : (⟨4, ![64, 96, 96, 32]⟩ : Shape).Idx → EReal)
        (m ((c.tc : Thread nD τ).loc main_arg2) : (⟨3, ![64, 96, 96]⟩ : Shape).Idx → BitVec 32)
        (m ((c.tc : Thread nD τ).loc main_arg3) : (⟨3, ![4, 256, 256]⟩ : Shape).Idx → EReal)
        (m ((c.tc : Thread nD τ).loc main_arg4) : (⟨2, ![4, 256]⟩ : Shape).Idx → EReal)
        (m ((c.tc : Thread nD τ).loc main_arg5) : (⟨3, ![4, 256, 544]⟩ : Shape).Idx → EReal)
        (m ((c.tc : Thread nD τ).loc main_arg6) : (⟨2, ![4, 256]⟩ : Shape).Idx → EReal)
        (m ((c.tc : Thread nD τ).loc main_arg7) : (⟨3, ![4, 768, 256]⟩ : Shape).Idx → EReal)
        (m ((c.tc : Thread nD τ).loc main_arg8) : (⟨3, ![4, 768, 256]⟩ : Shape).Idx → EReal)
        (m ((c.tc : Thread nD τ).loc main_arg9) : (⟨2, ![4, 768]⟩ : Shape).Idx → EReal)
        (m ((c.tc : Thread nD τ).loc main_arg10) : (⟨2, ![4, 768]⟩ : Shape).Idx → EReal)
        (m ((c.tc : Thread nD τ).loc main_arg11) : (⟨2, ![256, 1024]⟩ : Shape).Idx → EReal)
        (m ((c.tc : Thread nD τ).loc main_arg12) : (⟨1, ![256]⟩ : Shape).Idx → EReal)
        ⟨(i 0).val / 96, by have := (i 0).isLt; have h : (i 0).val < 6144 := this; omega⟩
        ⟨(i 0).val % 96, Nat.mod_lt _ (by decide)⟩ ⟨(i 1).val, (i 1).isLt⟩

/-- If the second region's output array holds the layer row by row, the result buffer holds the layer. -/
theorem result_eq_of (hArr : ArrHolds m ρ) (c : Dev nD) :
    (W4 m ρ c (Proc.devRef .tc main_v21) : S64x96x256.Idx → EReal) = layer m c := by
  funext i
  obtain ⟨b, v, o, rfl⟩ : ∃ (b : Fin 64) (v : Fin 96) (o : Fin 256), i = ix3 b v o := ⟨i 0, i 1, i 2, eq_ix3 i⟩
  rw [Glue.result_apply, hArr c]
  have hb : ∀ h, (⟨(96 * b.val + v.val) / 96, h⟩ : Fin 64) = b := fun h =>
    Fin.ext (by show (96 * b.val + v.val) / 96 = b.val; have := v.isLt; omega)
  have hv : ∀ h, (⟨(96 * b.val + v.val) % 96, h⟩ : Fin 96) = v := fun h =>
    Fin.ext (by show (96 * b.val + v.val) % 96 = v.val; have := v.isLt; omega)
  have key : ∀ (b' : Fin 64) (v' : Fin 96) (o' : Fin 256), b' = b → v' = v → o' = o →
      Cert.Spec.result
        (m ((c.tc : Thread nD τ).loc main_arg0) : (⟨3, ![64, 96, 256]⟩ : Shape).Idx → EReal)
        (m ((c.tc : Thread nD τ).loc main_arg1) : (⟨4, ![64, 96, 96, 32]⟩ : Shape).Idx → EReal)
        (m ((c.tc : Thread nD τ).loc main_arg2) : (⟨3, ![64, 96, 96]⟩ : Shape).Idx → BitVec 32)
        (m ((c.tc : Thread nD τ).loc main_arg3) : (⟨3, ![4, 256, 256]⟩ : Shape).Idx → EReal)
        (m ((c.tc : Thread nD τ).loc main_arg4) : (⟨2, ![4, 256]⟩ : Shape).Idx → EReal)
        (m ((c.tc : Thread nD τ).loc main_arg5) : (⟨3, ![4, 256, 544]⟩ : Shape).Idx → EReal)
        (m ((c.tc : Thread nD τ).loc main_arg6) : (⟨2, ![4, 256]⟩ : Shape).Idx → EReal)
        (m ((c.tc : Thread nD τ).loc main_arg7) : (⟨3, ![4, 768, 256]⟩ : Shape).Idx → EReal)
        (m ((c.tc : Thread nD τ).loc main_arg8) : (⟨3, ![4, 768, 256]⟩ : Shape).Idx → EReal)
        (m ((c.tc : Thread nD τ).loc main_arg9) : (⟨2, ![4, 768]⟩ : Shape).Idx → EReal)
        (m ((c.tc : Thread nD τ).loc main_arg10) : (⟨2, ![4, 768]⟩ : Shape).Idx → EReal)
        (m ((c.tc : Thread nD τ).loc main_arg11) : (⟨2, ![256, 1024]⟩ : Shape).Idx → EReal)
        (m ((c.tc : Thread nD τ).loc main_arg12) : (⟨1, ![256]⟩ : Shape).Idx → EReal)
        b' v' o' = layer m c (ix3 b v o) := by
    intro b' v' o' h1 h2 h3; rw [h1, h2, h3]
  exact key _ _ _ (hb _) (hv _) rfl

end Cert.KernelIdeal.KVal

end
-- ==== Proof.KBody.lean ====
import proofs.«156658_j36309653520739_2_alg».proof.Proof.Gen.KernelIdeal.Frame

/-!
# The second kernel's body as four applications of one head

The body of the second kernel computes, on a block of 768 rows (8 graphs of 96 nodes), the same chain of
operations once per head, each time on that head's slices of the parameter blocks, and then joins the four results:
concatenation along the columns, rectifier, output projection, bias, residual. This module names one head's chain
(`khead`, a function of the block's shared quantities and of the ten slices the head loads), the shared quantities
(`kv1` … `kv11`: the node block, its narrow copy, the narrow edge-sum block, the degree column, the narrow
adjacency block) and the join (`kfinal`), and shows that the value the body stores is `kblock`: the join of the
four heads. Every equation here is an unfolding of definitions.
-/

set_option maxRecDepth 65536

noncomputable section

namespace Cert.KernelIdeal.KBody

open Cert.KernelIdeal Idealize.ShloMosaic Idealize.SL.Sem
open Facts₀ Facts

variable {F : FTy → Type} [FloatOps F]

/-- The ten slices one head loads: first linear map and bias, the three column blocks of the second linear map and
    its bias, the two gate maps and their biases. -/
structure HeadLoads (F : FTy → Type) [FloatOps F] where
  w1 : Vec F S1x256x256 .bf16
  b1 : Vec F S1x256 .f32
  wa : Vec F S1x256x256 .bf16
  wb : Vec F S1x256x256 .bf16
  wc : Vec F S1x32x256 .bf16
  b2 : Vec F S1x256 .f32
  wih : Vec F S1x256x768 .bf16
  whh : Vec F S1x256x768 .bf16
  bih : Vec F S1x768 .f32
  bhh : Vec F S1x768 .f32

/-- The node block. -/
def kv1 (v0 : Vec F S768x256 .f32) : FVec F S768x256 .f32 := shapeCast S768x256 v0 shapeCasts_S768x256_S768x256
/-- The node block in the narrow format. -/
def kv2 (v0 : Vec F S768x256 .f32) : FVec F S768x256 .bf16 := truncf .bf16 (kv1 v0) bitsLt_bf16_f32
/-- The masked edge-sum block in the narrow format. -/
def kv5 (v3 : Vec F S768x32 .f32) : FVec F S768x32 .bf16 := truncf .bf16 (shapeCast S768x32 v3 shapeCasts_S768x32_S768x32) bitsLt_bf16_f32
/-- The adjacency block as floats. -/
def kv7 (v6 : Vec F S8x96x96 .i32) : FVec F S8x96x96 .f32 := sitofp .f32 v6
/-- The degree of every node of the block, as a column. -/
def kv10 (v6 : Vec F S8x96x96 .i32) : FVec F S768x1 .f32 :=
  shapeCast S768x1 (shapeCast S8x96x1 (multiReduction .add [2] S8x96 (kv7 v6) 0x00000000#32 reduces_S8x96x96_S8x96 (.inl rfl) rfl) shapeCasts_S8x96_S8x96x1) shapeCasts_S8x96x1_S768x1
/-- The adjacency block in the narrow format. -/
def kv11 (v6 : Vec F S8x96x96 .i32) : FVec F S8x96x96 .bf16 := truncf .bf16 (kv7 v6) bitsLt_bf16_f32

/-- One head: from the block's shared quantities and the head's slices to the head's new node states. -/
def khead (v1 : FVec F S768x256 .f32) (v2 : FVec F S768x256 .bf16) (v5 : FVec F S768x32 .bf16) (v10 : FVec F S768x1 .f32)
    (v11 : FVec F S8x96x96 .bf16) (L : HeadLoads F) : FVec F S768x256 .f32 :=
  have v12 : Vec F S1x256x256 .bf16 := L.w1
  have v13 : FVec F S256x256 .bf16 := shapeCast S256x256 v12 shapeCasts_S1x256x256_S256x256
  have cst_9 : FVec F S768x256 .f32 := constant S768x256 .f32 0x00000000#32
  have v14 : FVec F S768x256 .f32 := matmul dot_S768x256_S256x256_S768x256_1_0_0_1_n_n none v2 v13 cst_9
  have v15 : Vec F S1x256 .f32 := L.b1
  have v16 : FVec F S256 .f32 := shapeCast S256 v15 shapeCasts_S1x256_S256
  have v17 : FVec F S1x256 .f32 := shapeCast S1x256 v16 shapeCasts_S256_S1x256
  have v18 : FVec F S768x256 .f32 := broadcastTo S768x256 v17 broadcasts_S1x256_S768x256
  have v19 : FVec F S768x256 .f32 := addf v14 v18
  have v20 : FVec F S768x256 .bf16 := truncf .bf16 v19 bitsLt_bf16_f32
  have v21 : Vec F S1x256x256 .bf16 := L.wa
  have v22 : FVec F S256x256 .bf16 := shapeCast S256x256 v21 shapeCasts_S1x256x256_S256x256
  have v23 : Vec F S1x256x256 .bf16 := L.wb
  have v24 : FVec F S256x256 .bf16 := shapeCast S256x256 v23 shapeCasts_S1x256x256_S256x256
  have v25 : Vec F S1x32x256 .bf16 := L.wc
  have v26 : FVec F S32x256 .bf16 := shapeCast S32x256 v25 shapeCasts_S1x32x256_S32x256
  have cst_21 : FVec F S768x256 .f32 := constant S768x256 .f32 0x00000000#32
  have v27 : FVec F S768x256 .f32 := matmul dot_S768x256_S256x256_S768x256_1_0_0_1_n_n none v20 v22 cst_21
  have cst_22 : FVec F S768x256 .f32 := constant S768x256 .f32 0x00000000#32
  have v28 : FVec F S768x256 .f32 := matmul dot_S768x256_S256x256_S768x256_1_0_0_1_n_n none v20 v24 cst_22
  have v29 : FVec F S768x256 .bf16 := truncf .bf16 v28 bitsLt_bf16_f32
  have v30 : FVec F S8x96x256 .bf16 := shapeCast S8x96x256 v29 shapeCasts_S768x256_S8x96x256
  have cst_23 : FVec F S8x96x256 .f32 := constant S8x96x256 .f32 0x00000000#32
  have v31 : FVec F S8x96x256 .f32 := matmul dot_S8x96x96_S8x96x256_S8x96x256_2_1_1_2_0_0 none v11 v30 cst_23
  have v32 : FVec F S768x256 .f32 := shapeCast S768x256 v31 shapeCasts_S8x96x256_S768x256
  have cst_24 : FVec F S768x256 .f32 := constant S768x256 .f32 0x00000000#32
  have v33 : FVec F S768x256 .f32 := matmul dot_S768x32_S32x256_S768x256_1_0_0_1_n_n none v5 v26 cst_24
  have v34 : FVec F S768x256 .f32 := broadcastTo S768x256 v10 broadcasts_S768x1_S768x256
  have v35 : FVec F S768x256 .f32 := mulf v27 v34
  have v36 : FVec F S768x256 .f32 := addf v35 v32
  have v37 : FVec F S768x256 .f32 := addf v36 v33
  have v38 : Vec F S1x256 .f32 := L.b2
  have v39 : FVec F S256 .f32 := shapeCast S256 v38 shapeCasts_S1x256_S256
  have v40 : FVec F S1x256 .f32 := shapeCast S1x256 v39 shapeCasts_S256_S1x256
  have v41 : FVec F S768x256 .f32 := broadcastTo S768x256 v40 broadcasts_S1x256_S768x256
  have v42 : FVec F S768x256 .f32 := broadcastTo S768x256 v10 broadcasts_S768x1_S768x256
  have v43 : FVec F S768x256 .f32 := mulf v41 v42
  have v44 : FVec F S768x256 .f32 := addf v37 v43
  have cst_27 : F .f32 := Scalar.ofBits .f32 0x00000000#32
  have v45 : FVec F S768x256 .f32 := broadcast S768x256 cst_27
  have v46 : FVec F S768x256 .f32 := maximumf v44 v45
  have v47 : FVec F S768x256 .bf16 := truncf .bf16 v46 bitsLt_bf16_f32
  have v48 : Vec F S1x256x768 .bf16 := L.wih
  have v49 : FVec F S256x768 .bf16 := shapeCast S256x768 v48 shapeCasts_S1x256x768_S256x768
  have v50 : Vec F S1x256x768 .bf16 := L.whh
  have v51 : FVec F S256x768 .bf16 := shapeCast S256x768 v50 shapeCasts_S1x256x768_S256x768
  have cst_34 : FVec F S768x768 .f32 := constant S768x768 .f32 0x00000000#32
  have v52 : FVec F S768x768 .f32 := matmul dot_S768x256_S256x768_S768x768_1_0_0_1_n_n none v47 v49 cst_34
  have v53 : Vec F S1x768 .f32 := L.bih
  have v54 : FVec F S768 .f32 := shapeCast S768 v53 shapeCasts_S1x768_S768
  have v55 : FVec F S1x768 .f32 := shapeCast S1x768 v54 shapeCasts_S768_S1x768
  have v56 : FVec F S768x768 .f32 := broadcastTo S768x768 v55 broadcasts_S1x768_S768x768
  have v57 : FVec F S768x768 .f32 := addf v52 v56
  have cst_37 : FVec F S768x768 .f32 := constant S768x768 .f32 0x00000000#32
  have v58 : FVec F S768x768 .f32 := matmul dot_S768x256_S256x768_S768x768_1_0_0_1_n_n none v2 v51 cst_37
  have v59 : Vec F S1x768 .f32 := L.bhh
  have v60 : FVec F S768 .f32 := shapeCast S768 v59 shapeCasts_S1x768_S768
  have v61 : FVec F S1x768 .f32 := shapeCast S1x768 v60 shapeCasts_S768_S1x768
  have v62 : FVec F S768x768 .f32 := broadcastTo S768x768 v61 broadcasts_S1x768_S768x768
  have v63 : FVec F S768x768 .f32 := addf v58 v62
  have v64 : FVec F S768x256 .f32 := extractStridedSlice S768x256 ![0, 0] v57 slices_S768x768_o0_0_S768x256
  have v65 : FVec F S768x256 .f32 := extractStridedSlice S768x256 ![0, 256] v57 slices_S768x768_o0_256_S768x256
  have v66 : FVec F S768x256 .f32 := extractStridedSlice S768x256 ![0, 512] v57 slices_S768x768_o0_512_S768x256
  have v67 : FVec F S768x256 .f32 := extractStridedSlice S768x256 ![0, 0] v63 slices_S768x768_o0_0_S768x256
  have v68 : FVec F S768x256 .f32 := extractStridedSlice S768x256 ![0, 256] v63 slices_S768x768_o0_256_S768x256
  have v69 : FVec F S768x256 .f32 := extractStridedSlice S768x256 ![0, 512] v63 slices_S768x768_o0_512_S768x256
  have v70 : FVec F S768x256 .f32 := addf v64 v67
  have v71 : FVec F S768x256 .f32 := logistic v70
  have v72 : FVec F S768x256 .f32 := addf v65 v68
  have v73 : FVec F S768x256 .f32 := logistic v72
  have v74 : FVec F S768x256 .f32 := mulf v71 v69
  have v75 : FVec F S768x256 .f32 := addf v66 v74
  have v76 : FVec F S768x256 .f32 := tanh v75
  have cst_40 : F .f32 := Scalar.ofBits .f32 0x3F800000#32
  have v77 : FVec F S768x256 .f32 := broadcast S768x256 cst_40
  have v78 : FVec F S768x256 .f32 := subf v77 v73
  have v79 : FVec F S768x256 .f32 := mulf v78 v76
  have v80 : FVec F S768x256 .f32 := mulf v73 v1
  have v81 : FVec F S768x256 .f32 := addf v79 v80
  v81

/-- The join of the four heads. -/
def kfinal (v1 : FVec F S768x256 .f32) (h0 h1 h2 h3 : FVec F S768x256 .f32) (wout : Vec F S1024x256 .bf16) (bout : Vec F S256 .f32) :
    FVec F S768x256 .f32 :=
  have v292 : FVec F S768x1024 .f32 := concatenate S768x1024 1 [⟨S768x256, h0⟩, ⟨S768x256, h1⟩, ⟨S768x256, h2⟩, ⟨S768x256, h3⟩] concatenates_S768x256_S768x256_S768x256_S768x256_S768x1024_d1
  have cst_143 : F .f32 := Scalar.ofBits .f32 0x00000000#32
  have v293 : FVec F S768x1024 .f32 := broadcast S768x1024 cst_143
  have v294 : FVec F S768x1024 .f32 := maximumf v292 v293
  have v295 : FVec F S768x1024 .bf16 := truncf .bf16 v294 bitsLt_bf16_f32
  have v296 : Vec F S1024x256 .bf16 := wout
  have v297 : FVec F S1024x256 .bf16 := shapeCast S1024x256 v296 shapeCasts_S1024x256_S1024x256
  have cst_146 : FVec F S768x256 .f32 := constant S768x256 .f32 0x00000000#32
  have v298 : FVec F S768x256 .f32 := matmul dot_S768x1024_S1024x256_S768x256_1_0_0_1_n_n none v295 v297 cst_146
  have v299 : Vec F S256 .f32 := bout
  have v300 : FVec F S1x256 .f32 := shapeCast S1x256 v299 shapeCasts_S256_S1x256
  have v301 : FVec F S768x256 .f32 := broadcastTo S768x256 v300 broadcasts_S1x256_S768x256
  have v302 : FVec F S768x256 .f32 := addf v298 v301
  have v303 : FVec F S768x256 .f32 := addf v1 v302
  v303

/-- What the body stores: the join of the four heads on the block. -/
def kblock (l0 : Vec F S768x256 .f32) (l1 : Vec F S768x32 .f32) (l2 : Vec F S8x96x96 .i32) (L0 L1 L2 L3 : HeadLoads F)
    (wout : Vec F S1024x256 .bf16) (bout : Vec F S256 .f32) : FVec F S768x256 .f32 :=
  kfinal (kv1 l0)
    (khead (kv1 l0) (kv2 l0) (kv5 l1) (kv10 l2) (kv11 l2) L0)
    (khead (kv1 l0) (kv2 l0) (kv5 l1) (kv10 l2) (kv11 l2) L1)
    (khead (kv1 l0) (kv2 l0) (kv5 l1) (kv10 l2) (kv11 l2) L2)
    (khead (kv1 l0) (kv2 l0) (kv5 l1) (kv10 l2) (kv11 l2) L3) wout bout

/-! ## The head, stage by stage -/

/-- The first linear map with its bias, in the narrow format. -/
def khv (v2 : FVec F S768x256 .bf16) (w1 : Vec F S1x256x256 .bf16) (b1 : Vec F S1x256 .f32) : FVec F S768x256 .bf16 :=
  truncf .bf16 (addf (matmul dot_S768x256_S256x256_S768x256_1_0_0_1_n_n none v2 (shapeCast S256x256 w1 shapeCasts_S1x256x256_S256x256) (constant S768x256 .f32 0x00000000#32))
    (broadcastTo S768x256 (shapeCast S1x256 (shapeCast S256 b1 shapeCasts_S1x256_S256) shapeCasts_S256_S1x256) broadcasts_S1x256_S768x256)) bitsLt_bf16_f32

/-- The target term. -/
def ktv (hvb : FVec F S768x256 .bf16) (wa : Vec F S1x256x256 .bf16) : FVec F S768x256 .f32 :=
  matmul dot_S768x256_S256x256_S768x256_1_0_0_1_n_n none hvb (shapeCast S256x256 wa shapeCasts_S1x256x256_S256x256) (constant S768x256 .f32 0x00000000#32)

/-- The neighbour sum: the neighbour term, graph by graph, summed along the adjacency rows. -/
def knb (v11 : FVec F S8x96x96 .bf16) (hvb : FVec F S768x256 .bf16) (wb : Vec F S1x256x256 .bf16) : FVec F S768x256 .f32 :=
  shapeCast S768x256 (matmul dot_S8x96x96_S8x96x256_S8x96x256_2_1_1_2_0_0 none v11
    (shapeCast S8x96x256 (truncf .bf16 (matmul dot_S768x256_S256x256_S768x256_1_0_0_1_n_n none hvb (shapeCast S256x256 wb shapeCasts_S1x256x256_S256x256) (constant S768x256 .f32 0x00000000#32)) bitsLt_bf16_f32) shapeCasts_S768x256_S8x96x256)
    (constant S8x96x256 .f32 0x00000000#32)) shapeCasts_S8x96x256_S768x256

/-- The edge term. -/
def kem (v5 : FVec F S768x32 .bf16) (wc : Vec F S1x32x256 .bf16) : FVec F S768x256 .f32 :=
  matmul dot_S768x32_S32x256_S768x256_1_0_0_1_n_n none v5 (shapeCast S32x256 wc shapeCasts_S1x32x256_S32x256) (constant S768x256 .f32 0x00000000#32)

/-- The rectified message, in the narrow format. -/
def kmsg (tv nb em : FVec F S768x256 .f32) (v10 : FVec F S768x1 .f32) (b2 : Vec F S1x256 .f32) : FVec F S768x256 .bf16 :=
  truncf .bf16 (maximumf (addf (addf (addf (mulf tv (broadcastTo S768x256 v10 broadcasts_S768x1_S768x256)) nb) em)
      (mulf (broadcastTo S768x256 (shapeCast S1x256 (shapeCast S256 b2 shapeCasts_S1x256_S256) shapeCasts_S256_S1x256) broadcasts_S1x256_S768x256)
        (broadcastTo S768x256 v10 broadcasts_S768x1_S768x256)))
    (broadcast S768x256 (Scalar.ofBits .f32 0x00000000#32))) bitsLt_bf16_f32

/-- A gate map with its bias: 768 columns, the three gates side by side. -/
def kgate3 (x : FVec F S768x256 .bf16) (w : Vec F S1x256x768 .bf16) (b : Vec F S1x768 .f32) : FVec F S768x768 .f32 :=
  addf (matmul dot_S768x256_S256x768_S768x768_1_0_0_1_n_n none x (shapeCast S256x768 w shapeCasts_S1x256x768_S256x768) (constant S768x768 .f32 0x00000000#32))
    (broadcastTo S768x768 (shapeCast S1x768 (shapeCast S768 b shapeCasts_S1x768_S768) shapeCasts_S768_S1x768) broadcasts_S1x768_S768x768)

/-- The gated recurrent cell from the two gate arrays and the node block. -/
def kcell (v1 : FVec F S768x256 .f32) (gi gh : FVec F S768x768 .f32) : FVec F S768x256 .f32 :=
  addf (mulf (subf (broadcast S768x256 (Scalar.ofBits .f32 0x3F800000#32))
        (logistic (addf (extractStridedSlice S768x256 ![0, 256] gi slices_S768x768_o0_256_S768x256) (extractStridedSlice S768x256 ![0, 256] gh slices_S768x768_o0_256_S768x256))))
      (tanh (addf (extractStridedSlice S768x256 ![0, 512] gi slices_S768x768_o0_512_S768x256)
        (mulf (logistic (addf (extractStridedSlice S768x256 ![0, 0] gi slices_S768x768_o0_0_S768x256) (extractStridedSlice S768x256 ![0, 0] gh slices_S768x768_o0_0_S768x256)))
          (extractStridedSlice S768x256 ![0, 512] gh slices_S768x768_o0_512_S768x256)))))
    (mulf (logistic (addf (extractStridedSlice S768x256 ![0, 256] gi slices_S768x768_o0_256_S768x256) (extractStridedSlice S768x256 ![0, 256] gh slices_S768x768_o0_256_S768x256))) v1)

/-- One head is the composition of its stages. -/
theorem khead_eq (v1 : FVec F S768x256 .f32) (v2 : FVec F S768x256 .bf16) (v5 : FVec F S768x32 .bf16) (v10 : FVec F S768x1 .f32)
    (v11 : FVec F S8x96x96 .bf16) (L : HeadLoads F) :
    khead v1 v2 v5 v10 v11 L
      = kcell v1 (kgate3 (kmsg (ktv (khv v2 L.w1 L.b1) L.wa) (knb v11 (khv v2 L.w1 L.b1) L.wb) (kem v5 L.wc) v10 L.b2) L.wih L.bih)
          (kgate3 v2 L.whh L.bhh) := rfl

/-- The join: the four heads side by side, rectified, projected, plus bias, plus the node block. -/
theorem kfinal_eq (v1 : FVec F S768x256 .f32) (h0 h1 h2 h3 : FVec F S768x256 .f32) (wout : Vec F S1024x256 .bf16) (bout : Vec F S256 .f32) :
    kfinal v1 h0 h1 h2 h3 wout bout
      = addf v1 (addf (matmul dot_S768x1024_S1024x256_S768x256_1_0_0_1_n_n none
          (truncf .bf16 (maximumf (concatenate S768x1024 1 [⟨S768x256, h0⟩, ⟨S768x256, h1⟩, ⟨S768x256, h2⟩, ⟨S768x256, h3⟩] concatenates_S768x256_S768x256_S768x256_S768x256_S768x1024_d1)
            (broadcast S768x1024 (Scalar.ofBits .f32 0x00000000#32))) bitsLt_bf16_f32)
          (shapeCast S1024x256 wout shapeCasts_S1024x256_S1024x256) (constant S768x256 .f32 0x00000000#32))
        (broadcastTo S768x256 (shapeCast S1x256 bout shapeCasts_S256_S1x256) broadcasts_S1x256_S768x256)) := rfl

/-- The output buffer after the body is the one stored piece `kblock` of the loaded blocks and slices. -/
theorem out_eq (x0 : Vec F S768x256 .f32) (x1 : Vec F S768x32 .f32) (x2 : Vec F S8x96x96 .i32) (x3 : Vec F S4x256x256 .bf16) (x4 : Vec F S4x256 .f32) (x5 : Vec F S4x256x256 .bf16) (x6 : Vec F S4x256x256 .bf16) (x7 : Vec F S4x32x256 .bf16) (x8 : Vec F S4x256 .f32) (x9 : Vec F S4x256x768 .bf16) (x10 : Vec F S4x256x768 .bf16) (x11 : Vec F S4x768 .f32) (x12 : Vec F S4x768 .f32) (x13 : Vec F S1024x256 .bf16) (x14 : Vec F S256 .f32) :
    Gen.out1_15 x0 x1 x2 x3 x4 x5 x6 x7 x8 x9 x10 x11 x12 x13 x14
      = View.canon [⟨Gen.r1_0, kblock (View.ld x0 Gen.r1_0) (View.ld x1 Gen.r1_1) (View.ld x2 Gen.r1_2)
          ⟨View.ld x3 Gen.r1_3, View.ld x4 Gen.r1_4, View.ld x5 Gen.r1_3, View.ld x6 Gen.r1_3, View.ld x7 Gen.r1_5, View.ld x8 Gen.r1_4, View.ld x9 Gen.r1_6, View.ld x10 Gen.r1_6, View.ld x11 Gen.r1_7, View.ld x12 Gen.r1_7⟩
          ⟨View.ld x3 Gen.r1_8, View.ld x4 Gen.r1_9, View.ld x5 Gen.r1_8, View.ld x6 Gen.r1_8, View.ld x7 Gen.r1_10, View.ld x8 Gen.r1_9, View.ld x9 Gen.r1_11, View.ld x10 Gen.r1_11, View.ld x11 Gen.r1_12, View.ld x12 Gen.r1_12⟩
          ⟨View.ld x3 Gen.r1_13, View.ld x4 Gen.r1_14, View.ld x5 Gen.r1_13, View.ld x6 Gen.r1_13, View.ld x7 Gen.r1_15, View.ld x8 Gen.r1_14, View.ld x9 Gen.r1_16, View.ld x10 Gen.r1_16, View.ld x11 Gen.r1_17, View.ld x12 Gen.r1_17⟩
          ⟨View.ld x3 Gen.r1_18, View.ld x4 Gen.r1_19, View.ld x5 Gen.r1_18, View.ld x6 Gen.r1_18, View.ld x7 Gen.r1_20, View.ld x8 Gen.r1_19, View.ld x9 Gen.r1_21, View.ld x10 Gen.r1_21, View.ld x11 Gen.r1_22, View.ld x12 Gen.r1_22⟩
          (View.ld x13 Gen.r1_23) (View.ld x14 Gen.r1_24)⟩] := rfl

end Cert.KernelIdeal.KBody

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.KDots.lean ====
import proofs.«156658_j36309653520739_2_alg».proof.Proof.Gen.KernelIdeal
import proofs.«156658_j36309653520739_2_alg».proof.Proof.LibPlainDot
import proofs.«156658_j36309653520739_2_alg».proof.Proof.LibAffine

/-!
# The second kernel's matrix products read at an index

Every matrix product of the body goes into a zero accumulator, so at the exact reals it is a plain sum of products.
Four of the five dimension records are the plain product of an [a, k] by a [k, n] array: at (p, j) the sum over q of
L (p, q) · R (q, j). The fifth is the neighbour sum, batched over the 8 graphs of the block: an [8, 96, 96] array
times an [8, 96, 256] array contracting the left operand's last axis against the right operand's middle axis, at
(g, v, m) the sum over w of L (g, v, w) · R (g, w, m).
-/

noncomputable section

namespace Cert.KernelIdeal.KDots

open Cert.KernelIdeal Idealize.ShloMosaic Idealize.ShloMosaic.ValueIdx

/-- A matrix-unit product of an [a, k] by a [k, n] array into the zero accumulator, for any dimension record with the
    plain product's axis lists, is at (p, j) the sum over q of L (p, q) · R (q, j). -/
theorem plain {a k n : ℕ} {φ₁ φ₂ : FTy} (D : DotDims ⟨2, ![a, k]⟩ ⟨2, ![k, n]⟩ ⟨2, ![a, n]⟩)
    (hlb : D.lhsBatch = []) (hln : D.lhsNonContracting = [0]) (hlc : D.lhsContracting = [1])
    (hrb : D.rhsBatch = []) (hrn : D.rhsNonContracting = [1]) (hrc : D.rhsContracting = [0])
    (L : FVec Ideal ⟨2, ![a, k]⟩ φ₁) (R : FVec Ideal ⟨2, ![k, n]⟩ φ₂) (p : Fin a) (j : Fin n) :
    FloatOps.matmul D none L R (constant ⟨2, ![a, n]⟩ .f32 0x00000000#32) (ix2 p j) = ∑ q : Fin k, L (ix2 p q) * R (ix2 q j) :=
  Cert.LibAffine.coreDot_ix2 D (Cert.LibPlainDot.contr_rank D hlc) (Cert.LibPlainDot.contr_size D hlc)
    (fun i q => Cert.LibPlainDot.lhs_row D hlb hln i q) (fun i q => Cert.LibPlainDot.lhs_col D hlc i q)
    (fun i q => Cert.LibPlainDot.rhs_row D hlc hrc i q) (fun i q => Cert.LibPlainDot.rhs_col D hlb hln hrb hrn i q) none L R p j

/-- [768, 256] × [256, 256]. -/
theorem mm256 {φ₁ φ₂ : FTy} (L : FVec Ideal S768x256 φ₁) (R : FVec Ideal S256x256 φ₂) (p : Fin 768) (j : Fin 256) :
    matmul dot_S768x256_S256x256_S768x256_1_0_0_1_n_n none L R (constant S768x256 .f32 0x00000000#32) (ix2 p j)
      = ∑ q : Fin 256, L (ix2 p q) * R (ix2 q j) :=
  plain dot_S768x256_S256x256_S768x256_1_0_0_1_n_n rfl rfl rfl rfl rfl rfl L R p j

/-- [768, 32] × [32, 256]. -/
theorem mm32 {φ₁ φ₂ : FTy} (L : FVec Ideal S768x32 φ₁) (R : FVec Ideal S32x256 φ₂) (p : Fin 768) (j : Fin 256) :
    matmul dot_S768x32_S32x256_S768x256_1_0_0_1_n_n none L R (constant S768x256 .f32 0x00000000#32) (ix2 p j)
      = ∑ q : Fin 32, L (ix2 p q) * R (ix2 q j) :=
  plain dot_S768x32_S32x256_S768x256_1_0_0_1_n_n rfl rfl rfl rfl rfl rfl L R p j

/-- [768, 256] × [256, 768]. -/
theorem mm768 {φ₁ φ₂ : FTy} (L : FVec Ideal S768x256 φ₁) (R : FVec Ideal S256x768 φ₂) (p : Fin 768) (j : Fin 768) :
    matmul dot_S768x256_S256x768_S768x768_1_0_0_1_n_n none L R (constant S768x768 .f32 0x00000000#32) (ix2 p j)
      = ∑ q : Fin 256, L (ix2 p q) * R (ix2 q j) :=
  plain dot_S768x256_S256x768_S768x768_1_0_0_1_n_n rfl rfl rfl rfl rfl rfl L R p j

/-- [768, 1024] × [1024, 256]. -/
theorem mm1024 {φ₁ φ₂ : FTy} (L : FVec Ideal S768x1024 φ₁) (R : FVec Ideal S1024x256 φ₂) (p : Fin 768) (j : Fin 256) :
    matmul dot_S768x1024_S1024x256_S768x256_1_0_0_1_n_n none L R (constant S768x256 .f32 0x00000000#32) (ix2 p j)
      = ∑ q : Fin 1024, L (ix2 p q) * R (ix2 q j) :=
  plain dot_S768x1024_S1024x256_S768x256_1_0_0_1_n_n rfl rfl rfl rfl rfl rfl L R p j

/-- The neighbour sum, batched over the block's 8 graphs: at (g, v, m) the sum over w of L (g, v, w) · R (g, w, m). -/
theorem mmAdj {φ₁ φ₂ : FTy} (L : FVec Ideal S8x96x96 φ₁) (R : FVec Ideal S8x96x256 φ₂) (g : Fin 8) (v : Fin 96) (m : Fin 256) :
    matmul dot_S8x96x96_S8x96x256_S8x96x256_2_1_1_2_0_0 none L R (constant S8x96x256 .f32 0x00000000#32) (ix3 g v m)
      = ∑ w : Fin 96, L (ix3 g v w) * R (ix3 g w m) := by
  have hr : dot_S8x96x96_S8x96x256_S8x96x256_2_1_1_2_0_0.contr.rank = 1 := by
    rw [DotDims.rank_contr]; rfl
  have hs : dot_S8x96x96_S8x96x256_S8x96x256_2_1_1_2_0_0.contr.size ⟨0, by omega⟩ = 96 := by
    have e := dot_S8x96x96_S8x96x256_S8x96x256_2_1_1_2_0_0.size_contr 0 (by decide)
    exact e
  show FloatOps.matmul dot_S8x96x96_S8x96x256_S8x96x256_2_1_1_2_0_0 none L R (constant S8x96x256 .f32 0x00000000#32) (ix3 g v m) = _
  rw [Ideal.matmul_constant_zero_apply, ← Equiv.sum_comp (contrEquiv1 dot_S8x96x96_S8x96x256_S8x96x256_2_1_1_2_0_0 96 hr hs).symm]
  refine Finset.sum_congr rfl fun q _ => ?_
  have hq := contrEquiv1_symm_val dot_S8x96x96_S8x96x256_S8x96x256_2_1_1_2_0_0 96 hr hs q
  have el : dot_S8x96x96_S8x96x256_S8x96x256_2_1_1_2_0_0.lhsIdx (ix3 g v m) ((contrEquiv1 dot_S8x96x96_S8x96x256_S8x96x256_2_1_1_2_0_0 96 hr hs).symm q) = ix3 g v q :=
    funext fun ax => Fin.ext (by
      match ax with
      | ⟨0, _⟩ => rfl
      | ⟨1, _⟩ => rfl
      | ⟨2, _⟩ => exact (DotDims.lhsIdx_val_of_single _ rfl _ _).trans hq)
  have er : dot_S8x96x96_S8x96x256_S8x96x256_2_1_1_2_0_0.rhsIdx (ix3 g v m) ((contrEquiv1 dot_S8x96x96_S8x96x256_S8x96x256_2_1_1_2_0_0 96 hr hs).symm q) = ix3 g q m :=
    funext fun ax => Fin.ext (by
      match ax with
      | ⟨0, _⟩ => rfl
      | ⟨1, _⟩ => exact (DotDims.rhsIdx_val_of_single _ rfl _ _).trans hq
      | ⟨2, _⟩ => rfl)
  rw [el, er]

end Cert.KernelIdeal.KDots

end
-- ==== Proof.KValue.lean ====
import proofs.«156658_j36309653520739_2_alg».proof.Proof.KBody
import proofs.«156658_j36309653520739_2_alg».proof.Proof.KDots
import proofs.«156658_j36309653520739_2_alg».proof.Proof.Spec
import Idealize.ShloMosaic.Lib.ValueLayout
import Idealize.ShloMosaic.Lib.Pipeline.Value

/-!
# One head of the second kernel, read at an index

A block holds 8 graphs of 96 nodes: row `96·g + v` of the block is node `v` of the block's graph `g`. At the
exact reals every stage of a head, read at one entry, is the corresponding stage of the specification for the
graph the entry's row belongs to: the matrix products into zero accumulators are plain sums, the changes of float
format are the identity, the slices of a parameter block carry a leading unit axis, a bias row is laid along the
rows, the degree column along the columns, and the neighbour sum is batched over the 8 graphs.
-/

noncomputable section

namespace Cert.KernelIdeal.KValue

open Cert.KernelIdeal Cert.KernelIdeal.KBody Idealize.ShloMosaic Idealize.ShloMosaic.ValueIdx
open Facts₀ Facts

/-- Row of the block holding node `v` of the block's graph `g`. -/
def row (g : Fin 8) (v : Fin 96) : Fin 768 := ⟨96 * g.val + v.val, by have := g.isLt; have := v.isLt; omega⟩

/-! ## Layout pieces -/

/-- A bias row, taken out of its [1, n] slice and put back, laid along the 768 rows. -/
theorem biasRow_apply {n : ℕ} (b : (⟨2, ![1, n]⟩ : Shape).Idx → EReal)
    (h1 : (⟨2, ![1, n]⟩ : Shape).ShapeCasts ⟨1, ![n]⟩) (h2 : (⟨1, ![n]⟩ : Shape).ShapeCasts ⟨2, ![1, n]⟩)
    (h3 : (⟨2, ![1, n]⟩ : Shape).Broadcasts ⟨2, ![768, n]⟩) (p : Fin 768) (o : Fin n) :
    broadcastTo ⟨2, ![768, n]⟩ (shapeCast ⟨2, ![1, n]⟩ (shapeCast ⟨1, ![n]⟩ b h1) h2) h3 (ix2 p o) = b (ix2 (0 : Fin 1) o) := by
  rw [shapeCast_shapeCast]
  exact broadcastTo_1b_ab_apply b h3 p o

/-- The degree column laid along the 256 columns. -/
theorem degCol_apply (d : (⟨2, ![768, 1]⟩ : Shape).Idx → EReal) (h : (⟨2, ![768, 1]⟩ : Shape).Broadcasts ⟨2, ![768, 256]⟩)
    (p : Fin 768) (m : Fin 256) : broadcastTo ⟨2, ![768, 256]⟩ d h (ix2 p m) = d (ix2 p (0 : Fin 1)) := by
  refine broadcastTo_apply d h (ix2 p m) (ix2 p (0 : Fin 1)) fun ax => ?_
  match ax with
  | ⟨0, _⟩ => rfl
  | ⟨1, _⟩ => rfl

/-- The block's rows regrouped graph by graph: entry (g, v, m) of the [8, 96, 256] view is entry (96·g + v, m). -/
theorem toGraphs_apply (x : (⟨2, ![768, 256]⟩ : Shape).Idx → EReal) (h : (⟨2, ![768, 256]⟩ : Shape).ShapeCasts ⟨3, ![8, 96, 256]⟩)
    (g : Fin 8) (v : Fin 96) (m : Fin 256) : shapeCast ⟨3, ![8, 96, 256]⟩ x h (ix3 g v m) = x (ix2 (row g v) m) :=
  shapeCast_apply x h _ _ (by
    rw [Shape.rowMajor_val_three, Shape.rowMajor_val_two]
    show (96 * g.val + v.val) * 256 + m.val = (g.val * 96 + v.val) * 256 + m.val
    omega)

/-- And back: entry (96·g + v, m) of the flat view is entry (g, v, m). -/
theorem ofGraphs_apply (x : (⟨3, ![8, 96, 256]⟩ : Shape).Idx → EReal) (h : (⟨3, ![8, 96, 256]⟩ : Shape).ShapeCasts ⟨2, ![768, 256]⟩)
    (g : Fin 8) (v : Fin 96) (m : Fin 256) : shapeCast ⟨2, ![768, 256]⟩ x h (ix2 (row g v) m) = x (ix3 g v m) :=
  shapeCast_apply x h _ _ (by
    rw [Shape.rowMajor_val_three, Shape.rowMajor_val_two]
    show (g.val * 96 + v.val) * 256 + m.val = (96 * g.val + v.val) * 256 + m.val
    omega)

/-! ## The stages -/

theorem khv_apply (v2 : FVec Ideal S768x256 .bf16) (w1 : Vec Ideal S1x256x256 .bf16) (b1 : Vec Ideal S1x256 .f32) (p : Fin 768) (o : Fin 256) :
    khv v2 w1 b1 (ix2 p o) = (∑ i : Fin 256, v2 (ix2 p i) * w1 (ix3 (0 : Fin 1) i o)) + b1 (ix2 (0 : Fin 1) o) := by
  unfold khv
  show matmul _ none v2 _ _ (ix2 p o) + broadcastTo _ _ _ (ix2 p o) = _
  rw [KDots.mm256, biasRow_apply]
  simp only [shapeCast_1ab_ab_apply]

theorem ktv_apply (hvb : FVec Ideal S768x256 .bf16) (wa : Vec Ideal S1x256x256 .bf16) (p : Fin 768) (m : Fin 256) :
    ktv hvb wa (ix2 p m) = ∑ i : Fin 256, hvb (ix2 p i) * wa (ix3 (0 : Fin 1) i m) := by
  unfold ktv
  rw [KDots.mm256]
  simp only [shapeCast_1ab_ab_apply]

theorem knb_apply (v11 : FVec Ideal S8x96x96 .bf16) (hvb : FVec Ideal S768x256 .bf16) (wb : Vec Ideal S1x256x256 .bf16)
    (g : Fin 8) (v : Fin 96) (m : Fin 256) :
    knb v11 hvb wb (ix2 (row g v) m) = ∑ w : Fin 96, v11 (ix3 g v w) * ∑ i : Fin 256, hvb (ix2 (row g w) i) * wb (ix3 (0 : Fin 1) i m) := by
  unfold knb
  rw [ofGraphs_apply, KDots.mmAdj]
  refine Finset.sum_congr rfl fun w _ => ?_
  rw [toGraphs_apply]
  show v11 (ix3 g v w) * matmul _ none hvb _ _ (ix2 (row g w) m) = _
  rw [KDots.mm256]
  simp only [shapeCast_1ab_ab_apply]

theorem kem_apply (v5 : FVec Ideal S768x32 .bf16) (wc : Vec Ideal S1x32x256 .bf16) (p : Fin 768) (m : Fin 256) :
    kem v5 wc (ix2 p m) = ∑ e : Fin 32, v5 (ix2 p e) * wc (ix3 (0 : Fin 1) e m) := by
  unfold kem
  rw [KDots.mm32]
  simp only [shapeCast_1ab_ab_apply]

theorem kmsg_apply (tv nb em : FVec Ideal S768x256 .f32) (v10 : FVec Ideal S768x1 .f32) (b2 : Vec Ideal S1x256 .f32) (p : Fin 768) (m : Fin 256) :
    kmsg tv nb em v10 b2 (ix2 p m)
      = max (((tv (ix2 p m) * v10 (ix2 p (0 : Fin 1)) + nb (ix2 p m)) + em (ix2 p m)) + b2 (ix2 (0 : Fin 1) m) * v10 (ix2 p (0 : Fin 1))) Spec.w0 := by
  unfold kmsg
  show max (((tv (ix2 p m) * broadcastTo _ v10 _ (ix2 p m) + nb (ix2 p m)) + em (ix2 p m)) + broadcastTo _ _ _ (ix2 p m) * broadcastTo _ v10 _ (ix2 p m)) _ = _
  rw [degCol_apply, biasRow_apply]
  rfl

theorem kgate3_apply (x : FVec Ideal S768x256 .bf16) (w : Vec Ideal S1x256x768 .bf16) (b : Vec Ideal S1x768 .f32) (p : Fin 768) (o : Fin 768) :
    kgate3 x w b (ix2 p o) = (∑ m : Fin 256, x (ix2 p m) * w (ix3 (0 : Fin 1) m o)) + b (ix2 (0 : Fin 1) o) := by
  unfold kgate3
  show matmul _ none x _ _ (ix2 p o) + broadcastTo _ _ _ (ix2 p o) = _
  rw [KDots.mm768, biasRow_apply]
  simp only [shapeCast_1ab_ab_apply]

theorem kcell_apply (v1 : FVec Ideal S768x256 .f32) (gi gh : FVec Ideal S768x768 .f32) (p : Fin 768) (o : Fin 256) :
    kcell v1 gi gh (ix2 p o)
      = (Spec.w1 - Spec.sig (gi (ix2 p (Spec.g1 o)) + gh (ix2 p (Spec.g1 o))))
          * Ideal.tanh (gi (ix2 p (Spec.g2 o)) + Spec.sig (gi (ix2 p (Spec.g0 o)) + gh (ix2 p (Spec.g0 o))) * gh (ix2 p (Spec.g2 o)))
        + Spec.sig (gi (ix2 p (Spec.g1 o)) + gh (ix2 p (Spec.g1 o))) * v1 (ix2 p o) := by
  have s0 : ∀ (x : FVec Ideal S768x768 .f32), extractStridedSlice S768x256 ![0, 0] x slices_S768x768_o0_0_S768x256 (ix2 p o) = x (ix2 p (Spec.g0 o)) :=
    fun x => slice2_axis1_apply 0 x _ p o (Spec.g0 o) (by show o.val = 0 + o.val; omega)
  have s1 : ∀ (x : FVec Ideal S768x768 .f32), extractStridedSlice S768x256 ![0, 256] x slices_S768x768_o0_256_S768x256 (ix2 p o) = x (ix2 p (Spec.g1 o)) :=
    fun x => slice2_axis1_apply 256 x _ p o (Spec.g1 o) rfl
  have s2 : ∀ (x : FVec Ideal S768x768 .f32), extractStridedSlice S768x256 ![0, 512] x slices_S768x768_o0_512_S768x256 (ix2 p o) = x (ix2 p (Spec.g2 o)) :=
    fun x => slice2_axis1_apply 512 x _ p o (Spec.g2 o) rfl
  unfold kcell
  simp only [Spec.sig_eq_logistic]
  show (Spec.w1 - Ideal.logistic (extractStridedSlice S768x256 ![0, 256] gi _ (ix2 p o) + extractStridedSlice S768x256 ![0, 256] gh _ (ix2 p o)))
        * Ideal.tanh (extractStridedSlice S768x256 ![0, 512] gi _ (ix2 p o)
            + Ideal.logistic (extractStridedSlice S768x256 ![0, 0] gi _ (ix2 p o) + extractStridedSlice S768x256 ![0, 0] gh _ (ix2 p o)) * extractStridedSlice S768x256 ![0, 512] gh _ (ix2 p o))
      + Ideal.logistic (extractStridedSlice S768x256 ![0, 256] gi _ (ix2 p o) + extractStridedSlice S768x256 ![0, 256] gh _ (ix2 p o)) * v1 (ix2 p o) = _
  rw [s0 gi, s0 gh, s1 gi, s1 gh, s2 gi, s2 gh]

end Cert.KernelIdeal.KValue

end
-- ==== Proof.KHead.lean ====
import proofs.«156658_j36309653520739_2_alg».proof.Proof.KValue

/-!
# One head of the second kernel is the specification's head, graph by graph

For the block's graph `g`, the node states are rows `96·g … 96·g + 95` of the node block, the adjacency matrix is
slab `g` of the adjacency block, the masked edge sum is the same rows of the edge-sum block, and a head's parameters
are its loaded slices read with the matrix indices exchanged (the slices hold the transposed matrices). With these,
the head's result at row `96·g + v`, column `o` is `Spec.head … v o`, provided the degree column holds the degrees.
-/

noncomputable section

namespace Cert.KernelIdeal.KValue

open Cert.KernelIdeal Cert.KernelIdeal.KBody Idealize.ShloMosaic Idealize.ShloMosaic.ValueIdx
open Facts₀ Facts

/-- Graph `g`'s node states, adjacency matrix and masked edge sums, read off the block's arrays. -/
def Xb (v1 : FVec Ideal S768x256 .f32) (g : Fin 8) : Fin 96 → Fin 256 → EReal := fun v i => v1 (ix2 (row g v) i)
def Ab (v11 : FVec Ideal S8x96x96 .bf16) (g : Fin 8) : Fin 96 → Fin 96 → EReal := fun v w => v11 (ix3 g v w)
def EWb (v5 : FVec Ideal S768x32 .bf16) (g : Fin 8) : Fin 96 → Fin 32 → EReal := fun v e => v5 (ix2 (row g v) e)

/-- A head's parameters read off its loaded slices: every matrix slice holds the transposed matrix. -/
def Hd (L : HeadLoads Ideal) : Spec.Head where
  W1 := fun o i => L.w1 (ix3 (0 : Fin 1) i o)
  b1 := fun o => L.b1 (ix2 (0 : Fin 1) o)
  Wa := fun m i => L.wa (ix3 (0 : Fin 1) i m)
  Wb := fun m i => L.wb (ix3 (0 : Fin 1) i m)
  Wc := fun m e => L.wc (ix3 (0 : Fin 1) e m)
  b2 := fun m => L.b2 (ix2 (0 : Fin 1) m)
  Wih := fun o m => L.wih (ix3 (0 : Fin 1) m o)
  Whh := fun o n => L.whh (ix3 (0 : Fin 1) n o)
  bih := fun o => L.bih (ix2 (0 : Fin 1) o)
  bhh := fun o => L.bhh (ix2 (0 : Fin 1) o)

section Head

variable (v1 : FVec Ideal S768x256 .f32) (v2 : FVec Ideal S768x256 .bf16) (v5 : FVec Ideal S768x32 .bf16)
  (v10 : FVec Ideal S768x1 .f32) (v11 : FVec Ideal S8x96x96 .bf16) (L : HeadLoads Ideal)
  (h2 : ∀ i, v2 i = v1 i)
  (hdeg : ∀ g v, v10 (ix2 (row g v) (0 : Fin 1)) = Spec.deg (Ab v11 g) v)

include h2 in
theorem hv_eq (g : Fin 8) (v : Fin 96) (o : Fin 256) :
    khv v2 L.w1 L.b1 (ix2 (row g v) o) = Spec.hv (Xb v1 g) (Hd L) v o := by
  rw [khv_apply]
  unfold Spec.hv
  simp only [h2]
  rfl

include h2 in
theorem tv_eq (g : Fin 8) (v : Fin 96) (m : Fin 256) :
    ktv (khv v2 L.w1 L.b1) L.wa (ix2 (row g v) m) = Spec.tv (Xb v1 g) (Hd L) v m := by
  rw [ktv_apply]
  unfold Spec.tv
  exact Finset.sum_congr rfl fun i _ => by rw [hv_eq v1 v2 L h2]; rfl

include h2 in
theorem nb_eq (g : Fin 8) (v : Fin 96) (m : Fin 256) :
    knb v11 (khv v2 L.w1 L.b1) L.wb (ix2 (row g v) m) = Spec.nb (Xb v1 g) (Ab v11 g) (Hd L) v m := by
  rw [knb_apply]
  unfold Spec.nb Spec.tw
  refine Finset.sum_congr rfl fun w _ => ?_
  refine congrArg (Ab v11 g v w * ·) (Finset.sum_congr rfl fun i _ => ?_)
  rw [hv_eq v1 v2 L h2]; rfl

theorem em_eq (g : Fin 8) (v : Fin 96) (m : Fin 256) :
    kem v5 L.wc (ix2 (row g v) m) = Spec.em (EWb v5 g) (Hd L) v m := by
  rw [kem_apply]
  rfl

include h2 hdeg in
theorem msg_eq (g : Fin 8) (v : Fin 96) (m : Fin 256) :
    kmsg (ktv (khv v2 L.w1 L.b1) L.wa) (knb v11 (khv v2 L.w1 L.b1) L.wb) (kem v5 L.wc) v10 L.b2 (ix2 (row g v) m)
      = Spec.msg (Xb v1 g) (Ab v11 g) (EWb v5 g) (Hd L) v m := by
  rw [kmsg_apply, tv_eq v1 v2 L h2, nb_eq v1 v2 v11 L h2, em_eq v5 L, hdeg]
  rfl

include h2 hdeg in
theorem gi_eq (g : Fin 8) (v : Fin 96) (o : Fin 768) :
    kgate3 (kmsg (ktv (khv v2 L.w1 L.b1) L.wa) (knb v11 (khv v2 L.w1 L.b1) L.wb) (kem v5 L.wc) v10 L.b2) L.wih L.bih (ix2 (row g v) o)
      = Spec.gi (Xb v1 g) (Ab v11 g) (EWb v5 g) (Hd L) v o := by
  rw [kgate3_apply]
  unfold Spec.gi
  refine congrArg (· + (Hd L).bih o) (Finset.sum_congr rfl fun m _ => ?_)
  rw [msg_eq v1 v2 v5 v10 v11 L h2 hdeg]; rfl

include h2 in
theorem gh_eq (g : Fin 8) (v : Fin 96) (o : Fin 768) :
    kgate3 v2 L.whh L.bhh (ix2 (row g v) o) = Spec.gh (Xb v1 g) (Hd L) v o := by
  rw [kgate3_apply]
  unfold Spec.gh
  simp only [h2]
  rfl

include h2 hdeg in
/-- One head at row `96·g + v`, column `o`, is the specification's head of graph `g` at node `v`, feature `o`. -/
theorem khead_apply (g : Fin 8) (v : Fin 96) (o : Fin 256) :
    khead v1 v2 v5 v10 v11 L (ix2 (row g v) o) = Spec.head (Xb v1 g) (Ab v11 g) (EWb v5 g) (Hd L) v o := by
  rw [khead_eq, kcell_apply]
  simp only [gi_eq v1 v2 v5 v10 v11 L h2 hdeg, gh_eq v1 v2 L h2]
  rfl

end Head

end Cert.KernelIdeal.KValue

end
-- ==== Proof.KFinal.lean ====
import proofs.«156658_j36309653520739_2_alg».proof.Proof.KHead
import Idealize.ShloMosaic.PureOps.Ideal.Laws

/-!
# The second kernel's block result is the specification's output, graph by graph

The degree column of the block is the row sums of its adjacency block; the four heads are joined side by side, so
column `k` of the 1024-wide row is column `k % 256` of head `k / 256`; the join is rectified, projected by the
(transposed) output matrix, and the bias and the node block are added. Read at row `96·g + v`, column `o`, this is
`Spec.out` of the block's graph `g` at node `v`, feature `o`.
-/

noncomputable section

namespace Cert.KernelIdeal.KValue

open Cert.KernelIdeal Cert.KernelIdeal.KBody Idealize.ShloMosaic Idealize.ShloMosaic.ValueIdx
open Facts₀ Facts

/-- The degree column holds, at row `96·g + v`, the number of neighbours of node `v` of graph `g`. -/
theorem kv10_apply (l2 : Vec Ideal S8x96x96 .i32) (g : Fin 8) (v : Fin 96) :
    kv10 l2 (ix2 (row g v) (0 : Fin 1)) = Spec.deg (Ab (kv11 l2) g) v := by
  unfold kv10
  refine (shapeCast_apply _ _ (ix2 (row g v) (0 : Fin 1)) (ix3 g v (0 : Fin 1)) (by
    rw [Shape.rowMajor_val_three, Shape.rowMajor_val_two]
    show (g.val * 96 + v.val) * 1 + 0 = (96 * g.val + v.val) * 1 + 0
    omega)).trans ?_
  refine (shapeCast_apply _ _ (ix3 g v (0 : Fin 1)) (ix2 g v) (by
    rw [Shape.rowMajor_val_three, Shape.rowMajor_val_two]
    show g.val * 96 + v.val = (g.val * 96 + v.val) * 1 + 0
    omega)).trans ?_
  refine (Ideal.multiReduction_add_single (kv7 l2) 0x00000000#32 reduces_S8x96x96_S8x96 (.inl rfl) rfl (ix2 g v)).trans ?_
  unfold Spec.deg
  rw [show Spec.w0 = (0 : EReal) from Ideal.ofBits_zero_f32, zero_add]
  refine Finset.sum_congr rfl fun k _ => ?_
  show kv7 l2 _ = kv7 l2 (ix3 g v k)
  exact congrArg (kv7 l2) (funext fun a => Fin.ext (by
    match a with
    | ⟨0, _⟩ => rfl
    | ⟨1, _⟩ => rfl
    | ⟨2, _⟩ => rfl))

/-- Column `256·q + c` of the joined row is column `c` of head `q`. -/
theorem cat_piece (h0 h1 h2 h3 : FVec Ideal S768x256 .f32) (p : Fin 768) (q : Fin 4) (c : Fin 256) :
    concatenate S768x1024 1 [⟨S768x256, h0⟩, ⟨S768x256, h1⟩, ⟨S768x256, h2⟩, ⟨S768x256, h3⟩]
        concatenates_S768x256_S768x256_S768x256_S768x256_S768x1024_d1
        (ix2 p (⟨256 * q.val + c.val, by have := q.isLt; have := c.isLt; omega⟩ : Fin 1024))
      = (![h0, h1, h2, h3] q) (ix2 p c) := by
  have hi : ∀ (J : Fin 1024) (b : Fin S768x256.rank), b.cast (rfl : S768x256.rank = S768x1024.rank) ≠ (1 : Fin S768x1024.rank) →
      ((ix2 p c : S768x256.Idx) b).val = ((ix2 p J : S768x1024.Idx) (b.cast rfl)).val :=
    fun J b hb => by
      match b with
      | ⟨0, _⟩ => rfl
      | ⟨1, _⟩ => exact absurd rfl hb
  fin_cases q
  · exact concatenate_apply_piece (a := (1 : Fin S768x1024.rank))
      (xs := [⟨S768x256, h0⟩, ⟨S768x256, h1⟩, ⟨S768x256, h2⟩, ⟨S768x256, h3⟩])
      (h := concatenates_S768x256_S768x256_S768x256_S768x256_S768x1024_d1)
      (j := ix2 p (⟨256 * 0 + c.val, by have := c.isLt; omega⟩ : Fin 1024)) (k := 0) (hk := by simp only [List.length_cons, List.length_nil]; omega) (s₁ := S768x256) (x₁ := h0)
      (hxk := rfl) (hr := rfl) (pre := 0) (hpre := rfl) (i := ix2 p c) (hi := hi _)
      (ha := by show 0 + c.val = 256 * 0 + c.val; omega)
  · exact concatenate_apply_piece (a := (1 : Fin S768x1024.rank))
      (xs := [⟨S768x256, h0⟩, ⟨S768x256, h1⟩, ⟨S768x256, h2⟩, ⟨S768x256, h3⟩])
      (h := concatenates_S768x256_S768x256_S768x256_S768x256_S768x1024_d1)
      (j := ix2 p (⟨256 * 1 + c.val, by have := c.isLt; omega⟩ : Fin 1024)) (k := 1) (hk := by simp only [List.length_cons, List.length_nil]; omega) (s₁ := S768x256) (x₁ := h1)
      (hxk := rfl) (hr := rfl) (pre := 256) (hpre := rfl) (i := ix2 p c) (hi := hi _)
      (ha := by show 256 + c.val = 256 * 1 + c.val; omega)
  · exact concatenate_apply_piece (a := (1 : Fin S768x1024.rank))
      (xs := [⟨S768x256, h0⟩, ⟨S768x256, h1⟩, ⟨S768x256, h2⟩, ⟨S768x256, h3⟩])
      (h := concatenates_S768x256_S768x256_S768x256_S768x256_S768x1024_d1)
      (j := ix2 p (⟨256 * 2 + c.val, by have := c.isLt; omega⟩ : Fin 1024)) (k := 2) (hk := by simp only [List.length_cons, List.length_nil]; omega) (s₁ := S768x256) (x₁ := h2)
      (hxk := rfl) (hr := rfl) (pre := 512) (hpre := rfl) (i := ix2 p c) (hi := hi _)
      (ha := by show 512 + c.val = 256 * 2 + c.val; omega)
  · exact concatenate_apply_piece (a := (1 : Fin S768x1024.rank))
      (xs := [⟨S768x256, h0⟩, ⟨S768x256, h1⟩, ⟨S768x256, h2⟩, ⟨S768x256, h3⟩])
      (h := concatenates_S768x256_S768x256_S768x256_S768x256_S768x1024_d1)
      (j := ix2 p (⟨256 * 3 + c.val, by have := c.isLt; omega⟩ : Fin 1024)) (k := 3) (hk := by simp only [List.length_cons, List.length_nil]; omega) (s₁ := S768x256) (x₁ := h3)
      (hxk := rfl) (hr := rfl) (pre := 768) (hpre := rfl) (i := ix2 p c) (hi := hi _)
      (ha := by show 768 + c.val = 256 * 3 + c.val; omega)

/-- The joined row at any column. -/
theorem cat_apply (h0 h1 h2 h3 : FVec Ideal S768x256 .f32) (p : Fin 768) (k : Fin 1024) :
    concatenate S768x1024 1 [⟨S768x256, h0⟩, ⟨S768x256, h1⟩, ⟨S768x256, h2⟩, ⟨S768x256, h3⟩]
        concatenates_S768x256_S768x256_S768x256_S768x256_S768x1024_d1 (ix2 p k)
      = (![h0, h1, h2, h3] ⟨k.val / 256, by have := k.isLt; omega⟩) (ix2 p ⟨k.val % 256, Nat.mod_lt _ (by decide)⟩) := by
  have hk : k = (⟨256 * (k.val / 256) + k.val % 256, by have := k.isLt; omega⟩ : Fin 1024) := Fin.ext (by show k.val = 256 * (k.val / 256) + k.val % 256; omega)
  conv_lhs => rw [hk]
  exact cat_piece h0 h1 h2 h3 p ⟨k.val / 256, by have := k.isLt; omega⟩ ⟨k.val % 256, Nat.mod_lt _ (by decide)⟩

/-- The join of the heads read at an index. -/
theorem kfinal_apply (v1 h0 h1 h2 h3 : FVec Ideal S768x256 .f32) (wout : Vec Ideal S1024x256 .bf16) (bout : Vec Ideal S256 .f32)
    (p : Fin 768) (o : Fin 256) :
    kfinal v1 h0 h1 h2 h3 wout bout (ix2 p o)
      = v1 (ix2 p o) + ((∑ k : Fin 1024, max ((![h0, h1, h2, h3] ⟨k.val / 256, by have := k.isLt; omega⟩) (ix2 p ⟨k.val % 256, Nat.mod_lt _ (by decide)⟩)) Spec.w0
            * wout (ix2 k o)) + bout (ix1 o)) := by
  rw [kfinal_eq]
  show v1 (ix2 p o) + (matmul _ none _ _ _ (ix2 p o) + broadcastTo _ _ _ (ix2 p o)) = _
  rw [KDots.mm1024, broadcastTo_1b_ab_apply, shapeCast_a_1a_apply, shapeCast_self]
  refine congrArg (fun s => v1 (ix2 p o) + (s + bout (ix1 o))) (Finset.sum_congr rfl fun k _ => ?_)
  show max (concatenate _ _ _ _ (ix2 p k)) _ * wout (ix2 k o) = _
  rw [cat_apply]
  rfl

/-- What the body stores, read at row `96·g + v`, column `o`: the specification's output for the block's graph `g`. -/
theorem kblock_apply (l0 : Vec Ideal S768x256 .f32) (l1 : Vec Ideal S768x32 .f32) (l2 : Vec Ideal S8x96x96 .i32) (L0 L1 L2 L3 : HeadLoads Ideal)
    (wout : Vec Ideal S1024x256 .bf16) (bout : Vec Ideal S256 .f32) (g : Fin 8) (v : Fin 96) (o : Fin 256) :
    kblock l0 l1 l2 L0 L1 L2 L3 wout bout (ix2 (row g v) o)
      = Spec.out (Xb (kv1 l0) g) (Ab (kv11 l2) g) (EWb (kv5 l1) g) (fun q => Hd (![L0, L1, L2, L3] q))
          (fun o k => wout (ix2 k o)) (fun o => bout (ix1 o)) v o := by
  unfold kblock
  rw [kfinal_apply]
  unfold Spec.out Spec.cat
  refine congrArg (fun s => Xb (kv1 l0) g v o + (s + bout (ix1 o))) (Finset.sum_congr rfl fun k _ => ?_)
  have hq : ∀ (q : Fin 4) (c : Fin 256),
      (![khead (kv1 l0) (kv2 l0) (kv5 l1) (kv10 l2) (kv11 l2) L0, khead (kv1 l0) (kv2 l0) (kv5 l1) (kv10 l2) (kv11 l2) L1,
          khead (kv1 l0) (kv2 l0) (kv5 l1) (kv10 l2) (kv11 l2) L2, khead (kv1 l0) (kv2 l0) (kv5 l1) (kv10 l2) (kv11 l2) L3] q) (ix2 (row g v) c)
        = Spec.head (Xb (kv1 l0) g) (Ab (kv11 l2) g) (EWb (kv5 l1) g) (Hd (![L0, L1, L2, L3] q)) v c := by
    intro q c
    fin_cases q <;> exact khead_apply (kv1 l0) (kv2 l0) (kv5 l1) (kv10 l2) (kv11 l2) _ (fun _ => rfl) (kv10_apply l2) g v c
  rw [hq]

end Cert.KernelIdeal.KValue

end
-- ==== Proof.KArray.lean ====
import proofs.«156658_j36309653520739_2_alg».proof.Proof.KFinal
import proofs.«156658_j36309653520739_2_alg».proof.Proof.KernelGlue

/-!
# The second kernel's output array, index by index

Grid point `t` of the second kernel works on rows `768·t … 768·t + 767` of the flattened node array, i.e. on graphs
`8·t … 8·t + 7`; its parameter windows are whole arrays at every point. Reading each window's block back to the
array it is a block of (the host operations before the region: reshapes of the node and edge-sum arrays, transposes
and column slices of the parameter arrays), the block the point writes back is the specification's result for those
graphs, so the blocks of all 8 points make the whole [6144, 256] array the layer's result, row `96·b + v` holding
graph `b`'s node `v`. The masked edge sum that the first kernel leaves is a hypothesis here (`hR0`).
-/

set_option maxRecDepth 16384

noncomputable section

namespace Cert.KernelIdeal.KArray

open Cert.KernelIdeal Cert.KernelIdeal.Gen Cert.KernelIdeal.KBody Cert.KernelIdeal.KValue
open Idealize.ShloMosaic Idealize.ShloMosaic.TcCoe Idealize.ShloMosaic.ValueIdx Idealize.SL.Sem
open Idealize.ShloMosaic.Pipeline (Dat)
open Facts₀ Facts

variable (m : (ℓ : Loc nD τ sig) → Buf (Elt Ideal) ℓ) (ρ : Dev nD → PrngReg)

theorem tlt (t : Fin cfg1.N) : t.val < 8 := lt_of_lt_of_eq t.isLt N_1

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The windows' index maps over the grid -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 3) = t.val ∧ win1_2.index t (1 : Fin 3) = 0 ∧ win1_2.index t (2 : Fin 3) = 0 :=
  (by decide +kernel : ∀ t : Fin grid1.N, _)
theorem idx1_3 : ∀ t : Fin cfg1.N, win1_3.index t (0 : Fin 3) = 0 ∧ win1_3.index t (1 : Fin 3) = 0 ∧ win1_3.index t (2 : Fin 3) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 3) = 0 ∧ win1_5.index t (1 : Fin 3) = 0 ∧ win1_5.index t (2 : Fin 3) = 0 :=
  (by decide +kernel : ∀ t : Fin grid1.N, _)
theorem idx1_6 : ∀ t : Fin cfg1.N, win1_6.index t (0 : Fin 3) = 0 ∧ win1_6.index t (1 : Fin 3) = 0 ∧ win1_6.index t (2 : Fin 3) = 0 :=
  (by decide +kernel : ∀ t : Fin grid1.N, _)
theorem idx1_7 : ∀ t : Fin cfg1.N, win1_7.index t (0 : Fin 3) = 0 ∧ win1_7.index t (1 : Fin 3) = 0 ∧ win1_7.index t (2 : Fin 3) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 3) = 0 ∧ win1_9.index t (1 : Fin 3) = 0 ∧ win1_9.index t (2 : Fin 3) = 0 :=
  (by decide +kernel : ∀ t : Fin grid1.N, _)
theorem idx1_10 : ∀ t : Fin cfg1.N, win1_10.index t (0 : Fin 3) = 0 ∧ win1_10.index t (1 : Fin 3) = 0 ∧ win1_10.index t (2 : Fin 3) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)
theorem idx1_13 : ∀ t : Fin cfg1.N, win1_13.index t (0 : Fin 2) = 0 ∧ win1_13.index t (1 : Fin 2) = 0 :=
  (by decide +kernel : ∀ t : Fin grid1.N, _)
theorem idx1_14 : ∀ t : Fin cfg1.N, win1_14.index t (0 : Fin 1) = 0 :=
  (by decide +kernel : ∀ t : Fin grid1.N, _)
theorem idx1_15 : ∀ t : Fin cfg1.N, win1_15.index t (0 : Fin 2) = t.val ∧ win1_15.index t (1 : Fin 2) = 0 :=
  (by decide +kernel : ∀ t : Fin grid1.N, _)

/-! ## Each window's block read back to the argument arrays -/

theorem rd0 (c : Dev nD) (t : Fin cfg1.N) (r : Fin 768) (i : Fin 256) :
    (iblk1 (V2 m ρ) c 0 t : S768x256.Idx → EReal) (ix2 r i)
      = (m ((c : Thread nD τ).loc main_arg0) : S64x96x256.Idx → EReal) (ix3 ⟨(768 * t.val + r.val) / 96, by have := tlt t; have := r.isLt; omega⟩ ⟨(768 * t.val + r.val) % 96, Nat.mod_lt _ (by decide)⟩ i) := by
  show (V2 m ρ c main_v18 : S6144x256.Idx → EReal) (((cfg1.win 0).blk t).view.emb (ix2 r i)) = _
  have he : ((cfg1.win 0).blk t).view.emb (ix2 r i) = ix2 (⟨768 * t.val + r.val, by have := tlt t; have := r.isLt; omega⟩ : Fin 6144) i := by
    funext a; apply Fin.ext
    match a with
    | ⟨0, _⟩ => show win1_0.index t (0 : Fin 2) * 768 + 1 * r.val = 768 * t.val + r.val; have := (idx1_0 t).1; omega
    | ⟨1, _⟩ => show win1_0.index t (1 : Fin 2) * 256 + 1 * i.val = i.val; have := (idx1_0 t).2; omega
  rw [he]
  exact Glue.V2_v18_apply m ρ c _ i

theorem rd1 (c : Dev nD) (t : Fin cfg1.N) (r : Fin 768) (e : Fin 32) :
    (iblk1 (V2 m ρ) c 1 t : S768x32.Idx → EReal) (ix2 r e)
      = ((dat0 (V0 m ρ) c).arrAt 2 cfg0.N : S64x96x32.Idx → EReal) (ix3 ⟨(768 * t.val + r.val) / 96, by have := tlt t; have := r.isLt; omega⟩ ⟨(768 * t.val + r.val) % 96, Nat.mod_lt _ (by decide)⟩ e) := by
  show (V2 m ρ c main_v19 : S6144x32.Idx → EReal) (((cfg1.win 1).blk t).view.emb (ix2 r e)) = _
  have he : ((cfg1.win 1).blk t).view.emb (ix2 r e) = ix2 (⟨768 * t.val + r.val, by have := tlt t; have := r.isLt; omega⟩ : Fin 6144) e := by
    funext a; apply Fin.ext
    match a with
    | ⟨0, _⟩ => show win1_1.index t (0 : Fin 2) * 768 + 1 * r.val = 768 * t.val + r.val; have := (idx1_1 t).1; omega
    | ⟨1, _⟩ => show win1_1.index t (1 : Fin 2) * 32 + 1 * e.val = e.val; have := (idx1_1 t).2; omega
  rw [he]
  exact Glue.V2_v19_apply m ρ c _ e

theorem rd2 (c : Dev nD) (t : Fin cfg1.N) (g : Fin 8) (v : Fin 96) (w : Fin 96) :
    (iblk1 (V2 m ρ) c 2 t : S8x96x96.Idx → BitVec 32) (ix3 g v w)
      = (m ((c : Thread nD τ).loc main_arg2) : S64x96x96.Idx → BitVec 32) (ix3 (⟨8 * t.val + g.val, by have := tlt t; have := g.isLt; omega⟩ : Fin 64) v w) := by
  show (V2 m ρ c main_arg2 : S64x96x96.Idx → BitVec 32) (((cfg1.win 2).blk t).view.emb (ix3 g v w)) = _
  have he : ((cfg1.win 2).blk t).view.emb (ix3 g v w) = ix3 (⟨8 * t.val + g.val, by have := tlt t; have := g.isLt; omega⟩ : Fin 64) v w := by
    funext a; apply Fin.ext
    match a with
    | ⟨0, _⟩ => show win1_2.index t (0 : Fin 3) * 8 + 1 * g.val = 8 * t.val + g.val; have := (idx1_2 t).1; omega
    | ⟨1, _⟩ => show win1_2.index t (1 : Fin 3) * 96 + 1 * v.val = v.val; have := (idx1_2 t).2.1; omega
    | ⟨2, _⟩ => show win1_2.index t (2 : Fin 3) * 96 + 1 * w.val = w.val; have := (idx1_2 t).2.2; omega
  rw [he]
  exact congrFun (Glue.V2_arg2 m ρ c) _

theorem rd3 (c : Dev nD) (t : Fin cfg1.N) (q : Fin 4) (i : Fin 256) (o : Fin 256) :
    (iblk1 (V2 m ρ) c 3 t : S4x256x256.Idx → EReal) (ix3 q i o)
      = (m ((c : Thread nD τ).loc main_arg3) : S4x256x256.Idx → EReal) (ix3 q o i) := by
  show (V2 m ρ c main_v2 : S4x256x256.Idx → EReal) (((cfg1.win 3).blk t).view.emb (ix3 q i o)) = _
  have he : ((cfg1.win 3).blk t).view.emb (ix3 q i o) = ix3 q i o := by
    funext a; apply Fin.ext
    match a with
    | ⟨0, _⟩ => show win1_3.index t (0 : Fin 3) * 4 + 1 * q.val = q.val; have := (idx1_3 t).1; omega
    | ⟨1, _⟩ => show win1_3.index t (1 : Fin 3) * 256 + 1 * i.val = i.val; have := (idx1_3 t).2.1; omega
    | ⟨2, _⟩ => show win1_3.index t (2 : Fin 3) * 256 + 1 * o.val = o.val; have := (idx1_3 t).2.2; omega
  rw [he]
  exact Glue.V2_v2_apply m ρ c q i o

theorem rd4 (c : Dev nD) (t : Fin cfg1.N) (q : Fin 4) (o : Fin 256) :
    (iblk1 (V2 m ρ) c 4 t : S4x256.Idx → EReal) (ix2 q o)
      = (m ((c : Thread nD τ).loc main_arg4) : S4x256.Idx → EReal) (ix2 q o) := by
  show (V2 m ρ c main_arg4 : S4x256.Idx → EReal) (((cfg1.win 4).blk t).view.emb (ix2 q o)) = _
  have he : ((cfg1.win 4).blk t).view.emb (ix2 q o) = ix2 q o := by
    funext a; apply Fin.ext
    match a with
    | ⟨0, _⟩ => show win1_4.index t (0 : Fin 2) * 4 + 1 * q.val = q.val; have := (idx1_4 t).1; omega
    | ⟨1, _⟩ => show win1_4.index t (1 : Fin 2) * 256 + 1 * o.val = o.val; have := (idx1_4 t).2; omega
  rw [he]
  exact congrFun (Glue.V2_arg4 m ρ c) _

theorem rd5 (c : Dev nD) (t : Fin cfg1.N) (q : Fin 4) (i : Fin 256) (k : Fin 256) :
    (iblk1 (V2 m ρ) c 5 t : S4x256x256.Idx → EReal) (ix3 q i k)
      = (m ((c : Thread nD τ).loc main_arg5) : S4x256x544.Idx → EReal) (ix3 q k ⟨0 + i.val, by have := i.isLt; omega⟩) := by
  show (V2 m ρ c main_v5 : S4x256x256.Idx → EReal) (((cfg1.win 5).blk t).view.emb (ix3 q i k)) = _
  have he : ((cfg1.win 5).blk t).view.emb (ix3 q i k) = ix3 q i k := by
    funext a; apply Fin.ext
    match a with
    | ⟨0, _⟩ => show win1_5.index t (0 : Fin 3) * 4 + 1 * q.val = q.val; have := (idx1_5 t).1; omega
    | ⟨1, _⟩ => show win1_5.index t (1 : Fin 3) * 256 + 1 * i.val = i.val; have := (idx1_5 t).2.1; omega
    | ⟨2, _⟩ => show win1_5.index t (2 : Fin 3) * 256 + 1 * k.val = k.val; have := (idx1_5 t).2.2; omega
  rw [he]
  exact Glue.V2_v5_apply m ρ c q i k

theorem rd6 (c : Dev nD) (t : Fin cfg1.N) (q : Fin 4) (i : Fin 256) (k : Fin 256) :
    (iblk1 (V2 m ρ) c 6 t : S4x256x256.Idx → EReal) (ix3 q i k)
      = (m ((c : Thread nD τ).loc main_arg5) : S4x256x544.Idx → EReal) (ix3 q k ⟨256 + i.val, by have := i.isLt; omega⟩) := by
  show (V2 m ρ c main_v8 : S4x256x256.Idx → EReal) (((cfg1.win 6).blk t).view.emb (ix3 q i k)) = _
  have he : ((cfg1.win 6).blk t).view.emb (ix3 q i k) = ix3 q i k := by
    funext a; apply Fin.ext
    match a with
    | ⟨0, _⟩ => show win1_6.index t (0 : Fin 3) * 4 + 1 * q.val = q.val; have := (idx1_6 t).1; omega
    | ⟨1, _⟩ => show win1_6.index t (1 : Fin 3) * 256 + 1 * i.val = i.val; have := (idx1_6 t).2.1; omega
    | ⟨2, _⟩ => show win1_6.index t (2 : Fin 3) * 256 + 1 * k.val = k.val; have := (idx1_6 t).2.2; omega
  rw [he]
  exact Glue.V2_v8_apply m ρ c q i k

theorem rd7 (c : Dev nD) (t : Fin cfg1.N) (q : Fin 4) (e : Fin 32) (k : Fin 256) :
    (iblk1 (V2 m ρ) c 7 t : S4x32x256.Idx → EReal) (ix3 q e k)
      = (m ((c : Thread nD τ).loc main_arg5) : S4x256x544.Idx → EReal) (ix3 q k ⟨512 + e.val, by have := e.isLt; omega⟩) := by
  show (V2 m ρ c main_v11 : S4x32x256.Idx → EReal) (((cfg1.win 7).blk t).view.emb (ix3 q e k)) = _
  have he : ((cfg1.win 7).blk t).view.emb (ix3 q e k) = ix3 q e k := by
    funext a; apply Fin.ext
    match a with
    | ⟨0, _⟩ => show win1_7.index t (0 : Fin 3) * 4 + 1 * q.val = q.val; have := (idx1_7 t).1; omega
    | ⟨1, _⟩ => show win1_7.index t (1 : Fin 3) * 32 + 1 * e.val = e.val; have := (idx1_7 t).2.1; omega
    | ⟨2, _⟩ => show win1_7.index t (2 : Fin 3) * 256 + 1 * k.val = k.val; have := (idx1_7 t).2.2; omega
  rw [he]
  exact Glue.V2_v11_apply m ρ c q e k

theorem rd8 (c : Dev nD) (t : Fin cfg1.N) (q : Fin 4) (o : Fin 256) :
    (iblk1 (V2 m ρ) c 8 t : S4x256.Idx → EReal) (ix2 q o)
      = (m ((c : Thread nD τ).loc main_arg6) : S4x256.Idx → EReal) (ix2 q o) := by
  show (V2 m ρ c main_arg6 : S4x256.Idx → EReal) (((cfg1.win 8).blk t).view.emb (ix2 q o)) = _
  have he : ((cfg1.win 8).blk t).view.emb (ix2 q o) = ix2 q o := by
    funext a; apply Fin.ext
    match a with
    | ⟨0, _⟩ => show win1_8.index t (0 : Fin 2) * 4 + 1 * q.val = q.val; have := (idx1_8 t).1; omega
    | ⟨1, _⟩ => show win1_8.index t (1 : Fin 2) * 256 + 1 * o.val = o.val; have := (idx1_8 t).2; omega
  rw [he]
  exact congrFun (Glue.V2_arg6 m ρ c) _

theorem rd9 (c : Dev nD) (t : Fin cfg1.N) (q : Fin 4) (i : Fin 256) (o : Fin 768) :
    (iblk1 (V2 m ρ) c 9 t : S4x256x768.Idx → EReal) (ix3 q i o)
      = (m ((c : Thread nD τ).loc main_arg7) : S4x768x256.Idx → EReal) (ix3 q o i) := by
  show (V2 m ρ c main_v13 : S4x256x768.Idx → EReal) (((cfg1.win 9).blk t).view.emb (ix3 q i o)) = _
  have he : ((cfg1.win 9).blk t).view.emb (ix3 q i o) = ix3 q i o := by
    funext a; apply Fin.ext
    match a with
    | ⟨0, _⟩ => show win1_9.index t (0 : Fin 3) * 4 + 1 * q.val = q.val; have := (idx1_9 t).1; omega
    | ⟨1, _⟩ => show win1_9.index t (1 : Fin 3) * 256 + 1 * i.val = i.val; have := (idx1_9 t).2.1; omega
    | ⟨2, _⟩ => show win1_9.index t (2 : Fin 3) * 768 + 1 * o.val = o.val; have := (idx1_9 t).2.2; omega
  rw [he]
  exact Glue.V2_v13_apply m ρ c q i o

theorem rd10 (c : Dev nD) (t : Fin cfg1.N) (q : Fin 4) (i : Fin 256) (o : Fin 768) :
    (iblk1 (V2 m ρ) c 10 t : S4x256x768.Idx → EReal) (ix3 q i o)
      = (m ((c : Thread nD τ).loc main_arg8) : S4x768x256.Idx → EReal) (ix3 q o i) := by
  show (V2 m ρ c main_v15 : S4x256x768.Idx → EReal) (((cfg1.win 10).blk t).view.emb (ix3 q i o)) = _
  have he : ((cfg1.win 10).blk t).view.emb (ix3 q i o) = ix3 q i o := by
    funext a; apply Fin.ext
    match a with
    | ⟨0, _⟩ => show win1_10.index t (0 : Fin 3) * 4 + 1 * q.val = q.val; have := (idx1_10 t).1; omega
    | ⟨1, _⟩ => show win1_10.index t (1 : Fin 3) * 256 + 1 * i.val = i.val; have := (idx1_10 t).2.1; omega
    | ⟨2, _⟩ => show win1_10.index t (2 : Fin 3) * 768 + 1 * o.val = o.val; have := (idx1_10 t).2.2; omega
  rw [he]
  exact Glue.V2_v15_apply m ρ c q i o

theorem rd11 (c : Dev nD) (t : Fin cfg1.N) (q : Fin 4) (o : Fin 768) :
    (iblk1 (V2 m ρ) c 11 t : S4x768.Idx → EReal) (ix2 q o)
      = (m ((c : Thread nD τ).loc main_arg9) : S4x768.Idx → EReal) (ix2 q o) := by
  show (V2 m ρ c main_arg9 : S4x768.Idx → EReal) (((cfg1.win 11).blk t).view.emb (ix2 q o)) = _
  have he : ((cfg1.win 11).blk t).view.emb (ix2 q o) = ix2 q o := by
    funext a; apply Fin.ext
    match a with
    | ⟨0, _⟩ => show win1_11.index t (0 : Fin 2) * 4 + 1 * q.val = q.val; have := (idx1_11 t).1; omega
    | ⟨1, _⟩ => show win1_11.index t (1 : Fin 2) * 768 + 1 * o.val = o.val; have := (idx1_11 t).2; omega
  rw [he]
  exact congrFun (Glue.V2_arg9 m ρ c) _

theorem rd12 (c : Dev nD) (t : Fin cfg1.N) (q : Fin 4) (o : Fin 768) :
    (iblk1 (V2 m ρ) c 12 t : S4x768.Idx → EReal) (ix2 q o)
      = (m ((c : Thread nD τ).loc main_arg10) : S4x768.Idx → EReal) (ix2 q o) := by
  show (V2 m ρ c main_arg10 : S4x768.Idx → EReal) (((cfg1.win 12).blk t).view.emb (ix2 q o)) = _
  have he : ((cfg1.win 12).blk t).view.emb (ix2 q o) = ix2 q o := by
    funext a; apply Fin.ext
    match a with
    | ⟨0, _⟩ => show win1_12.index t (0 : Fin 2) * 4 + 1 * q.val = q.val; have := (idx1_12 t).1; omega
    | ⟨1, _⟩ => show win1_12.index t (1 : Fin 2) * 768 + 1 * o.val = o.val; have := (idx1_12 t).2; omega
  rw [he]
  exact congrFun (Glue.V2_arg10 m ρ c) _

theorem rd13 (c : Dev nD) (t : Fin cfg1.N) (k : Fin 1024) (o : Fin 256) :
    (iblk1 (V2 m ρ) c 13 t : S1024x256.Idx → EReal) (ix2 k o)
      = (m ((c : Thread nD τ).loc main_arg11) : S256x1024.Idx → EReal) (ix2 o k) := by
  show (V2 m ρ c main_v17 : S1024x256.Idx → EReal) (((cfg1.win 13).blk t).view.emb (ix2 k o)) = _
  have he : ((cfg1.win 13).blk t).view.emb (ix2 k o) = ix2 k o := by
    funext a; apply Fin.ext
    match a with
    | ⟨0, _⟩ => show win1_13.index t (0 : Fin 2) * 1024 + 1 * k.val = k.val; have := (idx1_13 t).1; omega
    | ⟨1, _⟩ => show win1_13.index t (1 : Fin 2) * 256 + 1 * o.val = o.val; have := (idx1_13 t).2; omega
  rw [he]
  exact Glue.V2_v17_apply m ρ c k o

theorem rd14 (c : Dev nD) (t : Fin cfg1.N) (o : Fin 256) :
    (iblk1 (V2 m ρ) c 14 t : S256.Idx → EReal) (ix1 o)
      = (m ((c : Thread nD τ).loc main_arg12) : S256.Idx → EReal) (ix1 o) := by
  show (V2 m ρ c main_arg12 : S256.Idx → EReal) (((cfg1.win 14).blk t).view.emb (ix1 o)) = _
  have he : ((cfg1.win 14).blk t).view.emb (ix1 o) = ix1 o := by
    funext a; apply Fin.ext
    match a with
    | ⟨0, _⟩ => show win1_14.index t (0 : Fin 1) * 256 + 1 * o.val = o.val; have := (idx1_14 t); omega
  rw [he]
  exact congrFun (Glue.V2_arg12 m ρ c) _

/-! ## A head's slices of the parameter blocks -/

/-- The slice `[q, :, :]` of a [4, a, b] block, kept with its unit axis, read at (0, i, j). -/
theorem ld3 {a b : ℕ} {e : EltTy} (X : (⟨3, ![4, a, b]⟩ : Shape).Idx → Elt Ideal e) (q : Fin 4)
    (inb : ∀ ax, (![q.val, 0, 0] : Fin 3 → ℕ) ax + (![1, a, b] : Fin 3 → ℕ) ax ≤ (⟨3, ![4, a, b]⟩ : Shape).size ax) (i : Fin a) (j : Fin b) :
    View.ld (Val := Elt Ideal) X (Rect.unit (s := ⟨3, ![4, a, b]⟩) ![q.val, 0, 0] ![1, a, b] inb) (ix3 (0 : Fin 1) i j) = X (ix3 q i j) := by
  show X ((Rect.unit (s := ⟨3, ![4, a, b]⟩) ![q.val, 0, 0] ![1, a, b] inb).emb (ix3 (0 : Fin 1) i j)) = _
  refine congrArg X (funext fun ax => Fin.ext ?_)
  match ax with
  | ⟨0, _⟩ => show q.val + 1 * 0 = q.val; omega
  | ⟨1, _⟩ => show 0 + 1 * i.val = i.val; omega
  | ⟨2, _⟩ => show 0 + 1 * j.val = j.val; omega

/-- The row `[q, :]` of a [4, a] block, kept with its unit axis, read at (0, i). -/
theorem ld2 {a : ℕ} {e : EltTy} (X : (⟨2, ![4, a]⟩ : Shape).Idx → Elt Ideal e) (q : Fin 4)
    (inb : ∀ ax, (![q.val, 0] : Fin 2 → ℕ) ax + (![1, a] : Fin 2 → ℕ) ax ≤ (⟨2, ![4, a]⟩ : Shape).size ax) (i : Fin a) :
    View.ld (Val := Elt Ideal) X (Rect.unit (s := ⟨2, ![4, a]⟩) ![q.val, 0] ![1, a] inb) (ix2 (0 : Fin 1) i) = X (ix2 q i) := by
  show X ((Rect.unit (s := ⟨2, ![4, a]⟩) ![q.val, 0] ![1, a] inb).emb (ix2 (0 : Fin 1) i)) = _
  refine congrArg X (funext fun ax => Fin.ext ?_)
  match ax with
  | ⟨0, _⟩ => show q.val + 1 * 0 = q.val; omega
  | ⟨1, _⟩ => show 0 + 1 * i.val = i.val; omega

theorem inb3 (q : Fin 4) (a b : ℕ) : ∀ ax, (![q.val, 0, 0] : Fin 3 → ℕ) ax + (![1, a, b] : Fin 3 → ℕ) ax ≤ (⟨3, ![4, a, b]⟩ : Shape).size ax := by
  intro ax; have := q.isLt
  match ax with
  | ⟨0, _⟩ => show q.val + 1 ≤ 4; omega
  | ⟨1, _⟩ => show 0 + a ≤ a; omega
  | ⟨2, _⟩ => show 0 + b ≤ b; omega

theorem inb2 (q : Fin 4) (a : ℕ) : ∀ ax, (![q.val, 0] : Fin 2 → ℕ) ax + (![1, a] : Fin 2 → ℕ) ax ≤ (⟨2, ![4, a]⟩ : Shape).size ax := by
  intro ax; have := q.isLt
  match ax with
  | ⟨0, _⟩ => show q.val + 1 ≤ 4; omega
  | ⟨1, _⟩ => show 0 + a ≤ a; omega

/-- Head `q`'s ten slices of the parameter blocks. -/
def loadsOf (x3 : Vec Ideal S4x256x256 .bf16) (x4 : Vec Ideal S4x256 .f32) (x5 x6 : Vec Ideal S4x256x256 .bf16) (x7 : Vec Ideal S4x32x256 .bf16)
    (x8 : Vec Ideal S4x256 .f32) (x9 x10 : Vec Ideal S4x256x768 .bf16) (x11 x12 : Vec Ideal S4x768 .f32) (q : Fin 4) : HeadLoads Ideal where
  w1 := View.ld x3 (Rect.unit (s := S4x256x256) ![q.val, 0, 0] S1x256x256.size (inb3 q 256 256))
  b1 := View.ld x4 (Rect.unit (s := S4x256) ![q.val, 0] S1x256.size (inb2 q 256))
  wa := View.ld x5 (Rect.unit (s := S4x256x256) ![q.val, 0, 0] S1x256x256.size (inb3 q 256 256))
  wb := View.ld x6 (Rect.unit (s := S4x256x256) ![q.val, 0, 0] S1x256x256.size (inb3 q 256 256))
  wc := View.ld x7 (Rect.unit (s := S4x32x256) ![q.val, 0, 0] S1x32x256.size (inb3 q 32 256))
  b2 := View.ld x8 (Rect.unit (s := S4x256) ![q.val, 0] S1x256.size (inb2 q 256))
  wih := View.ld x9 (Rect.unit (s := S4x256x768) ![q.val, 0, 0] S1x256x768.size (inb3 q 256 768))
  whh := View.ld x10 (Rect.unit (s := S4x256x768) ![q.val, 0, 0] S1x256x768.size (inb3 q 256 768))
  bih := View.ld x11 (Rect.unit (s := S4x768) ![q.val, 0] S1x768.size (inb2 q 768))
  bhh := View.ld x12 (Rect.unit (s := S4x768) ![q.val, 0] S1x768.size (inb2 q 768))

/-! ## The block's graph `g` is the batch's graph `8·t + g` -/

/-- Graph `g` of point `t`'s block. -/
def gr (t : Fin cfg1.N) (g : Fin 8) : Fin 64 := ⟨8 * t.val + g.val, by have := tlt t; have := g.isLt; omega⟩

theorem row_div (t : Fin cfg1.N) (g : Fin 8) (v : Fin 96) (h1 h2) :
    (⟨(768 * t.val + (row g v).val) / 96, h1⟩ : Fin 64) = gr t g ∧ (⟨(768 * t.val + (row g v).val) % 96, h2⟩ : Fin 96) = v := by
  constructor <;> apply Fin.ext
  · show (768 * t.val + (96 * g.val + v.val)) / 96 = 8 * t.val + g.val; have := v.isLt; omega
  · show (768 * t.val + (96 * g.val + v.val)) % 96 = v.val; have := v.isLt; omega

theorem nodes_eq (c : Dev nD) (t : Fin cfg1.N) (g : Fin 8) :
    Xb (kv1 (View.ld (iblk1 (V2 m ρ) c 0 t) r1_0)) g = Spec.nodesOf (m ((c : Thread nD τ).loc main_arg0) : S64x96x256.Idx → EReal) (gr t g) := by
  funext v i
  show kv1 (View.ld (iblk1 (V2 m ρ) c 0 t) r1_0) (ix2 (row g v) i) = _
  unfold kv1
  have hld : View.ld (iblk1 (V2 m ρ) c 0 t) r1_0 = (iblk1 (V2 m ρ) c 0 t) := View.ld_unit_zero (S := S768x256) hz2 _ _
  rw [shapeCast_self, hld, rd0]
  unfold Spec.nodesOf
  obtain ⟨e1, e2⟩ := row_div t g v (by have := tlt t; have := (row g v).isLt; omega) (Nat.mod_lt _ (by decide))
  rw [e1, e2]

theorem adj_eq (c : Dev nD) (t : Fin cfg1.N) (g : Fin 8) :
    Ab (kv11 (View.ld (iblk1 (V2 m ρ) c 2 t) r1_2)) g = Spec.adjOf (m ((c : Thread nD τ).loc main_arg2) : S64x96x96.Idx → BitVec 32) (gr t g) := by
  funext v w
  show FloatOps.sitofp (F := Ideal) .f32 (View.ld (iblk1 (V2 m ρ) c 2 t) r1_2 (ix3 g v w)) = _
  have hld : View.ld (iblk1 (V2 m ρ) c 2 t) r1_2 = (iblk1 (V2 m ρ) c 2 t) := View.ld_unit_zero (S := S8x96x96) hz3 _ _
  rw [hld, rd2]
  rfl

theorem ew_eq (hR0 : ∀ c : Dev nD, ((dat0 (V0 m ρ) c).arrAt 2 cfg0.N : S64x96x32.Idx → EReal)
      = fun i => Spec.ewOf (m ((c : Thread nD τ).loc main_arg1) : S64x96x96x32.Idx → EReal) (m ((c : Thread nD τ).loc main_arg2) : S64x96x96.Idx → BitVec 32) (i 0) (i 1) (i 2))
    (c : Dev nD) (t : Fin cfg1.N) (g : Fin 8) :
    EWb (kv5 (View.ld (iblk1 (V2 m ρ) c 1 t) r1_1)) g = Spec.ewOf (m ((c : Thread nD τ).loc main_arg1) : S64x96x96x32.Idx → EReal) (m ((c : Thread nD τ).loc main_arg2) : S64x96x96.Idx → BitVec 32) (gr t g) := by
  funext v e
  have hld : View.ld (iblk1 (V2 m ρ) c 1 t) r1_1 = (iblk1 (V2 m ρ) c 1 t) := View.ld_unit_zero (S := S768x32) hz2 _ _
  show kv5 (View.ld (iblk1 (V2 m ρ) c 1 t) r1_1) (ix2 (row g v) e) = _
  unfold kv5
  rw [shapeCast_self, hld]
  show (iblk1 (V2 m ρ) c 1 t) (ix2 (row g v) e) = _
  rw [rd1, hR0 c]
  obtain ⟨e1, e2⟩ := row_div t g v (by have := tlt t; have := (row g v).isLt; omega) (Nat.mod_lt _ (by decide))
  show Spec.ewOf _ _ (⟨(768 * t.val + (row g v).val) / 96, _⟩ : Fin 64) (⟨(768 * t.val + (row g v).val) % 96, _⟩ : Fin 96) e = _
  rw [e1, e2]

/-- The four heads' loaded slices are the parameter arrays' heads, transposed back. -/
theorem heads_eq (c : Dev nD) (t : Fin cfg1.N) :
    (fun q : Fin 4 => Hd (![(⟨View.ld (iblk1 (V2 m ρ) c 3 t) r1_3, View.ld (iblk1 (V2 m ρ) c 4 t) r1_4, View.ld (iblk1 (V2 m ρ) c 5 t) r1_3, View.ld (iblk1 (V2 m ρ) c 6 t) r1_3, View.ld (iblk1 (V2 m ρ) c 7 t) r1_5, View.ld (iblk1 (V2 m ρ) c 8 t) r1_4, View.ld (iblk1 (V2 m ρ) c 9 t) r1_6, View.ld (iblk1 (V2 m ρ) c 10 t) r1_6, View.ld (iblk1 (V2 m ρ) c 11 t) r1_7, View.ld (iblk1 (V2 m ρ) c 12 t) r1_7⟩ : HeadLoads Ideal), ⟨View.ld (iblk1 (V2 m ρ) c 3 t) r1_8, View.ld (iblk1 (V2 m ρ) c 4 t) r1_9, View.ld (iblk1 (V2 m ρ) c 5 t) r1_8, View.ld (iblk1 (V2 m ρ) c 6 t) r1_8, View.ld (iblk1 (V2 m ρ) c 7 t) r1_10, View.ld (iblk1 (V2 m ρ) c 8 t) r1_9, View.ld (iblk1 (V2 m ρ) c 9 t) r1_11, View.ld (iblk1 (V2 m ρ) c 10 t) r1_11, View.ld (iblk1 (V2 m ρ) c 11 t) r1_12, View.ld (iblk1 (V2 m ρ) c 12 t) r1_12⟩, ⟨View.ld (iblk1 (V2 m ρ) c 3 t) r1_13, View.ld (iblk1 (V2 m ρ) c 4 t) r1_14, View.ld (iblk1 (V2 m ρ) c 5 t) r1_13, View.ld (iblk1 (V2 m ρ) c 6 t) r1_13, View.ld (iblk1 (V2 m ρ) c 7 t) r1_15, View.ld (iblk1 (V2 m ρ) c 8 t) r1_14, View.ld (iblk1 (V2 m ρ) c 9 t) r1_16, View.ld (iblk1 (V2 m ρ) c 10 t) r1_16, View.ld (iblk1 (V2 m ρ) c 11 t) r1_17, View.ld (iblk1 (V2 m ρ) c 12 t) r1_17⟩, ⟨View.ld (iblk1 (V2 m ρ) c 3 t) r1_18, View.ld (iblk1 (V2 m ρ) c 4 t) r1_19, View.ld (iblk1 (V2 m ρ) c 5 t) r1_18, View.ld (iblk1 (V2 m ρ) c 6 t) r1_18, View.ld (iblk1 (V2 m ρ) c 7 t) r1_20, View.ld (iblk1 (V2 m ρ) c 8 t) r1_19, View.ld (iblk1 (V2 m ρ) c 9 t) r1_21, View.ld (iblk1 (V2 m ρ) c 10 t) r1_21, View.ld (iblk1 (V2 m ρ) c 11 t) r1_22, View.ld (iblk1 (V2 m ρ) c 12 t) r1_22⟩] q))
      = Spec.headOf (m ((c : Thread nD τ).loc main_arg3) : S4x256x256.Idx → EReal) (m ((c : Thread nD τ).loc main_arg4) : S4x256.Idx → EReal) (m ((c : Thread nD τ).loc main_arg5) : S4x256x544.Idx → EReal) (m ((c : Thread nD τ).loc main_arg6) : S4x256.Idx → EReal) (m ((c : Thread nD τ).loc main_arg7) : S4x768x256.Idx → EReal) (m ((c : Thread nD τ).loc main_arg8) : S4x768x256.Idx → EReal) (m ((c : Thread nD τ).loc main_arg9) : S4x768.Idx → EReal) (m ((c : Thread nD τ).loc main_arg10) : S4x768.Idx → EReal) := by
  funext q
  have hL : ![(⟨View.ld (iblk1 (V2 m ρ) c 3 t) r1_3, View.ld (iblk1 (V2 m ρ) c 4 t) r1_4, View.ld (iblk1 (V2 m ρ) c 5 t) r1_3, View.ld (iblk1 (V2 m ρ) c 6 t) r1_3, View.ld (iblk1 (V2 m ρ) c 7 t) r1_5, View.ld (iblk1 (V2 m ρ) c 8 t) r1_4, View.ld (iblk1 (V2 m ρ) c 9 t) r1_6, View.ld (iblk1 (V2 m ρ) c 10 t) r1_6, View.ld (iblk1 (V2 m ρ) c 11 t) r1_7, View.ld (iblk1 (V2 m ρ) c 12 t) r1_7⟩ : HeadLoads Ideal), ⟨View.ld (iblk1 (V2 m ρ) c 3 t) r1_8, View.ld (iblk1 (V2 m ρ) c 4 t) r1_9, View.ld (iblk1 (V2 m ρ) c 5 t) r1_8, View.ld (iblk1 (V2 m ρ) c 6 t) r1_8, View.ld (iblk1 (V2 m ρ) c 7 t) r1_10, View.ld (iblk1 (V2 m ρ) c 8 t) r1_9, View.ld (iblk1 (V2 m ρ) c 9 t) r1_11, View.ld (iblk1 (V2 m ρ) c 10 t) r1_11, View.ld (iblk1 (V2 m ρ) c 11 t) r1_12, View.ld (iblk1 (V2 m ρ) c 12 t) r1_12⟩, ⟨View.ld (iblk1 (V2 m ρ) c 3 t) r1_13, View.ld (iblk1 (V2 m ρ) c 4 t) r1_14, View.ld (iblk1 (V2 m ρ) c 5 t) r1_13, View.ld (iblk1 (V2 m ρ) c 6 t) r1_13, View.ld (iblk1 (V2 m ρ) c 7 t) r1_15, View.ld (iblk1 (V2 m ρ) c 8 t) r1_14, View.ld (iblk1 (V2 m ρ) c 9 t) r1_16, View.ld (iblk1 (V2 m ρ) c 10 t) r1_16, View.ld (iblk1 (V2 m ρ) c 11 t) r1_17, View.ld (iblk1 (V2 m ρ) c 12 t) r1_17⟩, ⟨View.ld (iblk1 (V2 m ρ) c 3 t) r1_18, View.ld (iblk1 (V2 m ρ) c 4 t) r1_19, View.ld (iblk1 (V2 m ρ) c 5 t) r1_18, View.ld (iblk1 (V2 m ρ) c 6 t) r1_18, View.ld (iblk1 (V2 m ρ) c 7 t) r1_20, View.ld (iblk1 (V2 m ρ) c 8 t) r1_19, View.ld (iblk1 (V2 m ρ) c 9 t) r1_21, View.ld (iblk1 (V2 m ρ) c 10 t) r1_21, View.ld (iblk1 (V2 m ρ) c 11 t) r1_22, View.ld (iblk1 (V2 m ρ) c 12 t) r1_22⟩] q = loadsOf (iblk1 (V2 m ρ) c 3 t) (iblk1 (V2 m ρ) c 4 t) (iblk1 (V2 m ρ) c 5 t) (iblk1 (V2 m ρ) c 6 t) (iblk1 (V2 m ρ) c 7 t) (iblk1 (V2 m ρ) c 8 t) (iblk1 (V2 m ρ) c 9 t) (iblk1 (V2 m ρ) c 10 t) (iblk1 (V2 m ρ) c 11 t) (iblk1 (V2 m ρ) c 12 t) q := by
    fin_cases q <;> rfl
  rw [hL]
  unfold Hd loadsOf Spec.headOf
  simp only [Spec.Head.mk.injEq]
  refine ⟨?_, ?_, ?_, ?_, ?_, ?_, ?_, ?_, ?_, ?_⟩
  · funext o i; exact (ld3 _ q _ i o).trans (rd3 m ρ c t q i o)
  · funext o; exact (ld2 _ q _ o).trans (rd4 m ρ c t q o)
  · funext mm i
    exact (ld3 _ q _ i mm).trans ((rd5 m ρ c t q i mm).trans
      (congrArg (fun z => (m ((c : Thread nD τ).loc main_arg5) : S4x256x544.Idx → EReal) (ix3 q mm z)) (Fin.ext (Nat.zero_add _))))
  · funext mm i; exact (ld3 _ q _ i mm).trans (rd6 m ρ c t q i mm)
  · funext mm e; exact (ld3 _ q _ e mm).trans (rd7 m ρ c t q e mm)
  · funext mm; exact (ld2 _ q _ mm).trans (rd8 m ρ c t q mm)
  · funext o mm; exact (ld3 _ q _ mm o).trans (rd9 m ρ c t q mm o)
  · funext o n; exact (ld3 _ q _ n o).trans (rd10 m ρ c t q n o)
  · funext o; exact (ld2 _ q _ o).trans (rd11 m ρ c t q o)
  · funext o; exact (ld2 _ q _ o).trans (rd12 m ρ c t q o)

theorem wout_eq (c : Dev nD) (t : Fin cfg1.N) :
    (fun (o : Fin 256) (k : Fin 1024) => (View.ld (iblk1 (V2 m ρ) c 13 t) r1_23) (ix2 k o)) = fun o k => (m ((c : Thread nD τ).loc main_arg11) : S256x1024.Idx → EReal) (ix2 o k) := by
  funext o k
  have hld : View.ld (iblk1 (V2 m ρ) c 13 t) r1_23 = (iblk1 (V2 m ρ) c 13 t) := View.ld_unit_zero (S := S1024x256) hz2 _ _
  rw [hld]
  exact rd13 m ρ c t k o

theorem bout_eq (c : Dev nD) (t : Fin cfg1.N) :
    (fun (o : Fin 256) => (View.ld (iblk1 (V2 m ρ) c 14 t) r1_24) (ix1 o)) = fun o => (m ((c : Thread nD τ).loc main_arg12) : S256.Idx → EReal) (ix1 o) := by
  funext o
  have hld : View.ld (iblk1 (V2 m ρ) c 14 t) r1_24 = (iblk1 (V2 m ρ) c 14 t) := View.ld_unit_zero (S := S256) hz1 _ _
  rw [hld]
  exact rd14 m ρ c t o

/-- `Spec.out` respects equality of each of its arguments. -/
theorem out_congr {X X' : Fin 96 → Fin 256 → EReal} {A A' : Fin 96 → Fin 96 → EReal} {EW EW' : Fin 96 → Fin 32 → EReal}
    {Hs Hs' : Fin 4 → Spec.Head} {W W' : Fin 256 → Fin 1024 → EReal} {B B' : Fin 256 → EReal}
    (h1 : X = X') (h2 : A = A') (h3 : EW = EW') (h4 : Hs = Hs') (h5 : W = W') (h6 : B = B') (v : Fin 96) (o : Fin 256) :
    Spec.out X A EW Hs W B v o = Spec.out X' A' EW' Hs' W' B' v o := by
  subst h1 h2 h3 h4 h5 h6; rfl

/-! ## The output array -/

/-- The layer's result laid out as the flattened [6144, 256] array: row `96·b + v` is graph `b`'s node `v`. -/
def G (c : Dev nD) : S6144x256.Idx → EReal := fun i =>
  Spec.result (m ((c : Thread nD τ).loc main_arg0) : S64x96x256.Idx → EReal) (m ((c : Thread nD τ).loc main_arg1) : S64x96x96x32.Idx → EReal) (m ((c : Thread nD τ).loc main_arg2) : S64x96x96.Idx → BitVec 32) (m ((c : Thread nD τ).loc main_arg3) : S4x256x256.Idx → EReal) (m ((c : Thread nD τ).loc main_arg4) : S4x256.Idx → EReal) (m ((c : Thread nD τ).loc main_arg5) : S4x256x544.Idx → EReal) (m ((c : Thread nD τ).loc main_arg6) : S4x256.Idx → EReal) (m ((c : Thread nD τ).loc main_arg7) : S4x768x256.Idx → EReal) (m ((c : Thread nD τ).loc main_arg8) : S4x768x256.Idx → EReal) (m ((c : Thread nD τ).loc main_arg9) : S4x768.Idx → EReal) (m ((c : Thread nD τ).loc main_arg10) : S4x768.Idx → EReal) (m ((c : Thread nD τ).loc main_arg11) : S256x1024.Idx → EReal) (m ((c : Thread nD τ).loc main_arg12) : S256.Idx → EReal)
    ⟨(i 0).val / 96, by have := idx2_lt0 i; omega⟩ ⟨(i 0).val % 96, Nat.mod_lt _ (by decide)⟩ ⟨(i 1).val, idx2_lt1 i⟩

/-- What point `t` writes back is block `t` of the layer's result. -/
theorem flushed_eq (hR0 : ∀ c : Dev nD, ((dat0 (V0 m ρ) c).arrAt 2 cfg0.N : S64x96x32.Idx → EReal)
      = fun i => Spec.ewOf (m ((c : Thread nD τ).loc main_arg1) : S64x96x96x32.Idx → EReal) (m ((c : Thread nD τ).loc main_arg2) : S64x96x96.Idx → BitVec 32) (i 0) (i 1) (i 2))
    (c : Dev nD) (t : Fin cfg1.N) :
    (dat1 (V2 m ρ) c).flushed 15 t = ((cfg1.win 15).blk t).view.read (Elt Ideal) (G m c) := by
  show (cfg1.win 15).cut (grid1.coords t) ((dat1 (V2 m ρ) c).after 15 t) = _
  rw [after1_15, KBody.out_eq, View.canon_unit_zero hz2]
  funext j
  obtain ⟨g, v, o, rfl⟩ : ∃ (g : Fin 8) (v : Fin 96) (o : Fin 256), j = ix2 (row g v) o :=
    ⟨⟨(j 0).val / 96, by have := idx2_lt0 j; omega⟩, ⟨(j 0).val % 96, Nat.mod_lt _ (by decide)⟩, ⟨(j 1).val, idx2_lt1 j⟩,
      funext fun a => Fin.ext (by
        match a with
        | ⟨0, _⟩ => show (j 0).val = 96 * ((j 0).val / 96) + (j 0).val % 96; omega
        | ⟨1, _⟩ => rfl)⟩
  show kblock (F := Ideal) _ _ _ _ _ _ _ _ _ (ix2 (row g v) o) = G m c (((cfg1.win 15).blk t).view.emb (ix2 (row g v) o))
  rw [kblock_apply]
  refine (out_congr (nodes_eq m ρ c t g) (adj_eq m ρ c t g) (ew_eq m ρ hR0 c t g) (heads_eq m ρ c t) (wout_eq m ρ c t) (bout_eq m ρ c t) v o).trans ?_
  have he : ((cfg1.win 15).blk t).view.emb (ix2 (row g v) o)
      = ix2 (⟨768 * t.val + (row g v).val, by have := tlt t; have := (row g v).isLt; omega⟩ : Fin 6144) o := by
    funext a; apply Fin.ext
    match a with
    | ⟨0, _⟩ => show win1_15.index t (0 : Fin 2) * 768 + 1 * (row g v).val = 768 * t.val + (row g v).val; have := (idx1_15 t).1; omega
    | ⟨1, _⟩ => show win1_15.index t (1 : Fin 2) * 256 + 1 * o.val = o.val; have := (idx1_15 t).2; omega
  rw [he]
  obtain ⟨e1, e2⟩ := row_div t g v (by have := tlt t; have := (row g v).isLt; omega) (Nat.mod_lt _ (by decide))
  unfold G Spec.result
  show _ = Spec.out (Spec.nodesOf _ (⟨(768 * t.val + (row g v).val) / 96, _⟩ : Fin 64)) (Spec.adjOf _ (⟨(768 * t.val + (row g v).val) / 96, _⟩ : Fin 64))
    (Spec.ewOf _ _ (⟨(768 * t.val + (row g v).val) / 96, _⟩ : Fin 64)) _ _ _ (⟨(768 * t.val + (row g v).val) % 96, _⟩ : Fin 96) _
  rw [e1, e2]

/-- An index of the array is in point `t`'s block iff each coordinate is in the block's range on its axis. -/
theorem mem_blk (t : Fin cfg1.N) (i : S6144x256.Idx) :
    i ∈ ((cfg1.win 15).blk t).view.set ↔ ∀ a : Fin 2, win1_15.index t a * S768x256.size a ≤ (i a).val ∧ (i a).val < win1_15.index t a * S768x256.size a + S768x256.size a := by
  show i ∈ ((View.whole main_v20).slice (win1_15.rect t)).set ↔ _
  rw [View.set_slice_whole, Rect.mem_set_unit]
  exact Iff.rfl

/-- Every row of the array is in the block of the point `row / 768`. -/
theorem cover (i : S6144x256.Idx) : ∃ t : Fin cfg1.N, (cfg1.win 15).flush t = true ∧ i ∈ ((cfg1.win 15).blk t).view.set := by
  have hi0 : (i 0).val < 6144 := idx2_lt0 i
  have hi1 : (i 1).val < 256 := idx2_lt1 i
  refine ⟨⟨(i 0).val / 768, by rw [show cfg1.N = 8 from N_1]; omega⟩, flush1_15 _, ?_⟩
  rw [mem_blk]
  intro a
  obtain ⟨q0, q1⟩ := idx1_15 ⟨(i 0).val / 768, by rw [show cfg1.N = 8 from N_1]; omega⟩
  match a with
  | ⟨0, _⟩ =>
    show win1_15.index _ (0 : Fin 2) * 768 ≤ (i 0).val ∧ (i 0).val < win1_15.index _ (0 : Fin 2) * 768 + 768
    rw [q0]; show (i 0).val / 768 * 768 ≤ (i 0).val ∧ (i 0).val < (i 0).val / 768 * 768 + 768; omega
  | ⟨1, _⟩ =>
    show win1_15.index _ (1 : Fin 2) * 256 ≤ (i 1).val ∧ (i 1).val < win1_15.index _ (1 : Fin 2) * 256 + 256
    rw [q1]; omega

/-- The second kernel's output array after the region is the layer's result, flattened. -/
theorem final (hR0 : ∀ c : Dev nD, ((dat0 (V0 m ρ) c).arrAt 2 cfg0.N : S64x96x32.Idx → EReal)
      = fun i => Spec.ewOf (m ((c : Thread nD τ).loc main_arg1) : S64x96x96x32.Idx → EReal) (m ((c : Thread nD τ).loc main_arg2) : S64x96x96.Idx → BitVec 32) (i 0) (i 1) (i 2))
    (c : Dev nD) : ((dat1 (V2 m ρ) c).arrAt 15 cfg1.N : S6144x256.Idx → EReal) = G m c :=
  (dat1 (V2 m ρ) c).arrAt_eq_of_cover 15 (G m c) (fun t _ => flushed_eq m ρ hR0 c t) (cover)

end Cert.KernelIdeal.KArray

end
-- ==== Proof.RefRead.lean ====
import proofs.«156658_j36309653520739_2_alg».proof.ReferenceIdeal
import Idealize.ShloMosaic.PureOps.Ideal
import Idealize.ShloMosaic.PureOps.Ideal.Laws
import Idealize.ShloMosaic.Lib.ValueIdx
import Idealize.ShloMosaic.Lib.IdealHost
import Idealize.ShloMosaic.Lib.StackMember

noncomputable section

namespace Cert.RefValue

open Idealize.ShloMosaic Idealize.ShloMosaic.ValueIdx

/-! # Host operations of the layer read at a coordinate

Each lemma says what one operation that is not pointwise is at a coordinate: a product of a stack of row vectors with a
matrix stored "output index first" is the sum over the contracted coordinate; a sum over an axis from an initial scalar
is that scalar plus the sum over the axis; a bias laid along every row reads the bias; a band of columns reads the
column moved by the band's offset; one head's block of a stacked parameter reads the stacked array at that head. -/

section Dots
variable {B V K O : Nat}

/-- The product of a stack `[B, V, K]` of row vectors with a matrix `[O, K]`, contracting the last axis of each:
    at `(b, v, o)` it is `Σ_i A (b, v, i) · W (o, i)`. -/
theorem dot_rows_apply {φ₁ φ₂ : FTy}
    (w : DotDims.WF ⟨3, ![B, V, K]⟩ ⟨2, ![O, K]⟩ ⟨3, ![B, V, O]⟩ [2] [1] [0, 1] [0] [] [])
    (prec : Option ContractPrecision) (A : FVec Ideal ⟨3, ![B, V, K]⟩ φ₁) (W : FVec Ideal ⟨2, ![O, K]⟩ φ₂)
    (b : Fin B) (v : Fin V) (o : Fin O) :
    Host.dotGeneral (⟨[2], [1], [0, 1], [0], [], [], w⟩ : DotDims _ _ _) prec A W (ix3 b v o)
      = ∑ i : Fin K, A (ix3 b v i) * W (ix2 o i) := by
  show FloatOps.dotGeneral _ prec _ A W (ix3 b v o) = _
  rw [Ideal.dotGeneral_apply,
    ← Equiv.sum_comp (contrEquiv1 (⟨[2], [1], [0, 1], [0], [], [], w⟩ : DotDims _ _ _) K rfl rfl).symm]
  refine Finset.sum_congr rfl fun c _ => ?_
  have c3 := contrEquiv1_symm_val
    (⟨[2], [1], [0, 1], [0], [], [], w⟩ : DotDims ⟨3, ![B, V, K]⟩ ⟨2, ![O, K]⟩ ⟨3, ![B, V, O]⟩) K rfl rfl c
  have l3 : (⟨[2], [1], [0, 1], [0], [], [], w⟩ : DotDims ⟨3, ![B, V, K]⟩ ⟨2, ![O, K]⟩ ⟨3, ![B, V, O]⟩).lhsIdx (ix3 b v o)
      ((contrEquiv1 _ K rfl rfl).symm c) = ix3 b v c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![B, V, K]⟩ ⟨2, ![O, K]⟩ ⟨3, ![B, V, O]⟩).rhsIdx (ix3 b v o)
      ((contrEquiv1 _ K rfl rfl).symm c) = ix2 o c := by
    funext ax; apply Fin.ext
    match ax with
    | ⟨0, _⟩ => simp [DotDims.rhsIdx]; rfl
    | ⟨1, _⟩ => simp [DotDims.rhsIdx]; exact c3
  rw [l3, r3]

end Dots

section Layout
variable {α : Type}

/-- A band of the last axis of a rank-3 array: column `o` of the band is column `off + o` of the array. -/
theorem slice3_last_apply {B V N n : Nat} (off : Nat) (x : (⟨3, ![B, V, N]⟩ : Shape).Idx → α)
    (h : (⟨3, ![B, V, N]⟩ : Shape).Slices ![0, 0, off] ⟨3, ![B, V, n]⟩) (b : Fin B) (v : Fin V) (o : Fin n) (k : Fin N)
    (hk : k.val = off + o.val) : extractStridedSlice ⟨3, ![B, V, n]⟩ ![0, 0, off] x h (ix3 b v o) = x (ix3 b v k) :=
  extractStridedSlice_apply _ x h (ix3 b v o) (ix3 b v k) fun a => by
    match a with
    | ⟨0, _⟩ => exact (Nat.zero_add _).symm
    | ⟨1, _⟩ => exact (Nat.zero_add _).symm
    | ⟨2, _⟩ => exact hk

/-- A band of the columns of a matrix: column `o` of the band is column `off + o` of the matrix. -/
theorem slice2_last_apply {R N n : Nat} (off : Nat) (x : (⟨2, ![R, N]⟩ : Shape).Idx → α)
    (h : (⟨2, ![R, N]⟩ : Shape).Slices ![0, off] ⟨2, ![R, n]⟩) (r : Fin R) (o : Fin n) (k : Fin N)
    (hk : k.val = off + o.val) : extractStridedSlice ⟨2, ![R, n]⟩ ![0, off] x h (ix2 r o) = x (ix2 r k) :=
  extractStridedSlice_apply _ x h (ix2 r o) (ix2 r k) fun a => by
    match a with
    | ⟨0, _⟩ => exact (Nat.zero_add _).symm
    | ⟨1, _⟩ => exact hk

/-- Head `g`'s matrix of a stack of matrices, cut out and reshaped to a matrix: entry `(r, c)` is the stack's `(g, r, c)`. -/
theorem head_mat_apply {H R C : Nat} (g : Nat) (hg : g < H) (x : (⟨3, ![H, R, C]⟩ : Shape).Idx → α)
    (hs : (⟨3, ![H, R, C]⟩ : Shape).Slices ![g, 0, 0] ⟨3, ![1, R, C]⟩)
    (hc : (⟨3, ![1, R, C]⟩ : Shape).ShapeCasts ⟨2, ![R, C]⟩) (r : Fin R) (c : Fin C) :
    shapeCast ⟨2, ![R, C]⟩ (extractStridedSlice ⟨3, ![1, R, C]⟩ ![g, 0, 0] x hs) hc (ix2 r c) = x (ix3 ⟨g, hg⟩ r c) := by
  refine (shapeCast_apply _ hc (ix2 r c) (ix3 (0 : Fin 1) r c) ?_).trans ?_
  · rw [Shape.rowMajor_val_three, Shape.rowMajor_val_two]
    show (0 * R + r.val) * C + c.val = r.val * C + c.val
    rw [Nat.zero_mul, Nat.zero_add]
  · exact extractStridedSlice_apply _ x hs (ix3 (0 : Fin 1) r c) (ix3 ⟨g, hg⟩ r c) fun a => by
      match a with
      | ⟨0, _⟩ => rfl
      | ⟨1, _⟩ => exact (Nat.zero_add _).symm
      | ⟨2, _⟩ => exact (Nat.zero_add _).symm

/-- Head `g`'s row of a stack of vectors, cut out and reshaped to a vector: entry `o` is the stack's `(g, o)`. -/
theorem head_vec_apply {H N : Nat} (g : Nat) (hg : g < H) (x : (⟨2, ![H, N]⟩ : Shape).Idx → α)
    (hs : (⟨2, ![H, N]⟩ : Shape).Slices ![g, 0] ⟨2, ![1, N]⟩)
    (hc : (⟨2, ![1, N]⟩ : Shape).ShapeCasts ⟨1, ![N]⟩) (o : Fin N) :
    shapeCast ⟨1, ![N]⟩ (extractStridedSlice ⟨2, ![1, N]⟩ ![g, 0] x hs) hc (ix1 o) = x (ix2 ⟨g, hg⟩ o) := by
  refine (shapeCast_apply _ hc (ix1 o) (ix2 (0 : Fin 1) o) ?_).trans ?_
  · rw [Shape.rowMajor_val_two, Shape.rowMajor_val_one]
    show 0 * N + o.val = o.val
    rw [Nat.zero_mul, Nat.zero_add]
  · exact extractStridedSlice_apply _ x hs (ix2 (0 : Fin 1) o) (ix2 ⟨g, hg⟩ o) fun a => by
      match a with
      | ⟨0, _⟩ => rfl
      | ⟨1, _⟩ => exact (Nat.zero_add _).symm

end Layout

/-! ## At the layer's shapes -/

section AtShapes
open Cert.ReferenceIdeal Cert.ReferenceIdeal.Facts₀
variable [Facts] {α : Type}

theorem dot256_apply (A : FVec Ideal S64x96x256 .f32) (W : FVec Ideal S256x256 .f32) (b : Fin 64) (v : Fin 96) (o : Fin 256) :
    Host.dotGeneral (F := Ideal) dot_S64x96x256_S256x256_S64x96x256_2_1_01_0_n_n none A W (ix3 b v o)
      = ∑ i : Fin 256, A (ix3 b v i) * W (ix2 o i) :=
  dot_rows_apply dot_S64x96x256_S256x256_S64x96x256_2_1_01_0_n_n_wf none A W b v o

theorem dot768_apply (A : FVec Ideal S64x96x256 .f32) (W : FVec Ideal S768x256 .f32) (b : Fin 64) (v : Fin 96) (o : Fin 768) :
    Host.dotGeneral (F := Ideal) dot_S64x96x256_S768x256_S64x96x768_2_1_01_0_n_n none A W (ix3 b v o)
      = ∑ i : Fin 256, A (ix3 b v i) * W (ix2 o i) :=
  dot_rows_apply dot_S64x96x256_S768x256_S64x96x768_2_1_01_0_n_n_wf none A W b v o

theorem dot32_apply (A : FVec Ideal S64x96x32 .f32) (W : FVec Ideal S256x32 .f32) (b : Fin 64) (v : Fin 96) (o : Fin 256) :
    Host.dotGeneral (F := Ideal) dot_S64x96x32_S256x32_S64x96x256_2_1_01_0_n_n none A W (ix3 b v o)
      = ∑ i : Fin 32, A (ix3 b v i) * W (ix2 o i) :=
  dot_rows_apply dot_S64x96x32_S256x32_S64x96x256_2_1_01_0_n_n_wf none A W b v o

theorem dot1024_apply (A : FVec Ideal S64x96x1024 .f32) (W : FVec Ideal S256x1024 .f32) (b : Fin 64) (v : Fin 96) (o : Fin 256) :
    Host.dotGeneral (F := Ideal) dot_S64x96x1024_S256x1024_S64x96x256_2_1_01_0_n_n none A W (ix3 b v o)
      = ∑ i : Fin 1024, A (ix3 b v i) * W (ix2 o i) :=
  dot_rows_apply dot_S64x96x1024_S256x1024_S64x96x256_2_1_01_0_n_n_wf none A W b v o

/-- The product of each graph's adjacency matrix with that graph's rows: `Σ_w A (b, v, w) · T (b, w, m)`. -/
theorem dotAdj_apply (A : FVec Ideal S64x96x96 .f32) (T : FVec Ideal S64x96x256 .f32) (b : Fin 64) (v : Fin 96) (m : Fin 256) :
    Host.dotGeneral (F := Ideal) dot_S64x96x96_S64x96x256_S64x96x256_2_1_1_2_0_0 none A T (ix3 b v m)
      = ∑ w : Fin 96, A (ix3 b v w) * T (ix3 b w m) :=
  StackMember.dotGeneral_stack_apply dot_S64x96x96_S64x96x256_S64x96x256_2_1_1_2_0_0_wf none A T b v m

/-- The sum of a `[64, 96, 96]` array over its last axis, from an initial scalar. -/
theorem reduce_adj_apply (x : FVec Ideal S64x96x96 .f32) (init : FVec Ideal S_ .f32) (b : Fin 64) (v : Fin 96) :
    Host.reduceAdd (F := Ideal) x init reducesTo_S64x96x96_S64x96_d2 h_S_ (ix2 b v) = init ix0 + ∑ w : Fin 96, x (ix3 b v w) := by
  rw [hostReduceAdd_apply, Ideal.hostReduceAdd_single reducesTo_S64x96x96_S64x96_d2 (by decide)]
  congr 1
  · exact congrArg init (eq_ix0 _)
  · exact Finset.sum_congr rfl fun k _ => congrArg x (funext fun a => Fin.ext (by
      match a with
      | ⟨0, _⟩ => rfl
      | ⟨1, _⟩ => rfl
      | ⟨2, _⟩ => rfl))

/-- The sum of a `[64, 96, 96, 32]` array over its third axis, from an initial scalar. -/
theorem reduce_edge_apply (x : FVec Ideal S64x96x96x32 .f32) (init : FVec Ideal S_ .f32) (b : Fin 64) (v : Fin 96) (e : Fin 32) :
    Host.reduceAdd (F := Ideal) x init reducesTo_S64x96x96x32_S64x96x32_d2 h_S_ (ix3 b v e)
      = init ix0 + ∑ w : Fin 96, x (ix4 b v w e) := by
  rw [hostReduceAdd_apply, Ideal.hostReduceAdd_single reducesTo_S64x96x96x32_S64x96x32_d2 (by decide)]
  congr 1
  · exact congrArg init (eq_ix0 _)
  · exact Finset.sum_congr rfl fun k _ => congrArg x (funext fun a => Fin.ext (by
      match a with
      | ⟨0, _⟩ => rfl
      | ⟨1, _⟩ => rfl
      | ⟨2, _⟩ => rfl
      | ⟨3, _⟩ => rfl))

/-- A 256-vector laid along every row of every graph. -/
theorem bcast_row256_apply (y : S256.Idx → α) (b : Fin 64) (v : Fin 96) (o : Fin 256) :
    broadcastInDim S64x96x256 ![0, 1, 2] bcast_S1x1x256_S64x96x256_0_1_2 (broadcastInDim S1x1x256 ![2] bcast_S256_S1x1x256_2 y) (ix3 b v o)
      = y (ix1 o) := by
  refine (broadcastInDim_apply _ _ _ (ix3 b v o) (ix3 (0 : Fin 1) (0 : Fin 1) o) fun a => ?_).trans
    (broadcastInDim_apply _ _ _ (ix3 (0 : Fin 1) (0 : Fin 1) o) (ix1 o) fun a => ?_)
  · match a with
    | ⟨0, _⟩ => rfl
    | ⟨1, _⟩ => rfl
    | ⟨2, _⟩ => rfl
  · match a with
    | ⟨0, _⟩ => rfl

/-- A 768-vector laid along every row of every graph. -/
theorem bcast_row768_apply (y : S768.Idx → α) (b : Fin 64) (v : Fin 96) (o : Fin 768) :
    broadcastInDim S64x96x768 ![0, 1, 2] bcast_S1x1x768_S64x96x768_0_1_2 (broadcastInDim S1x1x768 ![2] bcast_S768_S1x1x768_2 y) (ix3 b v o)
      = y (ix1 o) := by
  refine (broadcastInDim_apply _ _ _ (ix3 b v o) (ix3 (0 : Fin 1) (0 : Fin 1) o) fun a => ?_).trans
    (broadcastInDim_apply _ _ _ (ix3 (0 : Fin 1) (0 : Fin 1) o) (ix1 o) fun a => ?_)
  · match a with
    | ⟨0, _⟩ => rfl
    | ⟨1, _⟩ => rfl
    | ⟨2, _⟩ => rfl
  · match a with
    | ⟨0, _⟩ => rfl

/-- A per-node scalar laid along the node's 256 features. -/
theorem bcast_node_apply (d : S64x96.Idx → α) (b : Fin 64) (v : Fin 96) (o : Fin 256) :
    broadcastInDim S64x96x256 ![0, 1, 2] bcast_S64x96x1_S64x96x256_0_1_2 (broadcastInDim S64x96x1 ![0, 1] bcast_S64x96_S64x96x1_0_1 d) (ix3 b v o)
      = d (ix2 b v) := by
  refine (broadcastInDim_apply _ _ _ (ix3 b v o) (ix3 b v (0 : Fin 1)) fun a => ?_).trans
    (broadcastInDim_apply _ _ _ (ix3 b v (0 : Fin 1)) (ix2 b v) fun a => ?_)
  · match a with
    | ⟨0, _⟩ => rfl
    | ⟨1, _⟩ => rfl
    | ⟨2, _⟩ => rfl
  · match a with
    | ⟨0, _⟩ => rfl
    | ⟨1, _⟩ => rfl

/-- A per-pair scalar laid along the pair's 32 edge features. -/
theorem bcast_pair_apply (a : S64x96x96.Idx → α) (b : Fin 64) (v w : Fin 96) (e : Fin 32) :
    broadcastInDim S64x96x96x32 ![0, 1, 2, 3] bcast_S64x96x96x1_S64x96x96x32_0_1_2_3
        (broadcastInDim S64x96x96x1 ![0, 1, 2] bcast_S64x96x96_S64x96x96x1_0_1_2 a) (ix4 b v w e)
      = a (ix3 b v w) := by
  refine (broadcastInDim_apply _ _ _ (ix4 b v w e) (ix4 b v w (0 : Fin 1)) fun c => ?_).trans
    (broadcastInDim_apply _ _ _ (ix4 b v w (0 : Fin 1)) (ix3 b v w) fun c => ?_)
  · match c with
    | ⟨0, _⟩ => rfl
    | ⟨1, _⟩ => rfl
    | ⟨2, _⟩ => rfl
    | ⟨3, _⟩ => rfl
  · match c with
    | ⟨0, _⟩ => rfl
    | ⟨1, _⟩ => rfl
    | ⟨2, _⟩ => rfl

/-- A float word laid over a whole `[64, 96, 256]` array. -/
theorem bcast_word256_apply (w : BitVec 32) (j : S64x96x256.Idx) :
    broadcastInDim S64x96x256 ![] bcast_S_S64x96x256 (constant (F := Ideal) S_ .f32 w) j = Ideal.ofBits .f32 w :=
  broadcastInDim_scalar_apply _ _ j

/-- A float word laid over a whole `[64, 96, 1024]` array. -/
theorem bcast_word1024_apply (w : BitVec 32) (j : S64x96x1024.Idx) :
    broadcastInDim S64x96x1024 ![] bcast_S_S64x96x1024 (constant (F := Ideal) S_ .f32 w) j = Ideal.ofBits .f32 w :=
  broadcastInDim_scalar_apply _ _ j

/-- Negation, the exponential and the hyperbolic tangent act entry by entry. -/
theorem hostNegf_apply {s : Shape} (x : FVec Ideal s .f32) (i : s.Idx) : Host.negf (F := Ideal) x i = -(x i) := rfl
theorem hostExp_apply {s : Shape} (x : FVec Ideal s .f32) (i : s.Idx) : Host.exp (F := Ideal) x i = Ideal.exp (x i) := rfl
theorem hostTanh_apply {s : Shape} (x : FVec Ideal s .f32) (i : s.Idx) : Host.tanh (F := Ideal) x i = Ideal.tanh (x i) := rfl

end AtShapes

end Cert.RefValue

end
-- ==== Proof.RefHead.lean ====
import proofs.«156658_j36309653520739_2_alg».proof.Proof.RefRead
import proofs.«156658_j36309653520739_2_alg».proof.Proof.Spec

noncomputable section

namespace Cert.RefValue

open Idealize.ShloMosaic Idealize.ShloMosaic.ValueIdx

open Cert.ReferenceIdeal Cert.ReferenceIdeal.Facts₀

/-! # One head of the reference, stage by stage

The reference computes each head by the same operations on that head's block of every stacked parameter. Each stage
below is those operations, in the order and grouping the program has them, as a function of the stage's inputs; the
lemma after it reads the stage at graph `b`, node `v` and a feature, given what its inputs are at graph `b`: it is the
specification's stage of the same name. -/

variable [Facts]

/-- The adjacency words as floats. -/
def rAdj (x2 : IVec S64x96x96 32) : FVec Ideal S64x96x96 .f32 :=
  (sitofp (F := Ideal) .f32 x2)

/-- Each node's number of neighbours: the sum of its adjacency row from the zero word. -/
def rDeg (adjf : FVec Ideal S64x96x96 .f32) : FVec Ideal S64x96 .f32 :=
  (Host.reduceAdd (F := Ideal) adjf (constant (F := Ideal) S_ .f32 0x00000000#32) reducesTo_S64x96x96_S64x96_d2 h_S_)

/-- The first linear map with its bias. -/
def rHv (x0 : FVec Ideal S64x96x256 .f32) (W1h : FVec Ideal S256x256 .f32) (b1h : FVec Ideal S256 .f32) : FVec Ideal S64x96x256 .f32 :=
  (addf (Host.dotGeneral (F := Ideal) dot_S64x96x256_S256x256_S64x96x256_2_1_01_0_n_n none x0 W1h) (broadcastInDim S64x96x256 ![0, 1, 2] bcast_S1x1x256_S64x96x256_0_1_2 (broadcastInDim S1x1x256 ![2] bcast_S256_S1x1x256_2 b1h)))

/-- The target term: the first band of the second map's columns. -/
def rTv (hv : FVec Ideal S64x96x256 .f32) (W2h : FVec Ideal S256x544 .f32) : FVec Ideal S64x96x256 .f32 :=
  (Host.dotGeneral (F := Ideal) dot_S64x96x256_S256x256_S64x96x256_2_1_01_0_n_n none hv (extractStridedSlice S256x256 ![0, 0] W2h slices_S256x544_S256x256_0_0))

/-- The neighbour term: the second band of the second map's columns. -/
def rTw (hv : FVec Ideal S64x96x256 .f32) (W2h : FVec Ideal S256x544 .f32) : FVec Ideal S64x96x256 .f32 :=
  (Host.dotGeneral (F := Ideal) dot_S64x96x256_S256x256_S64x96x256_2_1_01_0_n_n none hv (extractStridedSlice S256x256 ![0, 256] W2h slices_S256x544_S256x256_0_256))

/-- The neighbour sum: each graph's adjacency matrix times its neighbour terms. -/
def rNb (adjf : FVec Ideal S64x96x96 .f32) (tw : FVec Ideal S64x96x256 .f32) : FVec Ideal S64x96x256 .f32 :=
  (Host.dotGeneral (F := Ideal) dot_S64x96x96_S64x96x256_S64x96x256_2_1_1_2_0_0 none adjf tw)

/-- The masked sum of edge features over the neighbours, from the zero word. -/
def rEw (x1 : FVec Ideal S64x96x96x32 .f32) (adjf : FVec Ideal S64x96x96 .f32) : FVec Ideal S64x96x32 .f32 :=
  (Host.reduceAdd (F := Ideal) (mulf x1 (broadcastInDim S64x96x96x32 ![0, 1, 2, 3] bcast_S64x96x96x1_S64x96x96x32_0_1_2_3 (broadcastInDim S64x96x96x1 ![0, 1, 2] bcast_S64x96x96_S64x96x96x1_0_1_2 adjf))) (constant (F := Ideal) S_ .f32 0x00000000#32) reducesTo_S64x96x96x32_S64x96x32_d2 h_S_)

/-- The edge term: the third band of the second map's columns. -/
def rEm (ew : FVec Ideal S64x96x32 .f32) (W2h : FVec Ideal S256x544 .f32) : FVec Ideal S64x96x256 .f32 :=
  (Host.dotGeneral (F := Ideal) dot_S64x96x32_S256x32_S64x96x256_2_1_01_0_n_n none ew (extractStridedSlice S256x32 ![0, 512] W2h slices_S256x544_S256x32_0_512))

/-- The rectified message. -/
def rMsg (tv : FVec Ideal S64x96x256 .f32) (nb : FVec Ideal S64x96x256 .f32) (em : FVec Ideal S64x96x256 .f32) (deg : FVec Ideal S64x96 .f32) (b2h : FVec Ideal S256 .f32) : FVec Ideal S64x96x256 .f32 :=
  (maximumf (addf (addf (addf (mulf tv (broadcastInDim S64x96x256 ![0, 1, 2] bcast_S64x96x1_S64x96x256_0_1_2 (broadcastInDim S64x96x1 ![0, 1] bcast_S64x96_S64x96x1_0_1 deg))) nb) em) (mulf (broadcastInDim S64x96x256 ![0, 1, 2] bcast_S1x1x256_S64x96x256_0_1_2 (broadcastInDim S1x1x256 ![2] bcast_S256_S1x1x256_2 b2h)) (broadcastInDim S64x96x256 ![0, 1, 2] bcast_S64x96x1_S64x96x256_0_1_2 (broadcastInDim S64x96x1 ![0, 1] bcast_S64x96_S64x96x1_0_1 deg)))) (broadcastInDim S64x96x256 ![] bcast_S_S64x96x256 (constant (F := Ideal) S_ .f32 0x00000000#32)))

/-- The gates' input part. -/
def rGi (msg : FVec Ideal S64x96x256 .f32) (Wihh : FVec Ideal S768x256 .f32) (bihh : FVec Ideal S768 .f32) : FVec Ideal S64x96x768 .f32 :=
  (addf (Host.dotGeneral (F := Ideal) dot_S64x96x256_S768x256_S64x96x768_2_1_01_0_n_n none msg Wihh) (broadcastInDim S64x96x768 ![0, 1, 2] bcast_S1x1x768_S64x96x768_0_1_2 (broadcastInDim S1x1x768 ![2] bcast_S768_S1x1x768_2 bihh)))

/-- The gates' state part. -/
def rGh (x0 : FVec Ideal S64x96x256 .f32) (Whhh : FVec Ideal S768x256 .f32) (bhhh : FVec Ideal S768 .f32) : FVec Ideal S64x96x768 .f32 :=
  (addf (Host.dotGeneral (F := Ideal) dot_S64x96x256_S768x256_S64x96x768_2_1_01_0_n_n none x0 Whhh) (broadcastInDim S64x96x768 ![0, 1, 2] bcast_S1x1x768_S64x96x768_0_1_2 (broadcastInDim S1x1x768 ![2] bcast_S768_S1x1x768_2 bhhh)))

/-- The reset gate. -/
def rR (gi : FVec Ideal S64x96x768 .f32) (gh : FVec Ideal S64x96x768 .f32) : FVec Ideal S64x96x256 .f32 :=
  (Host.divf (F := Ideal) (broadcastInDim S64x96x256 ![] bcast_S_S64x96x256 (constant (F := Ideal) S_ .f32 0x3F800000#32)) (addf (broadcastInDim S64x96x256 ![] bcast_S_S64x96x256 (constant (F := Ideal) S_ .f32 0x3F800000#32)) (Host.exp (F := Ideal) (Host.negf (F := Ideal) (addf (extractStridedSlice S64x96x256 ![0, 0, 0] gi slices_S64x96x768_S64x96x256_0_0_0) (extractStridedSlice S64x96x256 ![0, 0, 0] gh slices_S64x96x768_S64x96x256_0_0_0))))))

/-- The update gate. -/
def rZ (gi : FVec Ideal S64x96x768 .f32) (gh : FVec Ideal S64x96x768 .f32) : FVec Ideal S64x96x256 .f32 :=
  (Host.divf (F := Ideal) (broadcastInDim S64x96x256 ![] bcast_S_S64x96x256 (constant (F := Ideal) S_ .f32 0x3F800000#32)) (addf (broadcastInDim S64x96x256 ![] bcast_S_S64x96x256 (constant (F := Ideal) S_ .f32 0x3F800000#32)) (Host.exp (F := Ideal) (Host.negf (F := Ideal) (addf (extractStridedSlice S64x96x256 ![0, 0, 256] gi slices_S64x96x768_S64x96x256_0_0_256) (extractStridedSlice S64x96x256 ![0, 0, 256] gh slices_S64x96x768_S64x96x256_0_0_256))))))

/-- The candidate state. -/
def rN (gi : FVec Ideal S64x96x768 .f32) (gh : FVec Ideal S64x96x768 .f32) (r : FVec Ideal S64x96x256 .f32) : FVec Ideal S64x96x256 .f32 :=
  (Host.tanh (F := Ideal) (addf (extractStridedSlice S64x96x256 ![0, 0, 512] gi slices_S64x96x768_S64x96x256_0_0_512) (mulf r (extractStridedSlice S64x96x256 ![0, 0, 512] gh slices_S64x96x768_S64x96x256_0_0_512))))

/-- One head's new node state. -/
def rNew (z : FVec Ideal S64x96x256 .f32) (n : FVec Ideal S64x96x256 .f32) (x0 : FVec Ideal S64x96x256 .f32) : FVec Ideal S64x96x256 .f32 :=
  (addf (mulf (subf (broadcastInDim S64x96x256 ![] bcast_S_S64x96x256 (constant (F := Ideal) S_ .f32 0x3F800000#32)) z) n) (mulf z x0))

/-- One head, from the node states, the edge features, the float adjacency, the neighbour counts and the head's parameters. -/
def rHead (x0 : FVec Ideal S64x96x256 .f32) (x1 : FVec Ideal S64x96x96x32 .f32) (adjf : FVec Ideal S64x96x96 .f32) (deg : FVec Ideal S64x96 .f32)
    (W1h : FVec Ideal S256x256 .f32) (b1h : FVec Ideal S256 .f32) (W2h : FVec Ideal S256x544 .f32) (b2h : FVec Ideal S256 .f32) (Wihh Whhh : FVec Ideal S768x256 .f32) (bihh bhhh : FVec Ideal S768 .f32) : FVec Ideal S64x96x256 .f32 :=
  (rNew (rZ (rGi (rMsg (rTv (rHv x0 W1h b1h) W2h) (rNb adjf (rTw (rHv x0 W1h b1h) W2h)) (rEm (rEw x1 adjf) W2h) deg b2h) Wihh bihh) (rGh x0 Whhh bhhh)) (rN (rGi (rMsg (rTv (rHv x0 W1h b1h) W2h) (rNb adjf (rTw (rHv x0 W1h b1h) W2h)) (rEm (rEw x1 adjf) W2h) deg b2h) Wihh bihh) (rGh x0 Whhh bhhh) (rR (rGi (rMsg (rTv (rHv x0 W1h b1h) W2h) (rNb adjf (rTw (rHv x0 W1h b1h) W2h)) (rEm (rEw x1 adjf) W2h) deg b2h) Wihh bihh) (rGh x0 Whhh bhhh))) x0)

/-- The tail: the four heads side by side, rectified, projected, and added to the node states. -/
def rFinal (x0 h0 h1 h2 h3 : FVec Ideal S64x96x256 .f32) (x11 : FVec Ideal S256x1024 .f32) (x12 : FVec Ideal S256 .f32) : FVec Ideal S64x96x256 .f32 :=
  (addf x0 (addf (Host.dotGeneral (F := Ideal) dot_S64x96x1024_S256x1024_S64x96x256_2_1_01_0_n_n none (maximumf (concatenate S64x96x1024 2 [⟨S64x96x256, h0⟩, ⟨S64x96x256, h1⟩, ⟨S64x96x256, h2⟩, ⟨S64x96x256, h3⟩] concatenates_S64x96x256_S64x96x256_S64x96x256_S64x96x256_S64x96x1024_d2) (broadcastInDim S64x96x1024 ![] bcast_S_S64x96x1024 (constant (F := Ideal) S_ .f32 0x00000000#32))) x11) (broadcastInDim S64x96x256 ![0, 1, 2] bcast_S1x1x256_S64x96x256_0_1_2 (broadcastInDim S1x1x256 ![2] bcast_S256_S1x1x256_2 x12))))

/-- One head's parameters, every matrix "output index first", the second map's columns in their three bands. -/
def mkHead (W1h : FVec Ideal S256x256 .f32) (b1h : FVec Ideal S256 .f32) (W2h : FVec Ideal S256x544 .f32) (b2h : FVec Ideal S256 .f32) (Wihh Whhh : FVec Ideal S768x256 .f32) (bihh bhhh : FVec Ideal S768 .f32) : Spec.Head where
  W1 := fun o i => W1h (ix2 o i)
  b1 := fun o => b1h (ix1 o)
  Wa := fun m i => W2h (ix2 m ⟨i.val, by have := i.isLt; omega⟩)
  Wb := fun m i => W2h (ix2 m ⟨256 + i.val, by have := i.isLt; omega⟩)
  Wc := fun m e => W2h (ix2 m ⟨512 + e.val, by have := e.isLt; omega⟩)
  b2 := fun m => b2h (ix1 m)
  Wih := fun o m => Wihh (ix2 o m)
  Whh := fun o n => Whhh (ix2 o n)
  bih := fun o => bihh (ix1 o)
  bhh := fun o => bhhh (ix1 o)

theorem deg_apply (b : Fin 64) (A : Fin 96 → Fin 96 → EReal)
    (adjf : FVec Ideal S64x96x96 .f32) (hA : ∀ v w, adjf (ix3 b v w) = A v w) (v : Fin 96) :
    rDeg adjf (ix2 b v) = Spec.deg A v := by
  unfold rDeg Spec.deg
  rw [reduce_adj_apply]
  simp only [hA]
  rfl

theorem hv_apply (b : Fin 64) (X : Fin 96 → Fin 256 → EReal) (A : Fin 96 → Fin 96 → EReal) (EW : Fin 96 → Fin 32 → EReal)
    (W1h : FVec Ideal S256x256 .f32) (b1h : FVec Ideal S256 .f32) (W2h : FVec Ideal S256x544 .f32) (b2h : FVec Ideal S256 .f32) (Wihh Whhh : FVec Ideal S768x256 .f32) (bihh bhhh : FVec Ideal S768 .f32)
    (x0 : FVec Ideal S64x96x256 .f32) (hx : ∀ v i, x0 (ix3 b v i) = X v i) (v : Fin 96) (o : Fin 256) :
    rHv x0 W1h b1h (ix3 b v o) = Spec.hv X (mkHead W1h b1h W2h b2h Wihh Whhh bihh bhhh) v o := by
  unfold rHv Spec.hv
  rw [addf_apply, dot256_apply, bcast_row256_apply]
  simp only [hx]
  rfl

theorem tv_apply (b : Fin 64) (X : Fin 96 → Fin 256 → EReal) (A : Fin 96 → Fin 96 → EReal) (EW : Fin 96 → Fin 32 → EReal)
    (W1h : FVec Ideal S256x256 .f32) (b1h : FVec Ideal S256 .f32) (W2h : FVec Ideal S256x544 .f32) (b2h : FVec Ideal S256 .f32) (Wihh Whhh : FVec Ideal S768x256 .f32) (bihh bhhh : FVec Ideal S768 .f32)
    (hv : FVec Ideal S64x96x256 .f32) (hhv : ∀ v i, hv (ix3 b v i) = Spec.hv X (mkHead W1h b1h W2h b2h Wihh Whhh bihh bhhh) v i) (v : Fin 96) (m : Fin 256) :
    rTv hv W2h (ix3 b v m) = Spec.tv X (mkHead W1h b1h W2h b2h Wihh Whhh bihh bhhh) v m := by
  unfold rTv Spec.tv
  rw [dot256_apply]
  refine Finset.sum_congr rfl fun i _ => ?_
  rw [hhv, slice2_last_apply 0 W2h _ m i ⟨i.val, by have := i.isLt; omega⟩ (Nat.zero_add _).symm]
  rfl

theorem tw_apply (b : Fin 64) (X : Fin 96 → Fin 256 → EReal) (A : Fin 96 → Fin 96 → EReal) (EW : Fin 96 → Fin 32 → EReal)
    (W1h : FVec Ideal S256x256 .f32) (b1h : FVec Ideal S256 .f32) (W2h : FVec Ideal S256x544 .f32) (b2h : FVec Ideal S256 .f32) (Wihh Whhh : FVec Ideal S768x256 .f32) (bihh bhhh : FVec Ideal S768 .f32)
    (hv : FVec Ideal S64x96x256 .f32) (hhv : ∀ v i, hv (ix3 b v i) = Spec.hv X (mkHead W1h b1h W2h b2h Wihh Whhh bihh bhhh) v i) (v : Fin 96) (m : Fin 256) :
    rTw hv W2h (ix3 b v m) = Spec.tw X (mkHead W1h b1h W2h b2h Wihh Whhh bihh bhhh) v m := by
  unfold rTw Spec.tw
  rw [dot256_apply]
  refine Finset.sum_congr rfl fun i _ => ?_
  rw [hhv, slice2_last_apply 256 W2h _ m i ⟨256 + i.val, by have := i.isLt; omega⟩ rfl]
  rfl

theorem nb_apply (b : Fin 64) (X : Fin 96 → Fin 256 → EReal) (A : Fin 96 → Fin 96 → EReal) (EW : Fin 96 → Fin 32 → EReal)
    (W1h : FVec Ideal S256x256 .f32) (b1h : FVec Ideal S256 .f32) (W2h : FVec Ideal S256x544 .f32) (b2h : FVec Ideal S256 .f32) (Wihh Whhh : FVec Ideal S768x256 .f32) (bihh bhhh : FVec Ideal S768 .f32)
    (adjf : FVec Ideal S64x96x96 .f32) (tw : FVec Ideal S64x96x256 .f32) (hA : ∀ v w, adjf (ix3 b v w) = A v w)
    (htw : ∀ w m, tw (ix3 b w m) = Spec.tw X (mkHead W1h b1h W2h b2h Wihh Whhh bihh bhhh) w m) (v : Fin 96) (m : Fin 256) :
    rNb adjf tw (ix3 b v m) = Spec.nb X A (mkHead W1h b1h W2h b2h Wihh Whhh bihh bhhh) v m := by
  unfold rNb Spec.nb
  rw [dotAdj_apply]
  exact Finset.sum_congr rfl fun w _ => by rw [hA, htw]

theorem ew_apply (b : Fin 64) (A : Fin 96 → Fin 96 → EReal)
    (x1 : FVec Ideal S64x96x96x32 .f32) (adjf : FVec Ideal S64x96x96 .f32) (E : Fin 96 → Fin 96 → Fin 32 → EReal)
    (hE : ∀ v w e, x1 (ix4 b v w e) = E v w e) (hA : ∀ v w, adjf (ix3 b v w) = A v w) (v : Fin 96) (e : Fin 32) :
    rEw x1 adjf (ix3 b v e) = Spec.ew A E v e := by
  unfold rEw Spec.ew
  rw [reduce_edge_apply]
  refine congrArg₂ (· + ·) rfl (Finset.sum_congr rfl fun w _ => ?_)
  rw [mulf_apply, bcast_pair_apply, hE, hA]

theorem em_apply (b : Fin 64) (X : Fin 96 → Fin 256 → EReal) (A : Fin 96 → Fin 96 → EReal) (EW : Fin 96 → Fin 32 → EReal)
    (W1h : FVec Ideal S256x256 .f32) (b1h : FVec Ideal S256 .f32) (W2h : FVec Ideal S256x544 .f32) (b2h : FVec Ideal S256 .f32) (Wihh Whhh : FVec Ideal S768x256 .f32) (bihh bhhh : FVec Ideal S768 .f32)
    (ew : FVec Ideal S64x96x32 .f32) (hew : ∀ v e, ew (ix3 b v e) = EW v e) (v : Fin 96) (m : Fin 256) :
    rEm ew W2h (ix3 b v m) = Spec.em EW (mkHead W1h b1h W2h b2h Wihh Whhh bihh bhhh) v m := by
  unfold rEm Spec.em
  rw [dot32_apply]
  refine Finset.sum_congr rfl fun e _ => ?_
  rw [hew, slice2_last_apply 512 W2h _ m e ⟨512 + e.val, by have := e.isLt; omega⟩ rfl]
  rfl

theorem msg_apply (b : Fin 64) (X : Fin 96 → Fin 256 → EReal) (A : Fin 96 → Fin 96 → EReal) (EW : Fin 96 → Fin 32 → EReal)
    (W1h : FVec Ideal S256x256 .f32) (b1h : FVec Ideal S256 .f32) (W2h : FVec Ideal S256x544 .f32) (b2h : FVec Ideal S256 .f32) (Wihh Whhh : FVec Ideal S768x256 .f32) (bihh bhhh : FVec Ideal S768 .f32)
    (tv nb em : FVec Ideal S64x96x256 .f32) (deg : FVec Ideal S64x96 .f32)
    (htv : ∀ v m, tv (ix3 b v m) = Spec.tv X (mkHead W1h b1h W2h b2h Wihh Whhh bihh bhhh) v m) (hnb : ∀ v m, nb (ix3 b v m) = Spec.nb X A (mkHead W1h b1h W2h b2h Wihh Whhh bihh bhhh) v m)
    (hem : ∀ v m, em (ix3 b v m) = Spec.em EW (mkHead W1h b1h W2h b2h Wihh Whhh bihh bhhh) v m) (hdeg : ∀ v, deg (ix2 b v) = Spec.deg A v)
    (v : Fin 96) (m : Fin 256) :
    rMsg tv nb em deg b2h (ix3 b v m) = Spec.msg X A EW (mkHead W1h b1h W2h b2h Wihh Whhh bihh bhhh) v m := by
  unfold rMsg Spec.msg
  rw [maximumf_apply, addf_apply, addf_apply, addf_apply, mulf_apply, mulf_apply, bcast_node_apply, bcast_row256_apply,
    bcast_word256_apply, htv, hnb, hem, hdeg]
  rfl

theorem gi_apply (b : Fin 64) (X : Fin 96 → Fin 256 → EReal) (A : Fin 96 → Fin 96 → EReal) (EW : Fin 96 → Fin 32 → EReal)
    (W1h : FVec Ideal S256x256 .f32) (b1h : FVec Ideal S256 .f32) (W2h : FVec Ideal S256x544 .f32) (b2h : FVec Ideal S256 .f32) (Wihh Whhh : FVec Ideal S768x256 .f32) (bihh bhhh : FVec Ideal S768 .f32)
    (msg : FVec Ideal S64x96x256 .f32) (hmsg : ∀ v m, msg (ix3 b v m) = Spec.msg X A EW (mkHead W1h b1h W2h b2h Wihh Whhh bihh bhhh) v m) (v : Fin 96) (o : Fin 768) :
    rGi msg Wihh bihh (ix3 b v o) = Spec.gi X A EW (mkHead W1h b1h W2h b2h Wihh Whhh bihh bhhh) v o := by
  unfold rGi Spec.gi
  rw [addf_apply, dot768_apply, bcast_row768_apply]
  simp only [hmsg]
  rfl

theorem gh_apply (b : Fin 64) (X : Fin 96 → Fin 256 → EReal) (A : Fin 96 → Fin 96 → EReal) (EW : Fin 96 → Fin 32 → EReal)
    (W1h : FVec Ideal S256x256 .f32) (b1h : FVec Ideal S256 .f32) (W2h : FVec Ideal S256x544 .f32) (b2h : FVec Ideal S256 .f32) (Wihh Whhh : FVec Ideal S768x256 .f32) (bihh bhhh : FVec Ideal S768 .f32)
    (x0 : FVec Ideal S64x96x256 .f32) (hx : ∀ v i, x0 (ix3 b v i) = X v i) (v : Fin 96) (o : Fin 768) :
    rGh x0 Whhh bhhh (ix3 b v o) = Spec.gh X (mkHead W1h b1h W2h b2h Wihh Whhh bihh bhhh) v o := by
  unfold rGh Spec.gh
  rw [addf_apply, dot768_apply, bcast_row768_apply]
  simp only [hx]
  rfl

theorem r_apply (b : Fin 64) (X : Fin 96 → Fin 256 → EReal) (A : Fin 96 → Fin 96 → EReal) (EW : Fin 96 → Fin 32 → EReal)
    (W1h : FVec Ideal S256x256 .f32) (b1h : FVec Ideal S256 .f32) (W2h : FVec Ideal S256x544 .f32) (b2h : FVec Ideal S256 .f32) (Wihh Whhh : FVec Ideal S768x256 .f32) (bihh bhhh : FVec Ideal S768 .f32)
    (gi gh : FVec Ideal S64x96x768 .f32) (hgi : ∀ v o, gi (ix3 b v o) = Spec.gi X A EW (mkHead W1h b1h W2h b2h Wihh Whhh bihh bhhh) v o)
    (hgh : ∀ v o, gh (ix3 b v o) = Spec.gh X (mkHead W1h b1h W2h b2h Wihh Whhh bihh bhhh) v o) (v : Fin 96) (o : Fin 256) :
    rR gi gh (ix3 b v o) = Spec.rgate X A EW (mkHead W1h b1h W2h b2h Wihh Whhh bihh bhhh) v o := by
  unfold rR Spec.rgate Spec.sig
  rw [hostDivf_apply, addf_apply, hostExp_apply, hostNegf_apply, addf_apply, bcast_word256_apply,
    slice3_last_apply 0 gi _ b v o (Spec.g0 o) (Nat.zero_add _).symm,
    slice3_last_apply 0 gh _ b v o (Spec.g0 o) (Nat.zero_add _).symm, hgi, hgh]

theorem z_apply (b : Fin 64) (X : Fin 96 → Fin 256 → EReal) (A : Fin 96 → Fin 96 → EReal) (EW : Fin 96 → Fin 32 → EReal)
    (W1h : FVec Ideal S256x256 .f32) (b1h : FVec Ideal S256 .f32) (W2h : FVec Ideal S256x544 .f32) (b2h : FVec Ideal S256 .f32) (Wihh Whhh : FVec Ideal S768x256 .f32) (bihh bhhh : FVec Ideal S768 .f32)
    (gi gh : FVec Ideal S64x96x768 .f32) (hgi : ∀ v o, gi (ix3 b v o) = Spec.gi X A EW (mkHead W1h b1h W2h b2h Wihh Whhh bihh bhhh) v o)
    (hgh : ∀ v o, gh (ix3 b v o) = Spec.gh X (mkHead W1h b1h W2h b2h Wihh Whhh bihh bhhh) v o) (v : Fin 96) (o : Fin 256) :
    rZ gi gh (ix3 b v o) = Spec.zgate X A EW (mkHead W1h b1h W2h b2h Wihh Whhh bihh bhhh) v o := by
  unfold rZ Spec.zgate Spec.sig
  rw [hostDivf_apply, addf_apply, hostExp_apply, hostNegf_apply, addf_apply, bcast_word256_apply,
    slice3_last_apply 256 gi _ b v o (Spec.g1 o) rfl,
    slice3_last_apply 256 gh _ b v o (Spec.g1 o) rfl, hgi, hgh]

theorem n_apply (b : Fin 64) (X : Fin 96 → Fin 256 → EReal) (A : Fin 96 → Fin 96 → EReal) (EW : Fin 96 → Fin 32 → EReal)
    (W1h : FVec Ideal S256x256 .f32) (b1h : FVec Ideal S256 .f32) (W2h : FVec Ideal S256x544 .f32) (b2h : FVec Ideal S256 .f32) (Wihh Whhh : FVec Ideal S768x256 .f32) (bihh bhhh : FVec Ideal S768 .f32)
    (gi gh : FVec Ideal S64x96x768 .f32) (r : FVec Ideal S64x96x256 .f32) (hgi : ∀ v o, gi (ix3 b v o) = Spec.gi X A EW (mkHead W1h b1h W2h b2h Wihh Whhh bihh bhhh) v o)
    (hgh : ∀ v o, gh (ix3 b v o) = Spec.gh X (mkHead W1h b1h W2h b2h Wihh Whhh bihh bhhh) v o) (hr : ∀ v o, r (ix3 b v o) = Spec.rgate X A EW (mkHead W1h b1h W2h b2h Wihh Whhh bihh bhhh) v o)
    (v : Fin 96) (o : Fin 256) :
    rN gi gh r (ix3 b v o) = Spec.cand X A EW (mkHead W1h b1h W2h b2h Wihh Whhh bihh bhhh) v o := by
  unfold rN Spec.cand
  rw [hostTanh_apply, addf_apply, mulf_apply,
    slice3_last_apply 512 gi _ b v o (Spec.g2 o) rfl,
    slice3_last_apply 512 gh _ b v o (Spec.g2 o) rfl, hgi, hgh, hr]

theorem new_apply (b : Fin 64) (X : Fin 96 → Fin 256 → EReal) (A : Fin 96 → Fin 96 → EReal) (EW : Fin 96 → Fin 32 → EReal)
    (W1h : FVec Ideal S256x256 .f32) (b1h : FVec Ideal S256 .f32) (W2h : FVec Ideal S256x544 .f32) (b2h : FVec Ideal S256 .f32) (Wihh Whhh : FVec Ideal S768x256 .f32) (bihh bhhh : FVec Ideal S768 .f32)
    (z n x0 : FVec Ideal S64x96x256 .f32) (hz : ∀ v o, z (ix3 b v o) = Spec.zgate X A EW (mkHead W1h b1h W2h b2h Wihh Whhh bihh bhhh) v o)
    (hn : ∀ v o, n (ix3 b v o) = Spec.cand X A EW (mkHead W1h b1h W2h b2h Wihh Whhh bihh bhhh) v o) (hx : ∀ v i, x0 (ix3 b v i) = X v i)
    (v : Fin 96) (o : Fin 256) :
    rNew z n x0 (ix3 b v o) = Spec.head X A EW (mkHead W1h b1h W2h b2h Wihh Whhh bihh bhhh) v o := by
  unfold rNew Spec.head
  rw [addf_apply, mulf_apply, mulf_apply, subf_apply, bcast_word256_apply, hz, hn, hx]

/-- One head at graph `b`: the specification's head, over that graph's node states, adjacency and edge features. -/
theorem head_apply (b : Fin 64) (X : Fin 96 → Fin 256 → EReal) (A : Fin 96 → Fin 96 → EReal) (E : Fin 96 → Fin 96 → Fin 32 → EReal)
    (W1h : FVec Ideal S256x256 .f32) (b1h : FVec Ideal S256 .f32) (W2h : FVec Ideal S256x544 .f32) (b2h : FVec Ideal S256 .f32) (Wihh Whhh : FVec Ideal S768x256 .f32) (bihh bhhh : FVec Ideal S768 .f32)
    (x0 : FVec Ideal S64x96x256 .f32) (x1 : FVec Ideal S64x96x96x32 .f32) (adjf : FVec Ideal S64x96x96 .f32) (deg : FVec Ideal S64x96 .f32)
    (hx : ∀ v i, x0 (ix3 b v i) = X v i) (hE : ∀ v w e, x1 (ix4 b v w e) = E v w e)
    (hA : ∀ v w, adjf (ix3 b v w) = A v w) (hdeg : ∀ v, deg (ix2 b v) = Spec.deg A v) (v : Fin 96) (o : Fin 256) :
    rHead x0 x1 adjf deg W1h b1h W2h b2h Wihh Whhh bihh bhhh (ix3 b v o) = Spec.head X A (Spec.ew A E) (mkHead W1h b1h W2h b2h Wihh Whhh bihh bhhh) v o := by
  unfold rHead
  have hhv := hv_apply b X A (Spec.ew A E) W1h b1h W2h b2h Wihh Whhh bihh bhhh x0 hx
  have htv := tv_apply b X A (Spec.ew A E) W1h b1h W2h b2h Wihh Whhh bihh bhhh _ hhv
  have htw := tw_apply b X A (Spec.ew A E) W1h b1h W2h b2h Wihh Whhh bihh bhhh _ hhv
  have hnb := nb_apply b X A (Spec.ew A E) W1h b1h W2h b2h Wihh Whhh bihh bhhh adjf _ hA htw
  have hew := ew_apply b A x1 adjf E hE hA
  have hem := em_apply b X A (Spec.ew A E) W1h b1h W2h b2h Wihh Whhh bihh bhhh _ hew
  have hmsg := msg_apply b X A (Spec.ew A E) W1h b1h W2h b2h Wihh Whhh bihh bhhh _ _ _ deg htv hnb hem hdeg
  have hgi := gi_apply b X A (Spec.ew A E) W1h b1h W2h b2h Wihh Whhh bihh bhhh _ hmsg
  have hgh := gh_apply b X A (Spec.ew A E) W1h b1h W2h b2h Wihh Whhh bihh bhhh x0 hx
  have hr := r_apply b X A (Spec.ew A E) W1h b1h W2h b2h Wihh Whhh bihh bhhh _ _ hgi hgh
  have hz := z_apply b X A (Spec.ew A E) W1h b1h W2h b2h Wihh Whhh bihh bhhh _ _ hgi hgh
  have hn := n_apply b X A (Spec.ew A E) W1h b1h W2h b2h Wihh Whhh bihh bhhh _ _ _ hgi hgh hr
  exact new_apply b X A (Spec.ew A E) W1h b1h W2h b2h Wihh Whhh bihh bhhh _ _ x0 hz hn hx v o

end Cert.RefValue

end
-- ==== Proof.RefValue.lean ====
import proofs.«156658_j36309653520739_2_alg».proof.Proof.RefHead

noncomputable section

namespace Cert.RefValue

open Idealize.ShloMosaic Idealize.ShloMosaic.ValueIdx

open Cert.ReferenceIdeal Cert.ReferenceIdeal.Facts₀

/-! # The reference's value

The four heads side by side, rectified, projected and added to the node states: at graph `b`, node `v`, feature `o` the
reference is the specification's layer. -/

variable [Facts]

/-- Four `[64, 96, 256]` arrays side by side along the last axis: column `k` is column `k % 256` of array `k / 256`. -/
theorem concat4_apply {α : Type} (h0 h1 h2 h3 : S64x96x256.Idx → α) (b : Fin 64) (v : Fin 96) (k : Fin 1024) :
    concatenate S64x96x1024 2 [⟨S64x96x256, h0⟩, ⟨S64x96x256, h1⟩, ⟨S64x96x256, h2⟩, ⟨S64x96x256, h3⟩]
        concatenates_S64x96x256_S64x96x256_S64x96x256_S64x96x256_S64x96x1024_d2 (ix3 b v k)
      = (![h0, h1, h2, h3] ⟨k.val / 256, by have := k.isLt; omega⟩) (ix3 b v ⟨k.val % 256, Nat.mod_lt _ (by decide)⟩) :=
  concatenate_ofFn_apply (t := S64x96x1024) (s₁ := S64x96x256) 2 ![h0, h1, h2, h3]
    concatenates_S64x96x256_S64x96x256_S64x96x256_S64x96x256_S64x96x1024_d2 rfl 256 rfl (ix3 b v k)
    ⟨k.val / 256, by have := k.isLt; omega⟩ rfl (ix3 b v ⟨k.val % 256, Nat.mod_lt _ (by decide)⟩) rfl
    (fun c hc => by
      match c with
      | ⟨0, _⟩ => rfl
      | ⟨1, _⟩ => rfl
      | ⟨2, _⟩ => exact absurd rfl hc)

/-- The tail at graph `b`: the specification's output, given what the node states and the four heads are at graph `b`. -/
theorem final_apply (b : Fin 64) (X : Fin 96 → Fin 256 → EReal) (A : Fin 96 → Fin 96 → EReal) (EW : Fin 96 → Fin 32 → EReal)
    (Hs : Fin 4 → Spec.Head) (x0 h0 h1 h2 h3 : FVec Ideal S64x96x256 .f32) (x11 : FVec Ideal S256x1024 .f32) (x12 : FVec Ideal S256 .f32)
    (hx : ∀ v i, x0 (ix3 b v i) = X v i)
    (hh : ∀ (q : Fin 4) (v : Fin 96) (o : Fin 256), (![h0, h1, h2, h3] q) (ix3 b v o) = Spec.head X A EW (Hs q) v o)
    (v : Fin 96) (o : Fin 256) :
    rFinal x0 h0 h1 h2 h3 x11 x12 (ix3 b v o)
      = Spec.out X A EW Hs (fun o k => x11 (ix2 o k)) (fun o => x12 (ix1 o)) v o := by
  unfold rFinal Spec.out
  rw [addf_apply, addf_apply, dot1024_apply, bcast_row256_apply, hx]
  refine congrArg₂ (· + ·) rfl (congrArg₂ (· + ·) (Finset.sum_congr rfl fun k _ => ?_) rfl)
  rw [maximumf_apply, bcast_word1024_apply, concat4_apply, hh]
  rfl

/-- Head `g`'s blocks of the stacked parameters are the specification's head `g`. -/
theorem mkHead_slices (g : Nat) (hg : g < 4) (x3 : FVec Ideal S4x256x256 .f32) (x4 : FVec Ideal S4x256 .f32)
    (x5 : FVec Ideal S4x256x544 .f32) (x6 : FVec Ideal S4x256 .f32) (x7 x8 : FVec Ideal S4x768x256 .f32) (x9 x10 : FVec Ideal S4x768 .f32)
    (s3 : S4x256x256.Slices ![g, 0, 0] S1x256x256) (s4 : S4x256.Slices ![g, 0] S1x256)
    (s5 : S4x256x544.Slices ![g, 0, 0] S1x256x544) (s7 : S4x768x256.Slices ![g, 0, 0] S1x768x256)
    (s9 : S4x768.Slices ![g, 0] S1x768) :
    mkHead (shapeCast S256x256 (extractStridedSlice S1x256x256 ![g, 0, 0] x3 s3) shapeCasts_S1x256x256_S256x256)
      (shapeCast S256 (extractStridedSlice S1x256 ![g, 0] x4 s4) shapeCasts_S1x256_S256)
      (shapeCast S256x544 (extractStridedSlice S1x256x544 ![g, 0, 0] x5 s5) shapeCasts_S1x256x544_S256x544)
      (shapeCast S256 (extractStridedSlice S1x256 ![g, 0] x6 s4) shapeCasts_S1x256_S256)
      (shapeCast S768x256 (extractStridedSlice S1x768x256 ![g, 0, 0] x7 s7) shapeCasts_S1x768x256_S768x256)
      (shapeCast S768x256 (extractStridedSlice S1x768x256 ![g, 0, 0] x8 s7) shapeCasts_S1x768x256_S768x256)
      (shapeCast S768 (extractStridedSlice S1x768 ![g, 0] x9 s9) shapeCasts_S1x768_S768)
      (shapeCast S768 (extractStridedSlice S1x768 ![g, 0] x10 s9) shapeCasts_S1x768_S768)
      = Spec.headOf x3 x4 x5 x6 x7 x8 x9 x10 ⟨g, hg⟩ := by
  simp only [mkHead, Spec.headOf, Spec.Head.mk.injEq]
  refine ⟨?_, ?_, ?_, ?_, ?_, ?_, ?_, ?_, ?_, ?_⟩
  · funext o i; exact head_mat_apply g hg x3 s3 _ o i
  · funext o; exact head_vec_apply g hg x4 s4 _ o
  · funext m i; exact head_mat_apply g hg x5 s5 _ m _
  · funext m i; exact head_mat_apply g hg x5 s5 _ m _
  · funext m e; exact head_mat_apply g hg x5 s5 _ m _
  · funext m; exact head_vec_apply g hg x6 s4 _ m
  · funext o m; exact head_mat_apply g hg x7 s7 _ o m
  · funext o n; exact head_mat_apply g hg x8 s7 _ o n
  · funext o; exact head_vec_apply g hg x9 s9 _ o
  · funext o; exact head_vec_apply g hg x10 s9 _ o

/-- The reference's result as a term of its thirteen arguments: the tail over the four heads, each head over the node
    states, the edge features, the float adjacency, the neighbour counts and its own blocks of the parameters. -/
def rResult (x0 : FVec Ideal S64x96x256 .f32) (x1 : FVec Ideal S64x96x96x32 .f32) (x2 : IVec S64x96x96 32) (x3 : FVec Ideal S4x256x256 .f32) (x4 : FVec Ideal S4x256 .f32)
    (x5 : FVec Ideal S4x256x544 .f32) (x6 : FVec Ideal S4x256 .f32) (x7 x8 : FVec Ideal S4x768x256 .f32) (x9 x10 : FVec Ideal S4x768 .f32)
    (x11 : FVec Ideal S256x1024 .f32) (x12 : FVec Ideal S256 .f32) : FVec Ideal S64x96x256 .f32 :=
  (rFinal x0 (rHead x0 x1 (rAdj x2) (rDeg (rAdj x2)) (shapeCast _ (extractStridedSlice S1x256x256 ![0, 0, 0] x3 slices_S4x256x256_S1x256x256_0_0_0) shapeCasts_S1x256x256_S256x256) (shapeCast _ (extractStridedSlice S1x256 ![0, 0] x4 slices_S4x256_S1x256_0_0) shapeCasts_S1x256_S256) (shapeCast _ (extractStridedSlice S1x256x544 ![0, 0, 0] x5 slices_S4x256x544_S1x256x544_0_0_0) shapeCasts_S1x256x544_S256x544) (shapeCast _ (extractStridedSlice S1x256 ![0, 0] x6 slices_S4x256_S1x256_0_0) shapeCasts_S1x256_S256) (shapeCast _ (extractStridedSlice S1x768x256 ![0, 0, 0] x7 slices_S4x768x256_S1x768x256_0_0_0) shapeCasts_S1x768x256_S768x256) (shapeCast _ (extractStridedSlice S1x768x256 ![0, 0, 0] x8 slices_S4x768x256_S1x768x256_0_0_0) shapeCasts_S1x768x256_S768x256) (shapeCast _ (extractStridedSlice S1x768 ![0, 0] x9 slices_S4x768_S1x768_0_0) shapeCasts_S1x768_S768) (shapeCast _ (extractStridedSlice S1x768 ![0, 0] x10 slices_S4x768_S1x768_0_0) shapeCasts_S1x768_S768)) (rHead x0 x1 (rAdj x2) (rDeg (rAdj x2)) (shapeCast _ (extractStridedSlice S1x256x256 ![1, 0, 0] x3 slices_S4x256x256_S1x256x256_1_0_0) shapeCasts_S1x256x256_S256x256) (shapeCast _ (extractStridedSlice S1x256 ![1, 0] x4 slices_S4x256_S1x256_1_0) shapeCasts_S1x256_S256) (shapeCast _ (extractStridedSlice S1x256x544 ![1, 0, 0] x5 slices_S4x256x544_S1x256x544_1_0_0) shapeCasts_S1x256x544_S256x544) (shapeCast _ (extractStridedSlice S1x256 ![1, 0] x6 slices_S4x256_S1x256_1_0) shapeCasts_S1x256_S256) (shapeCast _ (extractStridedSlice S1x768x256 ![1, 0, 0] x7 slices_S4x768x256_S1x768x256_1_0_0) shapeCasts_S1x768x256_S768x256) (shapeCast _ (extractStridedSlice S1x768x256 ![1, 0, 0] x8 slices_S4x768x256_S1x768x256_1_0_0) shapeCasts_S1x768x256_S768x256) (shapeCast _ (extractStridedSlice S1x768 ![1, 0] x9 slices_S4x768_S1x768_1_0) shapeCasts_S1x768_S768) (shapeCast _ (extractStridedSlice S1x768 ![1, 0] x10 slices_S4x768_S1x768_1_0) shapeCasts_S1x768_S768)) (rHead x0 x1 (rAdj x2) (rDeg (rAdj x2)) (shapeCast _ (extractStridedSlice S1x256x256 ![2, 0, 0] x3 slices_S4x256x256_S1x256x256_2_0_0) shapeCasts_S1x256x256_S256x256) (shapeCast _ (extractStridedSlice S1x256 ![2, 0] x4 slices_S4x256_S1x256_2_0) shapeCasts_S1x256_S256) (shapeCast _ (extractStridedSlice S1x256x544 ![2, 0, 0] x5 slices_S4x256x544_S1x256x544_2_0_0) shapeCasts_S1x256x544_S256x544) (shapeCast _ (extractStridedSlice S1x256 ![2, 0] x6 slices_S4x256_S1x256_2_0) shapeCasts_S1x256_S256) (shapeCast _ (extractStridedSlice S1x768x256 ![2, 0, 0] x7 slices_S4x768x256_S1x768x256_2_0_0) shapeCasts_S1x768x256_S768x256) (shapeCast _ (extractStridedSlice S1x768x256 ![2, 0, 0] x8 slices_S4x768x256_S1x768x256_2_0_0) shapeCasts_S1x768x256_S768x256) (shapeCast _ (extractStridedSlice S1x768 ![2, 0] x9 slices_S4x768_S1x768_2_0) shapeCasts_S1x768_S768) (shapeCast _ (extractStridedSlice S1x768 ![2, 0] x10 slices_S4x768_S1x768_2_0) shapeCasts_S1x768_S768)) (rHead x0 x1 (rAdj x2) (rDeg (rAdj x2)) (shapeCast _ (extractStridedSlice S1x256x256 ![3, 0, 0] x3 slices_S4x256x256_S1x256x256_3_0_0) shapeCasts_S1x256x256_S256x256) (shapeCast _ (extractStridedSlice S1x256 ![3, 0] x4 slices_S4x256_S1x256_3_0) shapeCasts_S1x256_S256) (shapeCast _ (extractStridedSlice S1x256x544 ![3, 0, 0] x5 slices_S4x256x544_S1x256x544_3_0_0) shapeCasts_S1x256x544_S256x544) (shapeCast _ (extractStridedSlice S1x256 ![3, 0] x6 slices_S4x256_S1x256_3_0) shapeCasts_S1x256_S256) (shapeCast _ (extractStridedSlice S1x768x256 ![3, 0, 0] x7 slices_S4x768x256_S1x768x256_3_0_0) shapeCasts_S1x768x256_S768x256) (shapeCast _ (extractStridedSlice S1x768x256 ![3, 0, 0] x8 slices_S4x768x256_S1x768x256_3_0_0) shapeCasts_S1x768x256_S768x256) (shapeCast _ (extractStridedSlice S1x768 ![3, 0] x9 slices_S4x768_S1x768_3_0) shapeCasts_S1x768_S768) (shapeCast _ (extractStridedSlice S1x768 ![3, 0] x10 slices_S4x768_S1x768_3_0) shapeCasts_S1x768_S768)) x11 x12)

/-- The reference's result is the specification's layer, index by index. -/
theorem rResult_apply (x0 : FVec Ideal S64x96x256 .f32) (x1 : FVec Ideal S64x96x96x32 .f32) (x2 : IVec S64x96x96 32) (x3 : FVec Ideal S4x256x256 .f32) (x4 : FVec Ideal S4x256 .f32)
    (x5 : FVec Ideal S4x256x544 .f32) (x6 : FVec Ideal S4x256 .f32) (x7 x8 : FVec Ideal S4x768x256 .f32) (x9 x10 : FVec Ideal S4x768 .f32)
    (x11 : FVec Ideal S256x1024 .f32) (x12 : FVec Ideal S256 .f32) :
    rResult x0 x1 x2 x3 x4 x5 x6 x7 x8 x9 x10 x11 x12 = fun i => Spec.result x0 x1 x2 x3 x4 x5 x6 x7 x8 x9 x10 x11 x12 (i 0) (i 1) (i 2) := by
  funext i
  obtain ⟨b, v, o, rfl⟩ : ∃ (b : Fin 64) (v : Fin 96) (o : Fin 256), i = ix3 b v o := ⟨i 0, i 1, i 2, eq_ix3 i⟩
  show rResult x0 x1 x2 x3 x4 x5 x6 x7 x8 x9 x10 x11 x12 (ix3 b v o) = Spec.result x0 x1 x2 x3 x4 x5 x6 x7 x8 x9 x10 x11 x12 b v o
  unfold rResult Spec.result
  have hA : ∀ v w, rAdj x2 (ix3 b v w) = Spec.adjOf x2 b v w := fun _ _ => rfl
  have hdeg := deg_apply b (Spec.adjOf x2 b) (rAdj x2) hA
  refine final_apply b (Spec.nodesOf x0 b) (Spec.adjOf x2 b) (Spec.ewOf x1 x2 b) (Spec.headOf x3 x4 x5 x6 x7 x8 x9 x10)
    x0 _ _ _ _ x11 x12 (fun _ _ => rfl) (fun q v o => ?_) v o
  match q with
  | ⟨0, _⟩ =>
    exact (head_apply b (Spec.nodesOf x0 b) (Spec.adjOf x2 b) (Spec.edgesOf x1 b) _ _ _ _ _ _ _ _ x0 x1 (rAdj x2) (rDeg (rAdj x2))
      (fun _ _ => rfl) (fun _ _ _ => rfl) hA hdeg v o).trans
      (congrArg (fun Hd => Spec.head (Spec.nodesOf x0 b) (Spec.adjOf x2 b) (Spec.ewOf x1 x2 b) Hd v o)
        (mkHead_slices 0 (by decide) x3 x4 x5 x6 x7 x8 x9 x10 slices_S4x256x256_S1x256x256_0_0_0 slices_S4x256_S1x256_0_0
          slices_S4x256x544_S1x256x544_0_0_0 slices_S4x768x256_S1x768x256_0_0_0 slices_S4x768_S1x768_0_0))
  | ⟨1, _⟩ =>
    exact (head_apply b (Spec.nodesOf x0 b) (Spec.adjOf x2 b) (Spec.edgesOf x1 b) _ _ _ _ _ _ _ _ x0 x1 (rAdj x2) (rDeg (rAdj x2))
      (fun _ _ => rfl) (fun _ _ _ => rfl) hA hdeg v o).trans
      (congrArg (fun Hd => Spec.head (Spec.nodesOf x0 b) (Spec.adjOf x2 b) (Spec.ewOf x1 x2 b) Hd v o)
        (mkHead_slices 1 (by decide) x3 x4 x5 x6 x7 x8 x9 x10 slices_S4x256x256_S1x256x256_1_0_0 slices_S4x256_S1x256_1_0
          slices_S4x256x544_S1x256x544_1_0_0 slices_S4x768x256_S1x768x256_1_0_0 slices_S4x768_S1x768_1_0))
  | ⟨2, _⟩ =>
    exact (head_apply b (Spec.nodesOf x0 b) (Spec.adjOf x2 b) (Spec.edgesOf x1 b) _ _ _ _ _ _ _ _ x0 x1 (rAdj x2) (rDeg (rAdj x2))
      (fun _ _ => rfl) (fun _ _ _ => rfl) hA hdeg v o).trans
      (congrArg (fun Hd => Spec.head (Spec.nodesOf x0 b) (Spec.adjOf x2 b) (Spec.ewOf x1 x2 b) Hd v o)
        (mkHead_slices 2 (by decide) x3 x4 x5 x6 x7 x8 x9 x10 slices_S4x256x256_S1x256x256_2_0_0 slices_S4x256_S1x256_2_0
          slices_S4x256x544_S1x256x544_2_0_0 slices_S4x768x256_S1x768x256_2_0_0 slices_S4x768_S1x768_2_0))
  | ⟨3, _⟩ =>
    exact (head_apply b (Spec.nodesOf x0 b) (Spec.adjOf x2 b) (Spec.edgesOf x1 b) _ _ _ _ _ _ _ _ x0 x1 (rAdj x2) (rDeg (rAdj x2))
      (fun _ _ => rfl) (fun _ _ _ => rfl) hA hdeg v o).trans
      (congrArg (fun Hd => Spec.head (Spec.nodesOf x0 b) (Spec.adjOf x2 b) (Spec.ewOf x1 x2 b) Hd v o)
        (mkHead_slices 3 (by decide) x3 x4 x5 x6 x7 x8 x9 x10 slices_S4x256x256_S1x256x256_3_0_0 slices_S4x256_S1x256_3_0
          slices_S4x256x544_S1x256x544_3_0_0 slices_S4x768x256_S1x768x256_3_0_0 slices_S4x768_S1x768_3_0))

end Cert.RefValue

end
-- ==== Proof.RefRunWOps.lean ====
import proofs.«156658_j36309653520739_2_alg».proof.Proof.Gen.ReferenceIdeal
import Idealize.ShloMosaic.Lib.StableHlo.Run
import Idealize.ShloMosaic.Lib.Pipeline.Frame

/-!
# The reference program as a list of host operations, in consecutive chunks

The reference is 376 host operations (a called function's operations stand in its call's place). The list is cut where
the printed program's windows end and where the program's own structure does: three operations that every head shares
(the adjacency matrix as floats, and the degree), four heads of 91 operations each, and the nine operations that join the
heads. A cut at each of those places gives twelve consecutive chunks; the printed windows and the structural windows are
both concatenations of chunks.
-/

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

/-- Operations 1 … 3 of 376. -/
abbrev opsC0 : List (HloOp τ sig (Elt F)) :=
  [ unary main_arg2 main_v0 (sitofp .f32 : (⟨S64x96x96, .i32⟩ : BufTy).Contents (Elt F) → (⟨S64x96x96, .f32⟩ : BufTy).Contents (Elt F)),
    nullary main_cst (constant S_ .f32 0x00000000#32),
    binary main_v0 main_cst main_v1 ((fun x v => Host.reduceAdd x v reducesTo_S64x96x96_S64x96_d2 h_S_) : (⟨S64x96x96, .f32⟩ : BufTy).Contents (Elt F) → (⟨S_, .f32⟩ : BufTy).Contents (Elt F) → (⟨S64x96, .f32⟩ : BufTy).Contents (Elt F)) ]

/-- Operations 4 … 62 of 376. -/
abbrev opsC1 : List (HloOp τ sig (Elt F)) :=
  [ unary main_arg3 main_v2 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v2 main_v3 rfl shapeCasts_S1x256x256_S256x256,
    binary main_arg0 main_v3 main_v4 ((fun l r => Host.dotGeneral dot_S64x96x256_S256x256_S64x96x256_2_1_01_0_n_n none l r) : (⟨S64x96x256, .f32⟩ : BufTy).Contents (Elt F) → (⟨S256x256, .f32⟩ : BufTy).Contents (Elt F) → (⟨S64x96x256, .f32⟩ : BufTy).Contents (Elt F)),
    unary main_arg4 main_v5 ((extractStridedSlice S1x256 ![0, 0] · slices_S4x256_S1x256_0_0) : (⟨S4x256, .f32⟩ : BufTy).Contents (Elt F) → (⟨S1x256, .f32⟩ : BufTy).Contents (Elt F)),
    reshape main_v5 main_v6 rfl shapeCasts_S1x256_S256,
    unary main_v6 main_v7 (broadcastInDim S1x1x256 ![2] bcast_S256_S1x1x256_2 : (⟨S256, .f32⟩ : BufTy).Contents (Elt F) → (⟨S1x1x256, .f32⟩ : BufTy).Contents (Elt F)),
    unary main_v7 main_v8 (broadcastInDim S64x96x256 ![0, 1, 2] bcast_S1x1x256_S64x96x256_0_1_2 : (⟨S1x1x256, .f32⟩ : BufTy).Contents (Elt F) → (⟨S64x96x256, .f32⟩ : BufTy).Contents (Elt F)),
    binary main_v4 main_v8 main_v9 (addf : (⟨S64x96x256, .f32⟩ : BufTy).Contents (Elt F) → (⟨S64x96x256, .f32⟩ : BufTy).Contents (Elt F) → (⟨S64x96x256, .f32⟩ : BufTy).Contents (Elt F)),
    unary main_arg5 main_v10 ((extractStridedSlice S1x256x544 ![0, 0, 0] · slices_S4x256x544_S1x256x544_0_0_0) : (⟨S4x256x544, .f32⟩ : BufTy).Contents (Elt F) → (⟨S1x256x544, .f32⟩ : BufTy).Contents (Elt F)),
    reshape main_v10 main_v11 rfl shapeCasts_S1x256x544_S256x544,
    unary main_v11 main_v12 ((extractStridedSlice S256x256 ![0, 0] · slices_S256x544_S256x256_0_0) : (⟨S256x544, .f32⟩ : BufTy).Contents (Elt F) → (⟨S256x256, .f32⟩ : BufTy).Contents (Elt F)),
    unary main_arg5 main_v13 ((extractStridedSlice S1x256x544 ![0, 0, 0] · slices_S4x256x544_S1x256x544_0_0_0) : (⟨S4x256x544, .f32⟩ : BufTy).Contents (Elt F) → (⟨S1x256x544, .f32⟩ : BufTy).Contents (Elt F)),
    reshape main_v13 main_v14 rfl shapeCasts_S1x256x544_S256x544,
    unary main_v14 main_v15 ((extractStridedSlice S256x256 ![0, 256] · slices_S256x544_S256x256_0_256) : (⟨S256x544, .f32⟩ : BufTy).Contents (Elt F) → (⟨S256x256, .f32⟩ : BufTy).Contents (Elt F)),
    unary main_arg5 main_v16 ((extractStridedSlice S1x256x544 ![0, 0, 0] · slices_S4x256x544_S1x256x544_0_0_0) : (⟨S4x256x544, .f32⟩ : BufTy).Contents (Elt F) → (⟨S1x256x544, .f32⟩ : BufTy).Contents (Elt F)),
    reshape main_v16 main_v17 rfl shapeCasts_S1x256x544_S256x544,
    unary main_v17 main_v18 ((extractStridedSlice S256x32 ![0, 512] · slices_S256x544_S256x32_0_512) : (⟨S256x544, .f32⟩ : BufTy).Contents (Elt F) → (⟨S256x32, .f32⟩ : BufTy).Contents (Elt F)),
    binary main_v9 main_v12 main_v19 ((fun l r => Host.dotGeneral dot_S64x96x256_S256x256_S64x96x256_2_1_01_0_n_n none l r) : (⟨S64x96x256, .f32⟩ : BufTy).Contents (Elt F) → (⟨S256x256, .f32⟩ : BufTy).Contents (Elt F) → (⟨S64x96x256, .f32⟩ : BufTy).Contents (Elt F)),
    binary main_v9 main_v15 main_v20 ((fun l r => Host.dotGeneral dot_S64x96x256_S256x256_S64x96x256_2_1_01_0_n_n none l r) : (⟨S64x96x256, .f32⟩ : BufTy).Contents (Elt F) → (⟨S256x256, .f32⟩ : BufTy).Contents (Elt F) → (⟨S64x96x256, .f32⟩ : BufTy).Contents (Elt F)),
    unary main_v1 main_v21 (broadcastInDim S64x96x1 ![0, 1] bcast_S64x96_S64x96x1_0_1 : (⟨S64x96, .f32⟩ : BufTy).Contents (Elt F) → (⟨S64x96x1, .f32⟩ : BufTy).Contents (Elt F)),
    unary main_v21 main_v22 (broadcastInDim S64x96x256 ![0, 1, 2] bcast_S64x96x1_S64x96x256_0_1_2 : (⟨S64x96x1, .f32⟩ : BufTy).Contents (Elt F) → (⟨S64x96x256, .f32⟩ : BufTy).Contents (Elt F)),
    binary main_v19 main_v22 main_v23 (mulf : (⟨S64x96x256, .f32⟩ : BufTy).Contents (Elt F) → (⟨S64x96x256, .f32⟩ : BufTy).Contents (Elt F) → (⟨S64x96x256, .f32⟩ : BufTy).Contents (Elt F)),
    binary main_v0 main_v20 main_v24 ((fun l r => Host.dotGeneral dot_S64x96x96_S64x96x256_S64x96x256_2_1_1_2_0_0 none l r) : (⟨S64x96x96, .f32⟩ : BufTy).Contents (Elt F) → (⟨S64x96x256, .f32⟩ : BufTy).Contents (Elt F) → (⟨S64x96x256, .f32⟩ : BufTy).Contents (Elt F)),
    binary main_v23 main_v24 main_v25 (addf : (⟨S64x96x256, .f32⟩ : BufTy).Contents (Elt F) → (⟨S64x96x256, .f32⟩ : BufTy).Contents (Elt F) → (⟨S64x96x256, .f32⟩ : BufTy).Contents (Elt F)),
    unary main_v0 main_v26 (broadcastInDim S64x96x96x1 ![0, 1, 2] bcast_S64x96x96_S64x96x96x1_0_1_2 : (⟨S64x96x96, .f32⟩ : BufTy).Contents (Elt F) → (⟨S64x96x96x1, .f32⟩ : BufTy).Contents (Elt F)),
    unary main_v26 main_v27 (broadcastInDim S64x96x96x32 ![0, 1, 2, 3] bcast_S64x96x96x1_S64x96x96x32_0_1_2_3 : (⟨S64x96x96x1, .f32⟩ : BufTy).Contents (Elt F) → (⟨S64x96x96x32, .f32⟩ : BufTy).Contents (Elt F)),
    binary main_arg1 main_v27 main_v28 (mulf : (⟨S64x96x96x32, .f32⟩ : BufTy).Contents (Elt F) → (⟨S64x96x96x32, .f32⟩ : BufTy).Contents (Elt F) → (⟨S64x96x96x32, .f32⟩ : BufTy).Contents (Elt F)),
    nullary main_cst_0 (constant S_ .f32 0x00000000#32),
    binary main_v28 main_cst_0 main_v29 ((fun x v => Host.reduceAdd x v reducesTo_S64x96x96x32_S64x96x32_d2 h_S_) : (⟨S64x96x96x32, .f32⟩ : BufTy).Contents (Elt F) → (⟨S_, .f32⟩ : BufTy).Contents (Elt F) → (⟨S64x96x32, .f32⟩ : BufTy).Contents (Elt F)),
    binary main_v29 main_v18 main_v30 ((fun l r => Host.dotGeneral dot_S64x96x32_S256x32_S64x96x256_2_1_01_0_n_n none l r) : (⟨S64x96x32, .f32⟩ : BufTy).Contents (Elt F) → (⟨S256x32, .f32⟩ : BufTy).Contents (Elt F) → (⟨S64x96x256, .f32⟩ : BufTy).Contents (Elt F)),
    binary main_v25 main_v30 main_v31 (addf : (⟨S64x96x256, .f32⟩ : BufTy).Contents (Elt F) → (⟨S64x96x256, .f32⟩ : BufTy).Contents (Elt F) → (⟨S64x96x256, .f32⟩ : BufTy).Contents (Elt F)),
    unary main_arg6 main_v32 ((extractStridedSlice S1x256 ![0, 0] · slices_S4x256_S1x256_0_0) : (⟨S4x256, .f32⟩ : BufTy).Contents (Elt F) → (⟨S1x256, .f32⟩ : BufTy).Contents (Elt F)),
    reshape main_v32 main_v33 rfl shapeCasts_S1x256_S256,
    unary main_v1 main_v34 (broadcastInDim S64x96x1 ![0, 1] bcast_S64x96_S64x96x1_0_1 : (⟨S64x96, .f32⟩ : BufTy).Contents (Elt F) → (⟨S64x96x1, .f32⟩ : BufTy).Contents (Elt F)),
    unary main_v33 main_v35 (broadcastInDim S1x1x256 ![2] bcast_S256_S1x1x256_2 : (⟨S256, .f32⟩ : BufTy).Contents (Elt F) → (⟨S1x1x256, .f32⟩ : BufTy).Contents (Elt F)),
    unary main_v35 main_v36 (broadcastInDim S64x96x256 ![0, 1, 2] bcast_S1x1x256_S64x96x256_0_1_2 : (⟨S1x1x256, .f32⟩ : BufTy).Contents (Elt F) → (⟨S64x96x256, .f32⟩ : BufTy).Contents (Elt F)),
    unary main_v34 main_v37 (broadcastInDim S64x96x256 ![0, 1, 2] bcast_S64x96x1_S64x96x256_0_1_2 : (⟨S64x96x1, .f32⟩ : BufTy).Contents (Elt F) → (⟨S64x96x256, .f32⟩ : BufTy).Contents (Elt F)),
    binary main_v36 main_v37 main_v38 (mulf : (⟨S64x96x256, .f32⟩ : BufTy).Contents (Elt F) → (⟨S64x96x256, .f32⟩ : BufTy).Contents (Elt F) → (⟨S64x96x256, .f32⟩ : BufTy).Contents (Elt F)),
    binary main_v31 main_v38 main_v39 (addf : (⟨S64x96x256, .f32⟩ : BufTy).Contents (Elt F) → (⟨S64x96x256, .f32⟩ : BufTy).Contents (Elt F) → (⟨S64x96x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S64x96x256, .f32⟩) main_call0_v0) (broadcastInDim S64x96x256 ![] bcast_S_S64x96x256),
    TRef.binary (TRef.of (T := ⟨S64x96x256, .f32⟩) main_v39) (TRef.of (T := ⟨S64x96x256, .f32⟩) main_call0_v0) (TRef.of (T := ⟨S64x96x256, .f32⟩) main_v40) maximumf,
    unary main_arg7 main_v41 ((extractStridedSlice S1x768x256 ![0, 0, 0] · slices_S4x768x256_S1x768x256_0_0_0) : (⟨S4x768x256, .f32⟩ : BufTy).Contents (Elt F) → (⟨S1x768x256, .f32⟩ : BufTy).Contents (Elt F)),
    reshape main_v41 main_v42 rfl shapeCasts_S1x768x256_S768x256,
    binary main_v40 main_v42 main_v43 ((fun l r => Host.dotGeneral dot_S64x96x256_S768x256_S64x96x768_2_1_01_0_n_n none l r) : (⟨S64x96x256, .f32⟩ : BufTy).Contents (Elt F) → (⟨S768x256, .f32⟩ : BufTy).Contents (Elt F) → (⟨S64x96x768, .f32⟩ : BufTy).Contents (Elt F)),
    unary main_arg9 main_v44 ((extractStridedSlice S1x768 ![0, 0] · slices_S4x768_S1x768_0_0) : (⟨S4x768, .f32⟩ : BufTy).Contents (Elt F) → (⟨S1x768, .f32⟩ : BufTy).Contents (Elt F)),
    reshape main_v44 main_v45 rfl shapeCasts_S1x768_S768,
    unary main_v45 main_v46 (broadcastInDim S1x1x768 ![2] bcast_S768_S1x1x768_2 : (⟨S768, .f32⟩ : BufTy).Contents (Elt F) → (⟨S1x1x768, .f32⟩ : BufTy).Contents (Elt F)),
    unary main_v46 main_v47 (broadcastInDim S64x96x768 ![0, 1, 2] bcast_S1x1x768_S64x96x768_0_1_2 : (⟨S1x1x768, .f32⟩ : BufTy).Contents (Elt F) → (⟨S64x96x768, .f32⟩ : BufTy).Contents (Elt F)),
    binary main_v43 main_v47 main_v48 (addf : (⟨S64x96x768, .f32⟩ : BufTy).Contents (Elt F) → (⟨S64x96x768, .f32⟩ : BufTy).Contents (Elt F) → (⟨S64x96x768, .f32⟩ : BufTy).Contents (Elt F)),
    unary main_arg8 main_v49 ((extractStridedSlice S1x768x256 ![0, 0, 0] · slices_S4x768x256_S1x768x256_0_0_0) : (⟨S4x768x256, .f32⟩ : BufTy).Contents (Elt F) → (⟨S1x768x256, .f32⟩ : BufTy).Contents (Elt F)),
    reshape main_v49 main_v50 rfl shapeCasts_S1x768x256_S768x256,
    binary main_arg0 main_v50 main_v51 ((fun l r => Host.dotGeneral dot_S64x96x256_S768x256_S64x96x768_2_1_01_0_n_n none l r) : (⟨S64x96x256, .f32⟩ : BufTy).Contents (Elt F) → (⟨S768x256, .f32⟩ : BufTy).Contents (Elt F) → (⟨S64x96x768, .f32⟩ : BufTy).Contents (Elt F)),
    unary main_arg10 main_v52 ((extractStridedSlice S1x768 ![0, 0] · slices_S4x768_S1x768_0_0) : (⟨S4x768, .f32⟩ : BufTy).Contents (Elt F) → (⟨S1x768, .f32⟩ : BufTy).Contents (Elt F)),
    reshape main_v52 main_v53 rfl shapeCasts_S1x768_S768,
    unary main_v53 main_v54 (broadcastInDim S1x1x768 ![2] bcast_S768_S1x1x768_2 : (⟨S768, .f32⟩ : BufTy).Contents (Elt F) → (⟨S1x1x768, .f32⟩ : BufTy).Contents (Elt F)),
    unary main_v54 main_v55 (broadcastInDim S64x96x768 ![0, 1, 2] bcast_S1x1x768_S64x96x768_0_1_2 : (⟨S1x1x768, .f32⟩ : BufTy).Contents (Elt F) → (⟨S64x96x768, .f32⟩ : BufTy).Contents (Elt F)),
    binary main_v51 main_v55 main_v56 (addf : (⟨S64x96x768, .f32⟩ : BufTy).Contents (Elt F) → (⟨S64x96x768, .f32⟩ : BufTy).Contents (Elt F) → (⟨S64x96x768, .f32⟩ : BufTy).Contents (Elt F)),
    unary main_v48 main_v57 ((extractStridedSlice S64x96x256 ![0, 0, 0] · slices_S64x96x768_S64x96x256_0_0_0) : (⟨S64x96x768, .f32⟩ : BufTy).Contents (Elt F) → (⟨S64x96x256, .f32⟩ : BufTy).Contents (Elt F)) ]

/-- Operations 63 … 94 of 376. -/
abbrev opsC2 : List (HloOp τ sig (Elt F)) :=
  [ unary main_v48 main_v58 ((extractStridedSlice S64x96x256 ![0, 0, 256] · slices_S64x96x768_S64x96x256_0_0_256) : (⟨S64x96x768, .f32⟩ : BufTy).Contents (Elt F) → (⟨S64x96x256, .f32⟩ : BufTy).Contents (Elt F)),
    unary main_v48 main_v59 ((extractStridedSlice S64x96x256 ![0, 0, 512] · slices_S64x96x768_S64x96x256_0_0_512) : (⟨S64x96x768, .f32⟩ : BufTy).Contents (Elt F) → (⟨S64x96x256, .f32⟩ : BufTy).Contents (Elt F)),
    unary main_v56 main_v60 ((extractStridedSlice S64x96x256 ![0, 0, 0] · slices_S64x96x768_S64x96x256_0_0_0) : (⟨S64x96x768, .f32⟩ : BufTy).Contents (Elt F) → (⟨S64x96x256, .f32⟩ : BufTy).Contents (Elt F)),
    unary main_v56 main_v61 ((extractStridedSlice S64x96x256 ![0, 0, 256] · slices_S64x96x768_S64x96x256_0_0_256) : (⟨S64x96x768, .f32⟩ : BufTy).Contents (Elt F) → (⟨S64x96x256, .f32⟩ : BufTy).Contents (Elt F)),
    unary main_v56 main_v62 ((extractStridedSlice S64x96x256 ![0, 0, 512] · slices_S64x96x768_S64x96x256_0_0_512) : (⟨S64x96x768, .f32⟩ : BufTy).Contents (Elt F) → (⟨S64x96x256, .f32⟩ : BufTy).Contents (Elt F)),
    binary main_v57 main_v60 main_v63 (addf : (⟨S64x96x256, .f32⟩ : BufTy).Contents (Elt F) → (⟨S64x96x256, .f32⟩ : BufTy).Contents (Elt F) → (⟨S64x96x256, .f32⟩ : BufTy).Contents (Elt F)),
    unary main_v63 main_v64 (Host.negf : (⟨S64x96x256, .f32⟩ : BufTy).Contents (Elt F) → (⟨S64x96x256, .f32⟩ : BufTy).Contents (Elt F)),
    unary main_v64 main_v65 (Host.exp : (⟨S64x96x256, .f32⟩ : BufTy).Contents (Elt F) → (⟨S64x96x256, .f32⟩ : BufTy).Contents (Elt F)),
    nullary main_cst_1 (constant S_ .f32 0x3F800000#32),
    unary main_cst_1 main_v66 (broadcastInDim S64x96x256 ![] bcast_S_S64x96x256 : (⟨S_, .f32⟩ : BufTy).Contents (Elt F) → (⟨S64x96x256, .f32⟩ : BufTy).Contents (Elt F)),
    binary main_v66 main_v65 main_v67 (addf : (⟨S64x96x256, .f32⟩ : BufTy).Contents (Elt F) → (⟨S64x96x256, .f32⟩ : BufTy).Contents (Elt F) → (⟨S64x96x256, .f32⟩ : BufTy).Contents (Elt F)),
    nullary main_cst_2 (constant S_ .f32 0x3F800000#32),
    unary main_cst_2 main_v68 (broadcastInDim S64x96x256 ![] bcast_S_S64x96x256 : (⟨S_, .f32⟩ : BufTy).Contents (Elt F) → (⟨S64x96x256, .f32⟩ : BufTy).Contents (Elt F)),
    binary main_v68 main_v67 main_v69 (Host.divf : (⟨S64x96x256, .f32⟩ : BufTy).Contents (Elt F) → (⟨S64x96x256, .f32⟩ : BufTy).Contents (Elt F) → (⟨S64x96x256, .f32⟩ : BufTy).Contents (Elt F)),
    binary main_v58 main_v61 main_v70 (addf : (⟨S64x96x256, .f32⟩ : BufTy).Contents (Elt F) → (⟨S64x96x256, .f32⟩ : BufTy).Contents (Elt F) → (⟨S64x96x256, .f32⟩ : BufTy).Contents (Elt F)),
    unary main_v70 main_v71 (Host.negf : (⟨S64x96x256, .f32⟩ : BufTy).Contents (Elt F) → (⟨S64x96x256, .f32⟩ : BufTy).Contents (Elt F)),
    unary main_v71 main_v72 (Host.exp : (⟨S64x96x256, .f32⟩ : BufTy).Contents (Elt F) → (⟨S64x96x256, .f32⟩ : BufTy).Contents (Elt F)),
    nullary main_cst_3 (constant S_ .f32 0x3F800000#32),
    unary main_cst_3 main_v73 (broadcastInDim S64x96x256 ![] bcast_S_S64x96x256 : (⟨S_, .f32⟩ : BufTy).Contents (Elt F) → (⟨S64x96x256, .f32⟩ : BufTy).Contents (Elt F)),
    binary main_v73 main_v72 main_v74 (addf : (⟨S64x96x256, .f32⟩ : BufTy).Contents (Elt F) → (⟨S64x96x256, .f32⟩ : BufTy).Contents (Elt F) → (⟨S64x96x256, .f32⟩ : BufTy).Contents (Elt F)),
    nullary main_cst_4 (constant S_ .f32 0x3F800000#32),
    unary main_cst_4 main_v75 (broadcastInDim S64x96x256 ![] bcast_S_S64x96x256 : (⟨S_, .f32⟩ : BufTy).Contents (Elt F) → (⟨S64x96x256, .f32⟩ : BufTy).Contents (Elt F)),
    binary main_v75 main_v74 main_v76 (Host.divf : (⟨S64x96x256, .f32⟩ : BufTy).Contents (Elt F) → (⟨S64x96x256, .f32⟩ : BufTy).Contents (Elt F) → (⟨S64x96x256, .f32⟩ : BufTy).Contents (Elt F)),
    binary main_v69 main_v62 main_v77 (mulf : (⟨S64x96x256, .f32⟩ : BufTy).Contents (Elt F) → (⟨S64x96x256, .f32⟩ : BufTy).Contents (Elt F) → (⟨S64x96x256, .f32⟩ : BufTy).Contents (Elt F)),
    binary main_v59 main_v77 main_v78 (addf : (⟨S64x96x256, .f32⟩ : BufTy).Contents (Elt F) → (⟨S64x96x256, .f32⟩ : BufTy).Contents (Elt F) → (⟨S64x96x256, .f32⟩ : BufTy).Contents (Elt F)),
    unary main_v78 main_v79 (Host.tanh : (⟨S64x96x256, .f32⟩ : BufTy).Contents (Elt F) → (⟨S64x96x256, .f32⟩ : BufTy).Contents (Elt F)),
    nullary main_cst_5 (constant S_ .f32 0x3F800000#32),
    unary main_cst_5 main_v80 (broadcastInDim S64x96x256 ![] bcast_S_S64x96x256 : (⟨S_, .f32⟩ : BufTy).Contents (Elt F) → (⟨S64x96x256, .f32⟩ : BufTy).Contents (Elt F)),
    binary main_v80 main_v76 main_v81 (subf : (⟨S64x96x256, .f32⟩ : BufTy).Contents (Elt F) → (⟨S64x96x256, .f32⟩ : BufTy).Contents (Elt F) → (⟨S64x96x256, .f32⟩ : BufTy).Contents (Elt F)),
    binary main_v81 main_v79 main_v82 (mulf : (⟨S64x96x256, .f32⟩ : BufTy).Contents (Elt F) → (⟨S64x96x256, .f32⟩ : BufTy).Contents (Elt F) → (⟨S64x96x256, .f32⟩ : BufTy).Contents (Elt F)),
    binary main_v76 main_arg0 main_v83 (mulf : (⟨S64x96x256, .f32⟩ : BufTy).Contents (Elt F) → (⟨S64x96x256, .f32⟩ : BufTy).Contents (Elt F) → (⟨S64x96x256, .f32⟩ : BufTy).Contents (Elt F)),
    binary main_v82 main_v83 main_v84 (addf : (⟨S64x96x256, .f32⟩ : BufTy).Contents (Elt F) → (⟨S64x96x256, .f32⟩ : BufTy).Contents (Elt F) → (⟨S64x96x256, .f32⟩ : BufTy).Contents (Elt F)) ]

/-- Operations 95 … 122 of 376. -/
abbrev opsC3 : List (HloOp τ sig (Elt F)) :=
  [ unary main_arg3 main_v85 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v85 main_v86 rfl shapeCasts_S1x256x256_S256x256,
    binary main_arg0 main_v86 main_v87 ((fun l r => Host.dotGeneral dot_S64x96x256_S256x256_S64x96x256_2_1_01_0_n_n none l r) : (⟨S64x96x256, .f32⟩ : BufTy).Contents (Elt F) → (⟨S256x256, .f32⟩ : BufTy).Contents (Elt F) → (⟨S64x96x256, .f32⟩ : BufTy).Contents (Elt F)),
    unary main_arg4 main_v88 ((extractStridedSlice S1x256 ![1, 0] · slices_S4x256_S1x256_1_0) : (⟨S4x256, .f32⟩ : BufTy).Contents (Elt F) → (⟨S1x256, .f32⟩ : BufTy).Contents (Elt F)),
    reshape main_v88 main_v89 rfl shapeCasts_S1x256_S256,
    unary main_v89 main_v90 (broadcastInDim S1x1x256 ![2] bcast_S256_S1x1x256_2 : (⟨S256, .f32⟩ : BufTy).Contents (Elt F) → (⟨S1x1x256, .f32⟩ : BufTy).Contents (Elt F)),
    unary main_v90 main_v91 (broadcastInDim S64x96x256 ![0, 1, 2] bcast_S1x1x256_S64x96x256_0_1_2 : (⟨S1x1x256, .f32⟩ : BufTy).Contents (Elt F) → (⟨S64x96x256, .f32⟩ : BufTy).Contents (Elt F)),
    binary main_v87 main_v91 main_v92 (addf : (⟨S64x96x256, .f32⟩ : BufTy).Contents (Elt F) → (⟨S64x96x256, .f32⟩ : BufTy).Contents (Elt F) → (⟨S64x96x256, .f32⟩ : BufTy).Contents (Elt F)),
    unary main_arg5 main_v93 ((extractStridedSlice S1x256x544 ![1, 0, 0] · slices_S4x256x544_S1x256x544_1_0_0) : (⟨S4x256x544, .f32⟩ : BufTy).Contents (Elt F) → (⟨S1x256x544, .f32⟩ : BufTy).Contents (Elt F)),
    reshape main_v93 main_v94 rfl shapeCasts_S1x256x544_S256x544,
    unary main_v94 main_v95 ((extractStridedSlice S256x256 ![0, 0] · slices_S256x544_S256x256_0_0) : (⟨S256x544, .f32⟩ : BufTy).Contents (Elt F) → (⟨S256x256, .f32⟩ : BufTy).Contents (Elt F)),
    unary main_arg5 main_v96 ((extractStridedSlice S1x256x544 ![1, 0, 0] · slices_S4x256x544_S1x256x544_1_0_0) : (⟨S4x256x544, .f32⟩ : BufTy).Contents (Elt F) → (⟨S1x256x544, .f32⟩ : BufTy).Contents (Elt F)),
    reshape main_v96 main_v97 rfl shapeCasts_S1x256x544_S256x544,
    unary main_v97 main_v98 ((extractStridedSlice S256x256 ![0, 256] · slices_S256x544_S256x256_0_256) : (⟨S256x544, .f32⟩ : BufTy).Contents (Elt F) → (⟨S256x256, .f32⟩ : BufTy).Contents (Elt F)),
    unary main_arg5 main_v99 ((extractStridedSlice S1x256x544 ![1, 0, 0] · slices_S4x256x544_S1x256x544_1_0_0) : (⟨S4x256x544, .f32⟩ : BufTy).Contents (Elt F) → (⟨S1x256x544, .f32⟩ : BufTy).Contents (Elt F)),
    reshape main_v99 main_v100 rfl shapeCasts_S1x256x544_S256x544,
    unary main_v100 main_v101 ((extractStridedSlice S256x32 ![0, 512] · slices_S256x544_S256x32_0_512) : (⟨S256x544, .f32⟩ : BufTy).Contents (Elt F) → (⟨S256x32, .f32⟩ : BufTy).Contents (Elt F)),
    binary main_v92 main_v95 main_v102 ((fun l r => Host.dotGeneral dot_S64x96x256_S256x256_S64x96x256_2_1_01_0_n_n none l r) : (⟨S64x96x256, .f32⟩ : BufTy).Contents (Elt F) → (⟨S256x256, .f32⟩ : BufTy).Contents (Elt F) → (⟨S64x96x256, .f32⟩ : BufTy).Contents (Elt F)),
    binary main_v92 main_v98 main_v103 ((fun l r => Host.dotGeneral dot_S64x96x256_S256x256_S64x96x256_2_1_01_0_n_n none l r) : (⟨S64x96x256, .f32⟩ : BufTy).Contents (Elt F) → (⟨S256x256, .f32⟩ : BufTy).Contents (Elt F) → (⟨S64x96x256, .f32⟩ : BufTy).Contents (Elt F)),
    unary main_v1 main_v104 (broadcastInDim S64x96x1 ![0, 1] bcast_S64x96_S64x96x1_0_1 : (⟨S64x96, .f32⟩ : BufTy).Contents (Elt F) → (⟨S64x96x1, .f32⟩ : BufTy).Contents (Elt F)),
    unary main_v104 main_v105 (broadcastInDim S64x96x256 ![0, 1, 2] bcast_S64x96x1_S64x96x256_0_1_2 : (⟨S64x96x1, .f32⟩ : BufTy).Contents (Elt F) → (⟨S64x96x256, .f32⟩ : BufTy).Contents (Elt F)),
    binary main_v102 main_v105 main_v106 (mulf : (⟨S64x96x256, .f32⟩ : BufTy).Contents (Elt F) → (⟨S64x96x256, .f32⟩ : BufTy).Contents (Elt F) → (⟨S64x96x256, .f32⟩ : BufTy).Contents (Elt F)),
    binary main_v0 main_v103 main_v107 ((fun l r => Host.dotGeneral dot_S64x96x96_S64x96x256_S64x96x256_2_1_1_2_0_0 none l r) : (⟨S64x96x96, .f32⟩ : BufTy).Contents (Elt F) → (⟨S64x96x256, .f32⟩ : BufTy).Contents (Elt F) → (⟨S64x96x256, .f32⟩ : BufTy).Contents (Elt F)),
    binary main_v106 main_v107 main_v108 (addf : (⟨S64x96x256, .f32⟩ : BufTy).Contents (Elt F) → (⟨S64x96x256, .f32⟩ : BufTy).Contents (Elt F) → (⟨S64x96x256, .f32⟩ : BufTy).Contents (Elt F)),
    unary main_v0 main_v109 (broadcastInDim S64x96x96x1 ![0, 1, 2] bcast_S64x96x96_S64x96x96x1_0_1_2 : (⟨S64x96x96, .f32⟩ : BufTy).Contents (Elt F) → (⟨S64x96x96x1, .f32⟩ : BufTy).Contents (Elt F)),
    unary main_v109 main_v110 (broadcastInDim S64x96x96x32 ![0, 1, 2, 3] bcast_S64x96x96x1_S64x96x96x32_0_1_2_3 : (⟨S64x96x96x1, .f32⟩ : BufTy).Contents (Elt F) → (⟨S64x96x96x32, .f32⟩ : BufTy).Contents (Elt F)),
    binary main_arg1 main_v110 main_v111 (mulf : (⟨S64x96x96x32, .f32⟩ : BufTy).Contents (Elt F) → (⟨S64x96x96x32, .f32⟩ : BufTy).Contents (Elt F) → (⟨S64x96x96x32, .f32⟩ : BufTy).Contents (Elt F)),
    nullary main_cst_6 (constant S_ .f32 0x00000000#32) ]

/-- Operations 123 … 184 of 376. -/
abbrev opsC4 : List (HloOp τ sig (Elt F)) :=
  [ binary main_v111 main_cst_6 main_v112 ((fun x v => Host.reduceAdd x v reducesTo_S64x96x96x32_S64x96x32_d2 h_S_) : (⟨S64x96x96x32, .f32⟩ : BufTy).Contents (Elt F) → (⟨S_, .f32⟩ : BufTy).Contents (Elt F) → (⟨S64x96x32, .f32⟩ : BufTy).Contents (Elt F)),
    binary main_v112 main_v101 main_v113 ((fun l r => Host.dotGeneral dot_S64x96x32_S256x32_S64x96x256_2_1_01_0_n_n none l r) : (⟨S64x96x32, .f32⟩ : BufTy).Contents (Elt F) → (⟨S256x32, .f32⟩ : BufTy).Contents (Elt F) → (⟨S64x96x256, .f32⟩ : BufTy).Contents (Elt F)),
    binary main_v108 main_v113 main_v114 (addf : (⟨S64x96x256, .f32⟩ : BufTy).Contents (Elt F) → (⟨S64x96x256, .f32⟩ : BufTy).Contents (Elt F) → (⟨S64x96x256, .f32⟩ : BufTy).Contents (Elt F)),
    unary main_arg6 main_v115 ((extractStridedSlice S1x256 ![1, 0] · slices_S4x256_S1x256_1_0) : (⟨S4x256, .f32⟩ : BufTy).Contents (Elt F) → (⟨S1x256, .f32⟩ : BufTy).Contents (Elt F)),
    reshape main_v115 main_v116 rfl shapeCasts_S1x256_S256,
    unary main_v1 main_v117 (broadcastInDim S64x96x1 ![0, 1] bcast_S64x96_S64x96x1_0_1 : (⟨S64x96, .f32⟩ : BufTy).Contents (Elt F) → (⟨S64x96x1, .f32⟩ : BufTy).Contents (Elt F)),
    unary main_v116 main_v118 (broadcastInDim S1x1x256 ![2] bcast_S256_S1x1x256_2 : (⟨S256, .f32⟩ : BufTy).Contents (Elt F) → (⟨S1x1x256, .f32⟩ : BufTy).Contents (Elt F)),
    unary main_v118 main_v119 (broadcastInDim S64x96x256 ![0, 1, 2] bcast_S1x1x256_S64x96x256_0_1_2 : (⟨S1x1x256, .f32⟩ : BufTy).Contents (Elt F) → (⟨S64x96x256, .f32⟩ : BufTy).Contents (Elt F)),
    unary main_v117 main_v120 (broadcastInDim S64x96x256 ![0, 1, 2] bcast_S64x96x1_S64x96x256_0_1_2 : (⟨S64x96x1, .f32⟩ : BufTy).Contents (Elt F) → (⟨S64x96x256, .f32⟩ : BufTy).Contents (Elt F)),
    binary main_v119 main_v120 main_v121 (mulf : (⟨S64x96x256, .f32⟩ : BufTy).Contents (Elt F) → (⟨S64x96x256, .f32⟩ : BufTy).Contents (Elt F) → (⟨S64x96x256, .f32⟩ : BufTy).Contents (Elt F)),
    binary main_v114 main_v121 main_v122 (addf : (⟨S64x96x256, .f32⟩ : BufTy).Contents (Elt F) → (⟨S64x96x256, .f32⟩ : BufTy).Contents (Elt F) → (⟨S64x96x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S64x96x256, .f32⟩) main_call1_v0) (broadcastInDim S64x96x256 ![] bcast_S_S64x96x256),
    TRef.binary (TRef.of (T := ⟨S64x96x256, .f32⟩) main_v122) (TRef.of (T := ⟨S64x96x256, .f32⟩) main_call1_v0) (TRef.of (T := ⟨S64x96x256, .f32⟩) main_v123) maximumf,
    unary main_arg7 main_v124 ((extractStridedSlice S1x768x256 ![1, 0, 0] · slices_S4x768x256_S1x768x256_1_0_0) : (⟨S4x768x256, .f32⟩ : BufTy).Contents (Elt F) → (⟨S1x768x256, .f32⟩ : BufTy).Contents (Elt F)),
    reshape main_v124 main_v125 rfl shapeCasts_S1x768x256_S768x256,
    binary main_v123 main_v125 main_v126 ((fun l r => Host.dotGeneral dot_S64x96x256_S768x256_S64x96x768_2_1_01_0_n_n none l r) : (⟨S64x96x256, .f32⟩ : BufTy).Contents (Elt F) → (⟨S768x256, .f32⟩ : BufTy).Contents (Elt F) → (⟨S64x96x768, .f32⟩ : BufTy).Contents (Elt F)),
    unary main_arg9 main_v127 ((extractStridedSlice S1x768 ![1, 0] · slices_S4x768_S1x768_1_0) : (⟨S4x768, .f32⟩ : BufTy).Contents (Elt F) → (⟨S1x768, .f32⟩ : BufTy).Contents (Elt F)),
    reshape main_v127 main_v128 rfl shapeCasts_S1x768_S768,
    unary main_v128 main_v129 (broadcastInDim S1x1x768 ![2] bcast_S768_S1x1x768_2 : (⟨S768, .f32⟩ : BufTy).Contents (Elt F) → (⟨S1x1x768, .f32⟩ : BufTy).Contents (Elt F)),
    unary main_v129 main_v130 (broadcastInDim S64x96x768 ![0, 1, 2] bcast_S1x1x768_S64x96x768_0_1_2 : (⟨S1x1x768, .f32⟩ : BufTy).Contents (Elt F) → (⟨S64x96x768, .f32⟩ : BufTy).Contents (Elt F)),
    binary main_v126 main_v130 main_v131 (addf : (⟨S64x96x768, .f32⟩ : BufTy).Contents (Elt F) → (⟨S64x96x768, .f32⟩ : BufTy).Contents (Elt F) → (⟨S64x96x768, .f32⟩ : BufTy).Contents (Elt F)),
    unary main_arg8 main_v132 ((extractStridedSlice S1x768x256 ![1, 0, 0] · slices_S4x768x256_S1x768x256_1_0_0) : (⟨S4x768x256, .f32⟩ : BufTy).Contents (Elt F) → (⟨S1x768x256, .f32⟩ : BufTy).Contents (Elt F)),
    reshape main_v132 main_v133 rfl shapeCasts_S1x768x256_S768x256,
    binary main_arg0 main_v133 main_v134 ((fun l r => Host.dotGeneral dot_S64x96x256_S768x256_S64x96x768_2_1_01_0_n_n none l r) : (⟨S64x96x256, .f32⟩ : BufTy).Contents (Elt F) → (⟨S768x256, .f32⟩ : BufTy).Contents (Elt F) → (⟨S64x96x768, .f32⟩ : BufTy).Contents (Elt F)),
    unary main_arg10 main_v135 ((extractStridedSlice S1x768 ![1, 0] · slices_S4x768_S1x768_1_0) : (⟨S4x768, .f32⟩ : BufTy).Contents (Elt F) → (⟨S1x768, .f32⟩ : BufTy).Contents (Elt F)),
    reshape main_v135 main_v136 rfl shapeCasts_S1x768_S768,
    unary main_v136 main_v137 (broadcastInDim S1x1x768 ![2] bcast_S768_S1x1x768_2 : (⟨S768, .f32⟩ : BufTy).Contents (Elt F) → (⟨S1x1x768, .f32⟩ : BufTy).Contents (Elt F)),
    unary main_v137 main_v138 (broadcastInDim S64x96x768 ![0, 1, 2] bcast_S1x1x768_S64x96x768_0_1_2 : (⟨S1x1x768, .f32⟩ : BufTy).Contents (Elt F) → (⟨S64x96x768, .f32⟩ : BufTy).Contents (Elt F)),
    binary main_v134 main_v138 main_v139 (addf : (⟨S64x96x768, .f32⟩ : BufTy).Contents (Elt F) → (⟨S64x96x768, .f32⟩ : BufTy).Contents (Elt F) → (⟨S64x96x768, .f32⟩ : BufTy).Contents (Elt F)),
    unary main_v131 main_v140 ((extractStridedSlice S64x96x256 ![0, 0, 0] · slices_S64x96x768_S64x96x256_0_0_0) : (⟨S64x96x768, .f32⟩ : BufTy).Contents (Elt F) → (⟨S64x96x256, .f32⟩ : BufTy).Contents (Elt F)),
    unary main_v131 main_v141 ((extractStridedSlice S64x96x256 ![0, 0, 256] · slices_S64x96x768_S64x96x256_0_0_256) : (⟨S64x96x768, .f32⟩ : BufTy).Contents (Elt F) → (⟨S64x96x256, .f32⟩ : BufTy).Contents (Elt F)),
    unary main_v131 main_v142 ((extractStridedSlice S64x96x256 ![0, 0, 512] · slices_S64x96x768_S64x96x256_0_0_512) : (⟨S64x96x768, .f32⟩ : BufTy).Contents (Elt F) → (⟨S64x96x256, .f32⟩ : BufTy).Contents (Elt F)),
    unary main_v139 main_v143 ((extractStridedSlice S64x96x256 ![0, 0, 0] · slices_S64x96x768_S64x96x256_0_0_0) : (⟨S64x96x768, .f32⟩ : BufTy).Contents (Elt F) → (⟨S64x96x256, .f32⟩ : BufTy).Contents (Elt F)),
    unary main_v139 main_v144 ((extractStridedSlice S64x96x256 ![0, 0, 256] · slices_S64x96x768_S64x96x256_0_0_256) : (⟨S64x96x768, .f32⟩ : BufTy).Contents (Elt F) → (⟨S64x96x256, .f32⟩ : BufTy).Contents (Elt F)),
    unary main_v139 main_v145 ((extractStridedSlice S64x96x256 ![0, 0, 512] · slices_S64x96x768_S64x96x256_0_0_512) : (⟨S64x96x768, .f32⟩ : BufTy).Contents (Elt F) → (⟨S64x96x256, .f32⟩ : BufTy).Contents (Elt F)),
    binary main_v140 main_v143 main_v146 (addf : (⟨S64x96x256, .f32⟩ : BufTy).Contents (Elt F) → (⟨S64x96x256, .f32⟩ : BufTy).Contents (Elt F) → (⟨S64x96x256, .f32⟩ : BufTy).Contents (Elt F)),
    unary main_v146 main_v147 (Host.negf : (⟨S64x96x256, .f32⟩ : BufTy).Contents (Elt F) → (⟨S64x96x256, .f32⟩ : BufTy).Contents (Elt F)),
    unary main_v147 main_v148 (Host.exp : (⟨S64x96x256, .f32⟩ : BufTy).Contents (Elt F) → (⟨S64x96x256, .f32⟩ : BufTy).Contents (Elt F)),
    nullary main_cst_7 (constant S_ .f32 0x3F800000#32),
    unary main_cst_7 main_v149 (broadcastInDim S64x96x256 ![] bcast_S_S64x96x256 : (⟨S_, .f32⟩ : BufTy).Contents (Elt F) → (⟨S64x96x256, .f32⟩ : BufTy).Contents (Elt F)),
    binary main_v149 main_v148 main_v150 (addf : (⟨S64x96x256, .f32⟩ : BufTy).Contents (Elt F) → (⟨S64x96x256, .f32⟩ : BufTy).Contents (Elt F) → (⟨S64x96x256, .f32⟩ : BufTy).Contents (Elt F)),
    nullary main_cst_8 (constant S_ .f32 0x3F800000#32),
    unary main_cst_8 main_v151 (broadcastInDim S64x96x256 ![] bcast_S_S64x96x256 : (⟨S_, .f32⟩ : BufTy).Contents (Elt F) → (⟨S64x96x256, .f32⟩ : BufTy).Contents (Elt F)),
    binary main_v151 main_v150 main_v152 (Host.divf : (⟨S64x96x256, .f32⟩ : BufTy).Contents (Elt F) → (⟨S64x96x256, .f32⟩ : BufTy).Contents (Elt F) → (⟨S64x96x256, .f32⟩ : BufTy).Contents (Elt F)),
    binary main_v141 main_v144 main_v153 (addf : (⟨S64x96x256, .f32⟩ : BufTy).Contents (Elt F) → (⟨S64x96x256, .f32⟩ : BufTy).Contents (Elt F) → (⟨S64x96x256, .f32⟩ : BufTy).Contents (Elt F)),
    unary main_v153 main_v154 (Host.negf : (⟨S64x96x256, .f32⟩ : BufTy).Contents (Elt F) → (⟨S64x96x256, .f32⟩ : BufTy).Contents (Elt F)),
    unary main_v154 main_v155 (Host.exp : (⟨S64x96x256, .f32⟩ : BufTy).Contents (Elt F) → (⟨S64x96x256, .f32⟩ : BufTy).Contents (Elt F)),
    nullary main_cst_9 (constant S_ .f32 0x3F800000#32),
    unary main_cst_9 main_v156 (broadcastInDim S64x96x256 ![] bcast_S_S64x96x256 : (⟨S_, .f32⟩ : BufTy).Contents (Elt F) → (⟨S64x96x256, .f32⟩ : BufTy).Contents (Elt F)),
    binary main_v156 main_v155 main_v157 (addf : (⟨S64x96x256, .f32⟩ : BufTy).Contents (Elt F) → (⟨S64x96x256, .f32⟩ : BufTy).Contents (Elt F) → (⟨S64x96x256, .f32⟩ : BufTy).Contents (Elt F)),
    nullary main_cst_10 (constant S_ .f32 0x3F800000#32),
    unary main_cst_10 main_v158 (broadcastInDim S64x96x256 ![] bcast_S_S64x96x256 : (⟨S_, .f32⟩ : BufTy).Contents (Elt F) → (⟨S64x96x256, .f32⟩ : BufTy).Contents (Elt F)),
    binary main_v158 main_v157 main_v159 (Host.divf : (⟨S64x96x256, .f32⟩ : BufTy).Contents (Elt F) → (⟨S64x96x256, .f32⟩ : BufTy).Contents (Elt F) → (⟨S64x96x256, .f32⟩ : BufTy).Contents (Elt F)),
    binary main_v152 main_v145 main_v160 (mulf : (⟨S64x96x256, .f32⟩ : BufTy).Contents (Elt F) → (⟨S64x96x256, .f32⟩ : BufTy).Contents (Elt F) → (⟨S64x96x256, .f32⟩ : BufTy).Contents (Elt F)),
    binary main_v142 main_v160 main_v161 (addf : (⟨S64x96x256, .f32⟩ : BufTy).Contents (Elt F) → (⟨S64x96x256, .f32⟩ : BufTy).Contents (Elt F) → (⟨S64x96x256, .f32⟩ : BufTy).Contents (Elt F)),
    unary main_v161 main_v162 (Host.tanh : (⟨S64x96x256, .f32⟩ : BufTy).Contents (Elt F) → (⟨S64x96x256, .f32⟩ : BufTy).Contents (Elt F)),
    nullary main_cst_11 (constant S_ .f32 0x3F800000#32),
    unary main_cst_11 main_v163 (broadcastInDim S64x96x256 ![] bcast_S_S64x96x256 : (⟨S_, .f32⟩ : BufTy).Contents (Elt F) → (⟨S64x96x256, .f32⟩ : BufTy).Contents (Elt F)),
    binary main_v163 main_v159 main_v164 (subf : (⟨S64x96x256, .f32⟩ : BufTy).Contents (Elt F) → (⟨S64x96x256, .f32⟩ : BufTy).Contents (Elt F) → (⟨S64x96x256, .f32⟩ : BufTy).Contents (Elt F)),
    binary main_v164 main_v162 main_v165 (mulf : (⟨S64x96x256, .f32⟩ : BufTy).Contents (Elt F) → (⟨S64x96x256, .f32⟩ : BufTy).Contents (Elt F) → (⟨S64x96x256, .f32⟩ : BufTy).Contents (Elt F)),
    binary main_v159 main_arg0 main_v166 (mulf : (⟨S64x96x256, .f32⟩ : BufTy).Contents (Elt F) → (⟨S64x96x256, .f32⟩ : BufTy).Contents (Elt F) → (⟨S64x96x256, .f32⟩ : BufTy).Contents (Elt F)) ]

/-- Operations 185 … 185 of 376. -/
abbrev opsC5 : List (HloOp τ sig (Elt F)) :=
  [ binary main_v165 main_v166 main_v167 (addf : (⟨S64x96x256, .f32⟩ : BufTy).Contents (Elt F) → (⟨S64x96x256, .f32⟩ : BufTy).Contents (Elt F) → (⟨S64x96x256, .f32⟩ : BufTy).Contents (Elt F)) ]

/-- Operations 186 … 246 of 376. -/
abbrev opsC6 : List (HloOp τ sig (Elt F)) :=
  [ unary main_arg3 main_v168 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v168 main_v169 rfl shapeCasts_S1x256x256_S256x256,
    binary main_arg0 main_v169 main_v170 ((fun l r => Host.dotGeneral dot_S64x96x256_S256x256_S64x96x256_2_1_01_0_n_n none l r) : (⟨S64x96x256, .f32⟩ : BufTy).Contents (Elt F) → (⟨S256x256, .f32⟩ : BufTy).Contents (Elt F) → (⟨S64x96x256, .f32⟩ : BufTy).Contents (Elt F)),
    unary main_arg4 main_v171 ((extractStridedSlice S1x256 ![2, 0] · slices_S4x256_S1x256_2_0) : (⟨S4x256, .f32⟩ : BufTy).Contents (Elt F) → (⟨S1x256, .f32⟩ : BufTy).Contents (Elt F)),
    reshape main_v171 main_v172 rfl shapeCasts_S1x256_S256,
    unary main_v172 main_v173 (broadcastInDim S1x1x256 ![2] bcast_S256_S1x1x256_2 : (⟨S256, .f32⟩ : BufTy).Contents (Elt F) → (⟨S1x1x256, .f32⟩ : BufTy).Contents (Elt F)),
    unary main_v173 main_v174 (broadcastInDim S64x96x256 ![0, 1, 2] bcast_S1x1x256_S64x96x256_0_1_2 : (⟨S1x1x256, .f32⟩ : BufTy).Contents (Elt F) → (⟨S64x96x256, .f32⟩ : BufTy).Contents (Elt F)),
    binary main_v170 main_v174 main_v175 (addf : (⟨S64x96x256, .f32⟩ : BufTy).Contents (Elt F) → (⟨S64x96x256, .f32⟩ : BufTy).Contents (Elt F) → (⟨S64x96x256, .f32⟩ : BufTy).Contents (Elt F)),
    unary main_arg5 main_v176 ((extractStridedSlice S1x256x544 ![2, 0, 0] · slices_S4x256x544_S1x256x544_2_0_0) : (⟨S4x256x544, .f32⟩ : BufTy).Contents (Elt F) → (⟨S1x256x544, .f32⟩ : BufTy).Contents (Elt F)),
    reshape main_v176 main_v177 rfl shapeCasts_S1x256x544_S256x544,
    unary main_v177 main_v178 ((extractStridedSlice S256x256 ![0, 0] · slices_S256x544_S256x256_0_0) : (⟨S256x544, .f32⟩ : BufTy).Contents (Elt F) → (⟨S256x256, .f32⟩ : BufTy).Contents (Elt F)),
    unary main_arg5 main_v179 ((extractStridedSlice S1x256x544 ![2, 0, 0] · slices_S4x256x544_S1x256x544_2_0_0) : (⟨S4x256x544, .f32⟩ : BufTy).Contents (Elt F) → (⟨S1x256x544, .f32⟩ : BufTy).Contents (Elt F)),
    reshape main_v179 main_v180 rfl shapeCasts_S1x256x544_S256x544,
    unary main_v180 main_v181 ((extractStridedSlice S256x256 ![0, 256] · slices_S256x544_S256x256_0_256) : (⟨S256x544, .f32⟩ : BufTy).Contents (Elt F) → (⟨S256x256, .f32⟩ : BufTy).Contents (Elt F)),
    unary main_arg5 main_v182 ((extractStridedSlice S1x256x544 ![2, 0, 0] · slices_S4x256x544_S1x256x544_2_0_0) : (⟨S4x256x544, .f32⟩ : BufTy).Contents (Elt F) → (⟨S1x256x544, .f32⟩ : BufTy).Contents (Elt F)),
    reshape main_v182 main_v183 rfl shapeCasts_S1x256x544_S256x544,
    unary main_v183 main_v184 ((extractStridedSlice S256x32 ![0, 512] · slices_S256x544_S256x32_0_512) : (⟨S256x544, .f32⟩ : BufTy).Contents (Elt F) → (⟨S256x32, .f32⟩ : BufTy).Contents (Elt F)),
    binary main_v175 main_v178 main_v185 ((fun l r => Host.dotGeneral dot_S64x96x256_S256x256_S64x96x256_2_1_01_0_n_n none l r) : (⟨S64x96x256, .f32⟩ : BufTy).Contents (Elt F) → (⟨S256x256, .f32⟩ : BufTy).Contents (Elt F) → (⟨S64x96x256, .f32⟩ : BufTy).Contents (Elt F)),
    binary main_v175 main_v181 main_v186 ((fun l r => Host.dotGeneral dot_S64x96x256_S256x256_S64x96x256_2_1_01_0_n_n none l r) : (⟨S64x96x256, .f32⟩ : BufTy).Contents (Elt F) → (⟨S256x256, .f32⟩ : BufTy).Contents (Elt F) → (⟨S64x96x256, .f32⟩ : BufTy).Contents (Elt F)),
    unary main_v1 main_v187 (broadcastInDim S64x96x1 ![0, 1] bcast_S64x96_S64x96x1_0_1 : (⟨S64x96, .f32⟩ : BufTy).Contents (Elt F) → (⟨S64x96x1, .f32⟩ : BufTy).Contents (Elt F)),
    unary main_v187 main_v188 (broadcastInDim S64x96x256 ![0, 1, 2] bcast_S64x96x1_S64x96x256_0_1_2 : (⟨S64x96x1, .f32⟩ : BufTy).Contents (Elt F) → (⟨S64x96x256, .f32⟩ : BufTy).Contents (Elt F)),
    binary main_v185 main_v188 main_v189 (mulf : (⟨S64x96x256, .f32⟩ : BufTy).Contents (Elt F) → (⟨S64x96x256, .f32⟩ : BufTy).Contents (Elt F) → (⟨S64x96x256, .f32⟩ : BufTy).Contents (Elt F)),
    binary main_v0 main_v186 main_v190 ((fun l r => Host.dotGeneral dot_S64x96x96_S64x96x256_S64x96x256_2_1_1_2_0_0 none l r) : (⟨S64x96x96, .f32⟩ : BufTy).Contents (Elt F) → (⟨S64x96x256, .f32⟩ : BufTy).Contents (Elt F) → (⟨S64x96x256, .f32⟩ : BufTy).Contents (Elt F)),
    binary main_v189 main_v190 main_v191 (addf : (⟨S64x96x256, .f32⟩ : BufTy).Contents (Elt F) → (⟨S64x96x256, .f32⟩ : BufTy).Contents (Elt F) → (⟨S64x96x256, .f32⟩ : BufTy).Contents (Elt F)),
    unary main_v0 main_v192 (broadcastInDim S64x96x96x1 ![0, 1, 2] bcast_S64x96x96_S64x96x96x1_0_1_2 : (⟨S64x96x96, .f32⟩ : BufTy).Contents (Elt F) → (⟨S64x96x96x1, .f32⟩ : BufTy).Contents (Elt F)),
    unary main_v192 main_v193 (broadcastInDim S64x96x96x32 ![0, 1, 2, 3] bcast_S64x96x96x1_S64x96x96x32_0_1_2_3 : (⟨S64x96x96x1, .f32⟩ : BufTy).Contents (Elt F) → (⟨S64x96x96x32, .f32⟩ : BufTy).Contents (Elt F)),
    binary main_arg1 main_v193 main_v194 (mulf : (⟨S64x96x96x32, .f32⟩ : BufTy).Contents (Elt F) → (⟨S64x96x96x32, .f32⟩ : BufTy).Contents (Elt F) → (⟨S64x96x96x32, .f32⟩ : BufTy).Contents (Elt F)),
    nullary main_cst_12 (constant S_ .f32 0x00000000#32),
    binary main_v194 main_cst_12 main_v195 ((fun x v => Host.reduceAdd x v reducesTo_S64x96x96x32_S64x96x32_d2 h_S_) : (⟨S64x96x96x32, .f32⟩ : BufTy).Contents (Elt F) → (⟨S_, .f32⟩ : BufTy).Contents (Elt F) → (⟨S64x96x32, .f32⟩ : BufTy).Contents (Elt F)),
    binary main_v195 main_v184 main_v196 ((fun l r => Host.dotGeneral dot_S64x96x32_S256x32_S64x96x256_2_1_01_0_n_n none l r) : (⟨S64x96x32, .f32⟩ : BufTy).Contents (Elt F) → (⟨S256x32, .f32⟩ : BufTy).Contents (Elt F) → (⟨S64x96x256, .f32⟩ : BufTy).Contents (Elt F)),
    binary main_v191 main_v196 main_v197 (addf : (⟨S64x96x256, .f32⟩ : BufTy).Contents (Elt F) → (⟨S64x96x256, .f32⟩ : BufTy).Contents (Elt F) → (⟨S64x96x256, .f32⟩ : BufTy).Contents (Elt F)),
    unary main_arg6 main_v198 ((extractStridedSlice S1x256 ![2, 0] · slices_S4x256_S1x256_2_0) : (⟨S4x256, .f32⟩ : BufTy).Contents (Elt F) → (⟨S1x256, .f32⟩ : BufTy).Contents (Elt F)),
    reshape main_v198 main_v199 rfl shapeCasts_S1x256_S256,
    unary main_v1 main_v200 (broadcastInDim S64x96x1 ![0, 1] bcast_S64x96_S64x96x1_0_1 : (⟨S64x96, .f32⟩ : BufTy).Contents (Elt F) → (⟨S64x96x1, .f32⟩ : BufTy).Contents (Elt F)),
    unary main_v199 main_v201 (broadcastInDim S1x1x256 ![2] bcast_S256_S1x1x256_2 : (⟨S256, .f32⟩ : BufTy).Contents (Elt F) → (⟨S1x1x256, .f32⟩ : BufTy).Contents (Elt F)),
    unary main_v201 main_v202 (broadcastInDim S64x96x256 ![0, 1, 2] bcast_S1x1x256_S64x96x256_0_1_2 : (⟨S1x1x256, .f32⟩ : BufTy).Contents (Elt F) → (⟨S64x96x256, .f32⟩ : BufTy).Contents (Elt F)),
    unary main_v200 main_v203 (broadcastInDim S64x96x256 ![0, 1, 2] bcast_S64x96x1_S64x96x256_0_1_2 : (⟨S64x96x1, .f32⟩ : BufTy).Contents (Elt F) → (⟨S64x96x256, .f32⟩ : BufTy).Contents (Elt F)),
    binary main_v202 main_v203 main_v204 (mulf : (⟨S64x96x256, .f32⟩ : BufTy).Contents (Elt F) → (⟨S64x96x256, .f32⟩ : BufTy).Contents (Elt F) → (⟨S64x96x256, .f32⟩ : BufTy).Contents (Elt F)),
    binary main_v197 main_v204 main_v205 (addf : (⟨S64x96x256, .f32⟩ : BufTy).Contents (Elt F) → (⟨S64x96x256, .f32⟩ : BufTy).Contents (Elt F) → (⟨S64x96x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S64x96x256, .f32⟩) main_call2_v0) (broadcastInDim S64x96x256 ![] bcast_S_S64x96x256),
    TRef.binary (TRef.of (T := ⟨S64x96x256, .f32⟩) main_v205) (TRef.of (T := ⟨S64x96x256, .f32⟩) main_call2_v0) (TRef.of (T := ⟨S64x96x256, .f32⟩) main_v206) maximumf,
    unary main_arg7 main_v207 ((extractStridedSlice S1x768x256 ![2, 0, 0] · slices_S4x768x256_S1x768x256_2_0_0) : (⟨S4x768x256, .f32⟩ : BufTy).Contents (Elt F) → (⟨S1x768x256, .f32⟩ : BufTy).Contents (Elt F)),
    reshape main_v207 main_v208 rfl shapeCasts_S1x768x256_S768x256,
    binary main_v206 main_v208 main_v209 ((fun l r => Host.dotGeneral dot_S64x96x256_S768x256_S64x96x768_2_1_01_0_n_n none l r) : (⟨S64x96x256, .f32⟩ : BufTy).Contents (Elt F) → (⟨S768x256, .f32⟩ : BufTy).Contents (Elt F) → (⟨S64x96x768, .f32⟩ : BufTy).Contents (Elt F)),
    unary main_arg9 main_v210 ((extractStridedSlice S1x768 ![2, 0] · slices_S4x768_S1x768_2_0) : (⟨S4x768, .f32⟩ : BufTy).Contents (Elt F) → (⟨S1x768, .f32⟩ : BufTy).Contents (Elt F)),
    reshape main_v210 main_v211 rfl shapeCasts_S1x768_S768,
    unary main_v211 main_v212 (broadcastInDim S1x1x768 ![2] bcast_S768_S1x1x768_2 : (⟨S768, .f32⟩ : BufTy).Contents (Elt F) → (⟨S1x1x768, .f32⟩ : BufTy).Contents (Elt F)),
    unary main_v212 main_v213 (broadcastInDim S64x96x768 ![0, 1, 2] bcast_S1x1x768_S64x96x768_0_1_2 : (⟨S1x1x768, .f32⟩ : BufTy).Contents (Elt F) → (⟨S64x96x768, .f32⟩ : BufTy).Contents (Elt F)),
    binary main_v209 main_v213 main_v214 (addf : (⟨S64x96x768, .f32⟩ : BufTy).Contents (Elt F) → (⟨S64x96x768, .f32⟩ : BufTy).Contents (Elt F) → (⟨S64x96x768, .f32⟩ : BufTy).Contents (Elt F)),
    unary main_arg8 main_v215 ((extractStridedSlice S1x768x256 ![2, 0, 0] · slices_S4x768x256_S1x768x256_2_0_0) : (⟨S4x768x256, .f32⟩ : BufTy).Contents (Elt F) → (⟨S1x768x256, .f32⟩ : BufTy).Contents (Elt F)),
    reshape main_v215 main_v216 rfl shapeCasts_S1x768x256_S768x256,
    binary main_arg0 main_v216 main_v217 ((fun l r => Host.dotGeneral dot_S64x96x256_S768x256_S64x96x768_2_1_01_0_n_n none l r) : (⟨S64x96x256, .f32⟩ : BufTy).Contents (Elt F) → (⟨S768x256, .f32⟩ : BufTy).Contents (Elt F) → (⟨S64x96x768, .f32⟩ : BufTy).Contents (Elt F)),
    unary main_arg10 main_v218 ((extractStridedSlice S1x768 ![2, 0] · slices_S4x768_S1x768_2_0) : (⟨S4x768, .f32⟩ : BufTy).Contents (Elt F) → (⟨S1x768, .f32⟩ : BufTy).Contents (Elt F)),
    reshape main_v218 main_v219 rfl shapeCasts_S1x768_S768,
    unary main_v219 main_v220 (broadcastInDim S1x1x768 ![2] bcast_S768_S1x1x768_2 : (⟨S768, .f32⟩ : BufTy).Contents (Elt F) → (⟨S1x1x768, .f32⟩ : BufTy).Contents (Elt F)),
    unary main_v220 main_v221 (broadcastInDim S64x96x768 ![0, 1, 2] bcast_S1x1x768_S64x96x768_0_1_2 : (⟨S1x1x768, .f32⟩ : BufTy).Contents (Elt F) → (⟨S64x96x768, .f32⟩ : BufTy).Contents (Elt F)),
    binary main_v217 main_v221 main_v222 (addf : (⟨S64x96x768, .f32⟩ : BufTy).Contents (Elt F) → (⟨S64x96x768, .f32⟩ : BufTy).Contents (Elt F) → (⟨S64x96x768, .f32⟩ : BufTy).Contents (Elt F)),
    unary main_v214 main_v223 ((extractStridedSlice S64x96x256 ![0, 0, 0] · slices_S64x96x768_S64x96x256_0_0_0) : (⟨S64x96x768, .f32⟩ : BufTy).Contents (Elt F) → (⟨S64x96x256, .f32⟩ : BufTy).Contents (Elt F)),
    unary main_v214 main_v224 ((extractStridedSlice S64x96x256 ![0, 0, 256] · slices_S64x96x768_S64x96x256_0_0_256) : (⟨S64x96x768, .f32⟩ : BufTy).Contents (Elt F) → (⟨S64x96x256, .f32⟩ : BufTy).Contents (Elt F)),
    unary main_v214 main_v225 ((extractStridedSlice S64x96x256 ![0, 0, 512] · slices_S64x96x768_S64x96x256_0_0_512) : (⟨S64x96x768, .f32⟩ : BufTy).Contents (Elt F) → (⟨S64x96x256, .f32⟩ : BufTy).Contents (Elt F)) ]

/-- Operations 247 … 276 of 376. -/
abbrev opsC7 : List (HloOp τ sig (Elt F)) :=
  [ unary main_v222 main_v226 ((extractStridedSlice S64x96x256 ![0, 0, 0] · slices_S64x96x768_S64x96x256_0_0_0) : (⟨S64x96x768, .f32⟩ : BufTy).Contents (Elt F) → (⟨S64x96x256, .f32⟩ : BufTy).Contents (Elt F)),
    unary main_v222 main_v227 ((extractStridedSlice S64x96x256 ![0, 0, 256] · slices_S64x96x768_S64x96x256_0_0_256) : (⟨S64x96x768, .f32⟩ : BufTy).Contents (Elt F) → (⟨S64x96x256, .f32⟩ : BufTy).Contents (Elt F)),
    unary main_v222 main_v228 ((extractStridedSlice S64x96x256 ![0, 0, 512] · slices_S64x96x768_S64x96x256_0_0_512) : (⟨S64x96x768, .f32⟩ : BufTy).Contents (Elt F) → (⟨S64x96x256, .f32⟩ : BufTy).Contents (Elt F)),
    binary main_v223 main_v226 main_v229 (addf : (⟨S64x96x256, .f32⟩ : BufTy).Contents (Elt F) → (⟨S64x96x256, .f32⟩ : BufTy).Contents (Elt F) → (⟨S64x96x256, .f32⟩ : BufTy).Contents (Elt F)),
    unary main_v229 main_v230 (Host.negf : (⟨S64x96x256, .f32⟩ : BufTy).Contents (Elt F) → (⟨S64x96x256, .f32⟩ : BufTy).Contents (Elt F)),
    unary main_v230 main_v231 (Host.exp : (⟨S64x96x256, .f32⟩ : BufTy).Contents (Elt F) → (⟨S64x96x256, .f32⟩ : BufTy).Contents (Elt F)),
    nullary main_cst_13 (constant S_ .f32 0x3F800000#32),
    unary main_cst_13 main_v232 (broadcastInDim S64x96x256 ![] bcast_S_S64x96x256 : (⟨S_, .f32⟩ : BufTy).Contents (Elt F) → (⟨S64x96x256, .f32⟩ : BufTy).Contents (Elt F)),
    binary main_v232 main_v231 main_v233 (addf : (⟨S64x96x256, .f32⟩ : BufTy).Contents (Elt F) → (⟨S64x96x256, .f32⟩ : BufTy).Contents (Elt F) → (⟨S64x96x256, .f32⟩ : BufTy).Contents (Elt F)),
    nullary main_cst_14 (constant S_ .f32 0x3F800000#32),
    unary main_cst_14 main_v234 (broadcastInDim S64x96x256 ![] bcast_S_S64x96x256 : (⟨S_, .f32⟩ : BufTy).Contents (Elt F) → (⟨S64x96x256, .f32⟩ : BufTy).Contents (Elt F)),
    binary main_v234 main_v233 main_v235 (Host.divf : (⟨S64x96x256, .f32⟩ : BufTy).Contents (Elt F) → (⟨S64x96x256, .f32⟩ : BufTy).Contents (Elt F) → (⟨S64x96x256, .f32⟩ : BufTy).Contents (Elt F)),
    binary main_v224 main_v227 main_v236 (addf : (⟨S64x96x256, .f32⟩ : BufTy).Contents (Elt F) → (⟨S64x96x256, .f32⟩ : BufTy).Contents (Elt F) → (⟨S64x96x256, .f32⟩ : BufTy).Contents (Elt F)),
    unary main_v236 main_v237 (Host.negf : (⟨S64x96x256, .f32⟩ : BufTy).Contents (Elt F) → (⟨S64x96x256, .f32⟩ : BufTy).Contents (Elt F)),
    unary main_v237 main_v238 (Host.exp : (⟨S64x96x256, .f32⟩ : BufTy).Contents (Elt F) → (⟨S64x96x256, .f32⟩ : BufTy).Contents (Elt F)),
    nullary main_cst_15 (constant S_ .f32 0x3F800000#32),
    unary main_cst_15 main_v239 (broadcastInDim S64x96x256 ![] bcast_S_S64x96x256 : (⟨S_, .f32⟩ : BufTy).Contents (Elt F) → (⟨S64x96x256, .f32⟩ : BufTy).Contents (Elt F)),
    binary main_v239 main_v238 main_v240 (addf : (⟨S64x96x256, .f32⟩ : BufTy).Contents (Elt F) → (⟨S64x96x256, .f32⟩ : BufTy).Contents (Elt F) → (⟨S64x96x256, .f32⟩ : BufTy).Contents (Elt F)),
    nullary main_cst_16 (constant S_ .f32 0x3F800000#32),
    unary main_cst_16 main_v241 (broadcastInDim S64x96x256 ![] bcast_S_S64x96x256 : (⟨S_, .f32⟩ : BufTy).Contents (Elt F) → (⟨S64x96x256, .f32⟩ : BufTy).Contents (Elt F)),
    binary main_v241 main_v240 main_v242 (Host.divf : (⟨S64x96x256, .f32⟩ : BufTy).Contents (Elt F) → (⟨S64x96x256, .f32⟩ : BufTy).Contents (Elt F) → (⟨S64x96x256, .f32⟩ : BufTy).Contents (Elt F)),
    binary main_v235 main_v228 main_v243 (mulf : (⟨S64x96x256, .f32⟩ : BufTy).Contents (Elt F) → (⟨S64x96x256, .f32⟩ : BufTy).Contents (Elt F) → (⟨S64x96x256, .f32⟩ : BufTy).Contents (Elt F)),
    binary main_v225 main_v243 main_v244 (addf : (⟨S64x96x256, .f32⟩ : BufTy).Contents (Elt F) → (⟨S64x96x256, .f32⟩ : BufTy).Contents (Elt F) → (⟨S64x96x256, .f32⟩ : BufTy).Contents (Elt F)),
    unary main_v244 main_v245 (Host.tanh : (⟨S64x96x256, .f32⟩ : BufTy).Contents (Elt F) → (⟨S64x96x256, .f32⟩ : BufTy).Contents (Elt F)),
    nullary main_cst_17 (constant S_ .f32 0x3F800000#32),
    unary main_cst_17 main_v246 (broadcastInDim S64x96x256 ![] bcast_S_S64x96x256 : (⟨S_, .f32⟩ : BufTy).Contents (Elt F) → (⟨S64x96x256, .f32⟩ : BufTy).Contents (Elt F)),
    binary main_v246 main_v242 main_v247 (subf : (⟨S64x96x256, .f32⟩ : BufTy).Contents (Elt F) → (⟨S64x96x256, .f32⟩ : BufTy).Contents (Elt F) → (⟨S64x96x256, .f32⟩ : BufTy).Contents (Elt F)),
    binary main_v247 main_v245 main_v248 (mulf : (⟨S64x96x256, .f32⟩ : BufTy).Contents (Elt F) → (⟨S64x96x256, .f32⟩ : BufTy).Contents (Elt F) → (⟨S64x96x256, .f32⟩ : BufTy).Contents (Elt F)),
    binary main_v242 main_arg0 main_v249 (mulf : (⟨S64x96x256, .f32⟩ : BufTy).Contents (Elt F) → (⟨S64x96x256, .f32⟩ : BufTy).Contents (Elt F) → (⟨S64x96x256, .f32⟩ : BufTy).Contents (Elt F)),
    binary main_v248 main_v249 main_v250 (addf : (⟨S64x96x256, .f32⟩ : BufTy).Contents (Elt F) → (⟨S64x96x256, .f32⟩ : BufTy).Contents (Elt F) → (⟨S64x96x256, .f32⟩ : BufTy).Contents (Elt F)) ]

/-- Operations 277 … 306 of 376. -/
abbrev opsC8 : List (HloOp τ sig (Elt F)) :=
  [ unary main_arg3 main_v251 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v251 main_v252 rfl shapeCasts_S1x256x256_S256x256,
    binary main_arg0 main_v252 main_v253 ((fun l r => Host.dotGeneral dot_S64x96x256_S256x256_S64x96x256_2_1_01_0_n_n none l r) : (⟨S64x96x256, .f32⟩ : BufTy).Contents (Elt F) → (⟨S256x256, .f32⟩ : BufTy).Contents (Elt F) → (⟨S64x96x256, .f32⟩ : BufTy).Contents (Elt F)),
    unary main_arg4 main_v254 ((extractStridedSlice S1x256 ![3, 0] · slices_S4x256_S1x256_3_0) : (⟨S4x256, .f32⟩ : BufTy).Contents (Elt F) → (⟨S1x256, .f32⟩ : BufTy).Contents (Elt F)),
    reshape main_v254 main_v255 rfl shapeCasts_S1x256_S256,
    unary main_v255 main_v256 (broadcastInDim S1x1x256 ![2] bcast_S256_S1x1x256_2 : (⟨S256, .f32⟩ : BufTy).Contents (Elt F) → (⟨S1x1x256, .f32⟩ : BufTy).Contents (Elt F)),
    unary main_v256 main_v257 (broadcastInDim S64x96x256 ![0, 1, 2] bcast_S1x1x256_S64x96x256_0_1_2 : (⟨S1x1x256, .f32⟩ : BufTy).Contents (Elt F) → (⟨S64x96x256, .f32⟩ : BufTy).Contents (Elt F)),
    binary main_v253 main_v257 main_v258 (addf : (⟨S64x96x256, .f32⟩ : BufTy).Contents (Elt F) → (⟨S64x96x256, .f32⟩ : BufTy).Contents (Elt F) → (⟨S64x96x256, .f32⟩ : BufTy).Contents (Elt F)),
    unary main_arg5 main_v259 ((extractStridedSlice S1x256x544 ![3, 0, 0] · slices_S4x256x544_S1x256x544_3_0_0) : (⟨S4x256x544, .f32⟩ : BufTy).Contents (Elt F) → (⟨S1x256x544, .f32⟩ : BufTy).Contents (Elt F)),
    reshape main_v259 main_v260 rfl shapeCasts_S1x256x544_S256x544,
    unary main_v260 main_v261 ((extractStridedSlice S256x256 ![0, 0] · slices_S256x544_S256x256_0_0) : (⟨S256x544, .f32⟩ : BufTy).Contents (Elt F) → (⟨S256x256, .f32⟩ : BufTy).Contents (Elt F)),
    unary main_arg5 main_v262 ((extractStridedSlice S1x256x544 ![3, 0, 0] · slices_S4x256x544_S1x256x544_3_0_0) : (⟨S4x256x544, .f32⟩ : BufTy).Contents (Elt F) → (⟨S1x256x544, .f32⟩ : BufTy).Contents (Elt F)),
    reshape main_v262 main_v263 rfl shapeCasts_S1x256x544_S256x544,
    unary main_v263 main_v264 ((extractStridedSlice S256x256 ![0, 256] · slices_S256x544_S256x256_0_256) : (⟨S256x544, .f32⟩ : BufTy).Contents (Elt F) → (⟨S256x256, .f32⟩ : BufTy).Contents (Elt F)),
    unary main_arg5 main_v265 ((extractStridedSlice S1x256x544 ![3, 0, 0] · slices_S4x256x544_S1x256x544_3_0_0) : (⟨S4x256x544, .f32⟩ : BufTy).Contents (Elt F) → (⟨S1x256x544, .f32⟩ : BufTy).Contents (Elt F)),
    reshape main_v265 main_v266 rfl shapeCasts_S1x256x544_S256x544,
    unary main_v266 main_v267 ((extractStridedSlice S256x32 ![0, 512] · slices_S256x544_S256x32_0_512) : (⟨S256x544, .f32⟩ : BufTy).Contents (Elt F) → (⟨S256x32, .f32⟩ : BufTy).Contents (Elt F)),
    binary main_v258 main_v261 main_v268 ((fun l r => Host.dotGeneral dot_S64x96x256_S256x256_S64x96x256_2_1_01_0_n_n none l r) : (⟨S64x96x256, .f32⟩ : BufTy).Contents (Elt F) → (⟨S256x256, .f32⟩ : BufTy).Contents (Elt F) → (⟨S64x96x256, .f32⟩ : BufTy).Contents (Elt F)),
    binary main_v258 main_v264 main_v269 ((fun l r => Host.dotGeneral dot_S64x96x256_S256x256_S64x96x256_2_1_01_0_n_n none l r) : (⟨S64x96x256, .f32⟩ : BufTy).Contents (Elt F) → (⟨S256x256, .f32⟩ : BufTy).Contents (Elt F) → (⟨S64x96x256, .f32⟩ : BufTy).Contents (Elt F)),
    unary main_v1 main_v270 (broadcastInDim S64x96x1 ![0, 1] bcast_S64x96_S64x96x1_0_1 : (⟨S64x96, .f32⟩ : BufTy).Contents (Elt F) → (⟨S64x96x1, .f32⟩ : BufTy).Contents (Elt F)),
    unary main_v270 main_v271 (broadcastInDim S64x96x256 ![0, 1, 2] bcast_S64x96x1_S64x96x256_0_1_2 : (⟨S64x96x1, .f32⟩ : BufTy).Contents (Elt F) → (⟨S64x96x256, .f32⟩ : BufTy).Contents (Elt F)),
    binary main_v268 main_v271 main_v272 (mulf : (⟨S64x96x256, .f32⟩ : BufTy).Contents (Elt F) → (⟨S64x96x256, .f32⟩ : BufTy).Contents (Elt F) → (⟨S64x96x256, .f32⟩ : BufTy).Contents (Elt F)),
    binary main_v0 main_v269 main_v273 ((fun l r => Host.dotGeneral dot_S64x96x96_S64x96x256_S64x96x256_2_1_1_2_0_0 none l r) : (⟨S64x96x96, .f32⟩ : BufTy).Contents (Elt F) → (⟨S64x96x256, .f32⟩ : BufTy).Contents (Elt F) → (⟨S64x96x256, .f32⟩ : BufTy).Contents (Elt F)),
    binary main_v272 main_v273 main_v274 (addf : (⟨S64x96x256, .f32⟩ : BufTy).Contents (Elt F) → (⟨S64x96x256, .f32⟩ : BufTy).Contents (Elt F) → (⟨S64x96x256, .f32⟩ : BufTy).Contents (Elt F)),
    unary main_v0 main_v275 (broadcastInDim S64x96x96x1 ![0, 1, 2] bcast_S64x96x96_S64x96x96x1_0_1_2 : (⟨S64x96x96, .f32⟩ : BufTy).Contents (Elt F) → (⟨S64x96x96x1, .f32⟩ : BufTy).Contents (Elt F)),
    unary main_v275 main_v276 (broadcastInDim S64x96x96x32 ![0, 1, 2, 3] bcast_S64x96x96x1_S64x96x96x32_0_1_2_3 : (⟨S64x96x96x1, .f32⟩ : BufTy).Contents (Elt F) → (⟨S64x96x96x32, .f32⟩ : BufTy).Contents (Elt F)),
    binary main_arg1 main_v276 main_v277 (mulf : (⟨S64x96x96x32, .f32⟩ : BufTy).Contents (Elt F) → (⟨S64x96x96x32, .f32⟩ : BufTy).Contents (Elt F) → (⟨S64x96x96x32, .f32⟩ : BufTy).Contents (Elt F)),
    nullary main_cst_18 (constant S_ .f32 0x00000000#32),
    binary main_v277 main_cst_18 main_v278 ((fun x v => Host.reduceAdd x v reducesTo_S64x96x96x32_S64x96x32_d2 h_S_) : (⟨S64x96x96x32, .f32⟩ : BufTy).Contents (Elt F) → (⟨S_, .f32⟩ : BufTy).Contents (Elt F) → (⟨S64x96x32, .f32⟩ : BufTy).Contents (Elt F)),
    binary main_v278 main_v267 main_v279 ((fun l r => Host.dotGeneral dot_S64x96x32_S256x32_S64x96x256_2_1_01_0_n_n none l r) : (⟨S64x96x32, .f32⟩ : BufTy).Contents (Elt F) → (⟨S256x32, .f32⟩ : BufTy).Contents (Elt F) → (⟨S64x96x256, .f32⟩ : BufTy).Contents (Elt F)) ]

/-- Operations 307 … 367 of 376. -/
abbrev opsC9 : List (HloOp τ sig (Elt F)) :=
  [ binary main_v274 main_v279 main_v280 (addf : (⟨S64x96x256, .f32⟩ : BufTy).Contents (Elt F) → (⟨S64x96x256, .f32⟩ : BufTy).Contents (Elt F) → (⟨S64x96x256, .f32⟩ : BufTy).Contents (Elt F)),
    unary main_arg6 main_v281 ((extractStridedSlice S1x256 ![3, 0] · slices_S4x256_S1x256_3_0) : (⟨S4x256, .f32⟩ : BufTy).Contents (Elt F) → (⟨S1x256, .f32⟩ : BufTy).Contents (Elt F)),
    reshape main_v281 main_v282 rfl shapeCasts_S1x256_S256,
    unary main_v1 main_v283 (broadcastInDim S64x96x1 ![0, 1] bcast_S64x96_S64x96x1_0_1 : (⟨S64x96, .f32⟩ : BufTy).Contents (Elt F) → (⟨S64x96x1, .f32⟩ : BufTy).Contents (Elt F)),
    unary main_v282 main_v284 (broadcastInDim S1x1x256 ![2] bcast_S256_S1x1x256_2 : (⟨S256, .f32⟩ : BufTy).Contents (Elt F) → (⟨S1x1x256, .f32⟩ : BufTy).Contents (Elt F)),
    unary main_v284 main_v285 (broadcastInDim S64x96x256 ![0, 1, 2] bcast_S1x1x256_S64x96x256_0_1_2 : (⟨S1x1x256, .f32⟩ : BufTy).Contents (Elt F) → (⟨S64x96x256, .f32⟩ : BufTy).Contents (Elt F)),
    unary main_v283 main_v286 (broadcastInDim S64x96x256 ![0, 1, 2] bcast_S64x96x1_S64x96x256_0_1_2 : (⟨S64x96x1, .f32⟩ : BufTy).Contents (Elt F) → (⟨S64x96x256, .f32⟩ : BufTy).Contents (Elt F)),
    binary main_v285 main_v286 main_v287 (mulf : (⟨S64x96x256, .f32⟩ : BufTy).Contents (Elt F) → (⟨S64x96x256, .f32⟩ : BufTy).Contents (Elt F) → (⟨S64x96x256, .f32⟩ : BufTy).Contents (Elt F)),
    binary main_v280 main_v287 main_v288 (addf : (⟨S64x96x256, .f32⟩ : BufTy).Contents (Elt F) → (⟨S64x96x256, .f32⟩ : BufTy).Contents (Elt F) → (⟨S64x96x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S64x96x256, .f32⟩) main_call3_v0) (broadcastInDim S64x96x256 ![] bcast_S_S64x96x256),
    TRef.binary (TRef.of (T := ⟨S64x96x256, .f32⟩) main_v288) (TRef.of (T := ⟨S64x96x256, .f32⟩) main_call3_v0) (TRef.of (T := ⟨S64x96x256, .f32⟩) main_v289) maximumf,
    unary main_arg7 main_v290 ((extractStridedSlice S1x768x256 ![3, 0, 0] · slices_S4x768x256_S1x768x256_3_0_0) : (⟨S4x768x256, .f32⟩ : BufTy).Contents (Elt F) → (⟨S1x768x256, .f32⟩ : BufTy).Contents (Elt F)),
    reshape main_v290 main_v291 rfl shapeCasts_S1x768x256_S768x256,
    binary main_v289 main_v291 main_v292 ((fun l r => Host.dotGeneral dot_S64x96x256_S768x256_S64x96x768_2_1_01_0_n_n none l r) : (⟨S64x96x256, .f32⟩ : BufTy).Contents (Elt F) → (⟨S768x256, .f32⟩ : BufTy).Contents (Elt F) → (⟨S64x96x768, .f32⟩ : BufTy).Contents (Elt F)),
    unary main_arg9 main_v293 ((extractStridedSlice S1x768 ![3, 0] · slices_S4x768_S1x768_3_0) : (⟨S4x768, .f32⟩ : BufTy).Contents (Elt F) → (⟨S1x768, .f32⟩ : BufTy).Contents (Elt F)),
    reshape main_v293 main_v294 rfl shapeCasts_S1x768_S768,
    unary main_v294 main_v295 (broadcastInDim S1x1x768 ![2] bcast_S768_S1x1x768_2 : (⟨S768, .f32⟩ : BufTy).Contents (Elt F) → (⟨S1x1x768, .f32⟩ : BufTy).Contents (Elt F)),
    unary main_v295 main_v296 (broadcastInDim S64x96x768 ![0, 1, 2] bcast_S1x1x768_S64x96x768_0_1_2 : (⟨S1x1x768, .f32⟩ : BufTy).Contents (Elt F) → (⟨S64x96x768, .f32⟩ : BufTy).Contents (Elt F)),
    binary main_v292 main_v296 main_v297 (addf : (⟨S64x96x768, .f32⟩ : BufTy).Contents (Elt F) → (⟨S64x96x768, .f32⟩ : BufTy).Contents (Elt F) → (⟨S64x96x768, .f32⟩ : BufTy).Contents (Elt F)),
    unary main_arg8 main_v298 ((extractStridedSlice S1x768x256 ![3, 0, 0] · slices_S4x768x256_S1x768x256_3_0_0) : (⟨S4x768x256, .f32⟩ : BufTy).Contents (Elt F) → (⟨S1x768x256, .f32⟩ : BufTy).Contents (Elt F)),
    reshape main_v298 main_v299 rfl shapeCasts_S1x768x256_S768x256,
    binary main_arg0 main_v299 main_v300 ((fun l r => Host.dotGeneral dot_S64x96x256_S768x256_S64x96x768_2_1_01_0_n_n none l r) : (⟨S64x96x256, .f32⟩ : BufTy).Contents (Elt F) → (⟨S768x256, .f32⟩ : BufTy).Contents (Elt F) → (⟨S64x96x768, .f32⟩ : BufTy).Contents (Elt F)),
    unary main_arg10 main_v301 ((extractStridedSlice S1x768 ![3, 0] · slices_S4x768_S1x768_3_0) : (⟨S4x768, .f32⟩ : BufTy).Contents (Elt F) → (⟨S1x768, .f32⟩ : BufTy).Contents (Elt F)),
    reshape main_v301 main_v302 rfl shapeCasts_S1x768_S768,
    unary main_v302 main_v303 (broadcastInDim S1x1x768 ![2] bcast_S768_S1x1x768_2 : (⟨S768, .f32⟩ : BufTy).Contents (Elt F) → (⟨S1x1x768, .f32⟩ : BufTy).Contents (Elt F)),
    unary main_v303 main_v304 (broadcastInDim S64x96x768 ![0, 1, 2] bcast_S1x1x768_S64x96x768_0_1_2 : (⟨S1x1x768, .f32⟩ : BufTy).Contents (Elt F) → (⟨S64x96x768, .f32⟩ : BufTy).Contents (Elt F)),
    binary main_v300 main_v304 main_v305 (addf : (⟨S64x96x768, .f32⟩ : BufTy).Contents (Elt F) → (⟨S64x96x768, .f32⟩ : BufTy).Contents (Elt F) → (⟨S64x96x768, .f32⟩ : BufTy).Contents (Elt F)),
    unary main_v297 main_v306 ((extractStridedSlice S64x96x256 ![0, 0, 0] · slices_S64x96x768_S64x96x256_0_0_0) : (⟨S64x96x768, .f32⟩ : BufTy).Contents (Elt F) → (⟨S64x96x256, .f32⟩ : BufTy).Contents (Elt F)),
    unary main_v297 main_v307 ((extractStridedSlice S64x96x256 ![0, 0, 256] · slices_S64x96x768_S64x96x256_0_0_256) : (⟨S64x96x768, .f32⟩ : BufTy).Contents (Elt F) → (⟨S64x96x256, .f32⟩ : BufTy).Contents (Elt F)),
    unary main_v297 main_v308 ((extractStridedSlice S64x96x256 ![0, 0, 512] · slices_S64x96x768_S64x96x256_0_0_512) : (⟨S64x96x768, .f32⟩ : BufTy).Contents (Elt F) → (⟨S64x96x256, .f32⟩ : BufTy).Contents (Elt F)),
    unary main_v305 main_v309 ((extractStridedSlice S64x96x256 ![0, 0, 0] · slices_S64x96x768_S64x96x256_0_0_0) : (⟨S64x96x768, .f32⟩ : BufTy).Contents (Elt F) → (⟨S64x96x256, .f32⟩ : BufTy).Contents (Elt F)),
    unary main_v305 main_v310 ((extractStridedSlice S64x96x256 ![0, 0, 256] · slices_S64x96x768_S64x96x256_0_0_256) : (⟨S64x96x768, .f32⟩ : BufTy).Contents (Elt F) → (⟨S64x96x256, .f32⟩ : BufTy).Contents (Elt F)),
    unary main_v305 main_v311 ((extractStridedSlice S64x96x256 ![0, 0, 512] · slices_S64x96x768_S64x96x256_0_0_512) : (⟨S64x96x768, .f32⟩ : BufTy).Contents (Elt F) → (⟨S64x96x256, .f32⟩ : BufTy).Contents (Elt F)),
    binary main_v306 main_v309 main_v312 (addf : (⟨S64x96x256, .f32⟩ : BufTy).Contents (Elt F) → (⟨S64x96x256, .f32⟩ : BufTy).Contents (Elt F) → (⟨S64x96x256, .f32⟩ : BufTy).Contents (Elt F)),
    unary main_v312 main_v313 (Host.negf : (⟨S64x96x256, .f32⟩ : BufTy).Contents (Elt F) → (⟨S64x96x256, .f32⟩ : BufTy).Contents (Elt F)),
    unary main_v313 main_v314 (Host.exp : (⟨S64x96x256, .f32⟩ : BufTy).Contents (Elt F) → (⟨S64x96x256, .f32⟩ : BufTy).Contents (Elt F)),
    nullary main_cst_19 (constant S_ .f32 0x3F800000#32),
    unary main_cst_19 main_v315 (broadcastInDim S64x96x256 ![] bcast_S_S64x96x256 : (⟨S_, .f32⟩ : BufTy).Contents (Elt F) → (⟨S64x96x256, .f32⟩ : BufTy).Contents (Elt F)),
    binary main_v315 main_v314 main_v316 (addf : (⟨S64x96x256, .f32⟩ : BufTy).Contents (Elt F) → (⟨S64x96x256, .f32⟩ : BufTy).Contents (Elt F) → (⟨S64x96x256, .f32⟩ : BufTy).Contents (Elt F)),
    nullary main_cst_20 (constant S_ .f32 0x3F800000#32),
    unary main_cst_20 main_v317 (broadcastInDim S64x96x256 ![] bcast_S_S64x96x256 : (⟨S_, .f32⟩ : BufTy).Contents (Elt F) → (⟨S64x96x256, .f32⟩ : BufTy).Contents (Elt F)),
    binary main_v317 main_v316 main_v318 (Host.divf : (⟨S64x96x256, .f32⟩ : BufTy).Contents (Elt F) → (⟨S64x96x256, .f32⟩ : BufTy).Contents (Elt F) → (⟨S64x96x256, .f32⟩ : BufTy).Contents (Elt F)),
    binary main_v307 main_v310 main_v319 (addf : (⟨S64x96x256, .f32⟩ : BufTy).Contents (Elt F) → (⟨S64x96x256, .f32⟩ : BufTy).Contents (Elt F) → (⟨S64x96x256, .f32⟩ : BufTy).Contents (Elt F)),
    unary main_v319 main_v320 (Host.negf : (⟨S64x96x256, .f32⟩ : BufTy).Contents (Elt F) → (⟨S64x96x256, .f32⟩ : BufTy).Contents (Elt F)),
    unary main_v320 main_v321 (Host.exp : (⟨S64x96x256, .f32⟩ : BufTy).Contents (Elt F) → (⟨S64x96x256, .f32⟩ : BufTy).Contents (Elt F)),
    nullary main_cst_21 (constant S_ .f32 0x3F800000#32),
    unary main_cst_21 main_v322 (broadcastInDim S64x96x256 ![] bcast_S_S64x96x256 : (⟨S_, .f32⟩ : BufTy).Contents (Elt F) → (⟨S64x96x256, .f32⟩ : BufTy).Contents (Elt F)),
    binary main_v322 main_v321 main_v323 (addf : (⟨S64x96x256, .f32⟩ : BufTy).Contents (Elt F) → (⟨S64x96x256, .f32⟩ : BufTy).Contents (Elt F) → (⟨S64x96x256, .f32⟩ : BufTy).Contents (Elt F)),
    nullary main_cst_22 (constant S_ .f32 0x3F800000#32),
    unary main_cst_22 main_v324 (broadcastInDim S64x96x256 ![] bcast_S_S64x96x256 : (⟨S_, .f32⟩ : BufTy).Contents (Elt F) → (⟨S64x96x256, .f32⟩ : BufTy).Contents (Elt F)),
    binary main_v324 main_v323 main_v325 (Host.divf : (⟨S64x96x256, .f32⟩ : BufTy).Contents (Elt F) → (⟨S64x96x256, .f32⟩ : BufTy).Contents (Elt F) → (⟨S64x96x256, .f32⟩ : BufTy).Contents (Elt F)),
    binary main_v318 main_v311 main_v326 (mulf : (⟨S64x96x256, .f32⟩ : BufTy).Contents (Elt F) → (⟨S64x96x256, .f32⟩ : BufTy).Contents (Elt F) → (⟨S64x96x256, .f32⟩ : BufTy).Contents (Elt F)),
    binary main_v308 main_v326 main_v327 (addf : (⟨S64x96x256, .f32⟩ : BufTy).Contents (Elt F) → (⟨S64x96x256, .f32⟩ : BufTy).Contents (Elt F) → (⟨S64x96x256, .f32⟩ : BufTy).Contents (Elt F)),
    unary main_v327 main_v328 (Host.tanh : (⟨S64x96x256, .f32⟩ : BufTy).Contents (Elt F) → (⟨S64x96x256, .f32⟩ : BufTy).Contents (Elt F)),
    nullary main_cst_23 (constant S_ .f32 0x3F800000#32),
    unary main_cst_23 main_v329 (broadcastInDim S64x96x256 ![] bcast_S_S64x96x256 : (⟨S_, .f32⟩ : BufTy).Contents (Elt F) → (⟨S64x96x256, .f32⟩ : BufTy).Contents (Elt F)),
    binary main_v329 main_v325 main_v330 (subf : (⟨S64x96x256, .f32⟩ : BufTy).Contents (Elt F) → (⟨S64x96x256, .f32⟩ : BufTy).Contents (Elt F) → (⟨S64x96x256, .f32⟩ : BufTy).Contents (Elt F)),
    binary main_v330 main_v328 main_v331 (mulf : (⟨S64x96x256, .f32⟩ : BufTy).Contents (Elt F) → (⟨S64x96x256, .f32⟩ : BufTy).Contents (Elt F) → (⟨S64x96x256, .f32⟩ : BufTy).Contents (Elt F)),
    binary main_v325 main_arg0 main_v332 (mulf : (⟨S64x96x256, .f32⟩ : BufTy).Contents (Elt F) → (⟨S64x96x256, .f32⟩ : BufTy).Contents (Elt F) → (⟨S64x96x256, .f32⟩ : BufTy).Contents (Elt F)),
    binary main_v331 main_v332 main_v333 (addf : (⟨S64x96x256, .f32⟩ : BufTy).Contents (Elt F) → (⟨S64x96x256, .f32⟩ : BufTy).Contents (Elt F) → (⟨S64x96x256, .f32⟩ : BufTy).Contents (Elt F)) ]

/-- Operations 368 … 368 of 376. -/
abbrev opsC10 : List (HloOp τ sig (Elt F)) :=
  [ nary ![main_v84, main_v167, main_v250, main_v333] main_v334 (fun u => concatenate S64x96x1024 2 [⟨S64x96x256, u 0⟩, ⟨S64x96x256, u 1⟩, ⟨S64x96x256, u 2⟩, ⟨S64x96x256, u 3⟩] concatenates_S64x96x256_S64x96x256_S64x96x256_S64x96x256_S64x96x1024_d2) ]

/-- Operations 369 … 376 of 376. -/
abbrev opsC11 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S64x96x1024, .f32⟩) main_call4_v0) (broadcastInDim S64x96x1024 ![] bcast_S_S64x96x1024),
    TRef.binary (TRef.of (T := ⟨S64x96x1024, .f32⟩) main_v334) (TRef.of (T := ⟨S64x96x1024, .f32⟩) main_call4_v0) (TRef.of (T := ⟨S64x96x1024, .f32⟩) main_v335) maximumf,
    binary main_v335 main_arg11 main_v336 ((fun l r => Host.dotGeneral dot_S64x96x1024_S256x1024_S64x96x256_2_1_01_0_n_n none l r) : (⟨S64x96x1024, .f32⟩ : BufTy).Contents (Elt F) → (⟨S256x1024, .f32⟩ : BufTy).Contents (Elt F) → (⟨S64x96x256, .f32⟩ : BufTy).Contents (Elt F)),
    unary main_arg12 main_v337 (broadcastInDim S1x1x256 ![2] bcast_S256_S1x1x256_2 : (⟨S256, .f32⟩ : BufTy).Contents (Elt F) → (⟨S1x1x256, .f32⟩ : BufTy).Contents (Elt F)),
    unary main_v337 main_v338 (broadcastInDim S64x96x256 ![0, 1, 2] bcast_S1x1x256_S64x96x256_0_1_2 : (⟨S1x1x256, .f32⟩ : BufTy).Contents (Elt F) → (⟨S64x96x256, .f32⟩ : BufTy).Contents (Elt F)),
    binary main_v336 main_v338 main_v339 (addf : (⟨S64x96x256, .f32⟩ : BufTy).Contents (Elt F) → (⟨S64x96x256, .f32⟩ : BufTy).Contents (Elt F) → (⟨S64x96x256, .f32⟩ : BufTy).Contents (Elt F)),
    binary main_arg0 main_v339 main_v340 (addf : (⟨S64x96x256, .f32⟩ : BufTy).Contents (Elt F) → (⟨S64x96x256, .f32⟩ : BufTy).Contents (Elt F) → (⟨S64x96x256, .f32⟩ : BufTy).Contents (Elt F)) ]

/-- The operations of the printed program's window 0. -/
abbrev opsP0 : List (HloOp τ sig (Elt F)) := opsC0 ++ opsC1
/-- The operations of the printed program's window 1. -/
abbrev opsP1 : List (HloOp τ sig (Elt F)) := opsC2 ++ opsC3
/-- The operations of the printed program's window 2. -/
abbrev opsP2 : List (HloOp τ sig (Elt F)) := opsC4
/-- The operations of the printed program's window 3. -/
abbrev opsP3 : List (HloOp τ sig (Elt F)) := opsC5 ++ opsC6
/-- The operations of the printed program's window 4. -/
abbrev opsP4 : List (HloOp τ sig (Elt F)) := opsC7 ++ opsC8
/-- The operations of the printed program's window 5. -/
abbrev opsP5 : List (HloOp τ sig (Elt F)) := opsC9 ++ opsC10
/-- The operations of the printed program's window 6. -/
abbrev opsP6 : List (HloOp τ sig (Elt F)) := opsC11

/-- The program's 376 operations, in order. -/
abbrev ops : List (HloOp τ sig (Elt F)) :=
  opsP0 ++ (opsP1 ++ (opsP2 ++ (opsP3 ++ (opsP4 ++ (opsP5 ++ (opsP6))))))

set_option maxRecDepth 8192 in
theorem main_part0_eq (c : Dev nD) : main_part0 (F := F) c = seq opsP0 := rfl
set_option maxRecDepth 8192 in
theorem main_part1_eq (c : Dev nD) : main_part1 (F := F) c = seq opsP1 := rfl
set_option maxRecDepth 8192 in
theorem main_part2_eq (c : Dev nD) : main_part2 (F := F) c = seq opsP2 := rfl
set_option maxRecDepth 8192 in
theorem main_part3_eq (c : Dev nD) : main_part3 (F := F) c = seq opsP3 := rfl
set_option maxRecDepth 8192 in
theorem main_part4_eq (c : Dev nD) : main_part4 (F := F) c = seq opsP4 := rfl
set_option maxRecDepth 8192 in
theorem main_part5_eq (c : Dev nD) : main_part5 (F := F) c = seq opsP5 := rfl
set_option maxRecDepth 8192 in
theorem main_part6_eq (c : Dev nD) : main_part6 (F := F) c = seq opsP6 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsC0_sub : (opsC0 : List (HloOp τ sig (Elt F))).Forall fun op => op.bufs ⊆ tcRefs τ sig :=
  ⟨unary_bufs_sub .., nullary_bufs_sub .., binary_bufs_sub ..⟩
set_option maxRecDepth 8192 in
theorem opsC0_fresh : ∀ op ∈ (opsC0 : List (HloOp τ sig (Elt F))), op.fresh = ∅ := by
  intro _ h; (repeat (cases h with | head => rfl | tail _ h => ?_)); exact nomatch h
set_option maxRecDepth 8192 in
theorem opsC1_sub : (opsC1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., reshape_bufs_sub .., unary_bufs_sub .., unary_bufs_sub .., reshape_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., binary_bufs_sub .., binary_bufs_sub .., binary_bufs_sub .., unary_bufs_sub .., reshape_bufs_sub .., unary_bufs_sub .., unary_bufs_sub .., unary_bufs_sub .., unary_bufs_sub .., binary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub ..⟩
set_option maxRecDepth 8192 in
theorem opsC1_fresh : ∀ op ∈ (opsC1 : List (HloOp τ sig (Elt F))), op.fresh = ∅ := by
  intro _ h; (repeat (cases h with | head => rfl | tail _ h => ?_)); exact nomatch h
set_option maxRecDepth 8192 in
theorem opsC2_sub : (opsC2 : List (HloOp τ sig (Elt F))).Forall fun op => op.bufs ⊆ tcRefs τ sig :=
  ⟨unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
set_option maxRecDepth 8192 in
theorem opsC2_fresh : ∀ op ∈ (opsC2 : List (HloOp τ sig (Elt F))), op.fresh = ∅ := by
  intro _ h; (repeat (cases h with | head => rfl | tail _ h => ?_)); exact nomatch h
set_option maxRecDepth 8192 in
theorem opsC3_sub : (opsC3 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., reshape_bufs_sub .., unary_bufs_sub .., unary_bufs_sub .., reshape_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub ..⟩
set_option maxRecDepth 8192 in
theorem opsC3_fresh : ∀ op ∈ (opsC3 : List (HloOp τ sig (Elt F))), op.fresh = ∅ := by
  intro _ h; (repeat (cases h with | head => rfl | tail _ h => ?_)); exact nomatch h
set_option maxRecDepth 8192 in
theorem opsC4_sub : (opsC4 : List (HloOp τ sig (Elt F))).Forall fun op => op.bufs ⊆ tcRefs τ sig :=
  ⟨binary_bufs_sub .., binary_bufs_sub .., binary_bufs_sub .., unary_bufs_sub .., reshape_bufs_sub .., unary_bufs_sub .., unary_bufs_sub .., unary_bufs_sub .., unary_bufs_sub .., binary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub ..⟩
set_option maxRecDepth 8192 in
theorem opsC4_fresh : ∀ op ∈ (opsC4 : List (HloOp τ sig (Elt F))), op.fresh = ∅ := by
  intro _ h; (repeat (cases h with | head => rfl | tail _ h => ?_)); exact nomatch h
set_option maxRecDepth 8192 in
theorem opsC5_sub : (opsC5 : List (HloOp τ sig (Elt F))).Forall fun op => op.bufs ⊆ tcRefs τ sig :=
  binary_bufs_sub ..
set_option maxRecDepth 8192 in
theorem opsC5_fresh : ∀ op ∈ (opsC5 : List (HloOp τ sig (Elt F))), op.fresh = ∅ := by
  intro _ h; (repeat (cases h with | head => rfl | tail _ h => ?_)); exact nomatch h
set_option maxRecDepth 8192 in
theorem opsC6_sub : (opsC6 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., reshape_bufs_sub .., unary_bufs_sub .., unary_bufs_sub .., reshape_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., binary_bufs_sub .., binary_bufs_sub .., binary_bufs_sub .., unary_bufs_sub .., reshape_bufs_sub .., unary_bufs_sub .., unary_bufs_sub .., unary_bufs_sub .., unary_bufs_sub .., binary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub ..⟩
set_option maxRecDepth 8192 in
theorem opsC6_fresh : ∀ op ∈ (opsC6 : List (HloOp τ sig (Elt F))), op.fresh = ∅ := by
  intro _ h; (repeat (cases h with | head => rfl | tail _ h => ?_)); exact nomatch h
set_option maxRecDepth 8192 in
theorem opsC7_sub : (opsC7 : List (HloOp τ sig (Elt F))).Forall fun op => op.bufs ⊆ tcRefs τ sig :=
  ⟨unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
set_option maxRecDepth 8192 in
theorem opsC7_fresh : ∀ op ∈ (opsC7 : List (HloOp τ sig (Elt F))), op.fresh = ∅ := by
  intro _ h; (repeat (cases h with | head => rfl | tail _ h => ?_)); exact nomatch h
set_option maxRecDepth 8192 in
theorem opsC8_sub : (opsC8 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., reshape_bufs_sub .., unary_bufs_sub .., unary_bufs_sub .., reshape_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., binary_bufs_sub .., binary_bufs_sub ..⟩
set_option maxRecDepth 8192 in
theorem opsC8_fresh : ∀ op ∈ (opsC8 : List (HloOp τ sig (Elt F))), op.fresh = ∅ := by
  intro _ h; (repeat (cases h with | head => rfl | tail _ h => ?_)); exact nomatch h
set_option maxRecDepth 8192 in
theorem opsC9_sub : (opsC9 : List (HloOp τ sig (Elt F))).Forall fun op => op.bufs ⊆ tcRefs τ sig :=
  ⟨binary_bufs_sub .., unary_bufs_sub .., reshape_bufs_sub .., unary_bufs_sub .., unary_bufs_sub .., unary_bufs_sub .., unary_bufs_sub .., binary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
set_option maxRecDepth 8192 in
theorem opsC9_fresh : ∀ op ∈ (opsC9 : List (HloOp τ sig (Elt F))), op.fresh = ∅ := by
  intro _ h; (repeat (cases h with | head => rfl | tail _ h => ?_)); exact nomatch h
set_option maxRecDepth 8192 in
theorem opsC10_sub : (opsC10 : List (HloOp τ sig (Elt F))).Forall fun op => op.bufs ⊆ tcRefs τ sig :=
  nary_bufs_sub ..
set_option maxRecDepth 8192 in
theorem opsC10_fresh : ∀ op ∈ (opsC10 : List (HloOp τ sig (Elt F))), op.fresh = ∅ := by
  intro _ h; (repeat (cases h with | head => rfl | tail _ h => ?_)); exact nomatch h
set_option maxRecDepth 8192 in
theorem opsC11_sub : (opsC11 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., binary_bufs_sub ..⟩
set_option maxRecDepth 8192 in
theorem opsC11_fresh : ∀ op ∈ (opsC11 : List (HloOp τ sig (Elt F))), op.fresh = ∅ := by
  intro _ h; (repeat (cases h with | head => rfl | tail _ h => ?_)); exact nomatch h

/-- Membership in the whole list is membership in one of the chunks. -/
theorem mem_ops {op : HloOp τ sig (Elt F)} (h : op ∈ (ops : List (HloOp τ sig (Elt F)))) :
    op ∈ (opsC0 : List (HloOp τ sig (Elt F))) ∨ op ∈ (opsC1 : List (HloOp τ sig (Elt F))) ∨ op ∈ (opsC2 : List (HloOp τ sig (Elt F))) ∨ op ∈ (opsC3 : List (HloOp τ sig (Elt F))) ∨ op ∈ (opsC4 : List (HloOp τ sig (Elt F))) ∨ op ∈ (opsC5 : List (HloOp τ sig (Elt F))) ∨ op ∈ (opsC6 : List (HloOp τ sig (Elt F))) ∨ op ∈ (opsC7 : List (HloOp τ sig (Elt F))) ∨ op ∈ (opsC8 : List (HloOp τ sig (Elt F))) ∨ op ∈ (opsC9 : List (HloOp τ sig (Elt F))) ∨ op ∈ (opsC10 : List (HloOp τ sig (Elt F))) ∨ op ∈ (opsC11 : List (HloOp τ sig (Elt F))) := by
  simp only [ops, opsP0, opsP1, opsP2, opsP3, opsP4, opsP5, opsP6, List.mem_append] at h
  tauto

theorem ops_sub : (ops : List (HloOp τ sig (Elt F))).Forall fun op => op.bufs ⊆ tcRefs τ sig :=
  List.forall_iff_forall_mem.mpr fun op h => by
    rcases mem_ops h with h | h | h | h | h | h | h | h | h | h | h | h
    exacts [List.forall_iff_forall_mem.mp opsC0_sub op h, List.forall_iff_forall_mem.mp opsC1_sub op h, List.forall_iff_forall_mem.mp opsC2_sub op h, List.forall_iff_forall_mem.mp opsC3_sub op h, List.forall_iff_forall_mem.mp opsC4_sub op h, List.forall_iff_forall_mem.mp opsC5_sub op h, List.forall_iff_forall_mem.mp opsC6_sub op h, List.forall_iff_forall_mem.mp opsC7_sub op h, List.forall_iff_forall_mem.mp opsC8_sub op h, List.forall_iff_forall_mem.mp opsC9_sub op h, List.forall_iff_forall_mem.mp opsC10_sub op h, List.forall_iff_forall_mem.mp opsC11_sub op h]

theorem ops_fresh : ∀ op ∈ (ops : List (HloOp τ sig (Elt F))), op.fresh = ∅ := fun op h => by
  rcases mem_ops h with h | h | h | h | h | h | h | h | h | h | h | h
  exacts [opsC0_fresh op h, opsC1_fresh op h, opsC2_fresh op h, opsC3_fresh op h, opsC4_fresh op h, opsC5_fresh op h, opsC6_fresh op h, opsC7_fresh op h, opsC8_fresh op h, opsC9_fresh op h, opsC10_fresh op h, opsC11_fresh op h]

/-- The contents after the whole list are the contents after the twelve chunks in turn. -/
theorem after_ops (V : Valuation τ sig (Elt F)) :
    after ops V = after opsC11 (after opsC10 (after opsC9 (after opsC8 (after opsC7 (after opsC6 (after opsC5 (after opsC4 (after opsC3 (after opsC2 (after opsC1 (after opsC0 (V)))))))))))) := by
  simp only [ops, opsP0, opsP1, opsP2, opsP3, opsP4, opsP5, opsP6, StableHlo.after_append]

end Cert.ReferenceIdeal.RunW

end
-- ==== Proof.RefRunWTerm.lean ====
import proofs.«156658_j36309653520739_2_alg».proof.Proof.Gen.ReferenceIdeal
import Idealize.ShloMosaic.Lib.StableHlo.Run

/-!
# One head, and the join of the four heads, as terms of their operands

`rhead` is the 91 operations of one head composed in the program's order: the first linear map, the target, neighbour
and edge terms, the rectified message, the two affine maps of the recurrent cell, its three gates and the new state.
Its operands are the node states, the edge features, the adjacency matrix as floats, the degree, and the head's own
slices of the stacked parameters. `rtail` is the nine operations after the heads: the four heads side by side,
rectified, projected, the bias added, and the node states added.
-/

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- One head's operations composed, in order. -/
def rhead (X : (⟨S64x96x256, .f32⟩ : BufTy).Contents (Elt F)) (E : (⟨S64x96x96x32, .f32⟩ : BufTy).Contents (Elt F)) (A : (⟨S64x96x96, .f32⟩ : BufTy).Contents (Elt F)) (D : (⟨S64x96, .f32⟩ : BufTy).Contents (Elt F))
    (W1 : (⟨S256x256, .f32⟩ : BufTy).Contents (Elt F)) (b1 : (⟨S256, .f32⟩ : BufTy).Contents (Elt F)) (W2 : (⟨S256x544, .f32⟩ : BufTy).Contents (Elt F)) (b2 : (⟨S256, .f32⟩ : BufTy).Contents (Elt F))
    (Wih : (⟨S768x256, .f32⟩ : BufTy).Contents (Elt F)) (bih : (⟨S768, .f32⟩ : BufTy).Contents (Elt F)) (Whh : (⟨S768x256, .f32⟩ : BufTy).Contents (Elt F)) (bhh : (⟨S768, .f32⟩ : BufTy).Contents (Elt F)) : (⟨S64x96x256, .f32⟩ : BufTy).Contents (Elt F) :=
  (addf (mulf (subf (broadcastInDim S64x96x256 ![] bcast_S_S64x96x256 (constant S_ .f32 0x3F800000#32)) (Host.divf (broadcastInDim S64x96x256 ![] bcast_S_S64x96x256 (constant S_ .f32 0x3F800000#32)) (addf (broadcastInDim S64x96x256 ![] bcast_S_S64x96x256 (constant S_ .f32 0x3F800000#32)) (Host.exp (Host.negf (addf (extractStridedSlice S64x96x256 ![0, 0, 256] (addf (Host.dotGeneral dot_S64x96x256_S768x256_S64x96x768_2_1_01_0_n_n none (maximumf (addf (addf (addf (mulf (Host.dotGeneral dot_S64x96x256_S256x256_S64x96x256_2_1_01_0_n_n none (addf (Host.dotGeneral dot_S64x96x256_S256x256_S64x96x256_2_1_01_0_n_n none X W1) (broadcastInDim S64x96x256 ![0, 1, 2] bcast_S1x1x256_S64x96x256_0_1_2 (broadcastInDim S1x1x256 ![2] bcast_S256_S1x1x256_2 b1))) (extractStridedSlice S256x256 ![0, 0] W2 slices_S256x544_S256x256_0_0)) (broadcastInDim S64x96x256 ![0, 1, 2] bcast_S64x96x1_S64x96x256_0_1_2 (broadcastInDim S64x96x1 ![0, 1] bcast_S64x96_S64x96x1_0_1 D))) (Host.dotGeneral dot_S64x96x96_S64x96x256_S64x96x256_2_1_1_2_0_0 none A (Host.dotGeneral dot_S64x96x256_S256x256_S64x96x256_2_1_01_0_n_n none (addf (Host.dotGeneral dot_S64x96x256_S256x256_S64x96x256_2_1_01_0_n_n none X W1) (broadcastInDim S64x96x256 ![0, 1, 2] bcast_S1x1x256_S64x96x256_0_1_2 (broadcastInDim S1x1x256 ![2] bcast_S256_S1x1x256_2 b1))) (extractStridedSlice S256x256 ![0, 256] W2 slices_S256x544_S256x256_0_256)))) (Host.dotGeneral dot_S64x96x32_S256x32_S64x96x256_2_1_01_0_n_n none (Host.reduceAdd (mulf E (broadcastInDim S64x96x96x32 ![0, 1, 2, 3] bcast_S64x96x96x1_S64x96x96x32_0_1_2_3 (broadcastInDim S64x96x96x1 ![0, 1, 2] bcast_S64x96x96_S64x96x96x1_0_1_2 A))) (constant S_ .f32 0x00000000#32) reducesTo_S64x96x96x32_S64x96x32_d2 h_S_) (extractStridedSlice S256x32 ![0, 512] W2 slices_S256x544_S256x32_0_512))) (mulf (broadcastInDim S64x96x256 ![0, 1, 2] bcast_S1x1x256_S64x96x256_0_1_2 (broadcastInDim S1x1x256 ![2] bcast_S256_S1x1x256_2 b2)) (broadcastInDim S64x96x256 ![0, 1, 2] bcast_S64x96x1_S64x96x256_0_1_2 (broadcastInDim S64x96x1 ![0, 1] bcast_S64x96_S64x96x1_0_1 D)))) (broadcastInDim S64x96x256 ![] bcast_S_S64x96x256 (constant S_ .f32 0x00000000#32))) Wih) (broadcastInDim S64x96x768 ![0, 1, 2] bcast_S1x1x768_S64x96x768_0_1_2 (broadcastInDim S1x1x768 ![2] bcast_S768_S1x1x768_2 bih))) slices_S64x96x768_S64x96x256_0_0_256) (extractStridedSlice S64x96x256 ![0, 0, 256] (addf (Host.dotGeneral dot_S64x96x256_S768x256_S64x96x768_2_1_01_0_n_n none X Whh) (broadcastInDim S64x96x768 ![0, 1, 2] bcast_S1x1x768_S64x96x768_0_1_2 (broadcastInDim S1x1x768 ![2] bcast_S768_S1x1x768_2 bhh))) slices_S64x96x768_S64x96x256_0_0_256))))))) (Host.tanh (addf (extractStridedSlice S64x96x256 ![0, 0, 512] (addf (Host.dotGeneral dot_S64x96x256_S768x256_S64x96x768_2_1_01_0_n_n none (maximumf (addf (addf (addf (mulf (Host.dotGeneral dot_S64x96x256_S256x256_S64x96x256_2_1_01_0_n_n none (addf (Host.dotGeneral dot_S64x96x256_S256x256_S64x96x256_2_1_01_0_n_n none X W1) (broadcastInDim S64x96x256 ![0, 1, 2] bcast_S1x1x256_S64x96x256_0_1_2 (broadcastInDim S1x1x256 ![2] bcast_S256_S1x1x256_2 b1))) (extractStridedSlice S256x256 ![0, 0] W2 slices_S256x544_S256x256_0_0)) (broadcastInDim S64x96x256 ![0, 1, 2] bcast_S64x96x1_S64x96x256_0_1_2 (broadcastInDim S64x96x1 ![0, 1] bcast_S64x96_S64x96x1_0_1 D))) (Host.dotGeneral dot_S64x96x96_S64x96x256_S64x96x256_2_1_1_2_0_0 none A (Host.dotGeneral dot_S64x96x256_S256x256_S64x96x256_2_1_01_0_n_n none (addf (Host.dotGeneral dot_S64x96x256_S256x256_S64x96x256_2_1_01_0_n_n none X W1) (broadcastInDim S64x96x256 ![0, 1, 2] bcast_S1x1x256_S64x96x256_0_1_2 (broadcastInDim S1x1x256 ![2] bcast_S256_S1x1x256_2 b1))) (extractStridedSlice S256x256 ![0, 256] W2 slices_S256x544_S256x256_0_256)))) (Host.dotGeneral dot_S64x96x32_S256x32_S64x96x256_2_1_01_0_n_n none (Host.reduceAdd (mulf E (broadcastInDim S64x96x96x32 ![0, 1, 2, 3] bcast_S64x96x96x1_S64x96x96x32_0_1_2_3 (broadcastInDim S64x96x96x1 ![0, 1, 2] bcast_S64x96x96_S64x96x96x1_0_1_2 A))) (constant S_ .f32 0x00000000#32) reducesTo_S64x96x96x32_S64x96x32_d2 h_S_) (extractStridedSlice S256x32 ![0, 512] W2 slices_S256x544_S256x32_0_512))) (mulf (broadcastInDim S64x96x256 ![0, 1, 2] bcast_S1x1x256_S64x96x256_0_1_2 (broadcastInDim S1x1x256 ![2] bcast_S256_S1x1x256_2 b2)) (broadcastInDim S64x96x256 ![0, 1, 2] bcast_S64x96x1_S64x96x256_0_1_2 (broadcastInDim S64x96x1 ![0, 1] bcast_S64x96_S64x96x1_0_1 D)))) (broadcastInDim S64x96x256 ![] bcast_S_S64x96x256 (constant S_ .f32 0x00000000#32))) Wih) (broadcastInDim S64x96x768 ![0, 1, 2] bcast_S1x1x768_S64x96x768_0_1_2 (broadcastInDim S1x1x768 ![2] bcast_S768_S1x1x768_2 bih))) slices_S64x96x768_S64x96x256_0_0_512) (mulf (Host.divf (broadcastInDim S64x96x256 ![] bcast_S_S64x96x256 (constant S_ .f32 0x3F800000#32)) (addf (broadcastInDim S64x96x256 ![] bcast_S_S64x96x256 (constant S_ .f32 0x3F800000#32)) (Host.exp (Host.negf (addf (extractStridedSlice S64x96x256 ![0, 0, 0] (addf (Host.dotGeneral dot_S64x96x256_S768x256_S64x96x768_2_1_01_0_n_n none (maximumf (addf (addf (addf (mulf (Host.dotGeneral dot_S64x96x256_S256x256_S64x96x256_2_1_01_0_n_n none (addf (Host.dotGeneral dot_S64x96x256_S256x256_S64x96x256_2_1_01_0_n_n none X W1) (broadcastInDim S64x96x256 ![0, 1, 2] bcast_S1x1x256_S64x96x256_0_1_2 (broadcastInDim S1x1x256 ![2] bcast_S256_S1x1x256_2 b1))) (extractStridedSlice S256x256 ![0, 0] W2 slices_S256x544_S256x256_0_0)) (broadcastInDim S64x96x256 ![0, 1, 2] bcast_S64x96x1_S64x96x256_0_1_2 (broadcastInDim S64x96x1 ![0, 1] bcast_S64x96_S64x96x1_0_1 D))) (Host.dotGeneral dot_S64x96x96_S64x96x256_S64x96x256_2_1_1_2_0_0 none A (Host.dotGeneral dot_S64x96x256_S256x256_S64x96x256_2_1_01_0_n_n none (addf (Host.dotGeneral dot_S64x96x256_S256x256_S64x96x256_2_1_01_0_n_n none X W1) (broadcastInDim S64x96x256 ![0, 1, 2] bcast_S1x1x256_S64x96x256_0_1_2 (broadcastInDim S1x1x256 ![2] bcast_S256_S1x1x256_2 b1))) (extractStridedSlice S256x256 ![0, 256] W2 slices_S256x544_S256x256_0_256)))) (Host.dotGeneral dot_S64x96x32_S256x32_S64x96x256_2_1_01_0_n_n none (Host.reduceAdd (mulf E (broadcastInDim S64x96x96x32 ![0, 1, 2, 3] bcast_S64x96x96x1_S64x96x96x32_0_1_2_3 (broadcastInDim S64x96x96x1 ![0, 1, 2] bcast_S64x96x96_S64x96x96x1_0_1_2 A))) (constant S_ .f32 0x00000000#32) reducesTo_S64x96x96x32_S64x96x32_d2 h_S_) (extractStridedSlice S256x32 ![0, 512] W2 slices_S256x544_S256x32_0_512))) (mulf (broadcastInDim S64x96x256 ![0, 1, 2] bcast_S1x1x256_S64x96x256_0_1_2 (broadcastInDim S1x1x256 ![2] bcast_S256_S1x1x256_2 b2)) (broadcastInDim S64x96x256 ![0, 1, 2] bcast_S64x96x1_S64x96x256_0_1_2 (broadcastInDim S64x96x1 ![0, 1] bcast_S64x96_S64x96x1_0_1 D)))) (broadcastInDim S64x96x256 ![] bcast_S_S64x96x256 (constant S_ .f32 0x00000000#32))) Wih) (broadcastInDim S64x96x768 ![0, 1, 2] bcast_S1x1x768_S64x96x768_0_1_2 (broadcastInDim S1x1x768 ![2] bcast_S768_S1x1x768_2 bih))) slices_S64x96x768_S64x96x256_0_0_0) (extractStridedSlice S64x96x256 ![0, 0, 0] (addf (Host.dotGeneral dot_S64x96x256_S768x256_S64x96x768_2_1_01_0_n_n none X Whh) (broadcastInDim S64x96x768 ![0, 1, 2] bcast_S1x1x768_S64x96x768_0_1_2 (broadcastInDim S1x1x768 ![2] bcast_S768_S1x1x768_2 bhh))) slices_S64x96x768_S64x96x256_0_0_0)))))) (extractStridedSlice S64x96x256 ![0, 0, 512] (addf (Host.dotGeneral dot_S64x96x256_S768x256_S64x96x768_2_1_01_0_n_n none X Whh) (broadcastInDim S64x96x768 ![0, 1, 2] bcast_S1x1x768_S64x96x768_0_1_2 (broadcastInDim S1x1x768 ![2] bcast_S768_S1x1x768_2 bhh))) slices_S64x96x768_S64x96x256_0_0_512))))) (mulf (Host.divf (broadcastInDim S64x96x256 ![] bcast_S_S64x96x256 (constant S_ .f32 0x3F800000#32)) (addf (broadcastInDim S64x96x256 ![] bcast_S_S64x96x256 (constant S_ .f32 0x3F800000#32)) (Host.exp (Host.negf (addf (extractStridedSlice S64x96x256 ![0, 0, 256] (addf (Host.dotGeneral dot_S64x96x256_S768x256_S64x96x768_2_1_01_0_n_n none (maximumf (addf (addf (addf (mulf (Host.dotGeneral dot_S64x96x256_S256x256_S64x96x256_2_1_01_0_n_n none (addf (Host.dotGeneral dot_S64x96x256_S256x256_S64x96x256_2_1_01_0_n_n none X W1) (broadcastInDim S64x96x256 ![0, 1, 2] bcast_S1x1x256_S64x96x256_0_1_2 (broadcastInDim S1x1x256 ![2] bcast_S256_S1x1x256_2 b1))) (extractStridedSlice S256x256 ![0, 0] W2 slices_S256x544_S256x256_0_0)) (broadcastInDim S64x96x256 ![0, 1, 2] bcast_S64x96x1_S64x96x256_0_1_2 (broadcastInDim S64x96x1 ![0, 1] bcast_S64x96_S64x96x1_0_1 D))) (Host.dotGeneral dot_S64x96x96_S64x96x256_S64x96x256_2_1_1_2_0_0 none A (Host.dotGeneral dot_S64x96x256_S256x256_S64x96x256_2_1_01_0_n_n none (addf (Host.dotGeneral dot_S64x96x256_S256x256_S64x96x256_2_1_01_0_n_n none X W1) (broadcastInDim S64x96x256 ![0, 1, 2] bcast_S1x1x256_S64x96x256_0_1_2 (broadcastInDim S1x1x256 ![2] bcast_S256_S1x1x256_2 b1))) (extractStridedSlice S256x256 ![0, 256] W2 slices_S256x544_S256x256_0_256)))) (Host.dotGeneral dot_S64x96x32_S256x32_S64x96x256_2_1_01_0_n_n none (Host.reduceAdd (mulf E (broadcastInDim S64x96x96x32 ![0, 1, 2, 3] bcast_S64x96x96x1_S64x96x96x32_0_1_2_3 (broadcastInDim S64x96x96x1 ![0, 1, 2] bcast_S64x96x96_S64x96x96x1_0_1_2 A))) (constant S_ .f32 0x00000000#32) reducesTo_S64x96x96x32_S64x96x32_d2 h_S_) (extractStridedSlice S256x32 ![0, 512] W2 slices_S256x544_S256x32_0_512))) (mulf (broadcastInDim S64x96x256 ![0, 1, 2] bcast_S1x1x256_S64x96x256_0_1_2 (broadcastInDim S1x1x256 ![2] bcast_S256_S1x1x256_2 b2)) (broadcastInDim S64x96x256 ![0, 1, 2] bcast_S64x96x1_S64x96x256_0_1_2 (broadcastInDim S64x96x1 ![0, 1] bcast_S64x96_S64x96x1_0_1 D)))) (broadcastInDim S64x96x256 ![] bcast_S_S64x96x256 (constant S_ .f32 0x00000000#32))) Wih) (broadcastInDim S64x96x768 ![0, 1, 2] bcast_S1x1x768_S64x96x768_0_1_2 (broadcastInDim S1x1x768 ![2] bcast_S768_S1x1x768_2 bih))) slices_S64x96x768_S64x96x256_0_0_256) (extractStridedSlice S64x96x256 ![0, 0, 256] (addf (Host.dotGeneral dot_S64x96x256_S768x256_S64x96x768_2_1_01_0_n_n none X Whh) (broadcastInDim S64x96x768 ![0, 1, 2] bcast_S1x1x768_S64x96x768_0_1_2 (broadcastInDim S1x1x768 ![2] bcast_S768_S1x1x768_2 bhh))) slices_S64x96x768_S64x96x256_0_0_256)))))) X))

/-- The operations after the heads composed, in order. -/
def rtail (X H0 H1 H2 H3 : (⟨S64x96x256, .f32⟩ : BufTy).Contents (Elt F)) (Wout : (⟨S256x1024, .f32⟩ : BufTy).Contents (Elt F)) (bout : (⟨S256, .f32⟩ : BufTy).Contents (Elt F)) : (⟨S64x96x256, .f32⟩ : BufTy).Contents (Elt F) :=
  (addf X (addf (Host.dotGeneral dot_S64x96x1024_S256x1024_S64x96x256_2_1_01_0_n_n none (maximumf (concatenate S64x96x1024 2 [⟨S64x96x256, H0⟩, ⟨S64x96x256, H1⟩, ⟨S64x96x256, H2⟩, ⟨S64x96x256, H3⟩] concatenates_S64x96x256_S64x96x256_S64x96x256_S64x96x256_S64x96x1024_d2) (broadcastInDim S64x96x1024 ![] bcast_S_S64x96x1024 (constant S_ .f32 0x00000000#32))) Wout) (broadcastInDim S64x96x256 ![0, 1, 2] bcast_S1x1x256_S64x96x256_0_1_2 (broadcastInDim S1x1x256 ![2] bcast_S256_S1x1x256_2 bout))))

end Cert.ReferenceIdeal.RunW

end
-- ==== Proof.RefRunWH0.lean ====
import proofs.«156658_j36309653520739_2_alg».proof.Proof.RefRunWOps
import proofs.«156658_j36309653520739_2_alg».proof.Proof.RefRunWTerm

/-!
# Head 0 of the reference, read from any contents

Head 0 is operations 4 … 94 of the list. From any contents `V` of the device's buffers, its last operation's
buffer ends holding `rhead` of `V` at the buffers the head reads (the node states, the edge features, the adjacency
matrix as floats, the degree, and row 0 of each stacked parameter), and a buffer the head does not write keeps its contents.
-/

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

/-- The buffers head 0's operations write. -/
abbrev H0_W : List (Ref sig .tc) := [main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_cst_0, main_v29, main_v30, main_v31, main_v32, main_v33, main_v34, main_v35, main_v36, main_v37, main_v38, main_v39, main_call0_cst, main_call0_v0, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_cst_1, main_v66, main_v67, main_cst_2, main_v68, main_v69, main_v70, main_v71, main_v72, main_cst_3, main_v73, main_v74, main_cst_4, main_v75, main_v76, main_v77, main_v78, main_v79, main_cst_5, main_v80, main_v81, main_v82, main_v83, main_v84]
set_option maxRecDepth 8192 in
theorem opsC1_writes : (opsC1 : List (HloOp τ sig (Elt F))).Forall fun op => op.writes ⊆ (H0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem opsC2_writes : (opsC2 : List (HloOp τ sig (Elt F))).Forall fun op => op.writes ⊆ (H0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer head 0 does not write keeps its contents through it. -/
theorem head0_keep (V : Valuation τ sig (Elt F)) (r : Ref sig .tc) (hr : r ∉ H0_W) :
    after opsC2 (after opsC1 (V)) (Proc.devRef .tc r) = V (Proc.devRef .tc r) :=
  (after_of_writes_sub opsC2 _ opsC2_writes hr).trans (after_of_writes_sub opsC1 _ opsC1_writes hr)

set_option maxRecDepth 8192 in
set_option maxHeartbeats 4000000 in
/-- Head 0's result, from any contents. -/
theorem head0_val (V : Valuation τ sig (Elt F)) :
    after opsC2 (after opsC1 (V)) (no_index (Proc.devRef .tc main_v84))
      = rhead (V (Proc.devRef .tc main_arg0)) (V (Proc.devRef .tc main_arg1)) (V (Proc.devRef .tc main_v0)) (V (Proc.devRef .tc main_v1))
          (shapeCast _ (extractStridedSlice S1x256x256 ![0, 0, 0] (V (Proc.devRef .tc main_arg3)) slices_S4x256x256_S1x256x256_0_0_0) shapeCasts_S1x256x256_S256x256)
          (shapeCast _ (extractStridedSlice S1x256 ![0, 0] (V (Proc.devRef .tc main_arg4)) slices_S4x256_S1x256_0_0) shapeCasts_S1x256_S256)
          (shapeCast _ (extractStridedSlice S1x256x544 ![0, 0, 0] (V (Proc.devRef .tc main_arg5)) slices_S4x256x544_S1x256x544_0_0_0) shapeCasts_S1x256x544_S256x544)
          (shapeCast _ (extractStridedSlice S1x256 ![0, 0] (V (Proc.devRef .tc main_arg6)) slices_S4x256_S1x256_0_0) shapeCasts_S1x256_S256)
          (shapeCast _ (extractStridedSlice S1x768x256 ![0, 0, 0] (V (Proc.devRef .tc main_arg7)) slices_S4x768x256_S1x768x256_0_0_0) shapeCasts_S1x768x256_S768x256)
          (shapeCast _ (extractStridedSlice S1x768 ![0, 0] (V (Proc.devRef .tc main_arg9)) slices_S4x768_S1x768_0_0) shapeCasts_S1x768_S768)
          (shapeCast _ (extractStridedSlice S1x768x256 ![0, 0, 0] (V (Proc.devRef .tc main_arg8)) slices_S4x768x256_S1x768x256_0_0_0) shapeCasts_S1x768x256_S768x256)
          (shapeCast _ (extractStridedSlice S1x768 ![0, 0] (V (Proc.devRef .tc main_arg10)) slices_S4x768_S1x768_0_0) shapeCasts_S1x768_S768) := by
  simp only [opsC1, opsC2]
  after_results_simp
  all_goals rfl

end Cert.ReferenceIdeal.RunW

end
-- ==== Proof.RefRunWH1.lean ====
import proofs.«156658_j36309653520739_2_alg».proof.Proof.RefRunWOps
import proofs.«156658_j36309653520739_2_alg».proof.Proof.RefRunWTerm

/-!
# Head 1 of the reference, read from any contents

Head 1 is operations 95 … 185 of the list. From any contents `V` of the device's buffers, its last operation's
buffer ends holding `rhead` of `V` at the buffers the head reads (the node states, the edge features, the adjacency
matrix as floats, the degree, and row 1 of each stacked parameter), and a buffer the head does not write keeps its contents.
-/

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

/-- The buffers head 1's operations write. -/
abbrev H1_W : List (Ref sig .tc) := [main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_cst_6, main_v112, main_v113, main_v114, main_v115, main_v116, main_v117, main_v118, main_v119, main_v120, main_v121, main_v122, main_call1_cst, main_call1_v0, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_cst_7, main_v149, main_v150, main_cst_8, main_v151, main_v152, main_v153, main_v154, main_v155, main_cst_9, main_v156, main_v157, main_cst_10, main_v158, main_v159, main_v160, main_v161, main_v162, main_cst_11, main_v163, main_v164, main_v165, main_v166, main_v167]
set_option maxRecDepth 8192 in
theorem opsC3_writes : (opsC3 : List (HloOp τ sig (Elt F))).Forall fun op => op.writes ⊆ (H1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem opsC4_writes : (opsC4 : List (HloOp τ sig (Elt F))).Forall fun op => op.writes ⊆ (H1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem opsC5_writes : (opsC5 : List (HloOp τ sig (Elt F))).Forall fun op => op.writes ⊆ (H1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

/-- A buffer head 1 does not write keeps its contents through it. -/
theorem head1_keep (V : Valuation τ sig (Elt F)) (r : Ref sig .tc) (hr : r ∉ H1_W) :
    after opsC5 (after opsC4 (after opsC3 (V))) (Proc.devRef .tc r) = V (Proc.devRef .tc r) :=
  (after_of_writes_sub opsC5 _ opsC5_writes hr).trans ((after_of_writes_sub opsC4 _ opsC4_writes hr).trans (after_of_writes_sub opsC3 _ opsC3_writes hr))

set_option maxRecDepth 8192 in
set_option maxHeartbeats 4000000 in
/-- Head 1's result, from any contents. -/
theorem head1_val (V : Valuation τ sig (Elt F)) :
    after opsC5 (after opsC4 (after opsC3 (V))) (no_index (Proc.devRef .tc main_v167))
      = rhead (V (Proc.devRef .tc main_arg0)) (V (Proc.devRef .tc main_arg1)) (V (Proc.devRef .tc main_v0)) (V (Proc.devRef .tc main_v1))
          (shapeCast _ (extractStridedSlice S1x256x256 ![1, 0, 0] (V (Proc.devRef .tc main_arg3)) slices_S4x256x256_S1x256x256_1_0_0) shapeCasts_S1x256x256_S256x256)
          (shapeCast _ (extractStridedSlice S1x256 ![1, 0] (V (Proc.devRef .tc main_arg4)) slices_S4x256_S1x256_1_0) shapeCasts_S1x256_S256)
          (shapeCast _ (extractStridedSlice S1x256x544 ![1, 0, 0] (V (Proc.devRef .tc main_arg5)) slices_S4x256x544_S1x256x544_1_0_0) shapeCasts_S1x256x544_S256x544)
          (shapeCast _ (extractStridedSlice S1x256 ![1, 0] (V (Proc.devRef .tc main_arg6)) slices_S4x256_S1x256_1_0) shapeCasts_S1x256_S256)
          (shapeCast _ (extractStridedSlice S1x768x256 ![1, 0, 0] (V (Proc.devRef .tc main_arg7)) slices_S4x768x256_S1x768x256_1_0_0) shapeCasts_S1x768x256_S768x256)
          (shapeCast _ (extractStridedSlice S1x768 ![1, 0] (V (Proc.devRef .tc main_arg9)) slices_S4x768_S1x768_1_0) shapeCasts_S1x768_S768)
          (shapeCast _ (extractStridedSlice S1x768x256 ![1, 0, 0] (V (Proc.devRef .tc main_arg8)) slices_S4x768x256_S1x768x256_1_0_0) shapeCasts_S1x768x256_S768x256)
          (shapeCast _ (extractStridedSlice S1x768 ![1, 0] (V (Proc.devRef .tc main_arg10)) slices_S4x768_S1x768_1_0) shapeCasts_S1x768_S768) := by
  simp only [opsC3, opsC4, opsC5]
  after_results_simp
  all_goals rfl

end Cert.ReferenceIdeal.RunW

end
-- ==== Proof.RefRunWH2.lean ====
import proofs.«156658_j36309653520739_2_alg».proof.Proof.RefRunWOps
import proofs.«156658_j36309653520739_2_alg».proof.Proof.RefRunWTerm

/-!
# Head 2 of the reference, read from any contents

Head 2 is operations 186 … 276 of the list. From any contents `V` of the device's buffers, its last operation's
buffer ends holding `rhead` of `V` at the buffers the head reads (the node states, the edge features, the adjacency
matrix as floats, the degree, and row 2 of each stacked parameter), and a buffer the head does not write keeps its contents.
-/

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

/-- The buffers head 2's operations write. -/
abbrev H2_W : List (Ref sig .tc) := [main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_cst_12, main_v195, main_v196, main_v197, main_v198, main_v199, main_v200, main_v201, main_v202, main_v203, main_v204, main_v205, main_call2_cst, main_call2_v0, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_cst_13, main_v232, main_v233, main_cst_14, main_v234, main_v235, main_v236, main_v237, main_v238, main_cst_15, main_v239, main_v240, main_cst_16, main_v241, main_v242, main_v243, main_v244, main_v245, main_cst_17, main_v246, main_v247, main_v248, main_v249, main_v250]
set_option maxRecDepth 8192 in
theorem opsC6_writes : (opsC6 : List (HloOp τ sig (Elt F))).Forall fun op => op.writes ⊆ (H2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem opsC7_writes : (opsC7 : List (HloOp τ sig (Elt F))).Forall fun op => op.writes ⊆ (H2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer head 2 does not write keeps its contents through it. -/
theorem head2_keep (V : Valuation τ sig (Elt F)) (r : Ref sig .tc) (hr : r ∉ H2_W) :
    after opsC7 (after opsC6 (V)) (Proc.devRef .tc r) = V (Proc.devRef .tc r) :=
  (after_of_writes_sub opsC7 _ opsC7_writes hr).trans (after_of_writes_sub opsC6 _ opsC6_writes hr)

set_option maxRecDepth 8192 in
set_option maxHeartbeats 4000000 in
/-- Head 2's result, from any contents. -/
theorem head2_val (V : Valuation τ sig (Elt F)) :
    after opsC7 (after opsC6 (V)) (no_index (Proc.devRef .tc main_v250))
      = rhead (V (Proc.devRef .tc main_arg0)) (V (Proc.devRef .tc main_arg1)) (V (Proc.devRef .tc main_v0)) (V (Proc.devRef .tc main_v1))
          (shapeCast _ (extractStridedSlice S1x256x256 ![2, 0, 0] (V (Proc.devRef .tc main_arg3)) slices_S4x256x256_S1x256x256_2_0_0) shapeCasts_S1x256x256_S256x256)
          (shapeCast _ (extractStridedSlice S1x256 ![2, 0] (V (Proc.devRef .tc main_arg4)) slices_S4x256_S1x256_2_0) shapeCasts_S1x256_S256)
          (shapeCast _ (extractStridedSlice S1x256x544 ![2, 0, 0] (V (Proc.devRef .tc main_arg5)) slices_S4x256x544_S1x256x544_2_0_0) shapeCasts_S1x256x544_S256x544)
          (shapeCast _ (extractStridedSlice S1x256 ![2, 0] (V (Proc.devRef .tc main_arg6)) slices_S4x256_S1x256_2_0) shapeCasts_S1x256_S256)
          (shapeCast _ (extractStridedSlice S1x768x256 ![2, 0, 0] (V (Proc.devRef .tc main_arg7)) slices_S4x768x256_S1x768x256_2_0_0) shapeCasts_S1x768x256_S768x256)
          (shapeCast _ (extractStridedSlice S1x768 ![2, 0] (V (Proc.devRef .tc main_arg9)) slices_S4x768_S1x768_2_0) shapeCasts_S1x768_S768)
          (shapeCast _ (extractStridedSlice S1x768x256 ![2, 0, 0] (V (Proc.devRef .tc main_arg8)) slices_S4x768x256_S1x768x256_2_0_0) shapeCasts_S1x768x256_S768x256)
          (shapeCast _ (extractStridedSlice S1x768 ![2, 0] (V (Proc.devRef .tc main_arg10)) slices_S4x768_S1x768_2_0) shapeCasts_S1x768_S768) := by
  simp only [opsC6, opsC7]
  after_results_simp
  all_goals rfl

end Cert.ReferenceIdeal.RunW

end
-- ==== Proof.RefRunWH3.lean ====
import proofs.«156658_j36309653520739_2_alg».proof.Proof.RefRunWOps
import proofs.«156658_j36309653520739_2_alg».proof.Proof.RefRunWTerm

/-!
# Head 3 of the reference, read from any contents

Head 3 is operations 277 … 367 of the list. From any contents `V` of the device's buffers, its last operation's
buffer ends holding `rhead` of `V` at the buffers the head reads (the node states, the edge features, the adjacency
matrix as floats, the degree, and row 3 of each stacked parameter), and a buffer the head does not write keeps its contents.
-/

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

/-- The buffers head 3's operations write. -/
abbrev H3_W : List (Ref sig .tc) := [main_v251, main_v252, main_v253, main_v254, main_v255, main_v256, main_v257, main_v258, main_v259, main_v260, main_v261, main_v262, main_v263, main_v264, main_v265, main_v266, main_v267, main_v268, main_v269, main_v270, main_v271, main_v272, main_v273, main_v274, main_v275, main_v276, main_v277, main_cst_18, main_v278, main_v279, main_v280, main_v281, main_v282, main_v283, main_v284, main_v285, main_v286, main_v287, main_v288, main_call3_cst, main_call3_v0, main_v289, main_v290, main_v291, main_v292, main_v293, main_v294, main_v295, main_v296, main_v297, main_v298, main_v299, main_v300, main_v301, main_v302, main_v303, main_v304, main_v305, main_v306, main_v307, main_v308, main_v309, main_v310, main_v311, main_v312, main_v313, main_v314, main_cst_19, main_v315, main_v316, main_cst_20, main_v317, main_v318, main_v319, main_v320, main_v321, main_cst_21, main_v322, main_v323, main_cst_22, main_v324, main_v325, main_v326, main_v327, main_v328, main_cst_23, main_v329, main_v330, main_v331, main_v332, main_v333]
set_option maxRecDepth 8192 in
theorem opsC8_writes : (opsC8 : List (HloOp τ sig (Elt F))).Forall fun op => op.writes ⊆ (H3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem opsC9_writes : (opsC9 : List (HloOp τ sig (Elt F))).Forall fun op => op.writes ⊆ (H3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer head 3 does not write keeps its contents through it. -/
theorem head3_keep (V : Valuation τ sig (Elt F)) (r : Ref sig .tc) (hr : r ∉ H3_W) :
    after opsC9 (after opsC8 (V)) (Proc.devRef .tc r) = V (Proc.devRef .tc r) :=
  (after_of_writes_sub opsC9 _ opsC9_writes hr).trans (after_of_writes_sub opsC8 _ opsC8_writes hr)

set_option maxRecDepth 8192 in
set_option maxHeartbeats 4000000 in
/-- Head 3's result, from any contents. -/
theorem head3_val (V : Valuation τ sig (Elt F)) :
    after opsC9 (after opsC8 (V)) (no_index (Proc.devRef .tc main_v333))
      = rhead (V (Proc.devRef .tc main_arg0)) (V (Proc.devRef .tc main_arg1)) (V (Proc.devRef .tc main_v0)) (V (Proc.devRef .tc main_v1))
          (shapeCast _ (extractStridedSlice S1x256x256 ![3, 0, 0] (V (Proc.devRef .tc main_arg3)) slices_S4x256x256_S1x256x256_3_0_0) shapeCasts_S1x256x256_S256x256)
          (shapeCast _ (extractStridedSlice S1x256 ![3, 0] (V (Proc.devRef .tc main_arg4)) slices_S4x256_S1x256_3_0) shapeCasts_S1x256_S256)
          (shapeCast _ (extractStridedSlice S1x256x544 ![3, 0, 0] (V (Proc.devRef .tc main_arg5)) slices_S4x256x544_S1x256x544_3_0_0) shapeCasts_S1x256x544_S256x544)
          (shapeCast _ (extractStridedSlice S1x256 ![3, 0] (V (Proc.devRef .tc main_arg6)) slices_S4x256_S1x256_3_0) shapeCasts_S1x256_S256)
          (shapeCast _ (extractStridedSlice S1x768x256 ![3, 0, 0] (V (Proc.devRef .tc main_arg7)) slices_S4x768x256_S1x768x256_3_0_0) shapeCasts_S1x768x256_S768x256)
          (shapeCast _ (extractStridedSlice S1x768 ![3, 0] (V (Proc.devRef .tc main_arg9)) slices_S4x768_S1x768_3_0) shapeCasts_S1x768_S768)
          (shapeCast _ (extractStridedSlice S1x768x256 ![3, 0, 0] (V (Proc.devRef .tc main_arg8)) slices_S4x768x256_S1x768x256_3_0_0) shapeCasts_S1x768x256_S768x256)
          (shapeCast _ (extractStridedSlice S1x768 ![3, 0] (V (Proc.devRef .tc main_arg10)) slices_S4x768_S1x768_3_0) shapeCasts_S1x768_S768) := by
  simp only [opsC8, opsC9]
  after_results_simp
  all_goals rfl

end Cert.ReferenceIdeal.RunW

end
-- ==== Proof.RefRunW.lean ====
import proofs.«156658_j36309653520739_2_alg».proof.Proof.RefRunWOps
import proofs.«156658_j36309653520739_2_alg».proof.Proof.RefRunWTerm
import proofs.«156658_j36309653520739_2_alg».proof.Proof.RefRunWH0
import proofs.«156658_j36309653520739_2_alg».proof.Proof.RefRunWH1
import proofs.«156658_j36309653520739_2_alg».proof.Proof.RefRunWH2
import proofs.«156658_j36309653520739_2_alg».proof.Proof.RefRunWH3

/-!
# The reference's run, read window by window

The contents of the device's buffers after the whole list are the contents after the prelude, the four heads and the
join in turn. From any contents, each window's result is its term of the contents it reads (`rhead`, `rtail`), and a
buffer a window does not write keeps its contents through it; composing the six windows gives the result buffer as
`rtail` of the four `rhead`s of the launch contents, and every argument as launched.
-/

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

/-! ## The prelude and the join, from any contents -/

/-- The buffers the prelude's operations write. -/
abbrev Pre_W : List (Ref sig .tc) := [main_v0, main_cst, main_v1]
set_option maxRecDepth 8192 in
theorem opsC0_writes : (opsC0 : List (HloOp τ sig (Elt F))).Forall fun op => op.writes ⊆ (Pre_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem pre_keep (V : Valuation τ sig (Elt F)) (r : Ref sig .tc) (hr : r ∉ Pre_W) :
    after opsC0 V (Proc.devRef .tc r) = V (Proc.devRef .tc r) :=
  after_of_writes_sub opsC0 _ opsC0_writes hr

/-- The adjacency matrix as floats. -/
theorem pre_v0 (V : Valuation τ sig (Elt F)) :
    after opsC0 V (no_index (Proc.devRef .tc main_v0)) = sitofp .f32 (V (Proc.devRef .tc main_arg2)) := by
  simp only [opsC0]
  after_results_simp
/-- The degree: the adjacency matrix's row sums from the zero word. -/
theorem pre_v1 (V : Valuation τ sig (Elt F)) :
    after opsC0 V (no_index (Proc.devRef .tc main_v1))
      = Host.reduceAdd (sitofp .f32 (V (Proc.devRef .tc main_arg2))) (constant S_ .f32 0x00000000#32) reducesTo_S64x96x96_S64x96_d2 h_S_ := by
  simp only [opsC0]
  after_results_simp

/-- The buffers the join's operations write. -/
abbrev Tail_W : List (Ref sig .tc) := [main_v334, main_call4_cst, main_call4_v0, main_v335, main_v336, main_v337, main_v338, main_v339, main_v340]
set_option maxRecDepth 8192 in
theorem opsC10_writes : (opsC10 : List (HloOp τ sig (Elt F))).Forall fun op => op.writes ⊆ (Tail_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
set_option maxRecDepth 8192 in
theorem opsC11_writes : (opsC11 : List (HloOp τ sig (Elt F))).Forall fun op => op.writes ⊆ (Tail_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem tail_keep (V : Valuation τ sig (Elt F)) (r : Ref sig .tc) (hr : r ∉ Tail_W) :
    after opsC11 (after opsC10 V) (Proc.devRef .tc r) = V (Proc.devRef .tc r) :=
  (after_of_writes_sub opsC11 _ opsC11_writes hr).trans (after_of_writes_sub opsC10 _ opsC10_writes hr)

set_option maxRecDepth 8192 in
/-- The result buffer, from any contents. -/
theorem tail_val (V : Valuation τ sig (Elt F)) :
    after opsC11 (after opsC10 V) (no_index (Proc.devRef .tc main_v340))
      = rtail (V (Proc.devRef .tc main_arg0)) (V (Proc.devRef .tc main_v84)) (V (Proc.devRef .tc main_v167)) (V (Proc.devRef .tc main_v250)) (V (Proc.devRef .tc main_v333)) (V (Proc.devRef .tc main_arg11)) (V (Proc.devRef .tc main_arg12)) := by
  simp only [opsC10, opsC11]
  after_results_simp
  all_goals rfl

/-! ## The contents after each window, from any contents `V0` -/

def val1 (V0 : Valuation τ sig (Elt F)) : Valuation τ sig (Elt F) := after opsC0 V0
def val2 (V0 : Valuation τ sig (Elt F)) : Valuation τ sig (Elt F) := after opsC2 (after opsC1 (val1 V0))
def val3 (V0 : Valuation τ sig (Elt F)) : Valuation τ sig (Elt F) := after opsC5 (after opsC4 (after opsC3 (val2 V0)))
def val4 (V0 : Valuation τ sig (Elt F)) : Valuation τ sig (Elt F) := after opsC7 (after opsC6 (val3 V0))
def val5 (V0 : Valuation τ sig (Elt F)) : Valuation τ sig (Elt F) := after opsC9 (after opsC8 (val4 V0))
def val6 (V0 : Valuation τ sig (Elt F)) : Valuation τ sig (Elt F) := after opsC11 (after opsC10 (val5 V0))

theorem after_ops_val (V0 : Valuation τ sig (Elt F)) : after ops V0 = val6 V0 := by
  rw [after_ops]; rfl

theorem val1_main_arg0 (V0 : Valuation τ sig (Elt F)) : val1 V0 (no_index (Proc.devRef .tc main_arg0)) = V0 (Proc.devRef .tc main_arg0) :=
  pre_keep _ main_arg0 (by decide)
theorem val1_main_arg1 (V0 : Valuation τ sig (Elt F)) : val1 V0 (no_index (Proc.devRef .tc main_arg1)) = V0 (Proc.devRef .tc main_arg1) :=
  pre_keep _ main_arg1 (by decide)
theorem val1_main_arg2 (V0 : Valuation τ sig (Elt F)) : val1 V0 (no_index (Proc.devRef .tc main_arg2)) = V0 (Proc.devRef .tc main_arg2) :=
  pre_keep _ main_arg2 (by decide)
theorem val1_main_arg3 (V0 : Valuation τ sig (Elt F)) : val1 V0 (no_index (Proc.devRef .tc main_arg3)) = V0 (Proc.devRef .tc main_arg3) :=
  pre_keep _ main_arg3 (by decide)
theorem val1_main_arg4 (V0 : Valuation τ sig (Elt F)) : val1 V0 (no_index (Proc.devRef .tc main_arg4)) = V0 (Proc.devRef .tc main_arg4) :=
  pre_keep _ main_arg4 (by decide)
theorem val1_main_arg5 (V0 : Valuation τ sig (Elt F)) : val1 V0 (no_index (Proc.devRef .tc main_arg5)) = V0 (Proc.devRef .tc main_arg5) :=
  pre_keep _ main_arg5 (by decide)
theorem val1_main_arg6 (V0 : Valuation τ sig (Elt F)) : val1 V0 (no_index (Proc.devRef .tc main_arg6)) = V0 (Proc.devRef .tc main_arg6) :=
  pre_keep _ main_arg6 (by decide)
theorem val1_main_arg7 (V0 : Valuation τ sig (Elt F)) : val1 V0 (no_index (Proc.devRef .tc main_arg7)) = V0 (Proc.devRef .tc main_arg7) :=
  pre_keep _ main_arg7 (by decide)
theorem val1_main_arg8 (V0 : Valuation τ sig (Elt F)) : val1 V0 (no_index (Proc.devRef .tc main_arg8)) = V0 (Proc.devRef .tc main_arg8) :=
  pre_keep _ main_arg8 (by decide)
theorem val1_main_arg9 (V0 : Valuation τ sig (Elt F)) : val1 V0 (no_index (Proc.devRef .tc main_arg9)) = V0 (Proc.devRef .tc main_arg9) :=
  pre_keep _ main_arg9 (by decide)
theorem val1_main_arg10 (V0 : Valuation τ sig (Elt F)) : val1 V0 (no_index (Proc.devRef .tc main_arg10)) = V0 (Proc.devRef .tc main_arg10) :=
  pre_keep _ main_arg10 (by decide)
theorem val1_main_arg11 (V0 : Valuation τ sig (Elt F)) : val1 V0 (no_index (Proc.devRef .tc main_arg11)) = V0 (Proc.devRef .tc main_arg11) :=
  pre_keep _ main_arg11 (by decide)
theorem val1_main_arg12 (V0 : Valuation τ sig (Elt F)) : val1 V0 (no_index (Proc.devRef .tc main_arg12)) = V0 (Proc.devRef .tc main_arg12) :=
  pre_keep _ main_arg12 (by decide)
theorem val1_main_v0 (V0 : Valuation τ sig (Elt F)) : val1 V0 (no_index (Proc.devRef .tc main_v0)) = sitofp .f32 (V0 (Proc.devRef .tc main_arg2)) := pre_v0 _
theorem val1_main_v1 (V0 : Valuation τ sig (Elt F)) : val1 V0 (no_index (Proc.devRef .tc main_v1)) = Host.reduceAdd (sitofp .f32 (V0 (Proc.devRef .tc main_arg2))) (constant S_ .f32 0x00000000#32) reducesTo_S64x96x96_S64x96_d2 h_S_ := pre_v1 _

theorem val2_main_arg0 (V0 : Valuation τ sig (Elt F)) : val2 V0 (no_index (Proc.devRef .tc main_arg0)) = V0 (Proc.devRef .tc main_arg0) :=
  (head0_keep _ main_arg0 (by decide)).trans (val1_main_arg0 V0)
theorem val2_main_arg1 (V0 : Valuation τ sig (Elt F)) : val2 V0 (no_index (Proc.devRef .tc main_arg1)) = V0 (Proc.devRef .tc main_arg1) :=
  (head0_keep _ main_arg1 (by decide)).trans (val1_main_arg1 V0)
theorem val2_main_arg2 (V0 : Valuation τ sig (Elt F)) : val2 V0 (no_index (Proc.devRef .tc main_arg2)) = V0 (Proc.devRef .tc main_arg2) :=
  (head0_keep _ main_arg2 (by decide)).trans (val1_main_arg2 V0)
theorem val2_main_arg3 (V0 : Valuation τ sig (Elt F)) : val2 V0 (no_index (Proc.devRef .tc main_arg3)) = V0 (Proc.devRef .tc main_arg3) :=
  (head0_keep _ main_arg3 (by decide)).trans (val1_main_arg3 V0)
theorem val2_main_arg4 (V0 : Valuation τ sig (Elt F)) : val2 V0 (no_index (Proc.devRef .tc main_arg4)) = V0 (Proc.devRef .tc main_arg4) :=
  (head0_keep _ main_arg4 (by decide)).trans (val1_main_arg4 V0)
theorem val2_main_arg5 (V0 : Valuation τ sig (Elt F)) : val2 V0 (no_index (Proc.devRef .tc main_arg5)) = V0 (Proc.devRef .tc main_arg5) :=
  (head0_keep _ main_arg5 (by decide)).trans (val1_main_arg5 V0)
theorem val2_main_arg6 (V0 : Valuation τ sig (Elt F)) : val2 V0 (no_index (Proc.devRef .tc main_arg6)) = V0 (Proc.devRef .tc main_arg6) :=
  (head0_keep _ main_arg6 (by decide)).trans (val1_main_arg6 V0)
theorem val2_main_arg7 (V0 : Valuation τ sig (Elt F)) : val2 V0 (no_index (Proc.devRef .tc main_arg7)) = V0 (Proc.devRef .tc main_arg7) :=
  (head0_keep _ main_arg7 (by decide)).trans (val1_main_arg7 V0)
theorem val2_main_arg8 (V0 : Valuation τ sig (Elt F)) : val2 V0 (no_index (Proc.devRef .tc main_arg8)) = V0 (Proc.devRef .tc main_arg8) :=
  (head0_keep _ main_arg8 (by decide)).trans (val1_main_arg8 V0)
theorem val2_main_arg9 (V0 : Valuation τ sig (Elt F)) : val2 V0 (no_index (Proc.devRef .tc main_arg9)) = V0 (Proc.devRef .tc main_arg9) :=
  (head0_keep _ main_arg9 (by decide)).trans (val1_main_arg9 V0)
theorem val2_main_arg10 (V0 : Valuation τ sig (Elt F)) : val2 V0 (no_index (Proc.devRef .tc main_arg10)) = V0 (Proc.devRef .tc main_arg10) :=
  (head0_keep _ main_arg10 (by decide)).trans (val1_main_arg10 V0)
theorem val2_main_arg11 (V0 : Valuation τ sig (Elt F)) : val2 V0 (no_index (Proc.devRef .tc main_arg11)) = V0 (Proc.devRef .tc main_arg11) :=
  (head0_keep _ main_arg11 (by decide)).trans (val1_main_arg11 V0)
theorem val2_main_arg12 (V0 : Valuation τ sig (Elt F)) : val2 V0 (no_index (Proc.devRef .tc main_arg12)) = V0 (Proc.devRef .tc main_arg12) :=
  (head0_keep _ main_arg12 (by decide)).trans (val1_main_arg12 V0)
theorem val2_main_v0 (V0 : Valuation τ sig (Elt F)) : val2 V0 (no_index (Proc.devRef .tc main_v0)) = sitofp .f32 (V0 (Proc.devRef .tc main_arg2)) :=
  (head0_keep _ main_v0 (by decide)).trans (val1_main_v0 V0)
theorem val2_main_v1 (V0 : Valuation τ sig (Elt F)) : val2 V0 (no_index (Proc.devRef .tc main_v1)) = Host.reduceAdd (sitofp .f32 (V0 (Proc.devRef .tc main_arg2))) (constant S_ .f32 0x00000000#32) reducesTo_S64x96x96_S64x96_d2 h_S_ :=
  (head0_keep _ main_v1 (by decide)).trans (val1_main_v1 V0)
set_option maxRecDepth 8192 in
theorem val2_main_v84 (V0 : Valuation τ sig (Elt F)) : val2 V0 (no_index (Proc.devRef .tc main_v84)) = rhead (V0 (Proc.devRef .tc main_arg0)) (V0 (Proc.devRef .tc main_arg1)) (sitofp .f32 (V0 (Proc.devRef .tc main_arg2))) (Host.reduceAdd (sitofp .f32 (V0 (Proc.devRef .tc main_arg2))) (constant S_ .f32 0x00000000#32) reducesTo_S64x96x96_S64x96_d2 h_S_) (shapeCast _ (extractStridedSlice S1x256x256 ![0, 0, 0] (V0 (Proc.devRef .tc main_arg3)) slices_S4x256x256_S1x256x256_0_0_0) shapeCasts_S1x256x256_S256x256) (shapeCast _ (extractStridedSlice S1x256 ![0, 0] (V0 (Proc.devRef .tc main_arg4)) slices_S4x256_S1x256_0_0) shapeCasts_S1x256_S256) (shapeCast _ (extractStridedSlice S1x256x544 ![0, 0, 0] (V0 (Proc.devRef .tc main_arg5)) slices_S4x256x544_S1x256x544_0_0_0) shapeCasts_S1x256x544_S256x544) (shapeCast _ (extractStridedSlice S1x256 ![0, 0] (V0 (Proc.devRef .tc main_arg6)) slices_S4x256_S1x256_0_0) shapeCasts_S1x256_S256) (shapeCast _ (extractStridedSlice S1x768x256 ![0, 0, 0] (V0 (Proc.devRef .tc main_arg7)) slices_S4x768x256_S1x768x256_0_0_0) shapeCasts_S1x768x256_S768x256) (shapeCast _ (extractStridedSlice S1x768 ![0, 0] (V0 (Proc.devRef .tc main_arg9)) slices_S4x768_S1x768_0_0) shapeCasts_S1x768_S768) (shapeCast _ (extractStridedSlice S1x768x256 ![0, 0, 0] (V0 (Proc.devRef .tc main_arg8)) slices_S4x768x256_S1x768x256_0_0_0) shapeCasts_S1x768x256_S768x256) (shapeCast _ (extractStridedSlice S1x768 ![0, 0] (V0 (Proc.devRef .tc main_arg10)) slices_S4x768_S1x768_0_0) shapeCasts_S1x768_S768) :=
  (head0_val (val1 V0)).trans (by simp only [val1_main_arg0, val1_main_arg1, val1_main_v0, val1_main_v1, val1_main_arg3, val1_main_arg4, val1_main_arg5, val1_main_arg6, val1_main_arg7, val1_main_arg9, val1_main_arg8, val1_main_arg10])

theorem val3_main_arg0 (V0 : Valuation τ sig (Elt F)) : val3 V0 (no_index (Proc.devRef .tc main_arg0)) = V0 (Proc.devRef .tc main_arg0) :=
  (head1_keep _ main_arg0 (by decide)).trans (val2_main_arg0 V0)
theorem val3_main_arg1 (V0 : Valuation τ sig (Elt F)) : val3 V0 (no_index (Proc.devRef .tc main_arg1)) = V0 (Proc.devRef .tc main_arg1) :=
  (head1_keep _ main_arg1 (by decide)).trans (val2_main_arg1 V0)
theorem val3_main_arg2 (V0 : Valuation τ sig (Elt F)) : val3 V0 (no_index (Proc.devRef .tc main_arg2)) = V0 (Proc.devRef .tc main_arg2) :=
  (head1_keep _ main_arg2 (by decide)).trans (val2_main_arg2 V0)
theorem val3_main_arg3 (V0 : Valuation τ sig (Elt F)) : val3 V0 (no_index (Proc.devRef .tc main_arg3)) = V0 (Proc.devRef .tc main_arg3) :=
  (head1_keep _ main_arg3 (by decide)).trans (val2_main_arg3 V0)
theorem val3_main_arg4 (V0 : Valuation τ sig (Elt F)) : val3 V0 (no_index (Proc.devRef .tc main_arg4)) = V0 (Proc.devRef .tc main_arg4) :=
  (head1_keep _ main_arg4 (by decide)).trans (val2_main_arg4 V0)
theorem val3_main_arg5 (V0 : Valuation τ sig (Elt F)) : val3 V0 (no_index (Proc.devRef .tc main_arg5)) = V0 (Proc.devRef .tc main_arg5) :=
  (head1_keep _ main_arg5 (by decide)).trans (val2_main_arg5 V0)
theorem val3_main_arg6 (V0 : Valuation τ sig (Elt F)) : val3 V0 (no_index (Proc.devRef .tc main_arg6)) = V0 (Proc.devRef .tc main_arg6) :=
  (head1_keep _ main_arg6 (by decide)).trans (val2_main_arg6 V0)
theorem val3_main_arg7 (V0 : Valuation τ sig (Elt F)) : val3 V0 (no_index (Proc.devRef .tc main_arg7)) = V0 (Proc.devRef .tc main_arg7) :=
  (head1_keep _ main_arg7 (by decide)).trans (val2_main_arg7 V0)
theorem val3_main_arg8 (V0 : Valuation τ sig (Elt F)) : val3 V0 (no_index (Proc.devRef .tc main_arg8)) = V0 (Proc.devRef .tc main_arg8) :=
  (head1_keep _ main_arg8 (by decide)).trans (val2_main_arg8 V0)
theorem val3_main_arg9 (V0 : Valuation τ sig (Elt F)) : val3 V0 (no_index (Proc.devRef .tc main_arg9)) = V0 (Proc.devRef .tc main_arg9) :=
  (head1_keep _ main_arg9 (by decide)).trans (val2_main_arg9 V0)
theorem val3_main_arg10 (V0 : Valuation τ sig (Elt F)) : val3 V0 (no_index (Proc.devRef .tc main_arg10)) = V0 (Proc.devRef .tc main_arg10) :=
  (head1_keep _ main_arg10 (by decide)).trans (val2_main_arg10 V0)
theorem val3_main_arg11 (V0 : Valuation τ sig (Elt F)) : val3 V0 (no_index (Proc.devRef .tc main_arg11)) = V0 (Proc.devRef .tc main_arg11) :=
  (head1_keep _ main_arg11 (by decide)).trans (val2_main_arg11 V0)
theorem val3_main_arg12 (V0 : Valuation τ sig (Elt F)) : val3 V0 (no_index (Proc.devRef .tc main_arg12)) = V0 (Proc.devRef .tc main_arg12) :=
  (head1_keep _ main_arg12 (by decide)).trans (val2_main_arg12 V0)
theorem val3_main_v0 (V0 : Valuation τ sig (Elt F)) : val3 V0 (no_index (Proc.devRef .tc main_v0)) = sitofp .f32 (V0 (Proc.devRef .tc main_arg2)) :=
  (head1_keep _ main_v0 (by decide)).trans (val2_main_v0 V0)
theorem val3_main_v1 (V0 : Valuation τ sig (Elt F)) : val3 V0 (no_index (Proc.devRef .tc main_v1)) = Host.reduceAdd (sitofp .f32 (V0 (Proc.devRef .tc main_arg2))) (constant S_ .f32 0x00000000#32) reducesTo_S64x96x96_S64x96_d2 h_S_ :=
  (head1_keep _ main_v1 (by decide)).trans (val2_main_v1 V0)
theorem val3_main_v84 (V0 : Valuation τ sig (Elt F)) : val3 V0 (no_index (Proc.devRef .tc main_v84)) = rhead (V0 (Proc.devRef .tc main_arg0)) (V0 (Proc.devRef .tc main_arg1)) (sitofp .f32 (V0 (Proc.devRef .tc main_arg2))) (Host.reduceAdd (sitofp .f32 (V0 (Proc.devRef .tc main_arg2))) (constant S_ .f32 0x00000000#32) reducesTo_S64x96x96_S64x96_d2 h_S_) (shapeCast _ (extractStridedSlice S1x256x256 ![0, 0, 0] (V0 (Proc.devRef .tc main_arg3)) slices_S4x256x256_S1x256x256_0_0_0) shapeCasts_S1x256x256_S256x256) (shapeCast _ (extractStridedSlice S1x256 ![0, 0] (V0 (Proc.devRef .tc main_arg4)) slices_S4x256_S1x256_0_0) shapeCasts_S1x256_S256) (shapeCast _ (extractStridedSlice S1x256x544 ![0, 0, 0] (V0 (Proc.devRef .tc main_arg5)) slices_S4x256x544_S1x256x544_0_0_0) shapeCasts_S1x256x544_S256x544) (shapeCast _ (extractStridedSlice S1x256 ![0, 0] (V0 (Proc.devRef .tc main_arg6)) slices_S4x256_S1x256_0_0) shapeCasts_S1x256_S256) (shapeCast _ (extractStridedSlice S1x768x256 ![0, 0, 0] (V0 (Proc.devRef .tc main_arg7)) slices_S4x768x256_S1x768x256_0_0_0) shapeCasts_S1x768x256_S768x256) (shapeCast _ (extractStridedSlice S1x768 ![0, 0] (V0 (Proc.devRef .tc main_arg9)) slices_S4x768_S1x768_0_0) shapeCasts_S1x768_S768) (shapeCast _ (extractStridedSlice S1x768x256 ![0, 0, 0] (V0 (Proc.devRef .tc main_arg8)) slices_S4x768x256_S1x768x256_0_0_0) shapeCasts_S1x768x256_S768x256) (shapeCast _ (extractStridedSlice S1x768 ![0, 0] (V0 (Proc.devRef .tc main_arg10)) slices_S4x768_S1x768_0_0) shapeCasts_S1x768_S768) :=
  (head1_keep _ main_v84 (by decide)).trans (val2_main_v84 V0)
set_option maxRecDepth 8192 in
theorem val3_main_v167 (V0 : Valuation τ sig (Elt F)) : val3 V0 (no_index (Proc.devRef .tc main_v167)) = rhead (V0 (Proc.devRef .tc main_arg0)) (V0 (Proc.devRef .tc main_arg1)) (sitofp .f32 (V0 (Proc.devRef .tc main_arg2))) (Host.reduceAdd (sitofp .f32 (V0 (Proc.devRef .tc main_arg2))) (constant S_ .f32 0x00000000#32) reducesTo_S64x96x96_S64x96_d2 h_S_) (shapeCast _ (extractStridedSlice S1x256x256 ![1, 0, 0] (V0 (Proc.devRef .tc main_arg3)) slices_S4x256x256_S1x256x256_1_0_0) shapeCasts_S1x256x256_S256x256) (shapeCast _ (extractStridedSlice S1x256 ![1, 0] (V0 (Proc.devRef .tc main_arg4)) slices_S4x256_S1x256_1_0) shapeCasts_S1x256_S256) (shapeCast _ (extractStridedSlice S1x256x544 ![1, 0, 0] (V0 (Proc.devRef .tc main_arg5)) slices_S4x256x544_S1x256x544_1_0_0) shapeCasts_S1x256x544_S256x544) (shapeCast _ (extractStridedSlice S1x256 ![1, 0] (V0 (Proc.devRef .tc main_arg6)) slices_S4x256_S1x256_1_0) shapeCasts_S1x256_S256) (shapeCast _ (extractStridedSlice S1x768x256 ![1, 0, 0] (V0 (Proc.devRef .tc main_arg7)) slices_S4x768x256_S1x768x256_1_0_0) shapeCasts_S1x768x256_S768x256) (shapeCast _ (extractStridedSlice S1x768 ![1, 0] (V0 (Proc.devRef .tc main_arg9)) slices_S4x768_S1x768_1_0) shapeCasts_S1x768_S768) (shapeCast _ (extractStridedSlice S1x768x256 ![1, 0, 0] (V0 (Proc.devRef .tc main_arg8)) slices_S4x768x256_S1x768x256_1_0_0) shapeCasts_S1x768x256_S768x256) (shapeCast _ (extractStridedSlice S1x768 ![1, 0] (V0 (Proc.devRef .tc main_arg10)) slices_S4x768_S1x768_1_0) shapeCasts_S1x768_S768) :=
  (head1_val (val2 V0)).trans (by simp only [val2_main_arg0, val2_main_arg1, val2_main_v0, val2_main_v1, val2_main_arg3, val2_main_arg4, val2_main_arg5, val2_main_arg6, val2_main_arg7, val2_main_arg9, val2_main_arg8, val2_main_arg10])

theorem val4_main_arg0 (V0 : Valuation τ sig (Elt F)) : val4 V0 (no_index (Proc.devRef .tc main_arg0)) = V0 (Proc.devRef .tc main_arg0) :=
  (head2_keep _ main_arg0 (by decide)).trans (val3_main_arg0 V0)
theorem val4_main_arg1 (V0 : Valuation τ sig (Elt F)) : val4 V0 (no_index (Proc.devRef .tc main_arg1)) = V0 (Proc.devRef .tc main_arg1) :=
  (head2_keep _ main_arg1 (by decide)).trans (val3_main_arg1 V0)
theorem val4_main_arg2 (V0 : Valuation τ sig (Elt F)) : val4 V0 (no_index (Proc.devRef .tc main_arg2)) = V0 (Proc.devRef .tc main_arg2) :=
  (head2_keep _ main_arg2 (by decide)).trans (val3_main_arg2 V0)
theorem val4_main_arg3 (V0 : Valuation τ sig (Elt F)) : val4 V0 (no_index (Proc.devRef .tc main_arg3)) = V0 (Proc.devRef .tc main_arg3) :=
  (head2_keep _ main_arg3 (by decide)).trans (val3_main_arg3 V0)
theorem val4_main_arg4 (V0 : Valuation τ sig (Elt F)) : val4 V0 (no_index (Proc.devRef .tc main_arg4)) = V0 (Proc.devRef .tc main_arg4) :=
  (head2_keep _ main_arg4 (by decide)).trans (val3_main_arg4 V0)
theorem val4_main_arg5 (V0 : Valuation τ sig (Elt F)) : val4 V0 (no_index (Proc.devRef .tc main_arg5)) = V0 (Proc.devRef .tc main_arg5) :=
  (head2_keep _ main_arg5 (by decide)).trans (val3_main_arg5 V0)
theorem val4_main_arg6 (V0 : Valuation τ sig (Elt F)) : val4 V0 (no_index (Proc.devRef .tc main_arg6)) = V0 (Proc.devRef .tc main_arg6) :=
  (head2_keep _ main_arg6 (by decide)).trans (val3_main_arg6 V0)
theorem val4_main_arg7 (V0 : Valuation τ sig (Elt F)) : val4 V0 (no_index (Proc.devRef .tc main_arg7)) = V0 (Proc.devRef .tc main_arg7) :=
  (head2_keep _ main_arg7 (by decide)).trans (val3_main_arg7 V0)
theorem val4_main_arg8 (V0 : Valuation τ sig (Elt F)) : val4 V0 (no_index (Proc.devRef .tc main_arg8)) = V0 (Proc.devRef .tc main_arg8) :=
  (head2_keep _ main_arg8 (by decide)).trans (val3_main_arg8 V0)
theorem val4_main_arg9 (V0 : Valuation τ sig (Elt F)) : val4 V0 (no_index (Proc.devRef .tc main_arg9)) = V0 (Proc.devRef .tc main_arg9) :=
  (head2_keep _ main_arg9 (by decide)).trans (val3_main_arg9 V0)
theorem val4_main_arg10 (V0 : Valuation τ sig (Elt F)) : val4 V0 (no_index (Proc.devRef .tc main_arg10)) = V0 (Proc.devRef .tc main_arg10) :=
  (head2_keep _ main_arg10 (by decide)).trans (val3_main_arg10 V0)
theorem val4_main_arg11 (V0 : Valuation τ sig (Elt F)) : val4 V0 (no_index (Proc.devRef .tc main_arg11)) = V0 (Proc.devRef .tc main_arg11) :=
  (head2_keep _ main_arg11 (by decide)).trans (val3_main_arg11 V0)
theorem val4_main_arg12 (V0 : Valuation τ sig (Elt F)) : val4 V0 (no_index (Proc.devRef .tc main_arg12)) = V0 (Proc.devRef .tc main_arg12) :=
  (head2_keep _ main_arg12 (by decide)).trans (val3_main_arg12 V0)
theorem val4_main_v0 (V0 : Valuation τ sig (Elt F)) : val4 V0 (no_index (Proc.devRef .tc main_v0)) = sitofp .f32 (V0 (Proc.devRef .tc main_arg2)) :=
  (head2_keep _ main_v0 (by decide)).trans (val3_main_v0 V0)
theorem val4_main_v1 (V0 : Valuation τ sig (Elt F)) : val4 V0 (no_index (Proc.devRef .tc main_v1)) = Host.reduceAdd (sitofp .f32 (V0 (Proc.devRef .tc main_arg2))) (constant S_ .f32 0x00000000#32) reducesTo_S64x96x96_S64x96_d2 h_S_ :=
  (head2_keep _ main_v1 (by decide)).trans (val3_main_v1 V0)
theorem val4_main_v84 (V0 : Valuation τ sig (Elt F)) : val4 V0 (no_index (Proc.devRef .tc main_v84)) = rhead (V0 (Proc.devRef .tc main_arg0)) (V0 (Proc.devRef .tc main_arg1)) (sitofp .f32 (V0 (Proc.devRef .tc main_arg2))) (Host.reduceAdd (sitofp .f32 (V0 (Proc.devRef .tc main_arg2))) (constant S_ .f32 0x00000000#32) reducesTo_S64x96x96_S64x96_d2 h_S_) (shapeCast _ (extractStridedSlice S1x256x256 ![0, 0, 0] (V0 (Proc.devRef .tc main_arg3)) slices_S4x256x256_S1x256x256_0_0_0) shapeCasts_S1x256x256_S256x256) (shapeCast _ (extractStridedSlice S1x256 ![0, 0] (V0 (Proc.devRef .tc main_arg4)) slices_S4x256_S1x256_0_0) shapeCasts_S1x256_S256) (shapeCast _ (extractStridedSlice S1x256x544 ![0, 0, 0] (V0 (Proc.devRef .tc main_arg5)) slices_S4x256x544_S1x256x544_0_0_0) shapeCasts_S1x256x544_S256x544) (shapeCast _ (extractStridedSlice S1x256 ![0, 0] (V0 (Proc.devRef .tc main_arg6)) slices_S4x256_S1x256_0_0) shapeCasts_S1x256_S256) (shapeCast _ (extractStridedSlice S1x768x256 ![0, 0, 0] (V0 (Proc.devRef .tc main_arg7)) slices_S4x768x256_S1x768x256_0_0_0) shapeCasts_S1x768x256_S768x256) (shapeCast _ (extractStridedSlice S1x768 ![0, 0] (V0 (Proc.devRef .tc main_arg9)) slices_S4x768_S1x768_0_0) shapeCasts_S1x768_S768) (shapeCast _ (extractStridedSlice S1x768x256 ![0, 0, 0] (V0 (Proc.devRef .tc main_arg8)) slices_S4x768x256_S1x768x256_0_0_0) shapeCasts_S1x768x256_S768x256) (shapeCast _ (extractStridedSlice S1x768 ![0, 0] (V0 (Proc.devRef .tc main_arg10)) slices_S4x768_S1x768_0_0) shapeCasts_S1x768_S768) :=
  (head2_keep _ main_v84 (by decide)).trans (val3_main_v84 V0)
theorem val4_main_v167 (V0 : Valuation τ sig (Elt F)) : val4 V0 (no_index (Proc.devRef .tc main_v167)) = rhead (V0 (Proc.devRef .tc main_arg0)) (V0 (Proc.devRef .tc main_arg1)) (sitofp .f32 (V0 (Proc.devRef .tc main_arg2))) (Host.reduceAdd (sitofp .f32 (V0 (Proc.devRef .tc main_arg2))) (constant S_ .f32 0x00000000#32) reducesTo_S64x96x96_S64x96_d2 h_S_) (shapeCast _ (extractStridedSlice S1x256x256 ![1, 0, 0] (V0 (Proc.devRef .tc main_arg3)) slices_S4x256x256_S1x256x256_1_0_0) shapeCasts_S1x256x256_S256x256) (shapeCast _ (extractStridedSlice S1x256 ![1, 0] (V0 (Proc.devRef .tc main_arg4)) slices_S4x256_S1x256_1_0) shapeCasts_S1x256_S256) (shapeCast _ (extractStridedSlice S1x256x544 ![1, 0, 0] (V0 (Proc.devRef .tc main_arg5)) slices_S4x256x544_S1x256x544_1_0_0) shapeCasts_S1x256x544_S256x544) (shapeCast _ (extractStridedSlice S1x256 ![1, 0] (V0 (Proc.devRef .tc main_arg6)) slices_S4x256_S1x256_1_0) shapeCasts_S1x256_S256) (shapeCast _ (extractStridedSlice S1x768x256 ![1, 0, 0] (V0 (Proc.devRef .tc main_arg7)) slices_S4x768x256_S1x768x256_1_0_0) shapeCasts_S1x768x256_S768x256) (shapeCast _ (extractStridedSlice S1x768 ![1, 0] (V0 (Proc.devRef .tc main_arg9)) slices_S4x768_S1x768_1_0) shapeCasts_S1x768_S768) (shapeCast _ (extractStridedSlice S1x768x256 ![1, 0, 0] (V0 (Proc.devRef .tc main_arg8)) slices_S4x768x256_S1x768x256_1_0_0) shapeCasts_S1x768x256_S768x256) (shapeCast _ (extractStridedSlice S1x768 ![1, 0] (V0 (Proc.devRef .tc main_arg10)) slices_S4x768_S1x768_1_0) shapeCasts_S1x768_S768) :=
  (head2_keep _ main_v167 (by decide)).trans (val3_main_v167 V0)
set_option maxRecDepth 8192 in
theorem val4_main_v250 (V0 : Valuation τ sig (Elt F)) : val4 V0 (no_index (Proc.devRef .tc main_v250)) = rhead (V0 (Proc.devRef .tc main_arg0)) (V0 (Proc.devRef .tc main_arg1)) (sitofp .f32 (V0 (Proc.devRef .tc main_arg2))) (Host.reduceAdd (sitofp .f32 (V0 (Proc.devRef .tc main_arg2))) (constant S_ .f32 0x00000000#32) reducesTo_S64x96x96_S64x96_d2 h_S_) (shapeCast _ (extractStridedSlice S1x256x256 ![2, 0, 0] (V0 (Proc.devRef .tc main_arg3)) slices_S4x256x256_S1x256x256_2_0_0) shapeCasts_S1x256x256_S256x256) (shapeCast _ (extractStridedSlice S1x256 ![2, 0] (V0 (Proc.devRef .tc main_arg4)) slices_S4x256_S1x256_2_0) shapeCasts_S1x256_S256) (shapeCast _ (extractStridedSlice S1x256x544 ![2, 0, 0] (V0 (Proc.devRef .tc main_arg5)) slices_S4x256x544_S1x256x544_2_0_0) shapeCasts_S1x256x544_S256x544) (shapeCast _ (extractStridedSlice S1x256 ![2, 0] (V0 (Proc.devRef .tc main_arg6)) slices_S4x256_S1x256_2_0) shapeCasts_S1x256_S256) (shapeCast _ (extractStridedSlice S1x768x256 ![2, 0, 0] (V0 (Proc.devRef .tc main_arg7)) slices_S4x768x256_S1x768x256_2_0_0) shapeCasts_S1x768x256_S768x256) (shapeCast _ (extractStridedSlice S1x768 ![2, 0] (V0 (Proc.devRef .tc main_arg9)) slices_S4x768_S1x768_2_0) shapeCasts_S1x768_S768) (shapeCast _ (extractStridedSlice S1x768x256 ![2, 0, 0] (V0 (Proc.devRef .tc main_arg8)) slices_S4x768x256_S1x768x256_2_0_0) shapeCasts_S1x768x256_S768x256) (shapeCast _ (extractStridedSlice S1x768 ![2, 0] (V0 (Proc.devRef .tc main_arg10)) slices_S4x768_S1x768_2_0) shapeCasts_S1x768_S768) :=
  (head2_val (val3 V0)).trans (by simp only [val3_main_arg0, val3_main_arg1, val3_main_v0, val3_main_v1, val3_main_arg3, val3_main_arg4, val3_main_arg5, val3_main_arg6, val3_main_arg7, val3_main_arg9, val3_main_arg8, val3_main_arg10])

theorem val5_main_arg0 (V0 : Valuation τ sig (Elt F)) : val5 V0 (no_index (Proc.devRef .tc main_arg0)) = V0 (Proc.devRef .tc main_arg0) :=
  (head3_keep _ main_arg0 (by decide)).trans (val4_main_arg0 V0)
theorem val5_main_arg1 (V0 : Valuation τ sig (Elt F)) : val5 V0 (no_index (Proc.devRef .tc main_arg1)) = V0 (Proc.devRef .tc main_arg1) :=
  (head3_keep _ main_arg1 (by decide)).trans (val4_main_arg1 V0)
theorem val5_main_arg2 (V0 : Valuation τ sig (Elt F)) : val5 V0 (no_index (Proc.devRef .tc main_arg2)) = V0 (Proc.devRef .tc main_arg2) :=
  (head3_keep _ main_arg2 (by decide)).trans (val4_main_arg2 V0)
theorem val5_main_arg3 (V0 : Valuation τ sig (Elt F)) : val5 V0 (no_index (Proc.devRef .tc main_arg3)) = V0 (Proc.devRef .tc main_arg3) :=
  (head3_keep _ main_arg3 (by decide)).trans (val4_main_arg3 V0)
theorem val5_main_arg4 (V0 : Valuation τ sig (Elt F)) : val5 V0 (no_index (Proc.devRef .tc main_arg4)) = V0 (Proc.devRef .tc main_arg4) :=
  (head3_keep _ main_arg4 (by decide)).trans (val4_main_arg4 V0)
theorem val5_main_arg5 (V0 : Valuation τ sig (Elt F)) : val5 V0 (no_index (Proc.devRef .tc main_arg5)) = V0 (Proc.devRef .tc main_arg5) :=
  (head3_keep _ main_arg5 (by decide)).trans (val4_main_arg5 V0)
theorem val5_main_arg6 (V0 : Valuation τ sig (Elt F)) : val5 V0 (no_index (Proc.devRef .tc main_arg6)) = V0 (Proc.devRef .tc main_arg6) :=
  (head3_keep _ main_arg6 (by decide)).trans (val4_main_arg6 V0)
theorem val5_main_arg7 (V0 : Valuation τ sig (Elt F)) : val5 V0 (no_index (Proc.devRef .tc main_arg7)) = V0 (Proc.devRef .tc main_arg7) :=
  (head3_keep _ main_arg7 (by decide)).trans (val4_main_arg7 V0)
theorem val5_main_arg8 (V0 : Valuation τ sig (Elt F)) : val5 V0 (no_index (Proc.devRef .tc main_arg8)) = V0 (Proc.devRef .tc main_arg8) :=
  (head3_keep _ main_arg8 (by decide)).trans (val4_main_arg8 V0)
theorem val5_main_arg9 (V0 : Valuation τ sig (Elt F)) : val5 V0 (no_index (Proc.devRef .tc main_arg9)) = V0 (Proc.devRef .tc main_arg9) :=
  (head3_keep _ main_arg9 (by decide)).trans (val4_main_arg9 V0)
theorem val5_main_arg10 (V0 : Valuation τ sig (Elt F)) : val5 V0 (no_index (Proc.devRef .tc main_arg10)) = V0 (Proc.devRef .tc main_arg10) :=
  (head3_keep _ main_arg10 (by decide)).trans (val4_main_arg10 V0)
theorem val5_main_arg11 (V0 : Valuation τ sig (Elt F)) : val5 V0 (no_index (Proc.devRef .tc main_arg11)) = V0 (Proc.devRef .tc main_arg11) :=
  (head3_keep _ main_arg11 (by decide)).trans (val4_main_arg11 V0)
theorem val5_main_arg12 (V0 : Valuation τ sig (Elt F)) : val5 V0 (no_index (Proc.devRef .tc main_arg12)) = V0 (Proc.devRef .tc main_arg12) :=
  (head3_keep _ main_arg12 (by decide)).trans (val4_main_arg12 V0)
theorem val5_main_v0 (V0 : Valuation τ sig (Elt F)) : val5 V0 (no_index (Proc.devRef .tc main_v0)) = sitofp .f32 (V0 (Proc.devRef .tc main_arg2)) :=
  (head3_keep _ main_v0 (by decide)).trans (val4_main_v0 V0)
theorem val5_main_v1 (V0 : Valuation τ sig (Elt F)) : val5 V0 (no_index (Proc.devRef .tc main_v1)) = Host.reduceAdd (sitofp .f32 (V0 (Proc.devRef .tc main_arg2))) (constant S_ .f32 0x00000000#32) reducesTo_S64x96x96_S64x96_d2 h_S_ :=
  (head3_keep _ main_v1 (by decide)).trans (val4_main_v1 V0)
theorem val5_main_v84 (V0 : Valuation τ sig (Elt F)) : val5 V0 (no_index (Proc.devRef .tc main_v84)) = rhead (V0 (Proc.devRef .tc main_arg0)) (V0 (Proc.devRef .tc main_arg1)) (sitofp .f32 (V0 (Proc.devRef .tc main_arg2))) (Host.reduceAdd (sitofp .f32 (V0 (Proc.devRef .tc main_arg2))) (constant S_ .f32 0x00000000#32) reducesTo_S64x96x96_S64x96_d2 h_S_) (shapeCast _ (extractStridedSlice S1x256x256 ![0, 0, 0] (V0 (Proc.devRef .tc main_arg3)) slices_S4x256x256_S1x256x256_0_0_0) shapeCasts_S1x256x256_S256x256) (shapeCast _ (extractStridedSlice S1x256 ![0, 0] (V0 (Proc.devRef .tc main_arg4)) slices_S4x256_S1x256_0_0) shapeCasts_S1x256_S256) (shapeCast _ (extractStridedSlice S1x256x544 ![0, 0, 0] (V0 (Proc.devRef .tc main_arg5)) slices_S4x256x544_S1x256x544_0_0_0) shapeCasts_S1x256x544_S256x544) (shapeCast _ (extractStridedSlice S1x256 ![0, 0] (V0 (Proc.devRef .tc main_arg6)) slices_S4x256_S1x256_0_0) shapeCasts_S1x256_S256) (shapeCast _ (extractStridedSlice S1x768x256 ![0, 0, 0] (V0 (Proc.devRef .tc main_arg7)) slices_S4x768x256_S1x768x256_0_0_0) shapeCasts_S1x768x256_S768x256) (shapeCast _ (extractStridedSlice S1x768 ![0, 0] (V0 (Proc.devRef .tc main_arg9)) slices_S4x768_S1x768_0_0) shapeCasts_S1x768_S768) (shapeCast _ (extractStridedSlice S1x768x256 ![0, 0, 0] (V0 (Proc.devRef .tc main_arg8)) slices_S4x768x256_S1x768x256_0_0_0) shapeCasts_S1x768x256_S768x256) (shapeCast _ (extractStridedSlice S1x768 ![0, 0] (V0 (Proc.devRef .tc main_arg10)) slices_S4x768_S1x768_0_0) shapeCasts_S1x768_S768) :=
  (head3_keep _ main_v84 (by decide)).trans (val4_main_v84 V0)
theorem val5_main_v167 (V0 : Valuation τ sig (Elt F)) : val5 V0 (no_index (Proc.devRef .tc main_v167)) = rhead (V0 (Proc.devRef .tc main_arg0)) (V0 (Proc.devRef .tc main_arg1)) (sitofp .f32 (V0 (Proc.devRef .tc main_arg2))) (Host.reduceAdd (sitofp .f32 (V0 (Proc.devRef .tc main_arg2))) (constant S_ .f32 0x00000000#32) reducesTo_S64x96x96_S64x96_d2 h_S_) (shapeCast _ (extractStridedSlice S1x256x256 ![1, 0, 0] (V0 (Proc.devRef .tc main_arg3)) slices_S4x256x256_S1x256x256_1_0_0) shapeCasts_S1x256x256_S256x256) (shapeCast _ (extractStridedSlice S1x256 ![1, 0] (V0 (Proc.devRef .tc main_arg4)) slices_S4x256_S1x256_1_0) shapeCasts_S1x256_S256) (shapeCast _ (extractStridedSlice S1x256x544 ![1, 0, 0] (V0 (Proc.devRef .tc main_arg5)) slices_S4x256x544_S1x256x544_1_0_0) shapeCasts_S1x256x544_S256x544) (shapeCast _ (extractStridedSlice S1x256 ![1, 0] (V0 (Proc.devRef .tc main_arg6)) slices_S4x256_S1x256_1_0) shapeCasts_S1x256_S256) (shapeCast _ (extractStridedSlice S1x768x256 ![1, 0, 0] (V0 (Proc.devRef .tc main_arg7)) slices_S4x768x256_S1x768x256_1_0_0) shapeCasts_S1x768x256_S768x256) (shapeCast _ (extractStridedSlice S1x768 ![1, 0] (V0 (Proc.devRef .tc main_arg9)) slices_S4x768_S1x768_1_0) shapeCasts_S1x768_S768) (shapeCast _ (extractStridedSlice S1x768x256 ![1, 0, 0] (V0 (Proc.devRef .tc main_arg8)) slices_S4x768x256_S1x768x256_1_0_0) shapeCasts_S1x768x256_S768x256) (shapeCast _ (extractStridedSlice S1x768 ![1, 0] (V0 (Proc.devRef .tc main_arg10)) slices_S4x768_S1x768_1_0) shapeCasts_S1x768_S768) :=
  (head3_keep _ main_v167 (by decide)).trans (val4_main_v167 V0)
theorem val5_main_v250 (V0 : Valuation τ sig (Elt F)) : val5 V0 (no_index (Proc.devRef .tc main_v250)) = rhead (V0 (Proc.devRef .tc main_arg0)) (V0 (Proc.devRef .tc main_arg1)) (sitofp .f32 (V0 (Proc.devRef .tc main_arg2))) (Host.reduceAdd (sitofp .f32 (V0 (Proc.devRef .tc main_arg2))) (constant S_ .f32 0x00000000#32) reducesTo_S64x96x96_S64x96_d2 h_S_) (shapeCast _ (extractStridedSlice S1x256x256 ![2, 0, 0] (V0 (Proc.devRef .tc main_arg3)) slices_S4x256x256_S1x256x256_2_0_0) shapeCasts_S1x256x256_S256x256) (shapeCast _ (extractStridedSlice S1x256 ![2, 0] (V0 (Proc.devRef .tc main_arg4)) slices_S4x256_S1x256_2_0) shapeCasts_S1x256_S256) (shapeCast _ (extractStridedSlice S1x256x544 ![2, 0, 0] (V0 (Proc.devRef .tc main_arg5)) slices_S4x256x544_S1x256x544_2_0_0) shapeCasts_S1x256x544_S256x544) (shapeCast _ (extractStridedSlice S1x256 ![2, 0] (V0 (Proc.devRef .tc main_arg6)) slices_S4x256_S1x256_2_0) shapeCasts_S1x256_S256) (shapeCast _ (extractStridedSlice S1x768x256 ![2, 0, 0] (V0 (Proc.devRef .tc main_arg7)) slices_S4x768x256_S1x768x256_2_0_0) shapeCasts_S1x768x256_S768x256) (shapeCast _ (extractStridedSlice S1x768 ![2, 0] (V0 (Proc.devRef .tc main_arg9)) slices_S4x768_S1x768_2_0) shapeCasts_S1x768_S768) (shapeCast _ (extractStridedSlice S1x768x256 ![2, 0, 0] (V0 (Proc.devRef .tc main_arg8)) slices_S4x768x256_S1x768x256_2_0_0) shapeCasts_S1x768x256_S768x256) (shapeCast _ (extractStridedSlice S1x768 ![2, 0] (V0 (Proc.devRef .tc main_arg10)) slices_S4x768_S1x768_2_0) shapeCasts_S1x768_S768) :=
  (head3_keep _ main_v250 (by decide)).trans (val4_main_v250 V0)
set_option maxRecDepth 8192 in
theorem val5_main_v333 (V0 : Valuation τ sig (Elt F)) : val5 V0 (no_index (Proc.devRef .tc main_v333)) = rhead (V0 (Proc.devRef .tc main_arg0)) (V0 (Proc.devRef .tc main_arg1)) (sitofp .f32 (V0 (Proc.devRef .tc main_arg2))) (Host.reduceAdd (sitofp .f32 (V0 (Proc.devRef .tc main_arg2))) (constant S_ .f32 0x00000000#32) reducesTo_S64x96x96_S64x96_d2 h_S_) (shapeCast _ (extractStridedSlice S1x256x256 ![3, 0, 0] (V0 (Proc.devRef .tc main_arg3)) slices_S4x256x256_S1x256x256_3_0_0) shapeCasts_S1x256x256_S256x256) (shapeCast _ (extractStridedSlice S1x256 ![3, 0] (V0 (Proc.devRef .tc main_arg4)) slices_S4x256_S1x256_3_0) shapeCasts_S1x256_S256) (shapeCast _ (extractStridedSlice S1x256x544 ![3, 0, 0] (V0 (Proc.devRef .tc main_arg5)) slices_S4x256x544_S1x256x544_3_0_0) shapeCasts_S1x256x544_S256x544) (shapeCast _ (extractStridedSlice S1x256 ![3, 0] (V0 (Proc.devRef .tc main_arg6)) slices_S4x256_S1x256_3_0) shapeCasts_S1x256_S256) (shapeCast _ (extractStridedSlice S1x768x256 ![3, 0, 0] (V0 (Proc.devRef .tc main_arg7)) slices_S4x768x256_S1x768x256_3_0_0) shapeCasts_S1x768x256_S768x256) (shapeCast _ (extractStridedSlice S1x768 ![3, 0] (V0 (Proc.devRef .tc main_arg9)) slices_S4x768_S1x768_3_0) shapeCasts_S1x768_S768) (shapeCast _ (extractStridedSlice S1x768x256 ![3, 0, 0] (V0 (Proc.devRef .tc main_arg8)) slices_S4x768x256_S1x768x256_3_0_0) shapeCasts_S1x768x256_S768x256) (shapeCast _ (extractStridedSlice S1x768 ![3, 0] (V0 (Proc.devRef .tc main_arg10)) slices_S4x768_S1x768_3_0) shapeCasts_S1x768_S768) :=
  (head3_val (val4 V0)).trans (by simp only [val4_main_arg0, val4_main_arg1, val4_main_v0, val4_main_v1, val4_main_arg3, val4_main_arg4, val4_main_arg5, val4_main_arg6, val4_main_arg7, val4_main_arg9, val4_main_arg8, val4_main_arg10])

theorem val6_main_arg0 (V0 : Valuation τ sig (Elt F)) : val6 V0 (no_index (Proc.devRef .tc main_arg0)) = V0 (Proc.devRef .tc main_arg0) :=
  (tail_keep _ main_arg0 (by decide)).trans (val5_main_arg0 V0)
theorem val6_main_arg1 (V0 : Valuation τ sig (Elt F)) : val6 V0 (no_index (Proc.devRef .tc main_arg1)) = V0 (Proc.devRef .tc main_arg1) :=
  (tail_keep _ main_arg1 (by decide)).trans (val5_main_arg1 V0)
theorem val6_main_arg2 (V0 : Valuation τ sig (Elt F)) : val6 V0 (no_index (Proc.devRef .tc main_arg2)) = V0 (Proc.devRef .tc main_arg2) :=
  (tail_keep _ main_arg2 (by decide)).trans (val5_main_arg2 V0)
theorem val6_main_arg3 (V0 : Valuation τ sig (Elt F)) : val6 V0 (no_index (Proc.devRef .tc main_arg3)) = V0 (Proc.devRef .tc main_arg3) :=
  (tail_keep _ main_arg3 (by decide)).trans (val5_main_arg3 V0)
theorem val6_main_arg4 (V0 : Valuation τ sig (Elt F)) : val6 V0 (no_index (Proc.devRef .tc main_arg4)) = V0 (Proc.devRef .tc main_arg4) :=
  (tail_keep _ main_arg4 (by decide)).trans (val5_main_arg4 V0)
theorem val6_main_arg5 (V0 : Valuation τ sig (Elt F)) : val6 V0 (no_index (Proc.devRef .tc main_arg5)) = V0 (Proc.devRef .tc main_arg5) :=
  (tail_keep _ main_arg5 (by decide)).trans (val5_main_arg5 V0)
theorem val6_main_arg6 (V0 : Valuation τ sig (Elt F)) : val6 V0 (no_index (Proc.devRef .tc main_arg6)) = V0 (Proc.devRef .tc main_arg6) :=
  (tail_keep _ main_arg6 (by decide)).trans (val5_main_arg6 V0)
theorem val6_main_arg7 (V0 : Valuation τ sig (Elt F)) : val6 V0 (no_index (Proc.devRef .tc main_arg7)) = V0 (Proc.devRef .tc main_arg7) :=
  (tail_keep _ main_arg7 (by decide)).trans (val5_main_arg7 V0)
theorem val6_main_arg8 (V0 : Valuation τ sig (Elt F)) : val6 V0 (no_index (Proc.devRef .tc main_arg8)) = V0 (Proc.devRef .tc main_arg8) :=
  (tail_keep _ main_arg8 (by decide)).trans (val5_main_arg8 V0)
theorem val6_main_arg9 (V0 : Valuation τ sig (Elt F)) : val6 V0 (no_index (Proc.devRef .tc main_arg9)) = V0 (Proc.devRef .tc main_arg9) :=
  (tail_keep _ main_arg9 (by decide)).trans (val5_main_arg9 V0)
theorem val6_main_arg10 (V0 : Valuation τ sig (Elt F)) : val6 V0 (no_index (Proc.devRef .tc main_arg10)) = V0 (Proc.devRef .tc main_arg10) :=
  (tail_keep _ main_arg10 (by decide)).trans (val5_main_arg10 V0)
theorem val6_main_arg11 (V0 : Valuation τ sig (Elt F)) : val6 V0 (no_index (Proc.devRef .tc main_arg11)) = V0 (Proc.devRef .tc main_arg11) :=
  (tail_keep _ main_arg11 (by decide)).trans (val5_main_arg11 V0)
theorem val6_main_arg12 (V0 : Valuation τ sig (Elt F)) : val6 V0 (no_index (Proc.devRef .tc main_arg12)) = V0 (Proc.devRef .tc main_arg12) :=
  (tail_keep _ main_arg12 (by decide)).trans (val5_main_arg12 V0)
set_option maxRecDepth 8192 in
theorem val6_main_v340 (V0 : Valuation τ sig (Elt F)) : val6 V0 (no_index (Proc.devRef .tc main_v340)) = rtail (V0 (Proc.devRef .tc main_arg0)) (rhead (V0 (Proc.devRef .tc main_arg0)) (V0 (Proc.devRef .tc main_arg1)) (sitofp .f32 (V0 (Proc.devRef .tc main_arg2))) (Host.reduceAdd (sitofp .f32 (V0 (Proc.devRef .tc main_arg2))) (constant S_ .f32 0x00000000#32) reducesTo_S64x96x96_S64x96_d2 h_S_) (shapeCast _ (extractStridedSlice S1x256x256 ![0, 0, 0] (V0 (Proc.devRef .tc main_arg3)) slices_S4x256x256_S1x256x256_0_0_0) shapeCasts_S1x256x256_S256x256) (shapeCast _ (extractStridedSlice S1x256 ![0, 0] (V0 (Proc.devRef .tc main_arg4)) slices_S4x256_S1x256_0_0) shapeCasts_S1x256_S256) (shapeCast _ (extractStridedSlice S1x256x544 ![0, 0, 0] (V0 (Proc.devRef .tc main_arg5)) slices_S4x256x544_S1x256x544_0_0_0) shapeCasts_S1x256x544_S256x544) (shapeCast _ (extractStridedSlice S1x256 ![0, 0] (V0 (Proc.devRef .tc main_arg6)) slices_S4x256_S1x256_0_0) shapeCasts_S1x256_S256) (shapeCast _ (extractStridedSlice S1x768x256 ![0, 0, 0] (V0 (Proc.devRef .tc main_arg7)) slices_S4x768x256_S1x768x256_0_0_0) shapeCasts_S1x768x256_S768x256) (shapeCast _ (extractStridedSlice S1x768 ![0, 0] (V0 (Proc.devRef .tc main_arg9)) slices_S4x768_S1x768_0_0) shapeCasts_S1x768_S768) (shapeCast _ (extractStridedSlice S1x768x256 ![0, 0, 0] (V0 (Proc.devRef .tc main_arg8)) slices_S4x768x256_S1x768x256_0_0_0) shapeCasts_S1x768x256_S768x256) (shapeCast _ (extractStridedSlice S1x768 ![0, 0] (V0 (Proc.devRef .tc main_arg10)) slices_S4x768_S1x768_0_0) shapeCasts_S1x768_S768)) (rhead (V0 (Proc.devRef .tc main_arg0)) (V0 (Proc.devRef .tc main_arg1)) (sitofp .f32 (V0 (Proc.devRef .tc main_arg2))) (Host.reduceAdd (sitofp .f32 (V0 (Proc.devRef .tc main_arg2))) (constant S_ .f32 0x00000000#32) reducesTo_S64x96x96_S64x96_d2 h_S_) (shapeCast _ (extractStridedSlice S1x256x256 ![1, 0, 0] (V0 (Proc.devRef .tc main_arg3)) slices_S4x256x256_S1x256x256_1_0_0) shapeCasts_S1x256x256_S256x256) (shapeCast _ (extractStridedSlice S1x256 ![1, 0] (V0 (Proc.devRef .tc main_arg4)) slices_S4x256_S1x256_1_0) shapeCasts_S1x256_S256) (shapeCast _ (extractStridedSlice S1x256x544 ![1, 0, 0] (V0 (Proc.devRef .tc main_arg5)) slices_S4x256x544_S1x256x544_1_0_0) shapeCasts_S1x256x544_S256x544) (shapeCast _ (extractStridedSlice S1x256 ![1, 0] (V0 (Proc.devRef .tc main_arg6)) slices_S4x256_S1x256_1_0) shapeCasts_S1x256_S256) (shapeCast _ (extractStridedSlice S1x768x256 ![1, 0, 0] (V0 (Proc.devRef .tc main_arg7)) slices_S4x768x256_S1x768x256_1_0_0) shapeCasts_S1x768x256_S768x256) (shapeCast _ (extractStridedSlice S1x768 ![1, 0] (V0 (Proc.devRef .tc main_arg9)) slices_S4x768_S1x768_1_0) shapeCasts_S1x768_S768) (shapeCast _ (extractStridedSlice S1x768x256 ![1, 0, 0] (V0 (Proc.devRef .tc main_arg8)) slices_S4x768x256_S1x768x256_1_0_0) shapeCasts_S1x768x256_S768x256) (shapeCast _ (extractStridedSlice S1x768 ![1, 0] (V0 (Proc.devRef .tc main_arg10)) slices_S4x768_S1x768_1_0) shapeCasts_S1x768_S768)) (rhead (V0 (Proc.devRef .tc main_arg0)) (V0 (Proc.devRef .tc main_arg1)) (sitofp .f32 (V0 (Proc.devRef .tc main_arg2))) (Host.reduceAdd (sitofp .f32 (V0 (Proc.devRef .tc main_arg2))) (constant S_ .f32 0x00000000#32) reducesTo_S64x96x96_S64x96_d2 h_S_) (shapeCast _ (extractStridedSlice S1x256x256 ![2, 0, 0] (V0 (Proc.devRef .tc main_arg3)) slices_S4x256x256_S1x256x256_2_0_0) shapeCasts_S1x256x256_S256x256) (shapeCast _ (extractStridedSlice S1x256 ![2, 0] (V0 (Proc.devRef .tc main_arg4)) slices_S4x256_S1x256_2_0) shapeCasts_S1x256_S256) (shapeCast _ (extractStridedSlice S1x256x544 ![2, 0, 0] (V0 (Proc.devRef .tc main_arg5)) slices_S4x256x544_S1x256x544_2_0_0) shapeCasts_S1x256x544_S256x544) (shapeCast _ (extractStridedSlice S1x256 ![2, 0] (V0 (Proc.devRef .tc main_arg6)) slices_S4x256_S1x256_2_0) shapeCasts_S1x256_S256) (shapeCast _ (extractStridedSlice S1x768x256 ![2, 0, 0] (V0 (Proc.devRef .tc main_arg7)) slices_S4x768x256_S1x768x256_2_0_0) shapeCasts_S1x768x256_S768x256) (shapeCast _ (extractStridedSlice S1x768 ![2, 0] (V0 (Proc.devRef .tc main_arg9)) slices_S4x768_S1x768_2_0) shapeCasts_S1x768_S768) (shapeCast _ (extractStridedSlice S1x768x256 ![2, 0, 0] (V0 (Proc.devRef .tc main_arg8)) slices_S4x768x256_S1x768x256_2_0_0) shapeCasts_S1x768x256_S768x256) (shapeCast _ (extractStridedSlice S1x768 ![2, 0] (V0 (Proc.devRef .tc main_arg10)) slices_S4x768_S1x768_2_0) shapeCasts_S1x768_S768)) (rhead (V0 (Proc.devRef .tc main_arg0)) (V0 (Proc.devRef .tc main_arg1)) (sitofp .f32 (V0 (Proc.devRef .tc main_arg2))) (Host.reduceAdd (sitofp .f32 (V0 (Proc.devRef .tc main_arg2))) (constant S_ .f32 0x00000000#32) reducesTo_S64x96x96_S64x96_d2 h_S_) (shapeCast _ (extractStridedSlice S1x256x256 ![3, 0, 0] (V0 (Proc.devRef .tc main_arg3)) slices_S4x256x256_S1x256x256_3_0_0) shapeCasts_S1x256x256_S256x256) (shapeCast _ (extractStridedSlice S1x256 ![3, 0] (V0 (Proc.devRef .tc main_arg4)) slices_S4x256_S1x256_3_0) shapeCasts_S1x256_S256) (shapeCast _ (extractStridedSlice S1x256x544 ![3, 0, 0] (V0 (Proc.devRef .tc main_arg5)) slices_S4x256x544_S1x256x544_3_0_0) shapeCasts_S1x256x544_S256x544) (shapeCast _ (extractStridedSlice S1x256 ![3, 0] (V0 (Proc.devRef .tc main_arg6)) slices_S4x256_S1x256_3_0) shapeCasts_S1x256_S256) (shapeCast _ (extractStridedSlice S1x768x256 ![3, 0, 0] (V0 (Proc.devRef .tc main_arg7)) slices_S4x768x256_S1x768x256_3_0_0) shapeCasts_S1x768x256_S768x256) (shapeCast _ (extractStridedSlice S1x768 ![3, 0] (V0 (Proc.devRef .tc main_arg9)) slices_S4x768_S1x768_3_0) shapeCasts_S1x768_S768) (shapeCast _ (extractStridedSlice S1x768x256 ![3, 0, 0] (V0 (Proc.devRef .tc main_arg8)) slices_S4x768x256_S1x768x256_3_0_0) shapeCasts_S1x768x256_S768x256) (shapeCast _ (extractStridedSlice S1x768 ![3, 0] (V0 (Proc.devRef .tc main_arg10)) slices_S4x768_S1x768_3_0) shapeCasts_S1x768_S768)) (V0 (Proc.devRef .tc main_arg11)) (V0 (Proc.devRef .tc main_arg12)) :=
  (tail_val (val5 V0)).trans (by simp only [val5_main_arg0, val5_main_v84, val5_main_v167, val5_main_v250, val5_main_v333, val5_main_arg11, val5_main_arg12])

/-! ## The run -/

set_option maxRecDepth 8192 in
/-- The result: the join of the four heads, each `rhead` of the launch contents at its slices of the stacked parameters. -/
def RES (m : (ℓ : Loc nD τ sig) → Buf (Elt F) ℓ) (c : Dev nD) : Buf (Elt F) ((c.tc : Thread nD τ).loc main_v340) :=
  rtail (m ((c.tc : Thread nD τ).loc main_arg0)) (rhead (m ((c.tc : Thread nD τ).loc main_arg0)) (m ((c.tc : Thread nD τ).loc main_arg1)) (sitofp .f32 (m ((c.tc : Thread nD τ).loc main_arg2))) (Host.reduceAdd (sitofp .f32 (m ((c.tc : Thread nD τ).loc main_arg2))) (constant S_ .f32 0x00000000#32) reducesTo_S64x96x96_S64x96_d2 h_S_) (shapeCast _ (extractStridedSlice S1x256x256 ![0, 0, 0] (m ((c.tc : Thread nD τ).loc main_arg3)) slices_S4x256x256_S1x256x256_0_0_0) shapeCasts_S1x256x256_S256x256) (shapeCast _ (extractStridedSlice S1x256 ![0, 0] (m ((c.tc : Thread nD τ).loc main_arg4)) slices_S4x256_S1x256_0_0) shapeCasts_S1x256_S256) (shapeCast _ (extractStridedSlice S1x256x544 ![0, 0, 0] (m ((c.tc : Thread nD τ).loc main_arg5)) slices_S4x256x544_S1x256x544_0_0_0) shapeCasts_S1x256x544_S256x544) (shapeCast _ (extractStridedSlice S1x256 ![0, 0] (m ((c.tc : Thread nD τ).loc main_arg6)) slices_S4x256_S1x256_0_0) shapeCasts_S1x256_S256) (shapeCast _ (extractStridedSlice S1x768x256 ![0, 0, 0] (m ((c.tc : Thread nD τ).loc main_arg7)) slices_S4x768x256_S1x768x256_0_0_0) shapeCasts_S1x768x256_S768x256) (shapeCast _ (extractStridedSlice S1x768 ![0, 0] (m ((c.tc : Thread nD τ).loc main_arg9)) slices_S4x768_S1x768_0_0) shapeCasts_S1x768_S768) (shapeCast _ (extractStridedSlice S1x768x256 ![0, 0, 0] (m ((c.tc : Thread nD τ).loc main_arg8)) slices_S4x768x256_S1x768x256_0_0_0) shapeCasts_S1x768x256_S768x256) (shapeCast _ (extractStridedSlice S1x768 ![0, 0] (m ((c.tc : Thread nD τ).loc main_arg10)) slices_S4x768_S1x768_0_0) shapeCasts_S1x768_S768)) (rhead (m ((c.tc : Thread nD τ).loc main_arg0)) (m ((c.tc : Thread nD τ).loc main_arg1)) (sitofp .f32 (m ((c.tc : Thread nD τ).loc main_arg2))) (Host.reduceAdd (sitofp .f32 (m ((c.tc : Thread nD τ).loc main_arg2))) (constant S_ .f32 0x00000000#32) reducesTo_S64x96x96_S64x96_d2 h_S_) (shapeCast _ (extractStridedSlice S1x256x256 ![1, 0, 0] (m ((c.tc : Thread nD τ).loc main_arg3)) slices_S4x256x256_S1x256x256_1_0_0) shapeCasts_S1x256x256_S256x256) (shapeCast _ (extractStridedSlice S1x256 ![1, 0] (m ((c.tc : Thread nD τ).loc main_arg4)) slices_S4x256_S1x256_1_0) shapeCasts_S1x256_S256) (shapeCast _ (extractStridedSlice S1x256x544 ![1, 0, 0] (m ((c.tc : Thread nD τ).loc main_arg5)) slices_S4x256x544_S1x256x544_1_0_0) shapeCasts_S1x256x544_S256x544) (shapeCast _ (extractStridedSlice S1x256 ![1, 0] (m ((c.tc : Thread nD τ).loc main_arg6)) slices_S4x256_S1x256_1_0) shapeCasts_S1x256_S256) (shapeCast _ (extractStridedSlice S1x768x256 ![1, 0, 0] (m ((c.tc : Thread nD τ).loc main_arg7)) slices_S4x768x256_S1x768x256_1_0_0) shapeCasts_S1x768x256_S768x256) (shapeCast _ (extractStridedSlice S1x768 ![1, 0] (m ((c.tc : Thread nD τ).loc main_arg9)) slices_S4x768_S1x768_1_0) shapeCasts_S1x768_S768) (shapeCast _ (extractStridedSlice S1x768x256 ![1, 0, 0] (m ((c.tc : Thread nD τ).loc main_arg8)) slices_S4x768x256_S1x768x256_1_0_0) shapeCasts_S1x768x256_S768x256) (shapeCast _ (extractStridedSlice S1x768 ![1, 0] (m ((c.tc : Thread nD τ).loc main_arg10)) slices_S4x768_S1x768_1_0) shapeCasts_S1x768_S768)) (rhead (m ((c.tc : Thread nD τ).loc main_arg0)) (m ((c.tc : Thread nD τ).loc main_arg1)) (sitofp .f32 (m ((c.tc : Thread nD τ).loc main_arg2))) (Host.reduceAdd (sitofp .f32 (m ((c.tc : Thread nD τ).loc main_arg2))) (constant S_ .f32 0x00000000#32) reducesTo_S64x96x96_S64x96_d2 h_S_) (shapeCast _ (extractStridedSlice S1x256x256 ![2, 0, 0] (m ((c.tc : Thread nD τ).loc main_arg3)) slices_S4x256x256_S1x256x256_2_0_0) shapeCasts_S1x256x256_S256x256) (shapeCast _ (extractStridedSlice S1x256 ![2, 0] (m ((c.tc : Thread nD τ).loc main_arg4)) slices_S4x256_S1x256_2_0) shapeCasts_S1x256_S256) (shapeCast _ (extractStridedSlice S1x256x544 ![2, 0, 0] (m ((c.tc : Thread nD τ).loc main_arg5)) slices_S4x256x544_S1x256x544_2_0_0) shapeCasts_S1x256x544_S256x544) (shapeCast _ (extractStridedSlice S1x256 ![2, 0] (m ((c.tc : Thread nD τ).loc main_arg6)) slices_S4x256_S1x256_2_0) shapeCasts_S1x256_S256) (shapeCast _ (extractStridedSlice S1x768x256 ![2, 0, 0] (m ((c.tc : Thread nD τ).loc main_arg7)) slices_S4x768x256_S1x768x256_2_0_0) shapeCasts_S1x768x256_S768x256) (shapeCast _ (extractStridedSlice S1x768 ![2, 0] (m ((c.tc : Thread nD τ).loc main_arg9)) slices_S4x768_S1x768_2_0) shapeCasts_S1x768_S768) (shapeCast _ (extractStridedSlice S1x768x256 ![2, 0, 0] (m ((c.tc : Thread nD τ).loc main_arg8)) slices_S4x768x256_S1x768x256_2_0_0) shapeCasts_S1x768x256_S768x256) (shapeCast _ (extractStridedSlice S1x768 ![2, 0] (m ((c.tc : Thread nD τ).loc main_arg10)) slices_S4x768_S1x768_2_0) shapeCasts_S1x768_S768)) (rhead (m ((c.tc : Thread nD τ).loc main_arg0)) (m ((c.tc : Thread nD τ).loc main_arg1)) (sitofp .f32 (m ((c.tc : Thread nD τ).loc main_arg2))) (Host.reduceAdd (sitofp .f32 (m ((c.tc : Thread nD τ).loc main_arg2))) (constant S_ .f32 0x00000000#32) reducesTo_S64x96x96_S64x96_d2 h_S_) (shapeCast _ (extractStridedSlice S1x256x256 ![3, 0, 0] (m ((c.tc : Thread nD τ).loc main_arg3)) slices_S4x256x256_S1x256x256_3_0_0) shapeCasts_S1x256x256_S256x256) (shapeCast _ (extractStridedSlice S1x256 ![3, 0] (m ((c.tc : Thread nD τ).loc main_arg4)) slices_S4x256_S1x256_3_0) shapeCasts_S1x256_S256) (shapeCast _ (extractStridedSlice S1x256x544 ![3, 0, 0] (m ((c.tc : Thread nD τ).loc main_arg5)) slices_S4x256x544_S1x256x544_3_0_0) shapeCasts_S1x256x544_S256x544) (shapeCast _ (extractStridedSlice S1x256 ![3, 0] (m ((c.tc : Thread nD τ).loc main_arg6)) slices_S4x256_S1x256_3_0) shapeCasts_S1x256_S256) (shapeCast _ (extractStridedSlice S1x768x256 ![3, 0, 0] (m ((c.tc : Thread nD τ).loc main_arg7)) slices_S4x768x256_S1x768x256_3_0_0) shapeCasts_S1x768x256_S768x256) (shapeCast _ (extractStridedSlice S1x768 ![3, 0] (m ((c.tc : Thread nD τ).loc main_arg9)) slices_S4x768_S1x768_3_0) shapeCasts_S1x768_S768) (shapeCast _ (extractStridedSlice S1x768x256 ![3, 0, 0] (m ((c.tc : Thread nD τ).loc main_arg8)) slices_S4x768x256_S1x768x256_3_0_0) shapeCasts_S1x768x256_S768x256) (shapeCast _ (extractStridedSlice S1x768 ![3, 0] (m ((c.tc : Thread nD τ).loc main_arg10)) slices_S4x768_S1x768_3_0) shapeCasts_S1x768_S768)) (m ((c.tc : Thread nD τ).loc main_arg11)) (m ((c.tc : Thread nD τ).loc main_arg12))

set_option maxRecDepth 8192 in
theorem res_eq (m : (ℓ : Loc nD τ sig) → Buf (Elt F) ℓ) (c : Dev nD) :
    after ops (launchContents m c) (Proc.devRef .tc main_v340) = RES m c := by
  rw [after_ops_val, val6_main_v340]; rfl

theorem arg_eq (m : (ℓ : Loc nD τ sig) → Buf (Elt F) ℓ) (c : Dev nD) (b : Ref sig .tc)
    (h : ∀ V0 : Valuation τ sig (Elt F), val6 V0 (Proc.devRef .tc b) = V0 (Proc.devRef .tc b)) :
    after ops (launchContents m c) (Proc.devRef .tc b) = m ((c.tc : Thread nD τ).loc b) := by
  rw [after_ops_val, h]

/-- On every device, for any float values, from any memory with zero counters: every weakly fair execution of the
    reference terminates with the result buffer at `RES` of the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v340) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v340).trans (res_eq m c),
      (h c main_arg0).trans (arg_eq m c main_arg0 (val6_main_arg0)),
      (h c main_arg1).trans (arg_eq m c main_arg1 (val6_main_arg1)),
      (h c main_arg2).trans (arg_eq m c main_arg2 (val6_main_arg2)),
      (h c main_arg3).trans (arg_eq m c main_arg3 (val6_main_arg3)),
      (h c main_arg4).trans (arg_eq m c main_arg4 (val6_main_arg4)),
      (h c main_arg5).trans (arg_eq m c main_arg5 (val6_main_arg5)),
      (h c main_arg6).trans (arg_eq m c main_arg6 (val6_main_arg6)),
      (h c main_arg7).trans (arg_eq m c main_arg7 (val6_main_arg7)),
      (h c main_arg8).trans (arg_eq m c main_arg8 (val6_main_arg8)),
      (h c main_arg9).trans (arg_eq m c main_arg9 (val6_main_arg9)),
      (h c main_arg10).trans (arg_eq m c main_arg10 (val6_main_arg10)),
      (h c main_arg11).trans (arg_eq m c main_arg11 (val6_main_arg11)),
      (h c main_arg12).trans (arg_eq m c main_arg12 (val6_main_arg12))⟩)
    (run_seq scopedRefs_eq scopedSems_eq defs main (fun _ => ops) main_eq (fun _ => ops_sub) m ρ (fun _ => ops_fresh))

end Cert.ReferenceIdeal.RunW

end
-- ==== Proof.RefBridge.lean ====
import proofs.«156658_j36309653520739_2_alg».proof.Proof.RefValue
import proofs.«156658_j36309653520739_2_alg».proof.Proof.RefRunW

noncomputable section

namespace Cert.RefValue

open Idealize.ShloMosaic Idealize.ShloMosaic.ValueIdx

open Cert.ReferenceIdeal Cert.ReferenceIdeal.Facts₀

/-! # The run's head and tail are the stages' head and tail

The reference's run states its result with one head written out as the composition of its operations, and the tail
likewise. Read at the extended reals they are, operation for operation, the head and the tail composed of stages. -/

variable [Facts]

set_option maxRecDepth 65536 in
/-- One head: the same operations in the same order. -/
theorem rhead_eq (X : FVec Ideal S64x96x256 .f32) (E : FVec Ideal S64x96x96x32 .f32) (A : FVec Ideal S64x96x96 .f32) (D : FVec Ideal S64x96 .f32)
    (W1 : FVec Ideal S256x256 .f32) (b1 : FVec Ideal S256 .f32) (W2 : FVec Ideal S256x544 .f32) (b2 : FVec Ideal S256 .f32)
    (Wih : FVec Ideal S768x256 .f32) (bih : FVec Ideal S768 .f32) (Whh : FVec Ideal S768x256 .f32) (bhh : FVec Ideal S768 .f32) :
    Cert.ReferenceIdeal.RunW.rhead (F := Ideal) X E A D W1 b1 W2 b2 Wih bih Whh bhh = rHead X E A D W1 b1 W2 b2 Wih Whh bih bhh := rfl

set_option maxRecDepth 65536 in
/-- The tail: the same operations in the same order. -/
theorem rtail_eq (X H0 H1 H2 H3 : FVec Ideal S64x96x256 .f32) (Wout : FVec Ideal S256x1024 .f32) (bout : FVec Ideal S256 .f32) :
    Cert.ReferenceIdeal.RunW.rtail (F := Ideal) X H0 H1 H2 H3 Wout bout = rFinal X H0 H1 H2 H3 Wout bout := rfl

open Idealize.ShloMosaic.TcCoe Idealize.SL.Sem in
set_option maxRecDepth 65536 in
/-- The run's result term is the tail over the four heads, each at its own blocks of the stacked parameters. -/
theorem RES_eq (m : (ℓ : Loc nD τ sig) → Buf (Elt Ideal) ℓ) (c : Dev nD) :
    Cert.ReferenceIdeal.RunW.RES (F := Ideal) m c = rResult
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12)) := rfl

open Idealize.ShloMosaic.TcCoe Idealize.SL.Sem in
/-- The run's result is the specification's layer over the launch contents, index by index. -/
theorem RES_apply (m : (ℓ : Loc nD τ sig) → Buf (Elt Ideal) ℓ) (c : Dev nD) :
    Cert.ReferenceIdeal.RunW.RES (F := Ideal) m c = fun i => Cert.Spec.result
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (i 0) (i 1) (i 2) :=
  (RES_eq m c).trans (rResult_apply _ _ _ _ _ _ _ _ _ _ _ _ _)

end Cert.RefValue

end
-- ==== Proof.lean ====
/- The proof of `Cert.Claim` for one message-passing layer with a gated recurrent update over 64 graphs of 96 nodes.

   Both programs, read at the extended reals, compute ONE function of their thirteen argument arrays: the layer of
   `Proof/Spec.lean`, whose additions and products are grouped exactly as both programs group them, so that no law of
   the extended reals beyond reading a sum at an index is used.
   * The kernel is two regions among host operations. The first region leaves the masked sum of the edge features
     (`Proof/Region0.lean`); the second, given that, leaves the layer with the graph and node axes merged into one row
     axis (`Proof/KArray.lean`); the operation after it splits the row axis again (`Proof/KernelValue.lean`). Its run
     ends with that in the result buffer and the arguments as launched (`Proof/KernelRun.lean`).
   * The reference is four heads, each the same operations on its own blocks of the stacked parameters, joined side by
     side, rectified, projected and added to the node states. Its run ends with that term of the launch contents in
     the result buffer (`Proof/RefRunW.lean`); stage by stage the term is the specification's layer
     (`Proof/RefRead.lean`, `Proof/RefHead.lean`, `Proof/RefValue.lean`, `Proof/RefBridge.lean`).
   The three frame claims are the runs with the result dropped; reading the kernel at the extended reals rewrote no
   operation, so nothing is to be preserved. -/
import proofs.«156658_j36309653520739_2_alg».proof.Defs
import proofs.«156658_j36309653520739_2_alg».proof.Proof.Gen.Kernel
import proofs.«156658_j36309653520739_2_alg».proof.Proof.Gen.Kernel.Skeleton
import proofs.«156658_j36309653520739_2_alg».proof.Proof.Gen.Kernel.Launch
import proofs.«156658_j36309653520739_2_alg».proof.Proof.Gen.Kernel.Points
import proofs.«156658_j36309653520739_2_alg».proof.Proof.Gen.Kernel.Frame
import proofs.«156658_j36309653520739_2_alg».proof.Proof.Gen.KernelIdeal
import proofs.«156658_j36309653520739_2_alg».proof.Proof.Gen.KernelIdeal.Skeleton
import proofs.«156658_j36309653520739_2_alg».proof.Proof.Gen.KernelIdeal.Launch
import proofs.«156658_j36309653520739_2_alg».proof.Proof.Gen.KernelIdeal.Points
import proofs.«156658_j36309653520739_2_alg».proof.Proof.Gen.KernelIdeal.Frame
import proofs.«156658_j36309653520739_2_alg».proof.Proof.Gen.ReferenceIdeal
import proofs.«156658_j36309653520739_2_alg».proof.Proof.Gen.Pre_finite_inputs
import Idealize.ShloMosaic.Adequacy
import Idealize.ShloMosaic.Init
import proofs.«156658_j36309653520739_2_alg».proof.Proof.KernelRun
import proofs.«156658_j36309653520739_2_alg».proof.Proof.KernelValue
import proofs.«156658_j36309653520739_2_alg».proof.Proof.KArray
import proofs.«156658_j36309653520739_2_alg».proof.Proof.RefBridge

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- The kernel read at the extended reals runs and leaves its arguments as launched. -/
theorem frame_ki : Cert.frame_KernelIdeal := fun m ρ _ => Cert.KernelIdeal.Gen.frame m ρ

/-- The reference read at the extended reals runs and leaves its arguments as launched. -/
theorem frame_ri : Cert.frame_ReferenceIdeal := fun m ρ _ =>
  (θ_run Cert.ReferenceIdeal.defs _ _).mono (fun _ h c => (h c).2) (Cert.ReferenceIdeal.RunW.run (F := Ideal) m ρ)

/-- Reading the kernel at the extended reals rewrote no operation. -/
theorem preserves : Cert.preserves_Kernel_KernelIdeal := trivial

/-- From launch contents that agree on the thirteen arguments, both programs end with the layer of the specification
    over those arguments in their result buffers, index by index, and with the arguments unchanged. -/
theorem algebraic : Cert.algebraic_KernelIdeal_ReferenceIdeal := by
  intro m ρ m' ρ' _ hagree
  refine ⟨fun c => Cert.KernelIdeal.KVal.layer m c, ?_, ?_⟩
  · exact (θ_run Cert.KernelIdeal.defs _ _).mono
      (fun r h c => ⟨(h c).1.trans (Cert.KernelIdeal.KVal.result_eq_of m ρ (fun c => Cert.KernelIdeal.KArray.final m ρ (fun c => Cert.KernelIdeal.R0.final m ρ c) c) c), (h c).2⟩)
      (Cert.KernelIdeal.KRun.run_result (F := Ideal) m ρ)
  · refine (θ_run Cert.ReferenceIdeal.defs _ _).mono (fun r h c => ⟨(h c).1.trans ?_, (h c).2⟩) (Cert.ReferenceIdeal.RunW.run (F := Ideal) m' ρ')
    obtain ⟨e0, e1, e2, e3, e4, e5, e6, e7, e8, e9, e10, e11, e12⟩ := hagree c
    rw [Cert.RefValue.RES_eq m' c, e0, e1, e2, e3, e4, e5, e6, e7, e8, e9, e10, e11, e12]
    exact Cert.RefValue.rResult_apply _ _ _ _ _ _ _ _ _ _ _ _ _

/-- Everything the certificate claims, under the witnesses of the programs' stated facts. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
